-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000001x64 : Shape := ⟨2, ![1000001, 64]⟩
abbrev S_ : Shape := ⟨0, ![]⟩

class Facts : Prop where
  bcast_S_S1000001x64 : S_.BroadcastsInDim S1000001x64 (![] : Fin 0 → Fin S1000001x64.rank)
  reducesTo_S1000001x64_S_d0_1 : S1000001x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000001x64 .f32) : IVec S_ 1 :=
  let main_v0 : FVec F S1000001x64 .f32 := Host.absf main_arg1
  let main_cst : FVec F S_ .f32 := constant S_ .f32 0x7F800000#32
  let main_v1 : FVec F S1000001x64 .f32 := broadcastInDim S1000001x64 ![] bcast_S_S1000001x64 main_cst
  let main_v2 : IVec S1000001x64 1 := cmpf .olt main_v0 main_v1
  let main_c : IVec S_ 1 := constantI S_ 1 1#1
  let main_v3 : IVec S_ 1 := (fun x v => Host.reduce IntOp.andi x v reducesTo_S1000001x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000001x64 : Shape := ⟨2, ![1000001, 64]⟩
abbrev S64x1000001 : Shape := ⟨2, ![64, 1000001]⟩
abbrev S1003520x128 : Shape := ⟨2, ![1003520, 128]⟩
abbrev S64x4096 : Shape := ⟨2, ![64, 4096]⟩
abbrev S4096x128 : Shape := ⟨2, ![4096, 128]⟩
abbrev S64x512 : Shape := ⟨2, ![64, 512]⟩
abbrev S512x64 : Shape := ⟨2, ![512, 64]⟩
abbrev S4096x64 : Shape := ⟨2, ![4096, 64]⟩
abbrev S819200 : Shape := ⟨1, ![819200]⟩
abbrev S819200x64 : Shape := ⟨2, ![819200, 64]⟩
abbrev S256 : Shape := ⟨1, ![256]⟩
abbrev S256x128 : Shape := ⟨2, ![256, 128]⟩
abbrev S256x64 : Shape := ⟨2, ![256, 64]⟩
abbrev S_ : Shape := ⟨0, ![]⟩
abbrev S1x16 : Shape := ⟨2, ![1, 16]⟩
abbrev S16 : Shape := ⟨1, ![16]⟩
abbrev S4096x200x64 : Shape := ⟨3, ![4096, 200, 64]⟩

abbrev nBuf : Table → Nat
  | .hbm => 7
  | .local .tc .vmem => 4
  | .local .scVector .vmem => 5
  | _ => 0

abbrev bufTy : (tb : Table) → Fin (nBuf tb) → BufTy
  | .hbm, ⟨0, _⟩ => ⟨S4096x200, .i32⟩
  | .hbm, ⟨1, _⟩ => ⟨S1000001x64, .f32⟩
  | .hbm, ⟨2, _⟩ => ⟨S64x1000001, .f32⟩
  | .hbm, ⟨3, _⟩ => ⟨S1003520x128, .f32⟩
  | .hbm, ⟨4, _⟩ => ⟨S819200, .i32⟩
  | .hbm, ⟨5, _⟩ => ⟨S819200x64, .f32⟩
  | .hbm, ⟨6, _⟩ => ⟨S4096x200x64, .f32⟩
  | .local .tc .vmem, ⟨0, _⟩ => ⟨S64x4096, .f32⟩
  | .local .tc .vmem, ⟨1, _⟩ => ⟨S64x4096, .f32⟩
  | .local .tc .vmem, ⟨2, _⟩ => ⟨S4096x128, .f32⟩
  | .local .tc .vmem, ⟨3, _⟩ => ⟨S4096x128, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S256x64, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k1_t1_loop : Scf.Loop 32 :=
  let c0_i32_2 : BitVec 32 := 0#32
  let c100_i32 : BitVec 32 := 100#32
  let v4 : BitVec 32 := Scalar.addi c0_i32_2 c100_i32
  let c1_i32 : BitVec 32 := 1#32
  ⟨c0_i32_2, v4, c1_i32⟩
def k1_cond1 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c1_i32_6 : BitVec 32 := 1#32
  let v7 : BitVec 32 := Scalar.addi arg12 c1_i32_6
  let c100_i32_7 : BitVec 32 := 100#32
  let v8 : BitVec 1 := Scalar.cmpi .slt v7 c100_i32_7
  let v9 : BitVec 32 := Scalar.extui v8
  let c0_i32_8 : BitVec 32 := 0#32
  let v10 : BitVec 1 := Scalar.cmpi .ne v9 c0_i32_8
  v10

def k1_cond2 (k1_t1 : Fin k1_t1_loop.trips) : BitVec 1 :=
  let c1_i32_5 : BitVec 32 := 1#32
  let c0_i32_2 : BitVec 32 := 0#32
  let c1_i32 : BitVec 32 := 1#32
  let arg12 : BitVec 32 := Scf.iv c0_i32_2 c1_i32 k1_t1
  let c2_i32_4 : BitVec 32 := 2#32
  let v5 : BitVec 32 := Scalar.remsi arg12 c2_i32_4
  let v6 : BitVec 32 := Scalar.subi c1_i32_5 v5
  let c0_i32_13 : BitVec 32 := 0#32
  let v19 : BitVec 1 := Scalar.cmpi .eq v6 c0_i32_13
  let v20 : BitVec 32 := Scalar.extui v19
  let c0_i32_14 : BitVec 32 := 0#32
  let v21 : BitVec 1 := Scalar.cmpi .ne v20 c0_i32_14
  v21

def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg12 : BitVec 32 := Scf.iv c0_i32_2 c1_i32 k1_t1
  let c1_i32_17 : BitVec 32 := 1#32
  let v25 : BitVec 32 := Scalar.addi arg12 c1_i32_17
  let c256_i32_18 : BitVec 32 := 256#32
  let v26 : BitVec 32 := Scalar.muli v25 c256_i32_18
  let v27 : BitVec 32 := Scalar.addi v2 v26
  ![v27.toNat]
def k1_cond3 (k1_t1 : Fin k1_t1_loop.trips) : BitVec 1 :=
  let c1_i32_5 : BitVec 32 := 1#32
  let c0_i32_2 : BitVec 32 := 0#32
  let c1_i32 : BitVec 32 := 1#32
  let arg12 : BitVec 32 := Scf.iv c0_i32_2 c1_i32 k1_t1
  let c2_i32_4 : BitVec 32 := 2#32
  let v5 : BitVec 32 := Scalar.remsi arg12 c2_i32_4
  let v6 : BitVec 32 := Scalar.subi c1_i32_5 v5
  let c1_i32_15 : BitVec 32 := 1#32
  let v22 : BitVec 1 := Scalar.cmpi .eq v6 c1_i32_15
  let v23 : BitVec 32 := Scalar.extui v22
  let c0_i32_16 : BitVec 32 := 0#32
  let v24 : BitVec 1 := Scalar.cmpi .ne v23 c0_i32_16
  v24

def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg12 : BitVec 32 := Scf.iv c0_i32_2 c1_i32 k1_t1
  let c1_i32_17 : BitVec 32 := 1#32
  let v25 : BitVec 32 := Scalar.addi arg12 c1_i32_17
  let c256_i32_18 : BitVec 32 := 256#32
  let v26 : BitVec 32 := Scalar.muli v25 c256_i32_18
  let v27 : BitVec 32 := Scalar.addi v2 v26
  ![v27.toNat]
def k1_cond4 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c2_i32_4 : BitVec 32 := 2#32
  let v5 : BitVec 32 := Scalar.remsi arg12 c2_i32_4
  let c0_i32_9 : BitVec 32 := 0#32
  let v11 : BitVec 1 := Scalar.cmpi .eq v5 c0_i32_9
  let v12 : BitVec 32 := Scalar.extui v11
  let c0_i32_10 : BitVec 32 := 0#32
  let v13 : BitVec 1 := Scalar.cmpi .ne v12 c0_i32_10
  v13

@[reducible] def k1_t2_loop : Scf.Loop 32 :=
  let c0_i32_16 : BitVec 32 := 0#32
  let c64_i32 : BitVec 32 := 64#32
  let v20 : BitVec 32 := Scalar.addi c0_i32_16 c64_i32
  let c1_i32_17 : BitVec 32 := 1#32
  ⟨c0_i32_16, v20, c1_i32_17⟩
def k1_off4 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v23 : Index := Scalar.indexCast v22
  let c0 : Index := 0#32
  ![v23.toNat, 0]
def k1_off5 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v26 : Index := Scalar.indexCast v22
  let c0_20 : Index := 0#32
  ![v26.toNat, 0]
def k1_off6 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v30 : Index := Scalar.indexCast v22
  let c16 : Index := 16#32
  ![v30.toNat, 16]
def k1_off7 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v33 : Index := Scalar.indexCast v22
  let c16_21 : Index := 16#32
  ![v33.toNat, 16]
def k1_off8 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v37 : Index := Scalar.indexCast v22
  let c32 : Index := 32#32
  ![v37.toNat, 32]
def k1_off9 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v40 : Index := Scalar.indexCast v22
  let c32_22 : Index := 32#32
  ![v40.toNat, 32]
def k1_off10 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v44 : Index := Scalar.indexCast v22
  let c48 : Index := 48#32
  ![v44.toNat, 48]
def k1_off11 (k1_t2 : Fin k1_t2_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t2
  let c4_i32 : BitVec 32 := 4#32
  let v21 : BitVec 32 := Scalar.muli arg13 c4_i32
  let v22 : BitVec 32 := Scalar.addi v21 c0_i32_19
  let v47 : Index := Scalar.indexCast v22
  let c48_23 : Index := 48#32
  ![v47.toNat, 48]
def k1_cond5 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c2_i32_4 : BitVec 32 := 2#32
  let v5 : BitVec 32 := Scalar.remsi arg12 c2_i32_4
  let c1_i32_11 : BitVec 32 := 1#32
  let v14 : BitVec 1 := Scalar.cmpi .eq v5 c1_i32_11
  let v15 : BitVec 32 := Scalar.extui v14
  let c0_i32_12 : BitVec 32 := 0#32
  let v16 : BitVec 1 := Scalar.cmpi .ne v15 c0_i32_12
  v16

@[reducible] def k1_t3_loop : Scf.Loop 32 :=
  let c0_i32_16 : BitVec 32 := 0#32
  let c64_i32 : BitVec 32 := 64#32
  let v20 : BitVec 32 := Scalar.addi c0_i32_16 c64_i32
  let c1_i32_17 : BitVec 32 := 1#32
  ⟨c0_i32_16, v20, c1_i32_17⟩
def k1_off12 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v23 : Index := Scalar.indexCast v22
  let c0 : Index := 0#32
  ![v23.toNat, 0]
def k1_off13 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v26 : Index := Scalar.indexCast v22
  let c0_20 : Index := 0#32
  ![v26.toNat, 0]
def k1_off14 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v30 : Index := Scalar.indexCast v22
  let c16 : Index := 16#32
  ![v30.toNat, 16]
def k1_off15 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v33 : Index := Scalar.indexCast v22
  let c16_21 : Index := 16#32
  ![v33.toNat, 16]
def k1_off16 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v37 : Index := Scalar.indexCast v22
  let c32 : Index := 32#32
  ![v37.toNat, 32]
def k1_off17 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v40 : Index := Scalar.indexCast v22
  let c32_22 : Index := 32#32
  ![v40.toNat, 32]
def k1_off18 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v44 : Index := Scalar.indexCast v22
  let c48 : Index := 48#32
  ![v44.toNat, 48]
def k1_off19 (k1_t3 : Fin k1_t3_loop.trips) (c0_i32_19 : BitVec 32) : Fin 2 → Nat :=
  let c0_i32_16 : BitVec 32 := 0#32
  let c1_i32_17 : BitVec 32 := 1#32
  let arg13 : BitVec 32 := Scf.iv c0_i32_16 c1_i32_17 k1_t3
  let c4_i32 : BitVec 32 := 4#32
  let v21 : BitVec 32 := Scalar.muli arg13 c4_i32
  let v22 : BitVec 32 := Scalar.addi v21 c0_i32_19
  let v47 : Index := Scalar.indexCast v22
  let c48_23 : Index := 48#32
  ![v47.toNat, 48]
def k1_off20 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg12 : BitVec 32 := Scf.iv c0_i32_2 c1_i32 k1_t1
  let c256_i32 : BitVec 32 := 256#32
  let v17 : BitVec 32 := Scalar.muli arg12 c256_i32
  let v18 : BitVec 32 := Scalar.addi v2 v17
  let c0_i32_13_r3 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000001x64_S64x1000001_1_0 : S1000001x64.Transposes [1, 0] S64x1000001
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  slices_S64x4096_o0_0_S64x512 : S64x4096.Slices ![0, 0] S64x512
  transposes_S64x512_p1_0_S512x64 : S64x512.Transposes [1, 0] S512x64
  slices_S64x4096_o0_512_S64x512 : S64x4096.Slices ![0, 512] S64x512
  slices_S64x4096_o0_1024_S64x512 : S64x4096.Slices ![0, 1024] S64x512
  slices_S64x4096_o0_1536_S64x512 : S64x4096.Slices ![0, 1536] S64x512
  slices_S64x4096_o0_2048_S64x512 : S64x4096.Slices ![0, 2048] S64x512
  slices_S64x4096_o0_2560_S64x512 : S64x4096.Slices ![0, 2560] S64x512
  slices_S64x4096_o0_3072_S64x512 : S64x4096.Slices ![0, 3072] S64x512
  slices_S64x4096_o0_3584_S64x512 : S64x4096.Slices ![0, 3584] S64x512
  concatenates_S512x64_S512x64_S512x64_S512x64_S512x64_S512x64_S512x64_S512x64_S4096x64_d0 : Shape.Concatenates [S512x64, S512x64, S512x64, S512x64, S512x64, S512x64, S512x64, S512x64] S4096x64 0
  concatenates_S4096x64_S4096x64_S4096x128_d1 : Shape.Concatenates [S4096x64, S4096x64] S4096x128 1
  inb_S4096x128_S4096x128_0_0 : ∀ a, (![0, 0] : Fin 2 → Nat) a + S4096x128.size a ≤ S4096x128.size a
  h_S4096x128 : 0 < S4096x128.numel
  shapeCasts_S4096x200_S819200 : S4096x200.ShapeCasts S819200
  inb_S1003520x128_S1003520x128_0_0 : ∀ a, (![0, 0] : Fin 2 → Nat) a + S1003520x128.size a ≤ S1003520x128.size a
  gathers_S1003520x128_S256x128 : S1003520x128.Gathers 0 S256x128
  h_S1x16 : 0 < S1x16.numel
  shapeCasts_S1x16_S16 : S1x16.ShapeCasts S16
  shapeCasts_S16_S1x16 : S16.ShapeCasts S1x16
  shapeCasts_S819200x64_S4096x200x64 : S819200x64.ShapeCasts S4096x200x64
  hcc1_scratch5 : 4 + S_.numel ≤ 10
  hcc1_scratch6 : 5 + S_.numel ≤ 10
  hcc1_scoped0 : 6 + S_.numel ≤ 10
  hcc1_scoped1 : 7 + S_.numel ≤ 10
  hcc1_scoped2 : 8 + S_.numel ≤ 10
  hcc1_scoped3 : 9 + S_.numel ≤ 10
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x4096.size a < S64x1000001.size a
  hwx0_0 : ∀ i : grid0.Coords, EltTy.bits .f32 = 32 ∨ (Rect.unit (s := S64x1000001) (fun a => cc0_transform_0 i a * S64x4096.size a) (fun a => (Pipeline.Clip.of (cc0_transform_0 i a) (S64x4096.size a) (S64x1000001.size a)).extent (S64x4096.size a)) fun a => Pipeline.Clip.inb (Pipeline.Clip.ok_of (hstart0_0 i a))).WholeWords (EltTy.packing .f32)
  hwxs0_0 : ∀ i : grid0.Coords, EltTy.bits .f32 = 32 ∨ (Rect.unit (s := S64x4096) (fun _ => 0) (fun a => (Pipeline.Clip.of (cc0_transform_0 i a) (S64x4096.size a) (S64x1000001.size a)).extent (S64x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1003520x128.size a
  hwx0_1 : ∀ i : grid0.Coords, EltTy.bits .f32 = 32 ∨ (Rect.block (s := S1003520x128) S4096x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S256.size a ≤ S819200.size a
  k1_t1_ok : k1_t1_loop.OK
  k1_off2_inb : ∀ (i : grid1.Coords) (k1_t1 : Fin k1_t1_loop.trips), ∀ (k1_h1 : k1_cond1 k1_t1 = 1#1), ∀ (k1_h2 : k1_cond2 k1_t1 = 1#1), ∀ a, (k1_off2 i k1_t1) a + S256.size a ≤ S819200.size a
  k1_off3_inb : ∀ (i : grid1.Coords) (k1_t1 : Fin k1_t1_loop.trips), ∀ (k1_h1 : k1_cond1 k1_t1 = 1#1), ∀ (k1_h3 : k1_cond3 k1_t1 = 1#1), ∀ a, (k1_off3 i k1_t1) a + S256.size a ≤ S819200.size a
  k1_t2_ok : ∀ k1_t1 : Fin k1_t1_loop.trips, ∀ (k1_h4 : k1_cond4 k1_t1 = 1#1), k1_t2_loop.OK
  k1_off4_inb : ∀ (k1_t1 : Fin k1_t1_loop.trips) (k1_t2 : Fin k1_t2_loop.trips), ∀ (k1_h4 : k1_cond4 k1_t1 = 1#1), ∀ (r : Fin 4), ∀ a, (k1_off4 k1_t2 (BitVec.ofNat 32 r.val)) a + S1x16.size a ≤ S256x128.size a
  k1_off5_inb : ∀ (k1_t1 : Fin k1_t1_loop.trips) (k1_t2 : Fin k1_t2_loop.trips), ∀ (k1_h4 : k1_cond4 k1_t1 = 1#1), ∀ (r : Fin 4), ∀ a, (k1_off5 k1_t2 (BitVec.ofNat 32 r.val)) a + S1x16.size a ≤ S256x64.size a
  k1_off6_inb : ∀ (k1_t1 : Fin k1_t1_loop.trips) (k1_t2 : Fin k1_t2_loop.trips), ∀ (k1_h4 : k1_cond4 k1_t1 = 1#1), ∀ (r : Fin 4), ∀ a, (k1_off6 k1_t2 (BitVec.ofNat 32 r.val)) a + S1x16.size a ≤ S256x128.size a
  k1_off7_inb : ∀ (k1_t1 : Fin k1_t1_loop.trips) (k1_t2 : Fin k1_t2_loop.trips), ∀ (k1_h4 : k1_cond4 k1_t1 = 1#1), ∀ (r : Fin 4), ∀ a, (k1_off7 k1_t2 (BitVec.ofNat 32 r.val)) a + S1x16.size a ≤ S256x64.size a
  k1_off8_inb : ∀ (k1_t1 : Fin k1_t1_loop.trips) (k1_t2 : Fin k1_t2_loop.trips), ∀ (k1_h4 : k1_cond4 k1_t1 = 1#1), ∀ (r : Fin 4), ∀ a, (k1_off8 k1_t2 (BitVec.ofNat 32 r.val)) a + S1x16.size a ≤ S256x128.size a
  k1_off9_inb : ∀ (k1_t1 : Fin k1_t1_loop.trips) (k1_t2 : Fin k1_t2_loop.trips), ∀ (k1_h4 : k1_cond4 k1_t1 = 1#1), ∀ (r : Fin 4), ∀ a, (k1_off9 k1_t2 (BitVec.ofNat 32 r.val)) a + S1x16.size a ≤ S256x64.size a
  k1_off10_inb : ∀ (k1_t1 : Fin k1_t1_loop.trips) (k1_t2 : Fin k1_t2_loop.trips), ∀ (k1_h4 : k1_cond4 k1_t1 = 1#1), ∀ (r : Fin 4), ∀ a, (k1_off10 k1_t2 (BitVec.ofNat 32 r.val)) a + S1x16.size a ≤ S256x128.size a
  k1_off11_inb : ∀ (k1_t1 : Fin k1_t1_loop.trips) (k1_t2 : Fin k1_t2_loop.trips), ∀ (k1_h4 : k1_cond4 k1_t1 = 1#1), ∀ (r : Fin 4), ∀ a, (k1_off11 k1_t2 (BitVec.ofNat 32 r.val)) a + S1x16.size a ≤ S256x64.size a
  k1_t3_ok : ∀ k1_t1 : Fin k1_t1_loop.trips, ∀ (k1_h5 : k1_cond5 k1_t1 = 1#1), k1_t3_loop.OK
  k1_off12_inb : ∀ (k1_t1 : Fin k1_t1_loop.trips) (k1_t3 : Fin k1_t3_loop.trips), ∀ (k1_h5 : k1_cond5 k1_t1 = 1#1), ∀ (r : Fin 4), ∀ a, (k1_off12 k1_t3 (BitVec.ofNat 32 r.val)) a + S1x16.size a ≤ S256x128.size a
  k1_off13_inb : ∀ (k1_t1 : Fin k1_t1_loop.trips) (k1_t3 : Fin k1_t3_loop.trips), ∀ (k1_h5 : k1_cond5 k1_t1 = 1#1), ∀ (r : Fin 4), ∀ a, (k1_off13 k1_t3 (BitVec.ofNat 32 r.val)) a + S1x16.size a ≤ S256x64.size a
  k1_off14_inb : ∀ (k1_t1 : Fin k1_t1_loop.trips) (k1_t3 : Fin k1_t3_loop.trips), ∀ (k1_h5 : k1_cond5 k1_t1 = 1#1), ∀ (r : Fin 4), ∀ a, (k1_off14 k1_t3 (BitVec.ofNat 32 r.val)) a + S1x16.size a ≤ S256x128.size a
  k1_off15_inb : ∀ (k1_t1 : Fin k1_t1_loop.trips) (k1_t3 : Fin k1_t3_loop.trips), ∀ (k1_h5 : k1_cond5 k1_t1 = 1#1), ∀ (r : Fin 4), ∀ a, (k1_off15 k1_t3 (BitVec.ofNat 32 r.val)) a + S1x16.size a ≤ S256x64.size a
  k1_off16_inb : ∀ (k1_t1 : Fin k1_t1_loop.trips) (k1_t3 : Fin k1_t3_loop.trips), ∀ (k1_h5 : k1_cond5 k1_t1 = 1#1), ∀ (r : Fin 4), ∀ a, (k1_off16 k1_t3 (BitVec.ofNat 32 r.val)) a + S1x16.size a ≤ S256x128.size a
  k1_off17_inb : ∀ (k1_t1 : Fin k1_t1_loop.trips) (k1_t3 : Fin k1_t3_loop.trips), ∀ (k1_h5 : k1_cond5 k1_t1 = 1#1), ∀ (r : Fin 4), ∀ a, (k1_off17 k1_t3 (BitVec.ofNat 32 r.val)) a + S1x16.size a ≤ S256x64.size a
  k1_off18_inb : ∀ (k1_t1 : Fin k1_t1_loop.trips) (k1_t3 : Fin k1_t3_loop.trips), ∀ (k1_h5 : k1_cond5 k1_t1 = 1#1), ∀ (r : Fin 4), ∀ a, (k1_off18 k1_t3 (BitVec.ofNat 32 r.val)) a + S1x16.size a ≤ S256x128.size a
  k1_off19_inb : ∀ (k1_t1 : Fin k1_t1_loop.trips) (k1_t3 : Fin k1_t3_loop.trips), ∀ (k1_h5 : k1_cond5 k1_t1 = 1#1), ∀ (r : Fin 4), ∀ a, (k1_off19 k1_t3 (BitVec.ofNat 32 r.val)) a + S1x16.size a ≤ S256x64.size a
  k1_off20_inb : ∀ (i : grid1.Coords) (k1_t1 : Fin k1_t1_loop.trips), ∀ a, (k1_off20 i k1_t1) a + S256x64.size a ≤ S819200x64.size a

variable [Facts₀]

abbrev cc1_scratch5 : DmaSems sig S_ := SemArray.consecutive 4 S_ hcc1_scratch5
abbrev cc1_scratch6 : DmaSems sig S_ := SemArray.consecutive 5 S_ hcc1_scratch6
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3

abbrev win0_0 : Pipeline.Window sig grid0 :=
  Pipeline.Window.ofSpecClip (Memref.whole main_v0) S64x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200 : Shape := ⟨2, ![4096, 200]⟩
abbrev S1000001x64 : Shape := ⟨2, ![1000001, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000001x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S1000001x64_S4096x200x1_S4096x200x64_2_0_n_n_0_2_164_wf : GatherDims.WF S1000001x64 S4096x200x1 S4096x200x64 [2] [0] [] [0] [] 2 ![1, 64]

variable [Facts₀]

def gather_S1000001x64_S4096x200x1_S4096x200x64_2_0_n_n_0_2_164 : GatherDims S1000001x64 S4096x200x1 S4096x200x64 where
  offsetDims := [2]
  collapsedSliceDims := [0]
  operandBatchingDims := []
  startIndicesBatchingDims := []
  startIndexMap := [0]
  indexVectorDim := 2
  sliceSizes := ![1, 64]
  wf := gather_S1000001x64_S4096x200x1_S4096x200x64_2_0_n_n_0_2_164_wf

class Facts : Prop extends Facts₀ where

variable [Facts]
-- ==== Proof.Spec.lean ====
/-
  The lookup as one function of the two argument arrays, and the range the precondition gives the words.
  Entry (b, h, c) of the result is column c of the table row that word (b, h) of the index array selects; a
  word selects a row by its signed value, clamped into the table's rows (which is the word itself once it
  lies between 0 and 999999).
-/
import Idealize.ShloMosaic.Lib.ValueIdx
import Idealize.ShloMosaic.PureOps

noncomputable section

namespace Cert.Spec

open Idealize.ShloMosaic Idealize.ShloMosaic.ValueIdx

/-- The index array's shape, the table's, the result's. -/
abbrev SX : Shape := ⟨2, ![4096, 200]⟩
abbrev ST : Shape := ⟨2, ![1000001, 64]⟩
abbrev SO : Shape := ⟨3, ![4096, 200, 64]⟩

/-- The table row a 32-bit word selects: the word read signed, clamped into the table's 1000001 rows. -/
def rowOf (w : BitVec 32) : Fin 1000001 := ⟨min w.toInt.toNat 1000000, by omega⟩

/-- Entry (b, h, c) of the lookup: column c of the table row that word (b, h) selects. -/
def G {α : Type} (x : SX.Idx → BitVec 32) (tbl : ST.Idx → α) : SO.Idx → α :=
  fun j => tbl (ix2 (rowOf (x (ix2 (j 0) (j 1)))) (j 2))

/-- Every word, read signed, is a row number between 0 and 999999. -/
def InRange (x : SX.Idx → BitVec 32) : Prop := ∀ j, 0 ≤ (x j).toInt ∧ (x j).toInt ≤ 999999

/-- A word in range selects the row of its own unsigned value. -/
theorem rowOf_val {w : BitVec 32} (h0 : 0 ≤ w.toInt) (h1 : w.toInt ≤ 999999) : (rowOf w).val = w.toNat := by
  have e : w.toInt = (w.toNat : Int) := by
    rw [BitVec.toInt_eq_toNat_cond] at h0 ⊢
    split at h0 <;> rename_i hh
    · simp [hh]
    · have := w.isLt; omega
  show min w.toInt.toNat 1000000 = w.toNat
  rw [e] at h1 ⊢
  simp only [Int.toNat_natCast]
  omega

end Cert.Spec

end
-- ==== Proof.PreRange.lean ====
/-
  The precondition's integer half, read back: the precondition is a conjunction of two "all" reductions, and the
  second says that every word of the index array, read signed, lies between 0 and 999999.
-/
import proofs.«206585_g20916490731584_cont_8to1_1403_18_alg».proof.Pre_input_domain
import proofs.«206585_g20916490731584_cont_8to1_1403_18_alg».proof.Proof.Gen.Pre_input_domain
import proofs.«206585_g20916490731584_cont_8to1_1403_18_alg».proof.Proof.Spec
import Idealize.ShloMosaic.Lib.ReduceAll
import Idealize.ShloMosaic.Lib.ValueIdx

noncomputable section

namespace Cert.Proof.PreRange

open Idealize.ShloMosaic Idealize.ShloMosaic.ValueIdx

/-- The scalar shape has one index. -/
instance subsingleton_scalar : Subsingleton Cert.Pre_input_domain.S_.Idx := ⟨fun _ _ => funext fun d => d.elim0⟩

/-- A word that passes both signed comparisons, 0 ≤ w and w ≤ 999999, has its signed value in that range. -/
theorem word_range (v : BitVec 32)
    (e : IntOp.andi (IntOp.cmpi .sge v 0#32) (IntOp.cmpi .sle v 999999#32) = 1#1) : 0 ≤ v.toInt ∧ v.toInt ≤ 999999 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq] at e
  have h0 : (0#32).toInt = 0 := by decide
  have h1 : (999999#32).toInt = 999999 := by decide
  rw [h0, h1] at e
  exact e

/-- Under the precondition every word of the index array, read signed, is a row number between 0 and 999999: the
    precondition's value is the "and" of two reductions by "and"; the second, over the whole index array, is 1 only
    if each of its elements is, and an element is the "and" of the two signed comparisons of that word. -/
theorem inRange {F : FTy → Type} [FloatOps F] [Cert.Pre_input_domain.Facts]
    (x : IVec Cert.Pre_input_domain.S4096x200 32) (t : FVec F Cert.Pre_input_domain.S1000001x64 .f32)
    (h : Cert.Pre_input_domain.fn (F := F) x t = fun _ => 1#1) : Cert.Spec.InRange x := by
  have e := congrFun h ValueIdx.ix0
  dsimp only [Cert.Pre_input_domain.fn] at e
  have e2 := (IntOp.andi_eq_one.1 e).2
  intro j
  have e3 := Host.reduce_andi_all _ _ _ _ _ e2 j
  exact word_range (x j) e3

end Cert.Proof.PreRange

end
-- ==== Proof.RefRun.lean ====
/-
  The reference's run, and its result as the lookup.

  The reference is one call of the outlined "take", whose body contains one call of the outlined "where". With both
  calls unfolded it is a straight line of twenty-three operations: the index words below 0 get 1000001 added (the
  wrap of negative indices), the wrapped words become start indices of rank 3, a validity bit per word says
  0 ≤ word ≤ 1000000, the gather reads the table's rows at the clamped start indices, and the result is the gathered
  value where the bit is set and a not-a-number constant elsewhere.

  The gather, read at an index (b, h, c), is column c of the table row numbered by the signed value of the wrapped
  word (b, h) clamped into 0 … 1000000: the lookup of Spec.lean at the wrapped words. When every word lies between 0
  and 999999 the wrap is the identity and every validity bit is set, so the result is the lookup itself.
-/
import proofs.«206585_g20916490731584_cont_8to1_1403_18_alg».proof.ReferenceIdeal
import proofs.«206585_g20916490731584_cont_8to1_1403_18_alg».proof.Proof.Gen.ReferenceIdeal
import proofs.«206585_g20916490731584_cont_8to1_1403_18_alg».proof.Proof.Spec
import Idealize.ShloMosaic.Lib.StableHlo.Run
import Idealize.ShloMosaic.Lib.ValueIdx
import Idealize.ShloMosaic.Lib.Affine
import Idealize.ShloMosaic.PureOps.Reduce

noncomputable section

namespace Cert.Proof.RefRun

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

/-! ## The straight line -/

/-- The first eight operations: the wrap of negative words (with "where"'s one select in the place of its call) and
    the wrapped words as start indices. -/
abbrev ops₁ : List (HloOp τ sig (Elt F)) :=
  [ nullary main_call0_c (constantI S_ 32 0#32),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 1000001#32),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)) ]

/-- The other fifteen: the validity bits, the gather, the select between the gathered rows and the constant. -/
abbrev ops₂ : List (HloOp τ sig (Elt F)) :=
  [ nullary main_call0_c_1 (constantI S1 32 1000000#32),
    nullary main_call0_c_2 (constantI S_ 32 0#32),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 ((fun x i => Host.gather gather_S1000001x64_S4096x200x1_S4096x200x64_2_0_n_n_0_2_164 x i) : (⟨S1000001x64, .f32⟩ : BufTy).Contents (Elt F) → (⟨S4096x200x1, .i32⟩ : BufTy).Contents (Elt F) → (⟨S4096x200x64, .f32⟩ : BufTy).Contents (Elt F)),
    unary main_call0_v12 main_call0_v14 (broadcastInDim S4096x200x64 ![0, 1] bcast_S4096x200_S4096x200x64_0_1 : (⟨S4096x200, .i1⟩ : BufTy).Contents (Elt F) → (⟨S4096x200x64, .i1⟩ : BufTy).Contents (Elt F)),
    nullary main_call0_cst (constant S_ .f32 0x7FC00000#32),
    unary main_call0_cst main_call0_v15 (broadcastInDim S4096x200x64 ![] bcast_S_S4096x200x64 : (⟨S_, .f32⟩ : BufTy).Contents (Elt F) → (⟨S4096x200x64, .f32⟩ : BufTy).Contents (Elt F)),
    ternary main_call0_v14 main_call0_v13 main_call0_v15 main_v0 (select : (⟨S4096x200x64, .i1⟩ : BufTy).Contents (Elt F) → (⟨S4096x200x64, .f32⟩ : BufTy).Contents (Elt F) → (⟨S4096x200x64, .f32⟩ : BufTy).Contents (Elt F) → (⟨S4096x200x64, .f32⟩ : BufTy).Contents (Elt F)) ]

/-- The reference's operations in order, the two calls unfolded: "take"'s twenty-two with "where"'s one select in
    the place of its call, over the call's buffers. -/
abbrev ops : List (HloOp τ sig (Elt F)) := ops₁ ++ ops₂

/-! ### The same line over typed references

The two functions are stated over references that carry their tensor type, an operation's function applied to the
contents moved along the equation "the buffer's type is the tensor's" — the identity at a literal reference. Operation
by operation these are the operations above. -/

/-- The first eight operations as the two functions state them. -/
abbrev opsT₁ : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000001#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1) ]

/-- The other fifteen as the function states them. -/
abbrev opsT₂ : List (HloOp τ sig (Elt F)) :=
  [ TRef.nullary main_call0.c_1 (constantI S1 32 1000000#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000001x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

/-- Each of the first eight is the operation above: the two moves of contents are the identity. -/
theorem opsT₁_eq : (opsT₁ : List (HloOp τ sig (Elt F))) = ops₁ :=
  congrArg₂ List.cons rfl (congrArg₂ List.cons rfl (congrArg₂ List.cons rfl (congrArg₂ List.cons rfl (congrArg₂ List.cons rfl (congrArg₂ List.cons rfl (congrArg₂ List.cons rfl (congrArg₂ List.cons rfl (rfl))))))))

attribute [local irreducible] Host.reduce Host.gather in
/-- Each of the other fifteen likewise. The reduction and the gather stay folded: their two sides differ only by the
    identity moves on their operands. -/
theorem opsT₂_eq : (opsT₂ : List (HloOp τ sig (Elt F))) = ops₂ :=
  congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (rfl)))))))))))))))

set_option maxRecDepth 1024 in
/-- The reference is that straight line: the two functions' definitions unfolded at their calls, both sides are one
    chain of steps once sequencing is reassociated. -/
theorem main_eq (c : Dev nD) : main (F := F) c = seq ops := by
  show _ = seq (ops₁ ++ ops₂)
  rw [← opsT₁_eq, ← opsT₂_eq, seq_append]
  simp only [main, fn_take.body, fn_where.body, seq, bind_assoc, pure_bind]

/-! ## The line's result as one term -/

/-- The index words after the wrap of negative ones: a word below 0 has 1000001 added. -/
def wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 1000001#32))) x

/-- The wrapped words as start indices: a trailing axis of extent one. -/
def starts (x : IVec S4096x200 32) : IVec S4096x200x1 32 :=
  broadcastInDim S4096x200x1 ![0, 1] bcast_S4096x200_S4096x200x1_0_1 (wrapped x)

/-- The validity bit of each start index: 0 ≤ it ≤ 1000000, "and"-reduced over the trailing unit axis. -/
def validOf (s : IVec S4096x200x1 32) : IVec S4096x200 1 :=
  Host.reduce IntOp.andi
    (andi (cmpi .sge s (broadcastInDim S4096x200x1 ![] bcast_S_S4096x200x1 (constantI S_ 32 0#32)))
      (cmpi .sle s (broadcastInDim S4096x200x1 ![0, 1, 2] bcast_S1x1x1_S4096x200x1_0_1_2
        (broadcastInDim S1x1x1 ![2] bcast_S1_S1x1x1_2 (constantI S1 32 1000000#32)))))
    (constantI S_ 1 1#1) reducesTo_S4096x200x1_S4096x200_d2 h_S_

/-- The result from the start indices: the gathered rows where the index is valid, the not-a-number constant
    elsewhere. -/
def outOf (s : IVec S4096x200x1 32) (tbl : FVec F S1000001x64 .f32) : FVec F S4096x200x64 .f32 :=
  select (broadcastInDim S4096x200x64 ![0, 1] bcast_S4096x200_S4096x200x64_0_1 (validOf s))
    (Host.gather gather_S1000001x64_S4096x200x1_S4096x200x64_2_0_n_n_0_2_164 tbl s)
    (broadcastInDim S4096x200x64 ![] bcast_S_S4096x200x64 (constant S_ .f32 0x7FC00000#32))

/-- The validity bit of each word. -/
def valid (x : IVec S4096x200 32) : IVec S4096x200 1 := validOf (starts x)

/-- The result of the two arguments. -/
def out (x : IVec S4096x200 32) (tbl : FVec F S1000001x64 .f32) : FVec F S4096x200x64 .f32 := outOf (starts x) tbl

/-- The whole line is its first part, then its second. -/
theorem after_ops (V : Valuation τ sig (Elt F)) : after ops V = after ops₂ (after ops₁ V) := rfl

/-- After the first part the start-index buffer holds the wrapped words as start indices. -/
theorem head_v5 (V : Valuation τ sig (Elt F)) :
    after ops₁ V (main_call0_v5 : DevRef τ sig) = starts (V (main_arg0 : DevRef τ sig)) := by
  unfold starts wrapped
  after_results

/-- The first part does not write the index array … -/
theorem head_arg0 (V : Valuation τ sig (Elt F)) :
    after ops₁ V (main_arg0 : DevRef τ sig) = V (main_arg0 : DevRef τ sig) := by
  after_results

/-- … nor the table. -/
theorem head_arg1 (V : Valuation τ sig (Elt F)) :
    after ops₁ V (main_arg1 : DevRef τ sig) = V (main_arg1 : DevRef τ sig) := by
  after_results

/-- After the second part the result buffer holds the result of the start indices and the table it began with. -/
theorem tail_v0 (W : Valuation τ sig (Elt F)) :
    after ops₂ W (main_v0 : DevRef τ sig) = outOf (W (main_call0_v5 : DevRef τ sig)) (W (main_arg1 : DevRef τ sig)) := by
  unfold outOf validOf
  after_results

/-- The second part does not write the index array … -/
theorem tail_arg0 (W : Valuation τ sig (Elt F)) :
    after ops₂ W (main_arg0 : DevRef τ sig) = W (main_arg0 : DevRef τ sig) := by
  after_results

/-- … nor the table. -/
theorem tail_arg1 (W : Valuation τ sig (Elt F)) :
    after ops₂ W (main_arg1 : DevRef τ sig) = W (main_arg1 : DevRef τ sig) := by
  after_results

/-- The fold of the operations' results at the result buffer is the result of the two arguments' contents. -/
theorem out_eq (V : Valuation τ sig (Elt F)) :
    after ops V (main_v0 : DevRef τ sig) = out (V (main_arg0 : DevRef τ sig)) (V (main_arg1 : DevRef τ sig)) := by
  rw [after_ops, tail_v0, head_v5, head_arg1]
  rfl

/-- No operation writes the index array. -/
theorem arg0_eq (V : Valuation τ sig (Elt F)) :
    after ops V (main_arg0 : DevRef τ sig) = V (main_arg0 : DevRef τ sig) := by
  rw [after_ops, tail_arg0, head_arg0]

/-- No operation writes the table. -/
theorem arg1_eq (V : Valuation τ sig (Elt F)) :
    after ops V (main_arg1 : DevRef τ sig) = V (main_arg1 : DevRef τ sig) := by
  rw [after_ops, tail_arg1, head_arg1]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the reference terminates, and every buffer
    ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The term is the lookup -/

/-- A word that is not negative is not wrapped. -/
theorem wrapped_eq (x : IVec S4096x200 32) (hx : Cert.Spec.InRange x) : wrapped x = x := by
  funext i
  have h0 := (hx i).1
  show Scalar.select (IntOp.cmpi .slt (x i) 0#32) (IntOp.addi (x i) 1000001#32) (x i) = x i
  have hz : (0#32 : BitVec 32).toInt = 0 := by decide
  have hc : IntOp.cmpi .slt (x i) 0#32 = 0#1 := by
    simp only [IntOp.cmpi, BitVec.slt_eq_decide, hz]
    rw [decide_eq_false (by omega)]
    rfl
  rw [hc, select_zero]

/-- A start index is the wrapped word of its first two coordinates. -/
theorem starts_apply (x : IVec S4096x200 32) (j : S4096x200x1.Idx) : starts x j = wrapped x (ix2 (j 0) (j 1)) := by
  show wrapped x _ = wrapped x _
  congr 1
  funext a
  match a with
  | ⟨0, _⟩ => rfl
  | ⟨1, _⟩ => rfl

/-- A left fold by "and" from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by "and", from 1, of an array of 1s is 1 everywhere. -/
theorem reduce_andi_one {s t u : Shape} {axes : List (Fin s.rank)} (p : s.Idx → BitVec 1) (init : u.Idx → BitVec 1)
    (h : s.ReducesTo axes t) (hu : 0 < u.numel) (hi : ∀ k, init k = 1#1) (hp : ∀ i, p i = 1#1) (j : t.Idx) :
    Host.reduce IntOp.andi p init h hu j = 1#1 := by
  rw [Host.reduce_eq_foldl, hi]
  exact foldl_andi_one p _ fun n _ => hp n

/-- Every word in range is valid. -/
theorem valid_eq (x : IVec S4096x200 32) (hx : Cert.Spec.InRange x) (i : S4096x200.Idx) : valid x i = 1#1 := by
  unfold valid validOf
  refine reduce_andi_one _ _ _ _ (fun _ => rfl) (fun j => ?_) i
  show IntOp.andi (IntOp.cmpi .sge (starts x j) 0#32) (IntOp.cmpi .sle (starts x j) 1000000#32) = 1#1
  rw [starts_apply, wrapped_eq x hx]
  obtain ⟨h0, h1⟩ := hx (ix2 (j 0) (j 1))
  have hz : (0#32 : BitVec 32).toInt = 0 := by decide
  have hm : (1000000#32 : BitVec 32).toInt = 1000000 := by decide
  simp only [IntOp.cmpi, BitVec.sle_eq_decide, hz, hm]
  rw [decide_eq_true h0, decide_eq_true (by omega)]
  rfl

/-- The gather read at (b, h, c): column c of the table row numbered by the signed value of start index (b, h, 0)
    clamped into the table's rows. On the table's row axis the slice starts at the clamped start index, there is no
    batching axis and the axis is collapsed; on the column axis the slice starts at 0 and the offset is the result's
    last coordinate. -/
theorem gather_apply {α : Type} (tbl : S1000001x64.Idx → α) (idx : IVec S4096x200x1 32) (j : S4096x200x64.Idx) :
    Host.gather gather_S1000001x64_S4096x200x1_S4096x200x64_2_0_n_n_0_2_164 tbl idx j
      = tbl (ix2 (Cert.Spec.rowOf (idx (ix3 (j 0) (j 1) (0 : Fin 1)))) (j 2)) := by
  unfold Host.gather
  congr 1
  funext a
  refine Fin.ext ?_
  match a with
  | ⟨0, _⟩ =>
    show gather_S1000001x64_S4096x200x1_S4096x200x64_2_0_n_n_0_2_164.start j idx 0
      + gather_S1000001x64_S4096x200x1_S4096x200x64_2_0_n_n_0_2_164.batchCoord j 0
      + gather_S1000001x64_S4096x200x1_S4096x200x64_2_0_n_n_0_2_164.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000001x64_S4096x200x1_S4096x200x64_2_0_n_n_0_2_164.startIndexMap from
      List.mem_singleton.mpr rfl)]
    have hsi : gather_S1000001x64_S4096x200x1_S4096x200x64_2_0_n_n_0_2_164.siIdx j
        ⟨List.idxOf (0 : Fin 2) gather_S1000001x64_S4096x200x1_S4096x200x64_2_0_n_n_0_2_164.startIndexMap,
          List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S1000001x64_S4096x200x1_S4096x200x64_2_0_n_n_0_2_164.start j idx 1
      + gather_S1000001x64_S4096x200x1_S4096x200x64_2_0_n_n_0_2_164.batchCoord j 1
      + gather_S1000001x64_S4096x200x1_S4096x200x64_2_0_n_n_0_2_164.offCoord j 1 = (j 2).val
    rw [GatherDims.batchCoord_eq_zero _ _ _ List.not_mem_nil]
    unfold GatherDims.start
    rw [dif_neg (show (1 : Fin 2) ∉ gather_S1000001x64_S4096x200x1_S4096x200x64_2_0_n_n_0_2_164.startIndexMap by decide)]
    simp only [Nat.zero_add, Nat.add_zero]
    unfold GatherDims.offCoord
    rw [dif_pos (show (1 : Fin 2) ∈ gather_S1000001x64_S4096x200x1_S4096x200x64_2_0_n_n_0_2_164.sKept by decide)]
    rfl

/-- The validity bits, broadcast along the last axis, read at (b, h, c) the bit of (b, h). -/
theorem bcast_valid_apply (p : IVec S4096x200 1) (j : S4096x200x64.Idx) :
    broadcastInDim S4096x200x64 ![0, 1] bcast_S4096x200_S4096x200x64_0_1 p j = p (ix2 (j 0) (j 1)) := by
  show p _ = p _
  congr 1
  funext a
  match a with
  | ⟨0, _⟩ => rfl
  | ⟨1, _⟩ => rfl

/-- With every word in range the result is the lookup. -/
theorem out_eq_G (x : IVec S4096x200 32) (tbl : FVec F S1000001x64 .f32) (hx : Cert.Spec.InRange x) :
    out x tbl = Cert.Spec.G x tbl := by
  funext j
  unfold out outOf
  rw [select_apply, bcast_valid_apply, show validOf (starts x) = valid x from rfl, valid_eq x hx, select_one, gather_apply, starts_apply, wrapped_eq x hx]
  rfl

/-! ## The run -/

/-- From any memory with zero counters whose index words are all in range, every weakly fair execution of the
    reference terminates with its result the lookup of the two arguments' launch contents, the arguments unchanged. -/
theorem run (m : (ℓ : Loc nD τ sig) → Buf (Elt F) ℓ) (g : Dev nD → PrngReg)
    (hx : ∀ c : Dev nD, Cert.Spec.InRange (m ((c.tc : Thread nD τ).loc main_arg0))) :
    θ_run (defs (F := F)) (onTc (τ := τ) (main (F := F))) ⟨m, fun _ => 0, g⟩ (fun r => ∀ c : Dev nD,
      r.2.mem ((c.tc : Thread nD τ).loc main_v0)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v0).trans ((out_eq _).trans (out_eq_G _ _ (hx c))),
       (h c main_arg0).trans (arg0_eq _),
       (h c main_arg1).trans (arg1_eq _)⟩)
    (run_main m g)

end Cert.Proof.RefRun

end
-- ==== Proof.Common.lean ====
/-
  The lookup kernel's program as the SparseCore launch theorem sees it, the resource algebra of its proof, and
  the vocabulary the pieces of the proof share: the three arrays the SparseCore call works on (the flattened
  index array, the repacked table, the gathered rows), the thirty-two workers' shares of the gathered rows
  (worker w = 2 · subcore + core owns rows [25600 w, 25600 (w + 1))), and the rows a worker writes as one
  whole-array function of the index array and the repacked table.
-/
import proofs.«206585_g20916490731584_cont_8to1_1403_18_alg».proof.KernelIdeal
import proofs.«206585_g20916490731584_cont_8to1_1403_18_alg».proof.Proof.Gen.KernelIdeal
import proofs.«206585_g20916490731584_cont_8to1_1403_18_alg».proof.Proof.Gen.KernelIdeal.Skeleton
import proofs.«206585_g20916490731584_cont_8to1_1403_18_alg».proof.Proof.Gen.KernelIdeal.Launch
import proofs.«206585_g20916490731584_cont_8to1_1403_18_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.ValueIdx
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := UR sig nD τ
abbrev UU : Type := UH × (UP × Counters)

abbrev EH : Emb UH (MT nD τ sig (HIx 1) (Elt F) ℕ UU ℕ) := embL
def ER : Emb UP (MT nD τ sig (HIx 1) (Elt F) ℕ UU ℕ) := (Emb.inl : Emb UP (UP × Counters)).trans embR
instance ER_landsIn : (ER (F := F)).LandsIn (upEmb : UEmb _ (MT nD τ sig (HIx 1) (Elt F) ℕ UU ℕ)) := by
  unfold ER embR; infer_instance

/-! ## The arrays -/

/-- The index array as the program's arguments hold it, the table, and the result. -/
abbrev xLoc (d : Dev nD) : Loc nD τ sig := (SparseCore.T d).loc main_arg0
abbrev tabLoc (d : Dev nD) : Loc nD τ sig := (SparseCore.T d).loc main_arg1
abbrev resLoc (d : Dev nD) : Loc nD τ sig := (SparseCore.T d).loc main_v4
/-- The transposed table, the repacked table, the flattened index array, the gathered rows. -/
abbrev tLoc (d : Dev nD) : Loc nD τ sig := (SparseCore.T d).loc main_v0
abbrev yLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-! ## The workers' rows -/

theorem odiv : 32 ∣ S819200x64.size 0 := ⟨25600, rfl⟩
/-- Worker w's rows of the gathered array: rows [25600 w, 25600 (w + 1)), every column. -/
abbrev orow (w : Fin 32) : Rect S819200x64 := Rect.part (s := S819200x64) (a₀ := 0) odiv w
abbrev oSet (w : Fin 32) : Finset S819200x64.Idx :=
  ((Memref.whole main_v3_scv : Memref sig .scVector .hbm S819200x64 .f32).view.slice (orow w)).set

theorem bound_zero : grid1.bound 0 = 2 := rfl
theorem bound_one : grid1.bound 1 = 16 := rfl
/-- The worker at a grid point: twice the subcore plus the core. -/
def wOf (L : grid1.Coords) : Fin 32 :=
  ⟨2 * (L 1).val + (L 0).val, by have h0 : (L 0).val < 2 := (L 0).isLt; have h1 : (L 1).val < 16 := (L 1).isLt; omega⟩
abbrev cV (L : grid1.Coords) : Fin τ.nSC := (L 0).castLE hcore1
abbrev jV (L : grid1.Coords) : Fin τ.nSub := (L 1).castLE hsub1

/-- The row of the repacked table a word selects (its unsigned value, clamped so that the selection is total). -/
def yRow (w : BitVec 32) : Fin 1003520 := ⟨min w.toNat 1003519, by omega⟩
/-- The gathered rows as ONE function of the flattened index array and the repacked table: row i is the first 64
    columns of the repacked table's row that word i selects. -/
def rowsOf (fi : S819200.Idx → BitVec 32) (fy : S1003520x128.Idx → Elt F .f32) : S819200x64.Idx → Elt F .f32 :=
  fun j => fy (ValueIdx.ix2 (yRow (fi (ValueIdx.ix1 (j 0)))) ⟨(j 1).val, by have := (j 1).isLt; exact Nat.lt_of_lt_of_le this (by decide)⟩)

end Cert.Proof.KI

end
-- ==== Proof.HostVals.lean ====
/-
  The kernel's host-side values, index by index. The index array flattened row by row (word i of the flat array
  is word (i / 200, i % 200) of the argument); the gathered rows as a function of the table (row i, column c is
  the table at the row word i selects, column c); that the gathered rows reshaped to [4096, 200, 64] are the
  lookup; and that rows gathered from a repacked table — whose rows below 1000001 hold the table's rows twice
  side by side — are those, once every word is a row number between 0 and 999999.
-/
import proofs.«206585_g20916490731584_cont_8to1_1403_18_alg».proof.Proof.Common
import proofs.«206585_g20916490731584_cont_8to1_1403_18_alg».proof.Proof.Spec
import Idealize.ShloMosaic.Lib.Pipeline.Value
import Idealize.ShloMosaic.Lib.ValueLayout

noncomputable section

namespace Cert.Proof.KI

open Cert.KernelIdeal Cert.KernelIdeal.Gen
open Idealize.ShloMosaic Idealize.ShloMosaic.ValueIdx

variable {α : Type}

/-- The index array flattened row by row. -/
def flat (x : S4096x200.Idx → BitVec 32) : S819200.Idx → BitVec 32 :=
  shapeCast S819200 x shapeCasts_S4096x200_S819200

/-- Word i of the flat array is word (i / 200, i % 200) of the argument. -/
theorem flat_apply (x : S4096x200.Idx → BitVec 32) (i : Fin 819200) :
    flat x (ix1 i) = x (ix2 ⟨i.val / 200, by have := i.isLt; omega⟩ ⟨i.val % 200, Nat.mod_lt _ (by decide)⟩) := by
  unfold flat
  refine shapeCast_apply x _ _ _ ?_
  rw [Shape.rowMajor_val_two, Shape.rowMajor_val_one]
  show i.val / 200 * 200 + i.val % 200 = i.val
  omega

/-- Every word of the flat array is a word of the argument. -/
theorem flat_mem (x : S4096x200.Idx → BitVec 32) (j : S819200.Idx) : ∃ k, flat x j = x k := by
  unfold flat shapeCast
  exact ⟨_, rfl⟩

/-- The gathered rows as a function of the table: row i, column c is the table at the row word i selects. -/
def gath (x : S4096x200.Idx → BitVec 32) (tb : S1000001x64.Idx → α) : S819200x64.Idx → α :=
  fun j => tb (ix2 (Cert.Spec.rowOf (flat x (ix1 (j 0)))) (j 1))

/-- The gathered rows, reshaped to [4096, 200, 64], are the lookup. -/
theorem reshape_gath (x : S4096x200.Idx → BitVec 32) (tb : S1000001x64.Idx → α) :
    shapeCast S4096x200x64 (gath x tb) shapeCasts_S819200x64_S4096x200x64 = Cert.Spec.G x tb := by
  funext j
  obtain ⟨b, h, c, rfl⟩ : ∃ (b : Fin 4096) (h : Fin 200) (c : Fin 64), j = ix3 b h c := ⟨j 0, j 1, j 2, eq_ix3 j⟩
  have hlt : b.val * 200 + h.val < 819200 := by have := b.isLt; have := h.isLt; omega
  rw [shapeCast_apply (gath x tb) _ (ix3 b h c) (ix2 ⟨b.val * 200 + h.val, hlt⟩ c)
    (by rw [Shape.rowMajor_val_two, Shape.rowMajor_val_three]; rfl)]
  show tb (ix2 (Cert.Spec.rowOf (flat x (ix1 ⟨b.val * 200 + h.val, hlt⟩))) c) = tb (ix2 (Cert.Spec.rowOf (x (ix2 b h))) c)
  rw [flat_apply]
  have e1 : (b.val * 200 + h.val) / 200 = b.val := by have := h.isLt; omega
  have e2 : (b.val * 200 + h.val) % 200 = h.val := by have := h.isLt; omega
  refine congrArg (fun k => tb (ix2 (Cert.Spec.rowOf (x k)) c)) ?_
  funext a
  match a with
  | ⟨0, _⟩ => exact Fin.ext e1
  | ⟨1, _⟩ => exact Fin.ext e2

/-- A repacked table: its rows below 1000001 hold the table's rows twice side by side; of its later rows nothing
    is said. -/
def Repacked (tb : S1000001x64.Idx → α) (fy : S1003520x128.Idx → α) : Prop :=
  ∀ (r : Fin 1003520) (c : Fin 128) (hr : r.val < 1000001), fy (ix2 r c) = tb (ix2 ⟨r.val, hr⟩ ⟨c.val % 64, Nat.mod_lt _ (by decide)⟩)

/-- Words that are row numbers between 0 and 999999 stay so when flattened; -/
theorem flat_range {x : S4096x200.Idx → BitVec 32} (hx : Cert.Spec.InRange x) (j : S819200.Idx) :
    0 ≤ (flat x j).toInt ∧ (flat x j).toInt ≤ 999999 := by
  obtain ⟨k, e⟩ := flat_mem x j
  rw [e]; exact hx k

/-- their unsigned values are rows of the repacked table. -/
theorem flat_lt {x : S4096x200.Idx → BitVec 32} (hx : Cert.Spec.InRange x) (j : S819200.Idx) : (flat x j).toNat < 1003520 := by
  have h := flat_range hx j
  have e := Cert.Spec.rowOf_val h.1 h.2
  have : (Cert.Spec.rowOf (flat x j)).val ≤ 1000000 := Nat.le_of_lt_succ (Cert.Spec.rowOf (flat x j)).isLt
  omega

end Cert.Proof.KI

end
-- ==== Proof.Tile.Val.lean ====
/-
  The arithmetic of one task's data movement, apart from the program logic.
  (i) A 16-lane piece stored into the [256,64] scratch at row r, columns [16 b, 16 b + 16), whose payload is the
  same piece of the [256,128] scratch, extends "the [256,64] scratch agrees with columns 0..63 of the [256,128]
  scratch on the rows below r and on the first b pieces of row r" by one piece; four pieces complete a row.
  (ii) What the gather of a chunk's 256 rows leaves in the [256,128] scratch, and what the copy-out of the
  [256,64] scratch then leaves in the result's rows, are the task's rows of the whole-array function rowsOf.
-/
import proofs.«206585_g20916490731584_cont_8to1_1403_18_alg».proof.Proof.Common
import Idealize.ShloMosaic.Lib.Writes
import Idealize.ShloMosaic.Lib.Pipeline.Value

noncomputable section

namespace Cert.Proof.KI

open Cert.KernelIdeal Cert.KernelIdeal.Gen

open Idealize.ShloMosaic

variable {F : FTy → Type}

/-! ## Columns 0..63 of the wide scratch -/

/-- The element of the [256,128] scratch with the same row and column as an element of the [256,64] scratch. -/
def widen (y : S256x64.Idx) : S256x128.Idx :=
  ValueIdx.ix2 (⟨(y 0).val, ValueIdx.idx2_lt0 y⟩ : Fin 256)
    (⟨(y 1).val, Nat.lt_of_lt_of_le (ValueIdx.idx2_lt1 y) (by decide)⟩ : Fin 128)

/-- Columns 0..63 of a [256,128] array, as a [256,64] array. -/
def cols {α : Type} (g : S256x128.Idx → α) : S256x64.Idx → α := fun y => g (widen y)

/-- The [256,64] array f agrees with columns 0..63 of g on the rows below r and on the first b sixteen-lane
    pieces of row r. -/
def Done {α : Type} (g : S256x128.Idx → α) (r b : ℕ) (f : S256x64.Idx → α) : Prop :=
  ∀ y : S256x64.Idx, ((y 0).val < r ∨ ((y 0).val = r ∧ (y 1).val < 16 * b)) → f y = cols g y

theorem done_row {α : Type} {g : S256x128.Idx → α} {r : ℕ} {f : S256x64.Idx → α} (h : Done g r 4 f) : Done g (r + 1) 0 f := by
  intro y hy
  apply h
  have h1 : (y 1).val < 64 := ValueIdx.idx2_lt1 y
  rcases hy with hlt | ⟨_, hlt⟩
  · by_cases e : (y 0).val = r
    · exact .inr ⟨e, by omega⟩
    · exact .inl (by omega)
  · omega

theorem done_all {α : Type} {g : S256x128.Idx → α} {f : S256x64.Idx → α} (h : Done g 256 0 f) : f = cols g := by
  funext y
  exact h y (.inl (ValueIdx.idx2_lt0 y))

theorem done_mono {α : Type} {g : S256x128.Idx → α} {r r' : ℕ} {f : S256x64.Idx → α} (e : r = r') (h : Done g r 0 f) : Done g r' 0 f := e ▸ h

/-- The same sixteen lanes of the two scratches: the element of the wide one under a piece's lane is the widening
    of the element of the narrow one under the same lane of the piece at the same offsets. -/
theorem emb_widen (off off' : Fin 2 → ℕ) (h : ∀ a, off a + S1x16.size a ≤ S256x64.size a)
    (h' : ∀ a, off' a + S1x16.size a ≤ S256x128.size a) (e : off' = off) (x : S1x16.Idx) :
    (Rect.unit (s := S256x128) off' S1x16.size h').emb x = widen ((Rect.unit (s := S256x64) off S1x16.size h).emb x) := by
  subst e
  funext a
  apply Fin.ext
  match a with
  | ⟨0, _⟩ => rfl
  | ⟨1, _⟩ => rfl

local notation "v9" => (View.whole Cert.KernelIdeal.cc1_scratch4 : View Cert.KernelIdeal.sig Kind.scVector Space.vmem Cert.KernelIdeal.S256x64 EltTy.f32)

/-- One more piece. -/
theorem done_store (g : S256x128.Idx → Elt F .f32) (r b : ℕ) (f : (v9).ty.Contents (Elt F)) (L : List (View.Piece (Elt F) S256x64 .f32))
    (off : Fin 2 → ℕ) (hin : ∀ a, off a + S1x16.size a ≤ S256x64.size a) (w : S1x16.Idx → Elt F .f32)
    (hoff : off = ![r, 16 * b])
    (hw : ∀ x, w x = cols g ((Rect.unit (s := S256x64) off S1x16.size hin).emb x))
    (h : Done g r b ((v9).writes (Elt F) f L)) :
    Done g r (b + 1) ((v9).writes (Elt F) f (⟨Rect.unit (s := S256x64) off S1x16.size hin, w⟩ :: L)) := by
  intro y hy
  by_cases hm : y ∈ (Rect.unit (s := S256x64) off S1x16.size hin).set
  · obtain ⟨x, rfl⟩ := (Rect.unit (s := S256x64) off S1x16.size hin).exists_idx_of_mem hm
    exact (View.read_writes_cons_emb (v9) f (Rect.unit (s := S256x64) off S1x16.size hin) w L x).trans (hw x)
  · have hy' : y ∉ Finset.univ.map (Rect.unit (s := S256x64) off S1x16.size hin).emb := by rwa [Rect.map_emb_univ]
    have e : (v9).writes (Elt F) f (⟨Rect.unit (s := S256x64) off S1x16.size hin, w⟩ :: L) y = (v9).writes (Elt F) f L y :=
      View.read_slice_write_of_not_mem (v := v9) (Rect.unit (s := S256x64) off S1x16.size hin) ((v9).writes (Elt F) f L) w Finset.univ hy'
    rw [e]
    apply h
    rcases hy with hlt | ⟨heq, hlt⟩
    · exact .inl hlt
    · refine .inr ⟨heq, ?_⟩
      by_contra hge
      apply hm
      rw [Rect.mem_set_unit]
      subst hoff
      intro a
      match a with
      | ⟨0, _⟩ => exact ⟨by show r ≤ (y 0).val; omega, by show (y 0).val < r + 1; omega⟩
      | ⟨1, _⟩ => exact ⟨by show 16 * b ≤ (y 1).val; omega, by show (y 1).val < 16 * b + 16; omega⟩

/-- A piece's payload, the same sixteen lanes loaded from the wide scratch (cast to a flat vector and back), is
    columns 0..63 of the wide scratch under the piece's lanes. -/
theorem pay_ok0 (g : (View.whole Cert.KernelIdeal.cc1_scratch2 : View Cert.KernelIdeal.sig Kind.scVector Space.vmem Cert.KernelIdeal.S256x128 EltTy.f32).ty.Contents (Elt F))
    (off off' : Fin 2 → ℕ) (h : ∀ a, off a + S1x16.size a ≤ S256x64.size a) (h' : ∀ a, off' a + S1x16.size a ≤ S256x128.size a)
    (e : off' = off) (w : S1x16.Idx → Elt F .f32) (h1 : S1x16.ShapeCasts S16) (h2 : S16.ShapeCasts S1x16)
    (hw : w = shapeCast S1x16 (shapeCast S16
      (View.readAt (Elt F) (View.whole Cert.KernelIdeal.cc1_scratch2 : View Cert.KernelIdeal.sig Kind.scVector Space.vmem Cert.KernelIdeal.S256x128 EltTy.f32)
        (Rect.unit (s := S256x128) off' S1x16.size h').toLoadRect g) h1) h2) :
    ∀ x, w x = cols g ((Rect.unit (s := S256x64) off S1x16.size h).emb x) := by
  subst hw
  intro x
  rw [shapeCast_shapeCast]
  show g ((Rect.unit (s := S256x128) off' S1x16.size h').emb x) = _
  rw [emb_widen off off' h h' e x]
  rfl

/-- A piece's payload, the same sixteen lanes loaded from the wide scratch (cast to a flat vector and back), is
    columns 0..63 of the wide scratch under the piece's lanes. -/
theorem pay_ok1 (g : (View.whole Cert.KernelIdeal.cc1_scratch3 : View Cert.KernelIdeal.sig Kind.scVector Space.vmem Cert.KernelIdeal.S256x128 EltTy.f32).ty.Contents (Elt F))
    (off off' : Fin 2 → ℕ) (h : ∀ a, off a + S1x16.size a ≤ S256x64.size a) (h' : ∀ a, off' a + S1x16.size a ≤ S256x128.size a)
    (e : off' = off) (w : S1x16.Idx → Elt F .f32) (h1 : S1x16.ShapeCasts S16) (h2 : S16.ShapeCasts S1x16)
    (hw : w = shapeCast S1x16 (shapeCast S16
      (View.readAt (Elt F) (View.whole Cert.KernelIdeal.cc1_scratch3 : View Cert.KernelIdeal.sig Kind.scVector Space.vmem Cert.KernelIdeal.S256x128 EltTy.f32)
        (Rect.unit (s := S256x128) off' S1x16.size h').toLoadRect g) h1) h2) :
    ∀ x, w x = cols g ((Rect.unit (s := S256x64) off S1x16.size h).emb x) := by
  subst hw
  intro x
  rw [shapeCast_shapeCast]
  show g ((Rect.unit (s := S256x128) off' S1x16.size h').emb x) = _
  rw [emb_widen off off' h h' e x]
  rfl

/-! ## The task's rows -/

/-- Word n of the flattened index array (zero past its end, so that the function is total). -/
def idxAt (fi : S819200.Idx → BitVec 32) (n : ℕ) : BitVec 32 := if h : n < 819200 then fi (ValueIdx.ix1 ⟨n, h⟩) else 0

theorem idxAt_lt {fi : S819200.Idx → BitVec 32} (hin : ∀ j, (fi j).toNat < 1003520) (n : ℕ) : (idxAt fi n).toNat < 1003520 := by
  unfold idxAt
  split
  · exact hin _
  · decide

theorem rowsOf_apply [FloatOps F] (fi : S819200.Idx → BitVec 32) (fy : S1003520x128.Idx → Elt F .f32) (j : S819200x64.Idx) :
    rowsOf fi fy j = fy (ValueIdx.ix2 (yRow (idxAt fi (j 0).val)) ⟨(j 1).val, Nat.lt_of_lt_of_le (ValueIdx.idx2_lt1 j) (by decide)⟩) := by
  have h : (j 0).val < 819200 := ValueIdx.idx2_lt0 j
  unfold rowsOf idxAt
  rw [dif_pos h]
  rfl

/-- What the [256,128] scratch holds once chunk t of worker w has been gathered: row r is the repacked table's
    row that word 25600 w + 256 t + r selects. -/
def Gathered (fi : S819200.Idx → BitVec 32) (fy : S1003520x128.Idx → Elt F .f32) (base : ℕ) (g : S256x128.Idx → Elt F .f32) : Prop :=
  ∀ x : S256x128.Idx, g x = fy (ValueIdx.ix2 (yRow (idxAt fi (base + (x 0).val))) ⟨(x 1).val, ValueIdx.idx2_lt1 x⟩)

/-- The result's rows before trip t of worker w: the task's rows below 25600 w + 256 t done, the others as they were. -/
def mixO [FloatOps F] (fi : S819200.Idx → BitVec 32) (fy : S1003520x128.Idx → Elt F .f32) (fo : S819200x64.Idx → Elt F .f32) (n : ℕ) :
    S819200x64.Idx → Elt F .f32 :=
  fun j => if (j 0).val < n then rowsOf fi fy j else fo j

/-- A chunk's rows, copied out of a [256,64] scratch that holds columns 0..63 of the gathered rows, are the
    task's rows there. -/
theorem cols_gathered [FloatOps F] {fi : S819200.Idx → BitVec 32} {fy : S1003520x128.Idx → Elt F .f32} {base : ℕ} {g : S256x128.Idx → Elt F .f32}
    (hg : Gathered fi fy base g) (y : S256x64.Idx) (j : S819200x64.Idx) (h0 : (j 0).val = base + (y 0).val) (h1 : (j 1).val = (y 1).val) :
    cols g y = rowsOf fi fy j := by
  rw [rowsOf_apply, cols, hg (widen y)]
  have e0 : ((widen y) 0).val = (y 0).val := rfl
  have e1 : ((widen y) 1).val = (y 1).val := rfl
  congr 1
  funext a
  match a with
  | ⟨0, _⟩ => show yRow (idxAt fi (base + ((widen y) 0).val)) = yRow (idxAt fi (j 0).val); rw [e0, h0]
  | ⟨1, _⟩ => apply Fin.ext; show ((widen y) 1).val = (j 1).val; rw [e1, h1]

end Cert.Proof.KI

end
-- ==== Proof.Tile.Base.lean ====
/-
  One vector subcore's task: the vocabulary of its proof. The conditions of the trip's branches in closed form,
  the memrefs the task addresses as the program spells them, the task's own scratch buffers and DMA semaphores
  found among the subcore's own, and the rows of one chunk among the task's rows of the result.
-/
import proofs.«206585_g20916490731584_cont_8to1_1403_18_alg».proof.Proof.Common
import proofs.«206585_g20916490731584_cont_8to1_1403_18_alg».proof.Proof.Tile.Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v1_scv : Memref Cert.KernelIdeal.sig Kind.scVector Space.hbm Cert.KernelIdeal.S1003520x128 EltTy.f32)
local notation "iV" => (Memref.whole Cert.KernelIdeal.main_v2_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x64 EltTy.f32)
local notation "a5V" => (Memref.whole Cert.KernelIdeal.cc1_scratch0 : Memref Cert.KernelIdeal.sig Kind.scVector Space.vmem Cert.KernelIdeal.S256 EltTy.i32)
local notation "a6V" => (Memref.whole Cert.KernelIdeal.cc1_scratch1 : Memref Cert.KernelIdeal.sig Kind.scVector Space.vmem Cert.KernelIdeal.S256 EltTy.i32)
local notation "a7V" => (Memref.whole Cert.KernelIdeal.cc1_scratch2 : Memref Cert.KernelIdeal.sig Kind.scVector Space.vmem Cert.KernelIdeal.S256x128 EltTy.f32)
local notation "a8V" => (Memref.whole Cert.KernelIdeal.cc1_scratch3 : Memref Cert.KernelIdeal.sig Kind.scVector Space.vmem Cert.KernelIdeal.S256x128 EltTy.f32)
local notation "a9V" => (Memref.whole Cert.KernelIdeal.cc1_scratch4 : Memref Cert.KernelIdeal.sig Kind.scVector Space.vmem Cert.KernelIdeal.S256x64 EltTy.f32)

/-! ## The branches of a trip, in closed form -/

theorem trips1 : k1_t1_loop.trips = 100 := by decide +kernel
theorem trips2 : k1_t2_loop.trips = 64 := by decide +kernel
theorem trips3 : k1_t3_loop.trips = 64 := by decide +kernel

/-- Chunk t + 1 is fetched when there is one; into slot 0 when t is odd, into slot 1 when t is even; chunk t is
    selected out of slot 0 when t is even, out of slot 1 when t is odd. -/
theorem cond1_iff : ∀ k : Fin k1_t1_loop.trips, k1_cond1 k = 1#1 ↔ k.val + 1 < 100 := by decide +kernel
theorem cond2_iff : ∀ k : Fin k1_t1_loop.trips, k1_cond2 k = 1#1 ↔ k.val % 2 = 1 := by decide +kernel
theorem cond3_iff : ∀ k : Fin k1_t1_loop.trips, k1_cond3 k = 1#1 ↔ k.val % 2 = 0 := by decide +kernel
theorem cond4_iff : ∀ k : Fin k1_t1_loop.trips, k1_cond4 k = 1#1 ↔ k.val % 2 = 0 := by decide +kernel
theorem cond5_iff : ∀ k : Fin k1_t1_loop.trips, k1_cond5 k = 1#1 ↔ k.val % 2 = 1 := by decide +kernel

/-! ## The memrefs, as the program spells them -/

/-- All of the repacked table, as the gathers address it. -/
abbrev yAllK : Memref sig .scVector .hbm S1003520x128 .f32 :=
  (yV).slice (Rect.unit (s := S1003520x128) ![0, 0] S1003520x128.size inb_S1003520x128_S1003520x128_0_0) (fun _ => rfl)

/-- The rows of chunk t among the result's, as the copy-out addresses them. -/
abbrev oRectK (L : grid1.Coords) (k : Fin k1_t1_loop.trips) : Rect S819200x64 :=
  Rect.unit (s := S819200x64) (k1_off20 L k) S256x64.size (k1_off20_inb L k)
abbrev oChK (L : grid1.Coords) (k : Fin k1_t1_loop.trips) : Memref sig .scVector .hbm S256x64 .f32 :=
  (oV).slice (oRectK L k) (fun _ => rfl)

/-- The base row of worker w's chunk t. -/
def baseOf (L : grid1.Coords) (t : ℕ) : ℕ := 25600 * (wOf L).val + 256 * t

theorem wOf_val (L : grid1.Coords) : (wOf L).val = 2 * (L 1).val + (L 0).val := rfl

/-- An element of the result lies in chunk t's rows iff its row does. -/
theorem mem_oChK (L : grid1.Coords) (k : Fin k1_t1_loop.trips) (j : S819200x64.Idx) :
    j ∈ (oChK L k).view.set ↔ baseOf L k.val ≤ (j 0).val ∧ (j 0).val < baseOf L k.val + 256 := by
  have e : (oChK L k).view.set = (oRectK L k).set := View.set_slice_whole main_v3_scv (oRectK L k)
  rw [e, Rect.mem_set_unit, k1_off20_eq, Fin.forall_fin_two]
  have h1 : (j 1).val < 64 := ValueIdx.idx2_lt1 j
  unfold baseOf
  rw [wOf_val]
  constructor
  · rintro ⟨⟨a, b⟩, -⟩
    constructor
    · have : 51200 * (L 1).val + 25600 * (L 0).val + 256 * k.val ≤ (j 0).val := a
      omega
    · have : (j 0).val < 51200 * (L 1).val + 25600 * (L 0).val + 256 * k.val + 256 := b
      omega
  · rintro ⟨a, b⟩
    refine ⟨⟨?_, ?_⟩, ⟨Nat.zero_le _, ?_⟩⟩
    · show 51200 * (L 1).val + 25600 * (L 0).val + 256 * k.val ≤ (j 0).val
      omega
    · show (j 0).val < 51200 * (L 1).val + 25600 * (L 0).val + 256 * k.val + 256
      omega
    · show (j 1).val < 0 + 64
      omega

/-- An element of the result is one of worker w's iff its row is. -/
theorem mem_oSet (L : grid1.Coords) (j : S819200x64.Idx) :
    j ∈ oSet (wOf L) ↔ 25600 * (wOf L).val ≤ (j 0).val ∧ (j 0).val < 25600 * (wOf L).val + 25600 := by
  have e : oSet (wOf L) = (orow (wOf L)).set := View.set_slice_whole main_v3_scv (orow (wOf L))
  rw [e]
  unfold orow Rect.part Rect.block
  rw [Rect.mem_set_unit, Fin.forall_fin_two]
  have h1 : (j 1).val < 64 := ValueIdx.idx2_lt1 j
  simp only [Shape.partIx, Shape.partSize]
  constructor
  · rintro ⟨⟨a, b⟩, -⟩
    simp at a b
    omega
  · rintro ⟨a, b⟩
    simp
    omega

theorem oChK_subset (L : grid1.Coords) (k : Fin k1_t1_loop.trips) : (oChK L k).view.set ⊆ oSet (wOf L) := by
  intro j hj
  rw [mem_oChK] at hj
  rw [mem_oSet]
  have hk : k.val < 100 := trips1 ▸ k.isLt
  unfold baseOf at hj
  omega

variable [FloatOps F]

/-! ## The subcore's own semaphores and scratch buffers -/

abbrev cellOf (d : Dev nD) (L : grid1.Coords) (s : DmaSems sig S_) : GSem nD τ sig := (V d (cV L) (jV L), .dma s.sem)

theorem cell_ne (thr : Thread nD τ) {a b : SemLoc sig} (h : a ≠ b) : ((thr, a) : GSem nD τ sig) ≠ (thr, b) :=
  fun e => h (congrArg Prod.snd e)

omit [FloatOps F] in
theorem bigSep_erase_eq {I : Type} [DecidableEq I] {s : Finset I} {i : I} (hi : i ∈ s) {Φ : I → sProp 𝕄} {A R : sProp 𝕄}
    (hA : Φ i = A) (hR : bigSep (s.erase i) Φ = R) : bigSep s Φ = iprop(A ∗ R) := by
  rw [SparseCore.bigSep_erase' hi, hA, hR]

omit [FloatOps F] in
theorem mem_cells (d : Dev nD) (L : grid1.Coords) (s : DmaSems sig S_) (h : (SemLoc.dma s.sem : SemLoc sig).isScoped .scVector = true) :
    cellOf d L s ∈ ownCells (V d (cV L) (jV L)) := mem_ownCells.mpr ⟨rfl, h⟩

/-- The rest of the subcore's own cells, beside the six the task uses. -/
abbrev restCells (d : Dev nD) (L : grid1.Coords) : Finset (GSem nD τ sig) :=
  ((((((ownCells (V d (cV L) (jV L))).erase (cellOf d L cc1_scratch5)).erase (cellOf d L cc1_scratch6)).erase (cellOf d L cc1_scoped0)).erase
    (cellOf d L cc1_scoped1)).erase (cellOf d L cc1_scoped2)).erase (cellOf d L cc1_scoped3)

omit [FloatOps F] in
theorem ownSems0_V (d : Dev nD) (L : grid1.Coords) :
    (ownSems0 (V d (cV L) (jV L)) : sProp 𝕄)
      = iprop(semVal (cellOf d L cc1_scratch5) 0 ∗ semVal (cellOf d L cc1_scratch6) 0 ∗ semVal (cellOf d L cc1_scoped0) 0
          ∗ semVal (cellOf d L cc1_scoped1) 0 ∗ semVal (cellOf d L cc1_scoped2) 0 ∗ semVal (cellOf d L cc1_scoped3) 0
          ∗ bigSep (restCells d L) fun g => semVal g 0) := by
  unfold SparseCore.Cfg.ownSems0
  have m5 := mem_cells d L cc1_scratch5 (by decide)
  have m6 := mem_cells d L cc1_scratch6 (by decide)
  have m0 := mem_cells d L cc1_scoped0 (by decide)
  have m1 := mem_cells d L cc1_scoped1 (by decide)
  have m2 := mem_cells d L cc1_scoped2 (by decide)
  have m3 := mem_cells d L cc1_scoped3 (by decide)
  refine bigSep_erase_eq m5 rfl (bigSep_erase_eq (Finset.mem_erase.mpr ⟨cell_ne _ (by decide), m6⟩) rfl
    (bigSep_erase_eq (Finset.mem_erase.mpr ⟨cell_ne _ (by decide), Finset.mem_erase.mpr ⟨cell_ne _ (by decide), m0⟩⟩) rfl
    (bigSep_erase_eq (Finset.mem_erase.mpr ⟨cell_ne _ (by decide), Finset.mem_erase.mpr ⟨cell_ne _ (by decide),
        Finset.mem_erase.mpr ⟨cell_ne _ (by decide), m1⟩⟩⟩) rfl
    (bigSep_erase_eq (Finset.mem_erase.mpr ⟨cell_ne _ (by decide), Finset.mem_erase.mpr ⟨cell_ne _ (by decide),
        Finset.mem_erase.mpr ⟨cell_ne _ (by decide), Finset.mem_erase.mpr ⟨cell_ne _ (by decide), m2⟩⟩⟩⟩) rfl
    (bigSep_erase_eq (Finset.mem_erase.mpr ⟨cell_ne _ (by decide), Finset.mem_erase.mpr ⟨cell_ne _ (by decide),
        Finset.mem_erase.mpr ⟨cell_ne _ (by decide), Finset.mem_erase.mpr ⟨cell_ne _ (by decide),
        Finset.mem_erase.mpr ⟨cell_ne _ (by decide), m3⟩⟩⟩⟩⟩) rfl rfl)))))

abbrev refOf (L : grid1.Coords) (b : Ref sig .scVector) : DevRef τ sig := (Proc.scVector (cV L) (jV L)).devRef b

omit [FloatOps F] in
theorem mem_refs (L : grid1.Coords) (b : Ref sig .scVector) (h : (refOf L b).owner = .proc (Proc.scVector (cV L) (jV L))) :
    refOf L b ∈ ownRefs (τ := τ) (sig := sig) (.scVector (cV L) (jV L)) := SparseCore.Cfg.mem_ownRefs_of_owner h

omit [FloatOps F] in
theorem ref_ne (L : grid1.Coords) {a b : Ref sig .scVector} (h : a ≠ b) : refOf L a ≠ refOf L b :=
  fun e => h (Proc.devRef_injective _ e)

/-- The rest of the subcore's own buffers, beside the five scratch buffers of the task. -/
abbrev restRefs (L : grid1.Coords) : Finset (DevRef τ sig) :=
  (((((ownRefs (τ := τ) (sig := sig) (.scVector (cV L) (jV L))).erase (refOf L cc1_scratch0)).erase (refOf L cc1_scratch1)).erase (refOf L cc1_scratch2)).erase
    (refOf L cc1_scratch3)).erase (refOf L cc1_scratch4)

omit [FloatOps F] in
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep (restRefs L) fun b => iprop(∃ f, ((d, b) : Loc nD τ sig) ↦{fullShare} f)) := by
  unfold SparseCore.Cfg.ownBufs
  have m0 := mem_refs L cc1_scratch0 rfl
  have m1 := mem_refs L cc1_scratch1 rfl
  have m2 := mem_refs L cc1_scratch2 rfl
  have m3 := mem_refs L cc1_scratch3 rfl
  have m4 := mem_refs L cc1_scratch4 rfl
  refine bigSep_erase_eq m0 rfl (bigSep_erase_eq (Finset.mem_erase.mpr ⟨ref_ne L (by decide), m1⟩) rfl
    (bigSep_erase_eq (Finset.mem_erase.mpr ⟨ref_ne L (by decide), Finset.mem_erase.mpr ⟨ref_ne L (by decide), m2⟩⟩) rfl
    (bigSep_erase_eq (Finset.mem_erase.mpr ⟨ref_ne L (by decide), Finset.mem_erase.mpr ⟨ref_ne L (by decide),
        Finset.mem_erase.mpr ⟨ref_ne L (by decide), m3⟩⟩⟩) rfl
    (bigSep_erase_eq (Finset.mem_erase.mpr ⟨ref_ne L (by decide), Finset.mem_erase.mpr ⟨ref_ne L (by decide),
        Finset.mem_erase.mpr ⟨ref_ne L (by decide), Finset.mem_erase.mpr ⟨ref_ne L (by decide), m4⟩⟩⟩⟩) rfl rfl))))

end Cert.Proof.KI

end
-- ==== Proof.Tile.Inner.lean ====
/-
  The select loop of a trip: 64 trips, each copying columns 0..63 of four rows of the slot's row scratch into the
  [256,64] scratch, sixteen lanes at a time. Once per slot (the two loops differ in the scratch they read).
-/
import proofs.«206585_g20916490731584_cont_8to1_1403_18_alg».proof.Proof.Common
import proofs.«206585_g20916490731584_cont_8to1_1403_18_alg».proof.Proof.Tile.Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v1_scv : Memref Cert.KernelIdeal.sig Kind.scVector Space.hbm Cert.KernelIdeal.S1003520x128 EltTy.f32)
local notation "iV" => (Memref.whole Cert.KernelIdeal.main_v2_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x64 EltTy.f32)
local notation "a5V" => (Memref.whole Cert.KernelIdeal.cc1_scratch0 : Memref Cert.KernelIdeal.sig Kind.scVector Space.vmem Cert.KernelIdeal.S256 EltTy.i32)
local notation "a6V" => (Memref.whole Cert.KernelIdeal.cc1_scratch1 : Memref Cert.KernelIdeal.sig Kind.scVector Space.vmem Cert.KernelIdeal.S256 EltTy.i32)
local notation "a7V" => (Memref.whole Cert.KernelIdeal.cc1_scratch2 : Memref Cert.KernelIdeal.sig Kind.scVector Space.vmem Cert.KernelIdeal.S256x128 EltTy.f32)
local notation "a8V" => (Memref.whole Cert.KernelIdeal.cc1_scratch3 : Memref Cert.KernelIdeal.sig Kind.scVector Space.vmem Cert.KernelIdeal.S256x128 EltTy.f32)
local notation "a9V" => (Memref.whole Cert.KernelIdeal.cc1_scratch4 : Memref Cert.KernelIdeal.sig Kind.scVector Space.vmem Cert.KernelIdeal.S256x64 EltTy.f32)

variable [FloatOps F]

/-- Before trip k of the select loop over slot 0: the row scratch as gathered, the [256,64] scratch agreeing with its
    columns 0..63 on the rows below 4 k. -/
def innerInv0 (d : Dev nD) (L : grid1.Coords) (g : Buf (Elt F) ((V d (cV L) (jV L)).loc cc1_scratch2)) (k : ℕ) (_ : Unit) : sProp 𝕄 :=
  iprop(((a7V).view.loc (V d (cV L) (jV L)) ↦{fullShare} g)
    ∗ ∃ f9 : Buf (Elt F) ((V d (cV L) (jV L)).loc cc1_scratch4), ((a9V).view.loc (V d (cV L) (jV L)) ↦{fullShare} f9) ∗ ⌜Done g (4 * k) 0 f9⌝)

set_option maxHeartbeats 4000000 in
/-- One trip of the select loop over slot 0: four rows, four sixteen-lane pieces each, from the row scratch into
    the [256,64] scratch. -/
theorem inner0_step (d : Dev nD) (L : grid1.Coords) (k1_t1 : Fin k1_t1_loop.trips) (hc : k1_cond4 k1_t1 = 1#1)
    (g : Buf (Elt F) ((V d (cV L) (jV L)).loc cc1_scratch2)) (k : Fin k1_t2_loop.trips) (u : Unit) :
    innerInv0 (F := F) d L g k.val u
      ⊢ wp frame (wpE (defs₀ (F := F)) 𝒱₀ (V d (cV L) (jV L)) none) Set.univ
          (k1_t2_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k1_t1 hc k u)
          (innerInv0 (F := F) d L g (k.val + 1)) := by
  unfold innerInv0 k1_t2_body
  iintro ⟨H7, %f9, H9, %h0⟩
  sl_exec
  sl_step
  isplitl [H7]; · iexact H7
  iexists _
  isplitl [H9]; · iexact H9
  ipureintro
  refine done_mono (show 4 * k.val + 3 + 1 = 4 * (k.val + 1) by omega) ?_
  apply done_row
  refine done_store g (4 * k.val + 3) 3 f9 _ _ _ _ (k1_off11_eq k ⟨3, by decide⟩)
    (pay_ok0 g _ _ _ _ ((k1_off10_eq k ⟨3, by decide⟩).trans (k1_off11_eq k ⟨3, by decide⟩).symm) _ _ _ rfl) ?_
  refine done_store g (4 * k.val + 3) 2 f9 _ _ _ _ (k1_off9_eq k ⟨3, by decide⟩)
    (pay_ok0 g _ _ _ _ ((k1_off8_eq k ⟨3, by decide⟩).trans (k1_off9_eq k ⟨3, by decide⟩).symm) _ _ _ rfl) ?_
  refine done_store g (4 * k.val + 3) 1 f9 _ _ _ _ (k1_off7_eq k ⟨3, by decide⟩)
    (pay_ok0 g _ _ _ _ ((k1_off6_eq k ⟨3, by decide⟩).trans (k1_off7_eq k ⟨3, by decide⟩).symm) _ _ _ rfl) ?_
  refine done_store g (4 * k.val + 3) 0 f9 _ _ _ _ (k1_off5_eq k ⟨3, by decide⟩)
    (pay_ok0 g _ _ _ _ ((k1_off4_eq k ⟨3, by decide⟩).trans (k1_off5_eq k ⟨3, by decide⟩).symm) _ _ _ rfl) ?_
  refine done_mono (show 4 * k.val + 2 + 1 = 4 * k.val + 3 by omega) ?_
  apply done_row
  refine done_store g (4 * k.val + 2) 3 f9 _ _ _ _ (k1_off11_eq k ⟨2, by decide⟩)
    (pay_ok0 g _ _ _ _ ((k1_off10_eq k ⟨2, by decide⟩).trans (k1_off11_eq k ⟨2, by decide⟩).symm) _ _ _ rfl) ?_
  refine done_store g (4 * k.val + 2) 2 f9 _ _ _ _ (k1_off9_eq k ⟨2, by decide⟩)
    (pay_ok0 g _ _ _ _ ((k1_off8_eq k ⟨2, by decide⟩).trans (k1_off9_eq k ⟨2, by decide⟩).symm) _ _ _ rfl) ?_
  refine done_store g (4 * k.val + 2) 1 f9 _ _ _ _ (k1_off7_eq k ⟨2, by decide⟩)
    (pay_ok0 g _ _ _ _ ((k1_off6_eq k ⟨2, by decide⟩).trans (k1_off7_eq k ⟨2, by decide⟩).symm) _ _ _ rfl) ?_
  refine done_store g (4 * k.val + 2) 0 f9 _ _ _ _ (k1_off5_eq k ⟨2, by decide⟩)
    (pay_ok0 g _ _ _ _ ((k1_off4_eq k ⟨2, by decide⟩).trans (k1_off5_eq k ⟨2, by decide⟩).symm) _ _ _ rfl) ?_
  refine done_mono (show 4 * k.val + 1 + 1 = 4 * k.val + 2 by omega) ?_
  apply done_row
  refine done_store g (4 * k.val + 1) 3 f9 _ _ _ _ (k1_off11_eq k ⟨1, by decide⟩)
    (pay_ok0 g _ _ _ _ ((k1_off10_eq k ⟨1, by decide⟩).trans (k1_off11_eq k ⟨1, by decide⟩).symm) _ _ _ rfl) ?_
  refine done_store g (4 * k.val + 1) 2 f9 _ _ _ _ (k1_off9_eq k ⟨1, by decide⟩)
    (pay_ok0 g _ _ _ _ ((k1_off8_eq k ⟨1, by decide⟩).trans (k1_off9_eq k ⟨1, by decide⟩).symm) _ _ _ rfl) ?_
  refine done_store g (4 * k.val + 1) 1 f9 _ _ _ _ (k1_off7_eq k ⟨1, by decide⟩)
    (pay_ok0 g _ _ _ _ ((k1_off6_eq k ⟨1, by decide⟩).trans (k1_off7_eq k ⟨1, by decide⟩).symm) _ _ _ rfl) ?_
  refine done_store g (4 * k.val + 1) 0 f9 _ _ _ _ (k1_off5_eq k ⟨1, by decide⟩)
    (pay_ok0 g _ _ _ _ ((k1_off4_eq k ⟨1, by decide⟩).trans (k1_off5_eq k ⟨1, by decide⟩).symm) _ _ _ rfl) ?_
  refine done_mono (show 4 * k.val + 0 + 1 = 4 * k.val + 1 by omega) ?_
  apply done_row
  refine done_store g (4 * k.val + 0) 3 f9 _ _ _ _ (k1_off11_eq k ⟨0, by decide⟩)
    (pay_ok0 g _ _ _ _ ((k1_off10_eq k ⟨0, by decide⟩).trans (k1_off11_eq k ⟨0, by decide⟩).symm) _ _ _ rfl) ?_
  refine done_store g (4 * k.val + 0) 2 f9 _ _ _ _ (k1_off9_eq k ⟨0, by decide⟩)
    (pay_ok0 g _ _ _ _ ((k1_off8_eq k ⟨0, by decide⟩).trans (k1_off9_eq k ⟨0, by decide⟩).symm) _ _ _ rfl) ?_
  refine done_store g (4 * k.val + 0) 1 f9 _ _ _ _ (k1_off7_eq k ⟨0, by decide⟩)
    (pay_ok0 g _ _ _ _ ((k1_off6_eq k ⟨0, by decide⟩).trans (k1_off7_eq k ⟨0, by decide⟩).symm) _ _ _ rfl) ?_
  refine done_store g (4 * k.val + 0) 0 f9 _ _ _ _ (k1_off5_eq k ⟨0, by decide⟩)
    (pay_ok0 g _ _ _ _ ((k1_off4_eq k ⟨0, by decide⟩).trans (k1_off5_eq k ⟨0, by decide⟩).symm) _ _ _ rfl) ?_
  exact h0

/-- Before trip k of the select loop over slot 1: the row scratch as gathered, the [256,64] scratch agreeing with its
    columns 0..63 on the rows below 4 k. -/
def innerInv1 (d : Dev nD) (L : grid1.Coords) (g : Buf (Elt F) ((V d (cV L) (jV L)).loc cc1_scratch3)) (k : ℕ) (_ : Unit) : sProp 𝕄 :=
  iprop(((a8V).view.loc (V d (cV L) (jV L)) ↦{fullShare} g)
    ∗ ∃ f9 : Buf (Elt F) ((V d (cV L) (jV L)).loc cc1_scratch4), ((a9V).view.loc (V d (cV L) (jV L)) ↦{fullShare} f9) ∗ ⌜Done g (4 * k) 0 f9⌝)

set_option maxHeartbeats 4000000 in
/-- One trip of the select loop over slot 1: four rows, four sixteen-lane pieces each, from the row scratch into
    the [256,64] scratch. -/
theorem inner1_step (d : Dev nD) (L : grid1.Coords) (k1_t1 : Fin k1_t1_loop.trips) (hc : k1_cond5 k1_t1 = 1#1)
    (g : Buf (Elt F) ((V d (cV L) (jV L)).loc cc1_scratch3)) (k : Fin k1_t3_loop.trips) (u : Unit) :
    innerInv1 (F := F) d L g k.val u
      ⊢ wp frame (wpE (defs₀ (F := F)) 𝒱₀ (V d (cV L) (jV L)) none) Set.univ
          (k1_t3_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k1_t1 hc k u)
          (innerInv1 (F := F) d L g (k.val + 1)) := by
  unfold innerInv1 k1_t3_body
  iintro ⟨H7, %f9, H9, %h0⟩
  sl_exec
  sl_step
  isplitl [H7]; · iexact H7
  iexists _
  isplitl [H9]; · iexact H9
  ipureintro
  refine done_mono (show 4 * k.val + 3 + 1 = 4 * (k.val + 1) by omega) ?_
  apply done_row
  refine done_store g (4 * k.val + 3) 3 f9 _ _ _ _ (k1_off19_eq k ⟨3, by decide⟩)
    (pay_ok1 g _ _ _ _ ((k1_off18_eq k ⟨3, by decide⟩).trans (k1_off19_eq k ⟨3, by decide⟩).symm) _ _ _ rfl) ?_
  refine done_store g (4 * k.val + 3) 2 f9 _ _ _ _ (k1_off17_eq k ⟨3, by decide⟩)
    (pay_ok1 g _ _ _ _ ((k1_off16_eq k ⟨3, by decide⟩).trans (k1_off17_eq k ⟨3, by decide⟩).symm) _ _ _ rfl) ?_
  refine done_store g (4 * k.val + 3) 1 f9 _ _ _ _ (k1_off15_eq k ⟨3, by decide⟩)
    (pay_ok1 g _ _ _ _ ((k1_off14_eq k ⟨3, by decide⟩).trans (k1_off15_eq k ⟨3, by decide⟩).symm) _ _ _ rfl) ?_
  refine done_store g (4 * k.val + 3) 0 f9 _ _ _ _ (k1_off13_eq k ⟨3, by decide⟩)
    (pay_ok1 g _ _ _ _ ((k1_off12_eq k ⟨3, by decide⟩).trans (k1_off13_eq k ⟨3, by decide⟩).symm) _ _ _ rfl) ?_
  refine done_mono (show 4 * k.val + 2 + 1 = 4 * k.val + 3 by omega) ?_
  apply done_row
  refine done_store g (4 * k.val + 2) 3 f9 _ _ _ _ (k1_off19_eq k ⟨2, by decide⟩)
    (pay_ok1 g _ _ _ _ ((k1_off18_eq k ⟨2, by decide⟩).trans (k1_off19_eq k ⟨2, by decide⟩).symm) _ _ _ rfl) ?_
  refine done_store g (4 * k.val + 2) 2 f9 _ _ _ _ (k1_off17_eq k ⟨2, by decide⟩)
    (pay_ok1 g _ _ _ _ ((k1_off16_eq k ⟨2, by decide⟩).trans (k1_off17_eq k ⟨2, by decide⟩).symm) _ _ _ rfl) ?_
  refine done_store g (4 * k.val + 2) 1 f9 _ _ _ _ (k1_off15_eq k ⟨2, by decide⟩)
    (pay_ok1 g _ _ _ _ ((k1_off14_eq k ⟨2, by decide⟩).trans (k1_off15_eq k ⟨2, by decide⟩).symm) _ _ _ rfl) ?_
  refine done_store g (4 * k.val + 2) 0 f9 _ _ _ _ (k1_off13_eq k ⟨2, by decide⟩)
    (pay_ok1 g _ _ _ _ ((k1_off12_eq k ⟨2, by decide⟩).trans (k1_off13_eq k ⟨2, by decide⟩).symm) _ _ _ rfl) ?_
  refine done_mono (show 4 * k.val + 1 + 1 = 4 * k.val + 2 by omega) ?_
  apply done_row
  refine done_store g (4 * k.val + 1) 3 f9 _ _ _ _ (k1_off19_eq k ⟨1, by decide⟩)
    (pay_ok1 g _ _ _ _ ((k1_off18_eq k ⟨1, by decide⟩).trans (k1_off19_eq k ⟨1, by decide⟩).symm) _ _ _ rfl) ?_
  refine done_store g (4 * k.val + 1) 2 f9 _ _ _ _ (k1_off17_eq k ⟨1, by decide⟩)
    (pay_ok1 g _ _ _ _ ((k1_off16_eq k ⟨1, by decide⟩).trans (k1_off17_eq k ⟨1, by decide⟩).symm) _ _ _ rfl) ?_
  refine done_store g (4 * k.val + 1) 1 f9 _ _ _ _ (k1_off15_eq k ⟨1, by decide⟩)
    (pay_ok1 g _ _ _ _ ((k1_off14_eq k ⟨1, by decide⟩).trans (k1_off15_eq k ⟨1, by decide⟩).symm) _ _ _ rfl) ?_
  refine done_store g (4 * k.val + 1) 0 f9 _ _ _ _ (k1_off13_eq k ⟨1, by decide⟩)
    (pay_ok1 g _ _ _ _ ((k1_off12_eq k ⟨1, by decide⟩).trans (k1_off13_eq k ⟨1, by decide⟩).symm) _ _ _ rfl) ?_
  refine done_mono (show 4 * k.val + 0 + 1 = 4 * k.val + 1 by omega) ?_
  apply done_row
  refine done_store g (4 * k.val + 0) 3 f9 _ _ _ _ (k1_off19_eq k ⟨0, by decide⟩)
    (pay_ok1 g _ _ _ _ ((k1_off18_eq k ⟨0, by decide⟩).trans (k1_off19_eq k ⟨0, by decide⟩).symm) _ _ _ rfl) ?_
  refine done_store g (4 * k.val + 0) 2 f9 _ _ _ _ (k1_off17_eq k ⟨0, by decide⟩)
    (pay_ok1 g _ _ _ _ ((k1_off16_eq k ⟨0, by decide⟩).trans (k1_off17_eq k ⟨0, by decide⟩).symm) _ _ _ rfl) ?_
  refine done_store g (4 * k.val + 0) 1 f9 _ _ _ _ (k1_off15_eq k ⟨0, by decide⟩)
    (pay_ok1 g _ _ _ _ ((k1_off14_eq k ⟨0, by decide⟩).trans (k1_off15_eq k ⟨0, by decide⟩).symm) _ _ _ rfl) ?_
  refine done_store g (4 * k.val + 0) 0 f9 _ _ _ _ (k1_off13_eq k ⟨0, by decide⟩)
    (pay_ok1 g _ _ _ _ ((k1_off12_eq k ⟨0, by decide⟩).trans (k1_off13_eq k ⟨0, by decide⟩).symm) _ _ _ rfl) ?_
  exact h0

end Cert.Proof.KI

end
-- ==== Proof.Tile.Gather.lean ====
/-
  One slot's indirect gather: what it delivers at its wait, stated once so that the loop's invariant can name a
  gather in flight across trips, and the issue's rule in that form. Once per slot.
-/
import proofs.«206585_g20916490731584_cont_8to1_1403_18_alg».proof.Proof.Common
import proofs.«206585_g20916490731584_cont_8to1_1403_18_alg».proof.Proof.Tile.Val
import proofs.«206585_g20916490731584_cont_8to1_1403_18_alg».proof.Proof.Tile.Base

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v1_scv : Memref Cert.KernelIdeal.sig Kind.scVector Space.hbm Cert.KernelIdeal.S1003520x128 EltTy.f32)
local notation "iV" => (Memref.whole Cert.KernelIdeal.main_v2_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x64 EltTy.f32)
local notation "a5V" => (Memref.whole Cert.KernelIdeal.cc1_scratch0 : Memref Cert.KernelIdeal.sig Kind.scVector Space.vmem Cert.KernelIdeal.S256 EltTy.i32)
local notation "a6V" => (Memref.whole Cert.KernelIdeal.cc1_scratch1 : Memref Cert.KernelIdeal.sig Kind.scVector Space.vmem Cert.KernelIdeal.S256 EltTy.i32)
local notation "a7V" => (Memref.whole Cert.KernelIdeal.cc1_scratch2 : Memref Cert.KernelIdeal.sig Kind.scVector Space.vmem Cert.KernelIdeal.S256x128 EltTy.f32)
local notation "a8V" => (Memref.whole Cert.KernelIdeal.cc1_scratch3 : Memref Cert.KernelIdeal.sig Kind.scVector Space.vmem Cert.KernelIdeal.S256x128 EltTy.f32)
local notation "a9V" => (Memref.whole Cert.KernelIdeal.cc1_scratch4 : Memref Cert.KernelIdeal.sig Kind.scVector Space.vmem Cert.KernelIdeal.S256x64 EltTy.f32)

variable [FloatOps F]

omit [FloatOps F] in
/-- Entry m of a rank-one shape in row-major order is coordinate m. -/
theorem rowMajor_symm_one (m : Fin S256.numel) : ((S256.rowMajor.symm m) 0).val = m.val :=
  (Shape.rowMajor_val_one (S256.rowMajor.symm m)).symm.trans (congrArg Fin.val (S256.rowMajor.apply_symm_apply m))

set_option maxHeartbeats 1000000 in
/-- What slot 0's gather writes into its row scratch, its index scratch holding a chunk's words: the chunk's rows
    of the repacked table, whatever the row scratch held. -/
theorem gathered_of_write0 (d : Dev nD) (L : grid1.Coords) (fi : Buf (Elt F) (iLoc d)) (fy : Buf (Elt F) (yLoc d)) (hlt : ∀ j, (fi j).toNat < 1003520) (base : ℕ)
    (l : Buf (Elt F) ((V d (cV L) (jV L)).loc cc1_scratch0)) (hl : ∀ x : S256.Idx, l x = idxAt fi (base + (x 0).val))
    (hn : S256.numel = S256x128.size gathers_S1003520x128_S256x128.axis')
    (hinr : ∀ x, ((a5V).view.read (Elt F) l x).toNat < S1003520x128.size gathers_S1003520x128_S256x128.axis)
    (g : Buf (Elt F) ((V d (cV L) (jV L)).loc cc1_scratch2)) :
    Gathered fi fy base ((a7V).view.write (Elt F) g
      (SparseCore.gatherPayload gathers_S1003520x128_S256x128 ((yAllK).view.read (Elt F) fy) (SparseCore.rows ((a5V).view.read (Elt F) l) hn hinr)) Finset.univ) := by
  intro x
  have e1 : ∀ P, (a7V).view.write (Elt F) g P Finset.univ = P := fun P => View.write_whole_univ cc1_scratch2 g P
  rw [e1]
  have e2 : (yAllK).view.read (Elt F) fy = fy :=
    Memref.read_access_unit_zero (Elt F) main_v1_scv (by funext a; match a with | ⟨0, _⟩ => rfl | ⟨1, _⟩ => rfl) _ fy
  rw [e2]
  show fy (gathers_S1003520x128_S256x128.idx _ x) = _
  congr 1
  funext a
  match a with
  | ⟨0, h0⟩ =>
    apply Fin.ext
    have ha := Shape.Gathers.idx_axis gathers_S1003520x128_S256x128 (SparseCore.rows ((a5V).view.read (Elt F) l) hn hinr) x
    have hv : ((gathers_S1003520x128_S256x128.idx (SparseCore.rows ((a5V).view.read (Elt F) l) hn hinr) x) ⟨0, h0⟩).val
        = (l (S256.rowMajor.symm ((x gathers_S1003520x128_S256x128.axis').cast hn.symm))).toNat := congrArg Fin.val ha
    rw [hv, hl, rowMajor_symm_one]
    show (idxAt fi (base + (x 0).val)).toNat = min (idxAt fi (base + (x 0).val)).toNat 1003519
    have := idxAt_lt hlt (base + (x 0).val)
    omega
  | ⟨1, h1⟩ =>
    apply Fin.ext
    exact Shape.Gathers.idx_of_ne gathers_S1003520x128_S256x128 _ x ⟨1, h1⟩ (show (1 : ℕ) ≠ 0 by decide)

set_option maxHeartbeats 1000000 in
/-- What slot 1's gather writes into its row scratch, its index scratch holding a chunk's words: the chunk's rows
    of the repacked table, whatever the row scratch held. -/
theorem gathered_of_write1 (d : Dev nD) (L : grid1.Coords) (fi : Buf (Elt F) (iLoc d)) (fy : Buf (Elt F) (yLoc d)) (hlt : ∀ j, (fi j).toNat < 1003520) (base : ℕ)
    (l : Buf (Elt F) ((V d (cV L) (jV L)).loc cc1_scratch1)) (hl : ∀ x : S256.Idx, l x = idxAt fi (base + (x 0).val))
    (hn : S256.numel = S256x128.size gathers_S1003520x128_S256x128.axis')
    (hinr : ∀ x, ((a6V).view.read (Elt F) l x).toNat < S1003520x128.size gathers_S1003520x128_S256x128.axis)
    (g : Buf (Elt F) ((V d (cV L) (jV L)).loc cc1_scratch3)) :
    Gathered fi fy base ((a8V).view.write (Elt F) g
      (SparseCore.gatherPayload gathers_S1003520x128_S256x128 ((yAllK).view.read (Elt F) fy) (SparseCore.rows ((a6V).view.read (Elt F) l) hn hinr)) Finset.univ) := by
  intro x
  have e1 : ∀ P, (a8V).view.write (Elt F) g P Finset.univ = P := fun P => View.write_whole_univ cc1_scratch3 g P
  rw [e1]
  have e2 : (yAllK).view.read (Elt F) fy = fy :=
    Memref.read_access_unit_zero (Elt F) main_v1_scv (by funext a; match a with | ⟨0, _⟩ => rfl | ⟨1, _⟩ => rfl) _ fy
  rw [e2]
  show fy (gathers_S1003520x128_S256x128.idx _ x) = _
  congr 1
  funext a
  match a with
  | ⟨0, h0⟩ =>
    apply Fin.ext
    have ha := Shape.Gathers.idx_axis gathers_S1003520x128_S256x128 (SparseCore.rows ((a6V).view.read (Elt F) l) hn hinr) x
    have hv : ((gathers_S1003520x128_S256x128.idx (SparseCore.rows ((a6V).view.read (Elt F) l) hn hinr) x) ⟨0, h0⟩).val
        = (l (S256.rowMajor.symm ((x gathers_S1003520x128_S256x128.axis').cast hn.symm))).toNat := congrArg Fin.val ha
    rw [hv, hl, rowMajor_symm_one]
    show (idxAt fi (base + (x 0).val)).toNat = min (idxAt fi (base + (x 0).val)).toNat 1003519
    have := idxAt_lt hlt (base + (x 0).val)
    omega
  | ⟨1, h1⟩ =>
    apply Fin.ext
    exact Shape.Gathers.idx_of_ne gathers_S1003520x128_S256x128 _ x ⟨1, h1⟩ (show (1 : ℕ) ≠ 0 by decide)

/-- What the gather of a chunk into slot 0 delivers at its wait: the row scratch holding the chunk's rows of the
    repacked table, the index scratch back, and the share of the repacked table the gather held. -/
def dlv0 (d : Dev nD) (L : grid1.Coords) (q : PosShare TreeShare) (fi : Buf (Elt F) (iLoc d)) (fy : Buf (Elt F) (yLoc d)) (base : ℕ) : sProp 𝕄 :=
  iprop(∃ g : Buf (Elt F) ((V d (cV L) (jV L)).loc cc1_scratch2), ∃ l : Buf (Elt F) ((V d (cV L) (jV L)).loc cc1_scratch0),
    ⌜Gathered fi fy base g⌝ ∗ ((a7V).view.loc (V d (cV L) (jV L)) ↦{fullShare} g) ∗ ((a5V).view.loc (V d (cV L) (jV L)) ↦{fullShare} l)
      ∗ ((yAllK).view.loc (V d (cV L) (jV L)) ↦[(yAllK).view.set]{q} fy))

/-- Slot 0 with no gather in flight. -/
def free0 (d : Dev nD) (L : grid1.Coords) (q : PosShare TreeShare) (fy : Buf (Elt F) (yLoc d)) : sProp 𝕄 :=
  iprop((∃ l : Buf (Elt F) ((V d (cV L) (jV L)).loc cc1_scratch0), (a5V).view.loc (V d (cV L) (jV L)) ↦{fullShare} l)
    ∗ (∃ g : Buf (Elt F) ((V d (cV L) (jV L)).loc cc1_scratch2), (a7V).view.loc (V d (cV L) (jV L)) ↦{fullShare} g)
    ∗ ((yAllK).view.loc (V d (cV L) (jV L)) ↦[(yAllK).view.set]{q} fy) ∗ semVal (cellOf d L cc1_scratch5) 0)

/-- Slot 0 with the gather of the chunk at base row `base` in flight. -/
def fl0 (d : Dev nD) (L : grid1.Coords) (q : PosShare TreeShare) (fi : Buf (Elt F) (iLoc d)) (fy : Buf (Elt F) (yLoc d)) (base : ℕ) : sProp 𝕄 :=
  Transfers.Flight (countersEmb : UEmb Counters 𝕄) (V d (cV L) (jV L)) (.dma cc1_scratch5.sem) (default : HIx 1) (a7V).view.dmaCredit (dlv0 d L q fi fy base)

omit [FloatOps F] in
theorem fl0_eq (d : Dev nD) (L : grid1.Coords) (q : PosShare TreeShare) (fi : Buf (Elt F) (iLoc d)) (fy : Buf (Elt F) (yLoc d)) (base : ℕ) :
    fl0 d L q fi fy base
      = Transfers.Flight (countersEmb : UEmb Counters 𝕄) (V d (cV L) (jV L)) (.dma cc1_scratch5.sem) (default : HIx 1) (a7V).view.dmaCredit (dlv0 d L q fi fy base) := rfl

set_option maxHeartbeats 1000000 in
/-- What the gather's rule delivers is what the invariant names. -/
theorem dlv0_of_write (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch0)) (g : Buf (Elt F) ((V d (cV L) (jV L)).loc cc1_scratch2))
    (hl : ∀ x : S256.Idx, l x = idxAt fi (base + (x 0).val))
    (hn : S256.numel = S256x128.size gathers_S1003520x128_S256x128.axis')
    (hinr : ∀ x, ((a5V).view.read (Elt F) l x).toNat < S1003520x128.size gathers_S1003520x128_S256x128.axis) :
    (iprop(((a7V).view.loc (V d (cV L) (jV L)) ↦[(a7V).view.set]{fullShare}
          ((a7V).view.write (Elt F) g (SparseCore.gatherPayload gathers_S1003520x128_S256x128 ((yAllK).view.read (Elt F) fy)
            (SparseCore.rows ((a5V).view.read (Elt F) l) hn hinr)) Finset.univ))
        ∗ ((yAllK).view.loc (V d (cV L) (jV L)) ↦[(yAllK).view.set]{q} fy) ∗ ((a5V).view.loc (V d (cV L) (jV L)) ↦[(a5V).view.set]{fullShare} l)) : sProp 𝕄)
      ⊢ dlv0 d L q fi fy base := by
  have hrs : (a7V).view.set = Finset.univ := View.set_whole _
  have hss : (a5V).view.set = Finset.univ := View.set_whole _
  unfold dlv0
  iintro ⟨Hr, Hy, Hl⟩
  iexists _, _
  isplitr
  swap
  · isplitl [Hr]; · iapply (Entails.of_eq (show ((a7V).view.loc (V d (cV L) (jV L)) ↦[(a7V).view.set]{fullShare} _ : sProp 𝕄)
        = (a7V).view.loc (V d (cV L) (jV L)) ↦{fullShare} _ by rw [hrs])); iexact Hr
    isplitl [Hl]; · iapply (Entails.of_eq (show ((a5V).view.loc (V d (cV L) (jV L)) ↦[(a5V).view.set]{fullShare} _ : sProp 𝕄)
        = (a5V).view.loc (V d (cV L) (jV L)) ↦{fullShare} _ by rw [hss])); iexact Hl
    iexact Hy
  · ipureintro
    exact gathered_of_write0 d L fi fy hlt base l hl hn hinr g

set_option maxHeartbeats 1000000 in
/-- The issue of slot 0's gather, its index scratch holding the chunk's 256 words. -/
theorem gather0 (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch0)) (g : Buf (Elt F) ((V d (cV L) (jV L)).loc cc1_scratch2))
    (hl : ∀ x : S256.Idx, l x = idxAt fi (base + (x 0).val))
    {α : Type} {kk : PUnit → Prog (TpuEff nD τ sig (Elt F) Λ₀ (V d (cV L) (jV L)).2) α} {Q : α → sProp 𝕄} :
    iprop(((yAllK).view.loc (V d (cV L) (jV L)) ↦[(yAllK).view.set]{q} fy) ∗ ((a7V).view.loc (V d (cV L) (jV L)) ↦{fullShare} g)
        ∗ ((a5V).view.loc (V d (cV L) (jV L)) ↦{fullShare} l) ∗ semVal (cellOf d L cc1_scratch5) 0)
      ⊢ iprop((fl0 d L q fi fy base -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather rfl yAllK a7V gathers_S1003520x128_S256x128 a5V rfl cc1_scratch5.sem (View.wordExact_bits rfl) rfl (Or.inl rfl) >>= kk) Q) := by
  iintro ⟨Hy, Hr, Hl, Hsem⟩ Hk
  have hinr : ∀ x, ((a5V).view.read (Elt F) l x).toNat < S1003520x128.size gathers_S1003520x128_S256x128.axis := fun x => by
    show (l x).toNat < 1003520
    rw [hl]; exact idxAt_lt hlt _
  have hrs : (a7V).view.set = Finset.univ := View.set_whole _
  have hss : (a5V).view.set = Finset.univ := View.set_whole _
  ihave Hr' := (Entails.of_eq (show ((a7V).view.loc (V d (cV L) (jV L)) ↦{fullShare} g : sProp 𝕄)
      = (a7V).view.loc (V d (cV L) (jV L)) ↦[(a7V).view.set]{fullShare} g by rw [hrs])) $$ Hr
  ihave Hl' := (Entails.of_eq (show ((a5V).view.loc (V d (cV L) (jV L)) ↦{fullShare} l : sProp 𝕄)
      = (a5V).view.loc (V d (cV L) (jV L)) ↦[(a5V).view.set]{fullShare} l by rw [hss])) $$ Hl
  have hN : ∀ h : S1003520x128.Gathers 0 S256x128, ∑ j, ((a7V).slice (S256x128.rowRect h.axis' j) (S256x128.stride_rowRect h.axis' j)).view.dmaCredit
      = (a7V).view.dmaCredit := fun h => SparseCore.sum_rowCredit_eq_dmaCredit (a7V) h.axis' (fun _ => rfl)
  iapply (SparseCore.wp_indirectGatherLocal countersEmb 𝒱₀ (V d (cV L) (jV L)) none (hg := gathers_S1003520x128_S256x128) (default : HIx 1)
      (a7V).view.dmaCredit (hN _) (by decide) hinr) $$ [Hy Hr' Hl' Hsem]
  · isplitl [Hy]; · iexact Hy
    isplitl [Hr']; · iexact Hr'
    isplitl [Hl']; · iexact Hl'
    iexact Hsem
  iintro Hfl
  ihave Hfl' := (Transfers.Flight_mono countersEmb (V d (cV L) (jV L)) (sm := SemLoc.dma cc1_scratch5.sem) (ι := (default : HIx 1)) (N := (a7V).view.dmaCredit)
    (dlv0_of_write d L q fi fy hlt base l g hl rfl hinr)) $$ Hfl
  iapply Hk
  iapply (Entails.of_eq (fl0_eq d L q fi fy base).symm)
  iexact Hfl'

/-- What the gather of a chunk into slot 1 delivers at its wait: the row scratch holding the chunk's rows of the
    repacked table, the index scratch back, and the share of the repacked table the gather held. -/
def dlv1 (d : Dev nD) (L : grid1.Coords) (q : PosShare TreeShare) (fi : Buf (Elt F) (iLoc d)) (fy : Buf (Elt F) (yLoc d)) (base : ℕ) : sProp 𝕄 :=
  iprop(∃ g : Buf (Elt F) ((V d (cV L) (jV L)).loc cc1_scratch3), ∃ l : Buf (Elt F) ((V d (cV L) (jV L)).loc cc1_scratch1),
    ⌜Gathered fi fy base g⌝ ∗ ((a8V).view.loc (V d (cV L) (jV L)) ↦{fullShare} g) ∗ ((a6V).view.loc (V d (cV L) (jV L)) ↦{fullShare} l)
      ∗ ((yAllK).view.loc (V d (cV L) (jV L)) ↦[(yAllK).view.set]{q} fy))

/-- Slot 1 with no gather in flight. -/
def free1 (d : Dev nD) (L : grid1.Coords) (q : PosShare TreeShare) (fy : Buf (Elt F) (yLoc d)) : sProp 𝕄 :=
  iprop((∃ l : Buf (Elt F) ((V d (cV L) (jV L)).loc cc1_scratch1), (a6V).view.loc (V d (cV L) (jV L)) ↦{fullShare} l)
    ∗ (∃ g : Buf (Elt F) ((V d (cV L) (jV L)).loc cc1_scratch3), (a8V).view.loc (V d (cV L) (jV L)) ↦{fullShare} g)
    ∗ ((yAllK).view.loc (V d (cV L) (jV L)) ↦[(yAllK).view.set]{q} fy) ∗ semVal (cellOf d L cc1_scratch6) 0)

/-- Slot 1 with the gather of the chunk at base row `base` in flight. -/
def fl1 (d : Dev nD) (L : grid1.Coords) (q : PosShare TreeShare) (fi : Buf (Elt F) (iLoc d)) (fy : Buf (Elt F) (yLoc d)) (base : ℕ) : sProp 𝕄 :=
  Transfers.Flight (countersEmb : UEmb Counters 𝕄) (V d (cV L) (jV L)) (.dma cc1_scratch6.sem) (default : HIx 1) (a8V).view.dmaCredit (dlv1 d L q fi fy base)

omit [FloatOps F] in
theorem fl1_eq (d : Dev nD) (L : grid1.Coords) (q : PosShare TreeShare) (fi : Buf (Elt F) (iLoc d)) (fy : Buf (Elt F) (yLoc d)) (base : ℕ) :
    fl1 d L q fi fy base
      = Transfers.Flight (countersEmb : UEmb Counters 𝕄) (V d (cV L) (jV L)) (.dma cc1_scratch6.sem) (default : HIx 1) (a8V).view.dmaCredit (dlv1 d L q fi fy base) := rfl

set_option maxHeartbeats 1000000 in
/-- What the gather's rule delivers is what the invariant names. -/
theorem dlv1_of_write (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch1)) (g : Buf (Elt F) ((V d (cV L) (jV L)).loc cc1_scratch3))
    (hl : ∀ x : S256.Idx, l x = idxAt fi (base + (x 0).val))
    (hn : S256.numel = S256x128.size gathers_S1003520x128_S256x128.axis')
    (hinr : ∀ x, ((a6V).view.read (Elt F) l x).toNat < S1003520x128.size gathers_S1003520x128_S256x128.axis) :
    (iprop(((a8V).view.loc (V d (cV L) (jV L)) ↦[(a8V).view.set]{fullShare}
          ((a8V).view.write (Elt F) g (SparseCore.gatherPayload gathers_S1003520x128_S256x128 ((yAllK).view.read (Elt F) fy)
            (SparseCore.rows ((a6V).view.read (Elt F) l) hn hinr)) Finset.univ))
        ∗ ((yAllK).view.loc (V d (cV L) (jV L)) ↦[(yAllK).view.set]{q} fy) ∗ ((a6V).view.loc (V d (cV L) (jV L)) ↦[(a6V).view.set]{fullShare} l)) : sProp 𝕄)
      ⊢ dlv1 d L q fi fy base := by
  have hrs : (a8V).view.set = Finset.univ := View.set_whole _
  have hss : (a6V).view.set = Finset.univ := View.set_whole _
  unfold dlv1
  iintro ⟨Hr, Hy, Hl⟩
  iexists _, _
  isplitr
  swap
  · isplitl [Hr]; · iapply (Entails.of_eq (show ((a8V).view.loc (V d (cV L) (jV L)) ↦[(a8V).view.set]{fullShare} _ : sProp 𝕄)
        = (a8V).view.loc (V d (cV L) (jV L)) ↦{fullShare} _ by rw [hrs])); iexact Hr
    isplitl [Hl]; · iapply (Entails.of_eq (show ((a6V).view.loc (V d (cV L) (jV L)) ↦[(a6V).view.set]{fullShare} _ : sProp 𝕄)
        = (a6V).view.loc (V d (cV L) (jV L)) ↦{fullShare} _ by rw [hss])); iexact Hl
    iexact Hy
  · ipureintro
    exact gathered_of_write1 d L fi fy hlt base l hl hn hinr g

set_option maxHeartbeats 1000000 in
/-- The issue of slot 1's gather, its index scratch holding the chunk's 256 words. -/
theorem gather1 (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch1)) (g : Buf (Elt F) ((V d (cV L) (jV L)).loc cc1_scratch3))
    (hl : ∀ x : S256.Idx, l x = idxAt fi (base + (x 0).val))
    {α : Type} {kk : PUnit → Prog (TpuEff nD τ sig (Elt F) Λ₀ (V d (cV L) (jV L)).2) α} {Q : α → sProp 𝕄} :
    iprop(((yAllK).view.loc (V d (cV L) (jV L)) ↦[(yAllK).view.set]{q} fy) ∗ ((a8V).view.loc (V d (cV L) (jV L)) ↦{fullShare} g)
        ∗ ((a6V).view.loc (V d (cV L) (jV L)) ↦{fullShare} l) ∗ semVal (cellOf d L cc1_scratch6) 0)
      ⊢ iprop((fl1 d L q fi fy base -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather rfl yAllK a8V gathers_S1003520x128_S256x128 a6V rfl cc1_scratch6.sem (View.wordExact_bits rfl) rfl (Or.inl rfl) >>= kk) Q) := by
  iintro ⟨Hy, Hr, Hl, Hsem⟩ Hk
  have hinr : ∀ x, ((a6V).view.read (Elt F) l x).toNat < S1003520x128.size gathers_S1003520x128_S256x128.axis := fun x => by
    show (l x).toNat < 1003520
    rw [hl]; exact idxAt_lt hlt _
  have hrs : (a8V).view.set = Finset.univ := View.set_whole _
  have hss : (a6V).view.set = Finset.univ := View.set_whole _
  ihave Hr' := (Entails.of_eq (show ((a8V).view.loc (V d (cV L) (jV L)) ↦{fullShare} g : sProp 𝕄)
      = (a8V).view.loc (V d (cV L) (jV L)) ↦[(a8V).view.set]{fullShare} g by rw [hrs])) $$ Hr
  ihave Hl' := (Entails.of_eq (show ((a6V).view.loc (V d (cV L) (jV L)) ↦{fullShare} l : sProp 𝕄)
      = (a6V).view.loc (V d (cV L) (jV L)) ↦[(a6V).view.set]{fullShare} l by rw [hss])) $$ Hl
  have hN : ∀ h : S1003520x128.Gathers 0 S256x128, ∑ j, ((a8V).slice (S256x128.rowRect h.axis' j) (S256x128.stride_rowRect h.axis' j)).view.dmaCredit
      = (a8V).view.dmaCredit := fun h => SparseCore.sum_rowCredit_eq_dmaCredit (a8V) h.axis' (fun _ => rfl)
  iapply (SparseCore.wp_indirectGatherLocal countersEmb 𝒱₀ (V d (cV L) (jV L)) none (hg := gathers_S1003520x128_S256x128) (default : HIx 1)
      (a8V).view.dmaCredit (hN _) (by decide) hinr) $$ [Hy Hr' Hl' Hsem]
  · isplitl [Hy]; · iexact Hy
    isplitl [Hr']; · iexact Hr'
    isplitl [Hl']; · iexact Hl'
    iexact Hsem
  iintro Hfl
  ihave Hfl' := (Transfers.Flight_mono countersEmb (V d (cV L) (jV L)) (sm := SemLoc.dma cc1_scratch6.sem) (ι := (default : HIx 1)) (N := (a8V).view.dmaCredit)
    (dlv1_of_write d L q fi fy hlt base l g hl rfl hinr)) $$ Hfl
  iapply Hk
  iapply (Entails.of_eq (fl1_eq d L q fi fy base).symm)
  iexact Hfl'

end Cert.Proof.KI

end
-- ==== Proof.Tile.Out.lean ====
/-
  The data a trip moves between the arrays in HBM and the scratches: a chunk's 256 words of the flattened index
  array as its copy into an index scratch leaves them, and a chunk's rows of the result as the copy-out of the
  [256,64] scratch leaves them.
-/
import proofs.«206585_g20916490731584_cont_8to1_1403_18_alg».proof.Proof.Common
import proofs.«206585_g20916490731584_cont_8to1_1403_18_alg».proof.Proof.Tile.Val
import proofs.«206585_g20916490731584_cont_8to1_1403_18_alg».proof.Proof.Tile.Base

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v1_scv : Memref Cert.KernelIdeal.sig Kind.scVector Space.hbm Cert.KernelIdeal.S1003520x128 EltTy.f32)
local notation "iV" => (Memref.whole Cert.KernelIdeal.main_v2_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x64 EltTy.f32)
local notation "a5V" => (Memref.whole Cert.KernelIdeal.cc1_scratch0 : Memref Cert.KernelIdeal.sig Kind.scVector Space.vmem Cert.KernelIdeal.S256 EltTy.i32)
local notation "a6V" => (Memref.whole Cert.KernelIdeal.cc1_scratch1 : Memref Cert.KernelIdeal.sig Kind.scVector Space.vmem Cert.KernelIdeal.S256 EltTy.i32)
local notation "a7V" => (Memref.whole Cert.KernelIdeal.cc1_scratch2 : Memref Cert.KernelIdeal.sig Kind.scVector Space.vmem Cert.KernelIdeal.S256x128 EltTy.f32)
local notation "a8V" => (Memref.whole Cert.KernelIdeal.cc1_scratch3 : Memref Cert.KernelIdeal.sig Kind.scVector Space.vmem Cert.KernelIdeal.S256x128 EltTy.f32)
local notation "a9V" => (Memref.whole Cert.KernelIdeal.cc1_scratch4 : Memref Cert.KernelIdeal.sig Kind.scVector Space.vmem Cert.KernelIdeal.S256x64 EltTy.f32)

variable [FloatOps F]

omit [FloatOps F] in
/-- The 256 words at offset n of the flattened index array, read through the slice the copy addresses. -/
theorem idx_chunk (d : Dev nD) (fi : Buf (Elt F) (iLoc d)) (off : Fin 1 → ℕ) (hinb : ∀ a, off a + S256.size a ≤ S819200.size a) (m base : ℕ)
    (hoff : off = ![m]) (hm : m = base)
    (pay : S256.Idx → BitVec 32)
    (hpay : pay = ((iV).slice (Rect.unit (s := S819200) off S256.size hinb) (fun _ => rfl)).view.read (Elt F) fi) (x : S256.Idx) :
    pay x = idxAt fi (base + (x 0).val) := by
  subst hpay hoff hm
  have hx : (x 0).val < 256 := (x 0).isLt
  have hb : m + 256 ≤ 819200 := hinb 0
  unfold idxAt
  rw [dif_pos (by omega)]
  show fi (((iV).slice (Rect.unit (s := S819200) ![m] S256.size hinb) (fun _ => rfl)).view.emb x) = _
  congr 1
  funext a
  match a with
  | ⟨0, _⟩ =>
    apply Fin.ext
    show m + 1 * (x 0).val = m + (x 0).val
    omega

omit [FloatOps F] in
/-- Slot 0's index scratch after the copy of a chunk's words into it. -/
theorem lst_chunk0 (d : Dev nD) (L : grid1.Coords) (fi : Buf (Elt F) (iLoc d)) (l0 : Buf (Elt F) ((V d (cV L) (jV L)).loc cc1_scratch0))
    (off : Fin 1 → ℕ) (hinb : ∀ a, off a + S256.size a ≤ S819200.size a) (m base : ℕ) (hoff : off = ![m]) (hm : m = base)
    (pay : S256.Idx → BitVec 32)
    (hpay : pay = ((iV).slice (Rect.unit (s := S819200) off S256.size hinb) (fun _ => rfl)).view.read (Elt F) fi) :
    ∀ x : S256.Idx, (View.write (Elt F) (a5V).view l0 pay Finset.univ) x = idxAt fi (base + (x 0).val) := fun x =>
  (congrFun (View.write_whole_univ cc1_scratch0 l0 pay) x).trans (idx_chunk d fi off hinb m base hoff hm pay hpay x)

omit [FloatOps F] in
/-- Slot 1's index scratch after the copy of a chunk's words into it. -/
theorem lst_chunk1 (d : Dev nD) (L : grid1.Coords) (fi : Buf (Elt F) (iLoc d)) (l0 : Buf (Elt F) ((V d (cV L) (jV L)).loc cc1_scratch1))
    (off : Fin 1 → ℕ) (hinb : ∀ a, off a + S256.size a ≤ S819200.size a) (m base : ℕ) (hoff : off = ![m]) (hm : m = base)
    (pay : S256.Idx → BitVec 32)
    (hpay : pay = ((iV).slice (Rect.unit (s := S819200) off S256.size hinb) (fun _ => rfl)).view.read (Elt F) fi) :
    ∀ x : S256.Idx, (View.write (Elt F) (a6V).view l0 pay Finset.univ) x = idxAt fi (base + (x 0).val) := fun x =>
  (congrFun (View.write_whole_univ cc1_scratch1 l0 pay) x).trans (idx_chunk d fi off hinb m base hoff hm pay hpay x)

/-- Off chunk t's rows, the result's rows before trip t and before trip t + 1 are the same. -/
theorem out_rest (L : grid1.Coords) (k : Fin k1_t1_loop.trips) (fi : S819200.Idx → BitVec 32) (fy : S1003520x128.Idx → Elt F .f32)
    (fo : S819200x64.Idx → Elt F .f32) :
    ∀ i ∈ oSet (wOf L) \ (oChK L k).view.set, mixO fi fy fo (baseOf L k.val) i = mixO fi fy fo (baseOf L (k.val + 1)) i := by
  intro i hi
  rw [Finset.mem_sdiff, mem_oSet, mem_oChK] at hi
  have e : baseOf L (k.val + 1) = baseOf L k.val + 256 := by unfold baseOf; omega
  unfold mixO
  rw [e]
  by_cases h : (i 0).val < baseOf L k.val
  · rw [if_pos h, if_pos (by omega)]
  · rw [if_neg h, if_neg (by omega)]

/-- On chunk t's rows, the copy-out of a [256,64] scratch holding columns 0..63 of the gathered chunk leaves the
    result's rows as they are before trip t + 1. -/
theorem out_chunk (L : grid1.Coords) (k : Fin k1_t1_loop.trips) (fi : S819200.Idx → BitVec 32) (fy : S1003520x128.Idx → Elt F .f32)
    (fo : S819200x64.Idx → Elt F .f32) (g : S256x128.Idx → Elt F .f32) (hg : Gathered fi fy (baseOf L k.val) g)
    (f : (oChK L k).view.ty.Contents (Elt F)) (pay : (Rect.whole S256x64).shape.Idx → Elt F .f32) (hpay : pay = cols g) :
    ∀ i ∈ (oChK L k).view.set, (oChK L k).view.writes (Elt F) f [⟨Rect.whole S256x64, pay⟩] i = mixO fi fy fo (baseOf L (k.val + 1)) i := by
  intro i hi
  obtain ⟨x, -, rfl⟩ := Finset.mem_map.mp hi
  have e : (oChK L k).view.emb x = ((oChK L k).view.slice (Rect.whole S256x64)).emb x := by
    show _ = (oChK L k).view.emb ((Rect.whole S256x64).emb x)
    rw [Rect.emb_whole_apply]
  rw [View.writes_singleton, e, View.write_emb_of_mem _ _ (Finset.mem_univ x), ← e]
  subst hpay
  show cols g x = _
  have hx0 : (x 0).val < 256 := ValueIdx.idx2_lt0 x
  have e0 : (((oChK L k).view.emb x) 0).val = baseOf L k.val + (x 0).val := by
    show (k1_off20 L k) 0 + 1 * (x 0).val = _
    rw [k1_off20_eq]
    unfold baseOf
    rw [wOf_val]
    show 51200 * (L 1).val + 25600 * (L 0).val + 256 * k.val + 1 * (x 0).val = _
    omega
  have e1 : (((oChK L k).view.emb x) 1).val = (x 1).val := by
    show (k1_off20 L k) 1 + 1 * (x 1).val = _
    rw [k1_off20_eq]
    show 0 + 1 * (x 1).val = _
    omega
  have e : baseOf L (k.val + 1) = baseOf L k.val + 256 := by unfold baseOf; omega
  unfold mixO
  rw [if_pos (by rw [e0, e]; omega)]
  exact cols_gathered hg x _ e0 e1

/-- Before the first trip the result's rows are as the task found them; after the last they are the task's rows. -/
theorem mixO_zero (L : grid1.Coords) (fi : S819200.Idx → BitVec 32) (fy : S1003520x128.Idx → Elt F .f32) (fo : S819200x64.Idx → Elt F .f32) :
    ∀ i ∈ oSet (wOf L), fo i = mixO fi fy fo (baseOf L 0) i := by
  intro i hi
  rw [mem_oSet] at hi
  unfold mixO baseOf
  rw [if_neg (by omega)]

theorem mixO_last (L : grid1.Coords) (fi : S819200.Idx → BitVec 32) (fy : S1003520x128.Idx → Elt F .f32) (fo : S819200x64.Idx → Elt F .f32) :
    ∀ i ∈ oSet (wOf L), mixO fi fy fo (baseOf L 100) i = rowsOf fi fy i := by
  intro i hi
  rw [mem_oSet] at hi
  unfold mixO baseOf
  rw [if_pos (by omega)]

end Cert.Proof.KI

end
-- ==== Proof.Tile.Trip.lean ====
/-
  One trip of the task's loop over its hundred chunks, from the invariant before the trip to the invariant after it:
  for an even trip, for an odd trip that is not the last, and for the last.
-/
import proofs.«206585_g20916490731584_cont_8to1_1403_18_alg».proof.Proof.Common
import proofs.«206585_g20916490731584_cont_8to1_1403_18_alg».proof.Proof.Tile.Val
import proofs.«206585_g20916490731584_cont_8to1_1403_18_alg».proof.Proof.Tile.Base
import proofs.«206585_g20916490731584_cont_8to1_1403_18_alg».proof.Proof.Tile.Inner
import proofs.«206585_g20916490731584_cont_8to1_1403_18_alg».proof.Proof.Tile.Gather
import proofs.«206585_g20916490731584_cont_8to1_1403_18_alg».proof.Proof.Tile.Out

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v1_scv : Memref Cert.KernelIdeal.sig Kind.scVector Space.hbm Cert.KernelIdeal.S1003520x128 EltTy.f32)
local notation "iV" => (Memref.whole Cert.KernelIdeal.main_v2_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x64 EltTy.f32)
local notation "a5V" => (Memref.whole Cert.KernelIdeal.cc1_scratch0 : Memref Cert.KernelIdeal.sig Kind.scVector Space.vmem Cert.KernelIdeal.S256 EltTy.i32)
local notation "a6V" => (Memref.whole Cert.KernelIdeal.cc1_scratch1 : Memref Cert.KernelIdeal.sig Kind.scVector Space.vmem Cert.KernelIdeal.S256 EltTy.i32)
local notation "a7V" => (Memref.whole Cert.KernelIdeal.cc1_scratch2 : Memref Cert.KernelIdeal.sig Kind.scVector Space.vmem Cert.KernelIdeal.S256x128 EltTy.f32)
local notation "a8V" => (Memref.whole Cert.KernelIdeal.cc1_scratch3 : Memref Cert.KernelIdeal.sig Kind.scVector Space.vmem Cert.KernelIdeal.S256x128 EltTy.f32)
local notation "a9V" => (Memref.whole Cert.KernelIdeal.cc1_scratch4 : Memref Cert.KernelIdeal.sig Kind.scVector Space.vmem Cert.KernelIdeal.S256x64 EltTy.f32)

variable [FloatOps F]

/-! ## The two slots before trip t, and the outer loop's invariant -/

/-- Before trip t < 100 the gather of chunk t is in flight in slot t mod 2 and the other slot is free; after the last
    trip both are free. Slot 0's gathers hold the left half of the task's share of the repacked table, slot 1's the
    right half. -/
def slots (d : Dev nD) (L : grid1.Coords) (qy : PosShare TreeShare) (fi : Buf (Elt F) (iLoc d)) (fy : Buf (Elt F) (yLoc d)) (t : ℕ) : sProp 𝕄 :=
  if t < 100 then
    (if t % 2 = 0 then iprop(fl0 d L qy.left fi fy (baseOf L t) ∗ free1 d L qy.right fy)
      else iprop(fl1 d L qy.right fi fy (baseOf L t) ∗ free0 d L qy.left fy))
  else iprop(free0 d L qy.left fy ∗ free1 d L qy.right fy)

omit [FloatOps F] in
theorem slots_even (d : Dev nD) (L : grid1.Coords) (qy : PosShare TreeShare) (fi : Buf (Elt F) (iLoc d)) (fy : Buf (Elt F) (yLoc d)) {t : ℕ}
    (h : t < 100) (he : t % 2 = 0) : slots d L qy fi fy t = iprop(fl0 d L qy.left fi fy (baseOf L t) ∗ free1 d L qy.right fy) := by
  unfold slots; rw [if_pos h, if_pos he]
omit [FloatOps F] in
theorem slots_odd (d : Dev nD) (L : grid1.Coords) (qy : PosShare TreeShare) (fi : Buf (Elt F) (iLoc d)) (fy : Buf (Elt F) (yLoc d)) {t : ℕ}
    (h : t < 100) (ho : t % 2 = 1) : slots d L qy fi fy t = iprop(fl1 d L qy.right fi fy (baseOf L t) ∗ free0 d L qy.left fy) := by
  unfold slots; rw [if_pos h, if_neg (by omega)]
omit [FloatOps F] in
theorem slots_done (d : Dev nD) (L : grid1.Coords) (qy : PosShare TreeShare) (fi : Buf (Elt F) (iLoc d)) (fy : Buf (Elt F) (yLoc d)) {t : ℕ}
    (h : ¬ t < 100) : slots d L qy fi fy t = iprop(free0 d L qy.left fy ∗ free1 d L qy.right fy) := by
  unfold slots; rw [if_neg h]

/-- Before trip t of the task: the index array and what is left of the repacked table's share beside the two
    slots' halves, the task's rows of the result done below chunk t, the [256,64] scratch, the slots, the three
    scoped semaphores of a trip at zero, and what the subcore owes with the waits made so far. -/
def outerInv (d : Dev nD) (L : grid1.Coords) (qi qy : PosShare TreeShare) (fi : Buf (Elt F) (iLoc d)) (fy : Buf (Elt F) (yLoc d))
    (fo : Buf (Elt F) (oLoc d)) (O : CellTallies nD τ sig (HIx 1)) (W : Waits sig (HIx 1)) (t : ℕ) (_ : Unit) : sProp 𝕄 :=
  iprop(Transfers.MayWaits (V d (cV L) (jV L)) (default : HIx 1) O
    ∗ ((iV).view.loc (V d (cV L) (jV L)) ↦{qi} fi)
    ∗ ((yV).view.loc (V d (cV L) (jV L)) ↦[Finset.univ \ (yAllK).view.set]{qy.left} fy)
    ∗ ((yV).view.loc (V d (cV L) (jV L)) ↦[Finset.univ \ (yAllK).view.set]{qy.right} fy)
    ∗ (oLoc d ↦[oSet (wOf L)]{fullShare} mixO fi fy fo (baseOf L t))
    ∗ (∃ f9 : Buf (Elt F) ((V d (cV L) (jV L)).loc cc1_scratch4), (a9V).view.loc (V d (cV L) (jV L)) ↦{fullShare} f9)
    ∗ slots d L qy fi fy t
    ∗ semVal (cellOf d L cc1_scoped1) 0 ∗ semVal (cellOf d L cc1_scoped2) 0 ∗ semVal (cellOf d L cc1_scoped3) 0
    ∗ ∃ W', ⌜∀ p ∈ W', p ∈ W ∨ p.2 = none⌝ ∗ owes (V d (cV L) (jV L)) O W')

omit [FloatOps F] in
theorem dlv0_eq (d : Dev nD) (L : grid1.Coords) (q : PosShare TreeShare) (fi : Buf (Elt F) (iLoc d)) (fy : Buf (Elt F) (yLoc d)) (base : ℕ) :
    dlv0 d L q fi fy base
      = iprop(∃ g : Buf (Elt F) ((V d (cV L) (jV L)).loc cc1_scratch2), ∃ l : Buf (Elt F) ((V d (cV L) (jV L)).loc cc1_scratch0),
          ⌜Gathered fi fy base g⌝ ∗ ((a7V).view.loc (V d (cV L) (jV L)) ↦{fullShare} g) ∗ ((a5V).view.loc (V d (cV L) (jV L)) ↦{fullShare} l)
            ∗ ((yAllK).view.loc (V d (cV L) (jV L)) ↦[(yAllK).view.set]{q} fy)) := rfl

omit [FloatOps F] in
theorem dlv1_eq (d : Dev nD) (L : grid1.Coords) (q : PosShare TreeShare) (fi : Buf (Elt F) (iLoc d)) (fy : Buf (Elt F) (yLoc d)) (base : ℕ) :
    dlv1 d L q fi fy base
      = iprop(∃ g : Buf (Elt F) ((V d (cV L) (jV L)).loc cc1_scratch3), ∃ l : Buf (Elt F) ((V d (cV L) (jV L)).loc cc1_scratch1),
          ⌜Gathered fi fy base g⌝ ∗ ((a8V).view.loc (V d (cV L) (jV L)) ↦{fullShare} g) ∗ ((a6V).view.loc (V d (cV L) (jV L)) ↦{fullShare} l)
            ∗ ((yAllK).view.loc (V d (cV L) (jV L)) ↦[(yAllK).view.set]{q} fy)) := rfl

omit [FloatOps F] in
/-- One more wait of the task's own is recorded. -/
theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 4000000 in
/-- Trip t of the task, t even and not the last: chunk t + 1's words are fetched into slot 1's index scratch and its gather issued; slot 0's
    gather of chunk t is waited for, its columns 0..63 selected into the [256,64] scratch and copied out to the chunk's rows. -/
theorem trip_even (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1))
    (k : Fin k1_t1_loop.trips) (u : Unit) (hpar : k.val % 2 = 0) (hlast : k.val + 1 < 100) :
    outerInv d L qi qy fi fy fo O W k.val u
      ⊢ wp frame (wpE (defs₀ (F := F)) 𝒱₀ (V d (cV L) (jV L)) none) Set.univ
          (k1_t1_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k u)
          (outerInv d L qi qy fi fy fo O W (k.val + 1)) := by
  have hk : k.val < 100 := trips1 ▸ k.isLt
  have hk1 : k.val + 1 < 100 := hlast
  have k1_h1 : k1_cond1 k = 1#1 := (cond1_iff k).mpr hk1
  have k1_h2 : ¬ k1_cond2 k = 1#1 := fun h => by have := (cond2_iff k).mp h; omega
  have k1_h3 : k1_cond3 k = 1#1 := (cond3_iff k).mpr hpar
  have k1_h4 : k1_cond4 k = 1#1 := (cond4_iff k).mpr hpar
  have k1_h5 : ¬ k1_cond5 k = 1#1 := fun h => by have := (cond5_iff k).mp h; omega
  unfold outerInv k1_t1_body
  rw [slots_even d L qy fi fy hk hpar]
  rw [slots_odd d L qy fi fy hk1 (by omega)]
  unfold free1
  iintro ⟨#Hmw, Hi, Hyr0, Hyr1, Ho, ⟨%f9, H9⟩, ⟨Hfl, ⟨%lo, Hlo⟩, ⟨%go, Hgo⟩, Hyo, Hso⟩, Hc1, Hc2, Hc3, %W', %hW', HO⟩
  ihave Ho' := (pointsTo_split_subset (q := fullShare) (f := mixO fi fy fo (baseOf L k.val)) (oChK_subset L k)).1 $$ Ho
  icases Ho' with ⟨HoC0, HoR⟩
  ihave HoC := (Entails.of_eq (show (oLoc d ↦[(oChK L k).view.set]{fullShare} mixO fi fy fo (baseOf L k.val) : sProp 𝕄)
      = ((oChK L k).view.loc (V d (cV L) (jV L)) ↦[(oChK L k).view.set]{fullShare} mixO fi fy fo (baseOf L k.val)) from rfl)) $$ HoC0
  sl_exec
  -- the next chunk's words are in the other slot's index scratch: its gather is issued
  iapply (gather1 d L qy.right fi fy hin (baseOf L (k.val + 1)) _ _
      (lst_chunk1 d L fi lo _ _ _ (baseOf L (k.val + 1)) (k1_off3_eq L k) (by unfold baseOf; rw [wOf_val]; omega) _ rfl)) $$ [Hyo Hgo Hlo Hso]
  · isplitl [Hyo]; · iexact Hyo
    isplitl [Hgo]; · iexact Hgo
    isplitl [Hlo]; · iexact Hlo
    iexact Hso
  iintro Hflo
  sl_exec
  -- the wait for this trip's gather
  ihave Hfl' := (Entails.of_eq (fl0_eq d L qy.left fi fy (baseOf L k.val))) $$ Hfl
  iapply (Transfers.wp_waitLocalO countersEmb 𝒱₀ (V d (cV L) (jV L)) none (default : HIx 1) (rfl : (a7V).view.dmaCredit = _)) $$ [Hfl' HO]
  · isplitl [Hfl']; · iexact Hfl'
    isplitl [HO]; · iexact HO
    iapply (Transfers.MayWaits.elim (SemLoc.dma cc1_scratch5.sem)) $$ Hmw
  iintro ⟨HD, Hss, HO⟩
  ihave HD' := (Entails.of_eq (dlv0_eq d L qy.left fi fy (baseOf L k.val))) $$ HD
  icases HD' with ⟨%gs, %ls, %hgs, Hgs, Hls, Hys⟩
  sl_exec
  -- the select loop
  sl_for (innerInv0 (F := F) d L gs) $$ [Hgs H9]
  case region => intro kk uu; exact inner0_step d L k k1_h4 gs kk uu
  · unfold innerInv0
    isplitl [Hgs]; · iexact Hgs
    iexists f9
    isplitl [H9]; · iexact H9
    ipureintro; intro y hy; exfalso; omega
  iintro %_ HI
  unfold innerInv0
  icases HI with ⟨Hgs, %f9', H9, %hdone⟩
  have hf9 : f9' = cols gs := done_all (done_mono (by show 4 * k1_t2_loop.trips = 256; rw [trips2]) hdone)
  -- the copy-out
  sl_exec
  sl_step
  ihave HoC' := (Entails.of_eq (pointsTo_congr (out_chunk L k fi fy fo gs hgs _ _ hf9))) $$ HoC
  ihave HoR' := (Entails.of_eq (pointsTo_congr (q := fullShare) (out_rest L k fi fy fo))) $$ HoR
  ihave Ho2 := (pointsTo_split_subset (ℓ := oLoc d) (q := fullShare) (f := mixO fi fy fo (baseOf L (k.val + 1))) (oChK_subset L k)).2 $$ [HoC' HoR']
  · isplitl [HoC'] <;> iassumption
  isplitl []; · iexact Hmw
  isplitl [Hi]; · iexact Hi
  isplitl [Hyr0]; · iexact Hyr0
  isplitl [Hyr1]; · iexact Hyr1
  isplitl [Ho2]; · iexact Ho2
  isplitl [H9]; · iexists _; iexact H9
  isplitl [Hflo Hls Hgs Hys Hss]
  · isplitl [Hflo]; · iexact Hflo
    unfold free0
    isplitl [Hls]; · iexists _; iexact Hls
    isplitl [Hgs]; · iexists _; iexact Hgs
    isplitl [Hys]; · iexact Hys
    iexact Hss
  isplitl [Hc1]; · iexact Hc1
  isplitl [Hc2]; · iexact Hc2
  isplitl [Hc3]; · iexact Hc3
  iexists _
  isplitr
  swap; · iexact HO
  ipureintro
  exact (waits_insert (waits_insert (waits_insert hW')))

set_option maxHeartbeats 4000000 in
/-- Trip t of the task, t odd and not the last: chunk t + 1's words are fetched into slot 0's index scratch and its gather issued; slot 1's
    gather of chunk t is waited for, its columns 0..63 selected into the [256,64] scratch and copied out to the chunk's rows. -/
theorem trip_odd (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1))
    (k : Fin k1_t1_loop.trips) (u : Unit) (hpar : k.val % 2 = 1) (hlast : k.val + 1 < 100) :
    outerInv d L qi qy fi fy fo O W k.val u
      ⊢ wp frame (wpE (defs₀ (F := F)) 𝒱₀ (V d (cV L) (jV L)) none) Set.univ
          (k1_t1_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k u)
          (outerInv d L qi qy fi fy fo O W (k.val + 1)) := by
  have hk : k.val < 100 := trips1 ▸ k.isLt
  have hk1 : k.val + 1 < 100 := hlast
  have k1_h1 : k1_cond1 k = 1#1 := (cond1_iff k).mpr hk1
  have k1_h2 : k1_cond2 k = 1#1 := (cond2_iff k).mpr hpar
  have k1_h3 : ¬ k1_cond3 k = 1#1 := fun h => by have := (cond3_iff k).mp h; omega
  have k1_h4 : ¬ k1_cond4 k = 1#1 := fun h => by have := (cond4_iff k).mp h; omega
  have k1_h5 : k1_cond5 k = 1#1 := (cond5_iff k).mpr hpar
  unfold outerInv k1_t1_body
  rw [slots_odd d L qy fi fy hk hpar]
  rw [slots_even d L qy fi fy hk1 (by omega)]
  unfold free0
  iintro ⟨#Hmw, Hi, Hyr0, Hyr1, Ho, ⟨%f9, H9⟩, ⟨Hfl, ⟨%lo, Hlo⟩, ⟨%go, Hgo⟩, Hyo, Hso⟩, Hc1, Hc2, Hc3, %W', %hW', HO⟩
  ihave Ho' := (pointsTo_split_subset (q := fullShare) (f := mixO fi fy fo (baseOf L k.val)) (oChK_subset L k)).1 $$ Ho
  icases Ho' with ⟨HoC0, HoR⟩
  ihave HoC := (Entails.of_eq (show (oLoc d ↦[(oChK L k).view.set]{fullShare} mixO fi fy fo (baseOf L k.val) : sProp 𝕄)
      = ((oChK L k).view.loc (V d (cV L) (jV L)) ↦[(oChK L k).view.set]{fullShare} mixO fi fy fo (baseOf L k.val)) from rfl)) $$ HoC0
  sl_exec
  -- the next chunk's words are in the other slot's index scratch: its gather is issued
  iapply (gather0 d L qy.left fi fy hin (baseOf L (k.val + 1)) _ _
      (lst_chunk0 d L fi lo _ _ _ (baseOf L (k.val + 1)) (k1_off2_eq L k) (by unfold baseOf; rw [wOf_val]; omega) _ rfl)) $$ [Hyo Hgo Hlo Hso]
  · isplitl [Hyo]; · iexact Hyo
    isplitl [Hgo]; · iexact Hgo
    isplitl [Hlo]; · iexact Hlo
    iexact Hso
  iintro Hflo
  sl_exec
  -- the wait for this trip's gather
  ihave Hfl' := (Entails.of_eq (fl1_eq d L qy.right fi fy (baseOf L k.val))) $$ Hfl
  iapply (Transfers.wp_waitLocalO countersEmb 𝒱₀ (V d (cV L) (jV L)) none (default : HIx 1) (rfl : (a8V).view.dmaCredit = _)) $$ [Hfl' HO]
  · isplitl [Hfl']; · iexact Hfl'
    isplitl [HO]; · iexact HO
    iapply (Transfers.MayWaits.elim (SemLoc.dma cc1_scratch6.sem)) $$ Hmw
  iintro ⟨HD, Hss, HO⟩
  ihave HD' := (Entails.of_eq (dlv1_eq d L qy.right fi fy (baseOf L k.val))) $$ HD
  icases HD' with ⟨%gs, %ls, %hgs, Hgs, Hls, Hys⟩
  sl_exec
  -- the select loop
  sl_for (innerInv1 (F := F) d L gs) $$ [Hgs H9]
  case region => intro kk uu; exact inner1_step d L k k1_h5 gs kk uu
  · unfold innerInv1
    isplitl [Hgs]; · iexact Hgs
    iexists f9
    isplitl [H9]; · iexact H9
    ipureintro; intro y hy; exfalso; omega
  iintro %_ HI
  unfold innerInv1
  icases HI with ⟨Hgs, %f9', H9, %hdone⟩
  have hf9 : f9' = cols gs := done_all (done_mono (by show 4 * k1_t3_loop.trips = 256; rw [trips3]) hdone)
  -- the copy-out
  sl_exec
  sl_step
  ihave HoC' := (Entails.of_eq (pointsTo_congr (out_chunk L k fi fy fo gs hgs _ _ hf9))) $$ HoC
  ihave HoR' := (Entails.of_eq (pointsTo_congr (q := fullShare) (out_rest L k fi fy fo))) $$ HoR
  ihave Ho2 := (pointsTo_split_subset (ℓ := oLoc d) (q := fullShare) (f := mixO fi fy fo (baseOf L (k.val + 1))) (oChK_subset L k)).2 $$ [HoC' HoR']
  · isplitl [HoC'] <;> iassumption
  isplitl []; · iexact Hmw
  isplitl [Hi]; · iexact Hi
  isplitl [Hyr0]; · iexact Hyr0
  isplitl [Hyr1]; · iexact Hyr1
  isplitl [Ho2]; · iexact Ho2
  isplitl [H9]; · iexists _; iexact H9
  isplitl [Hflo Hls Hgs Hys Hss]
  · isplitl [Hflo]; · iexact Hflo
    unfold free1
    isplitl [Hls]; · iexists _; iexact Hls
    isplitl [Hgs]; · iexists _; iexact Hgs
    isplitl [Hys]; · iexact Hys
    iexact Hss
  isplitl [Hc1]; · iexact Hc1
  isplitl [Hc2]; · iexact Hc2
  isplitl [Hc3]; · iexact Hc3
  iexists _
  isplitr
  swap; · iexact HO
  ipureintro
  exact (waits_insert (waits_insert (waits_insert hW')))

set_option maxHeartbeats 4000000 in
/-- Trip t of the task, t odd and the last: slot 1's
    gather of chunk t is waited for, its columns 0..63 selected into the [256,64] scratch and copied out to the chunk's rows. -/
theorem trip_last (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1))
    (k : Fin k1_t1_loop.trips) (u : Unit) (hpar : k.val % 2 = 1) (hlast : ¬ k.val + 1 < 100) :
    outerInv d L qi qy fi fy fo O W k.val u
      ⊢ wp frame (wpE (defs₀ (F := F)) 𝒱₀ (V d (cV L) (jV L)) none) Set.univ
          (k1_t1_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k u)
          (outerInv d L qi qy fi fy fo O W (k.val + 1)) := by
  have hk : k.val < 100 := trips1 ▸ k.isLt
  have hk1 : ¬ k.val + 1 < 100 := hlast
  have k1_h1 : ¬ k1_cond1 k = 1#1 := fun h => hk1 ((cond1_iff k).mp h)
  have k1_h2 : k1_cond2 k = 1#1 := (cond2_iff k).mpr hpar
  have k1_h3 : ¬ k1_cond3 k = 1#1 := fun h => by have := (cond3_iff k).mp h; omega
  have k1_h4 : ¬ k1_cond4 k = 1#1 := fun h => by have := (cond4_iff k).mp h; omega
  have k1_h5 : k1_cond5 k = 1#1 := (cond5_iff k).mpr hpar
  unfold outerInv k1_t1_body
  rw [slots_odd d L qy fi fy hk hpar]
  rw [slots_done d L qy fi fy hk1]
  iintro ⟨#Hmw, Hi, Hyr0, Hyr1, Ho, ⟨%f9, H9⟩, ⟨Hfl, Hfreeo⟩, Hc1, Hc2, Hc3, %W', %hW', HO⟩
  ihave Ho' := (pointsTo_split_subset (q := fullShare) (f := mixO fi fy fo (baseOf L k.val)) (oChK_subset L k)).1 $$ Ho
  icases Ho' with ⟨HoC0, HoR⟩
  ihave HoC := (Entails.of_eq (show (oLoc d ↦[(oChK L k).view.set]{fullShare} mixO fi fy fo (baseOf L k.val) : sProp 𝕄)
      = ((oChK L k).view.loc (V d (cV L) (jV L)) ↦[(oChK L k).view.set]{fullShare} mixO fi fy fo (baseOf L k.val)) from rfl)) $$ HoC0
  sl_exec
  -- the wait for this trip's gather
  ihave Hfl' := (Entails.of_eq (fl1_eq d L qy.right fi fy (baseOf L k.val))) $$ Hfl
  iapply (Transfers.wp_waitLocalO countersEmb 𝒱₀ (V d (cV L) (jV L)) none (default : HIx 1) (rfl : (a8V).view.dmaCredit = _)) $$ [Hfl' HO]
  · isplitl [Hfl']; · iexact Hfl'
    isplitl [HO]; · iexact HO
    iapply (Transfers.MayWaits.elim (SemLoc.dma cc1_scratch6.sem)) $$ Hmw
  iintro ⟨HD, Hss, HO⟩
  ihave HD' := (Entails.of_eq (dlv1_eq d L qy.right fi fy (baseOf L k.val))) $$ HD
  icases HD' with ⟨%gs, %ls, %hgs, Hgs, Hls, Hys⟩
  sl_exec
  -- the select loop
  sl_for (innerInv1 (F := F) d L gs) $$ [Hgs H9]
  case region => intro kk uu; exact inner1_step d L k k1_h5 gs kk uu
  · unfold innerInv1
    isplitl [Hgs]; · iexact Hgs
    iexists f9
    isplitl [H9]; · iexact H9
    ipureintro; intro y hy; exfalso; omega
  iintro %_ HI
  unfold innerInv1
  icases HI with ⟨Hgs, %f9', H9, %hdone⟩
  have hf9 : f9' = cols gs := done_all (done_mono (by show 4 * k1_t3_loop.trips = 256; rw [trips3]) hdone)
  -- the copy-out
  sl_exec
  sl_step
  ihave HoC' := (Entails.of_eq (pointsTo_congr (out_chunk L k fi fy fo gs hgs _ _ hf9))) $$ HoC
  ihave HoR' := (Entails.of_eq (pointsTo_congr (q := fullShare) (out_rest L k fi fy fo))) $$ HoR
  ihave Ho2 := (pointsTo_split_subset (ℓ := oLoc d) (q := fullShare) (f := mixO fi fy fo (baseOf L (k.val + 1))) (oChK_subset L k)).2 $$ [HoC' HoR']
  · isplitl [HoC'] <;> iassumption
  isplitl []; · iexact Hmw
  isplitl [Hi]; · iexact Hi
  isplitl [Hyr0]; · iexact Hyr0
  isplitl [Hyr1]; · iexact Hyr1
  isplitl [Ho2]; · iexact Ho2
  isplitl [H9]; · iexists _; iexact H9
  isplitl [Hfreeo Hls Hgs Hys Hss]
  · isplitl [Hfreeo]; · iexact Hfreeo
    unfold free1
    isplitl [Hls]; · iexists _; iexact Hls
    isplitl [Hgs]; · iexists _; iexact Hgs
    isplitl [Hys]; · iexact Hys
    iexact Hss
  isplitl [Hc1]; · iexact Hc1
  isplitl [Hc2]; · iexact Hc2
  isplitl [Hc3]; · iexact Hc3
  iexists _
  isplitr
  swap; · iexact HO
  ipureintro
  exact (waits_insert (waits_insert hW'))

end Cert.Proof.KI

end
-- ==== Proof.Tile.lean ====
/-
  The body of one vector subcore's task of the lookup's SparseCore kernel: worker w = 2 · subcore + core gathers the
  rows of the repacked table that words [25600 w, 25600 (w + 1)) of the flattened index array select, 256 at a time
  through two slots of scratch, and writes columns 0..63 of them to its rows of the result. From read shares of the
  index array and the repacked table and its own rows of the result, it leaves those rows at the whole-array
  function rowsOf of the two arrays.
-/
import proofs.«206585_g20916490731584_cont_8to1_1403_18_alg».proof.Proof.Common
import proofs.«206585_g20916490731584_cont_8to1_1403_18_alg».proof.Proof.Tile.Val
import proofs.«206585_g20916490731584_cont_8to1_1403_18_alg».proof.Proof.Tile.Base
import proofs.«206585_g20916490731584_cont_8to1_1403_18_alg».proof.Proof.Tile.Inner
import proofs.«206585_g20916490731584_cont_8to1_1403_18_alg».proof.Proof.Tile.Gather
import proofs.«206585_g20916490731584_cont_8to1_1403_18_alg».proof.Proof.Tile.Out
import proofs.«206585_g20916490731584_cont_8to1_1403_18_alg».proof.Proof.Tile.Trip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v1_scv : Memref Cert.KernelIdeal.sig Kind.scVector Space.hbm Cert.KernelIdeal.S1003520x128 EltTy.f32)
local notation "iV" => (Memref.whole Cert.KernelIdeal.main_v2_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x64 EltTy.f32)
local notation "a5V" => (Memref.whole Cert.KernelIdeal.cc1_scratch0 : Memref Cert.KernelIdeal.sig Kind.scVector Space.vmem Cert.KernelIdeal.S256 EltTy.i32)
local notation "a6V" => (Memref.whole Cert.KernelIdeal.cc1_scratch1 : Memref Cert.KernelIdeal.sig Kind.scVector Space.vmem Cert.KernelIdeal.S256 EltTy.i32)
local notation "a7V" => (Memref.whole Cert.KernelIdeal.cc1_scratch2 : Memref Cert.KernelIdeal.sig Kind.scVector Space.vmem Cert.KernelIdeal.S256x128 EltTy.f32)
local notation "a8V" => (Memref.whole Cert.KernelIdeal.cc1_scratch3 : Memref Cert.KernelIdeal.sig Kind.scVector Space.vmem Cert.KernelIdeal.S256x128 EltTy.f32)
local notation "a9V" => (Memref.whole Cert.KernelIdeal.cc1_scratch4 : Memref Cert.KernelIdeal.sig Kind.scVector Space.vmem Cert.KernelIdeal.S256x64 EltTy.f32)

variable [FloatOps F]

set_option maxHeartbeats 4000000 in
/-- The task of the vector subcore at grid point L: the first chunk's words fetched and its gather issued, the hundred
    trips by the invariant, and the subcore's buffers and semaphores handed back. -/
theorem tile_body (hF : (K (F := F)).Facts) (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1)) (hO : ∀ g, O g none = 0) :
    iprop(levAts (K (F := F)).L (K (F := F)).lev ∗ emp
        ∗ ((iLoc d ↦{qi} fi) ∗ (yLoc d ↦{qy} fy) ∗ oLoc d ↦[oSet (wOf L)]{fullShare} fo)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__gather L (Memref.whole main_v1_scv) (Memref.isWhole_whole _) (Memref.whole main_v2_scv) (Memref.isWhole_whole _) (Memref.whole main_v3_scv) (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _)
            cc1_scratch5 cc1_scratch6 cc1_scoped0 cc1_scoped1 cc1_scoped2 cc1_scoped3)
          fun _ => iprop(((iLoc d ↦{qi} fi) ∗ (yLoc d ↦{qy} fy) ∗ oLoc d ↦[oSet (wOf L)]{fullShare} rowsOf fi fy)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__gather_eq_skeleton]; unfold cc1__gather_skel
  rw [(K (F := F)).scopedBufs_V hF d (cV L) (jV L), SparseCore.Cfg.scopedSems0_V (Val := Elt F) d (cV L) (jV L), ownSems0_V, ownBufs_V]
  iintro ⟨#Hlv, -, ⟨Hi, Hy, Ho⟩, ⟨⟨%f5, H5⟩, ⟨%f6, H6⟩, ⟨%f7, H7⟩, ⟨%f8, H8⟩, ⟨%f9, H9⟩, Hbufs⟩, ⟨Hs5, Hs6, Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (show (iLoc d ↦{qi} fi : sProp 𝕄) = ((iV).view.loc (V d (cV L) (jV L)) ↦{qi} fi) from rfl)) $$ Hi
  ihave Hy' := (Entails.of_eq (show (yLoc d ↦{qy} fy : sProp 𝕄) = ((yV).view.loc (V d (cV L) (jV L)) ↦{qy} fy) from rfl)) $$ Hy
  ihave H5' := (Entails.of_eq (show ((V d (cV L) (jV L)).loc cc1_scratch0 ↦{fullShare} f5 : sProp 𝕄) = ((a5V).view.loc (V d (cV L) (jV L)) ↦{fullShare} f5) from rfl)) $$ H5
  ihave H6' := (Entails.of_eq (show ((V d (cV L) (jV L)).loc cc1_scratch1 ↦{fullShare} f6 : sProp 𝕄) = ((a6V).view.loc (V d (cV L) (jV L)) ↦{fullShare} f6) from rfl)) $$ H6
  ihave H7' := (Entails.of_eq (show ((V d (cV L) (jV L)).loc cc1_scratch2 ↦{fullShare} f7 : sProp 𝕄) = ((a7V).view.loc (V d (cV L) (jV L)) ↦{fullShare} f7) from rfl)) $$ H7
  ihave H8' := (Entails.of_eq (show ((V d (cV L) (jV L)).loc cc1_scratch3 ↦{fullShare} f8 : sProp 𝕄) = ((a8V).view.loc (V d (cV L) (jV L)) ↦{fullShare} f8) from rfl)) $$ H8
  ihave H9' := (Entails.of_eq (show ((V d (cV L) (jV L)).loc cc1_scratch4 ↦{fullShare} f9 : sProp 𝕄) = ((a9V).view.loc (V d (cV L) (jV L)) ↦{fullShare} f9) from rfl)) $$ H9
  -- the task's share of the repacked table: a half for each slot's gathers, each split at the gathers' view of it
  ihave Hyh := (pointsTo_share (PosShare.mem_left_op_right qy)).1 $$ Hy'
  icases Hyh with ⟨HyL, HyR⟩
  ihave HyL' := (pointsTo_split_subset (q := qy.left) (f := fy) (S := Finset.univ) (Finset.subset_univ (yAllK).view.set)).1 $$ HyL
  icases HyL' with ⟨Hy0, Hyr0⟩
  ihave HyR' := (pointsTo_split_subset (q := qy.right) (f := fy) (S := Finset.univ) (Finset.subset_univ (yAllK).view.set)).1 $$ HyR
  icases HyR' with ⟨Hy1, Hyr1⟩
  -- chunk 0's words into slot 0's index scratch
  sl_exec
  -- slot 0's gather of chunk 0
  iapply (gather0 d L qy.left fi fy hin (baseOf L 0) _ _
      (lst_chunk0 d L fi f5 _ _ _ (baseOf L 0) (k1_off1_eq L) (by unfold baseOf; rw [wOf_val]; omega) _ rfl)) $$ [Hy0 H7' H5' Hs5]
  · isplitl [Hy0]; · iexact Hy0
    isplitl [H7']; · iexact H7'
    isplitl [H5']; · iexact H5'
    iexact Hs5
  iintro Hfl0
  ihave Ho0 := (Entails.of_eq (pointsTo_congr (q := fullShare) (mixO_zero L fi fy fo))) $$ Ho
  -- the hundred trips
  sl_for (outerInv d L qi qy fi fy fo O W) $$ [Hi' Hyr0 Hyr1 Ho0 H9' Hfl0 H6' H8' Hy1 Hs6 Hc1 Hc2 Hc3 HO]
  case region =>
    intro k u
    by_cases hpar : k.val % 2 = 0
    · exact trip_even d L qi qy fi fy fo hin O W k u hpar (by have : k.val < 100 := trips1 ▸ k.isLt; omega)
    · by_cases hlast : k.val + 1 < 100
      · exact trip_odd d L qi qy fi fy fo hin O W k u (by omega) hlast
      · exact trip_last d L qi qy fi fy fo hin O W k u (by omega) hlast
  · unfold outerInv
    rw [slots_even d L qy fi fy (by decide) rfl]
    unfold free1
    isplitl []; · iexact Hmw
    isplitl [Hi']; · iexact Hi'
    isplitl [Hyr0]; · iexact Hyr0
    isplitl [Hyr1]; · iexact Hyr1
    isplitl [Ho0]; · iexact Ho0
    isplitl [H9']; · iexists _; iexact H9'
    isplitl [Hfl0 H6' H8' Hy1 Hs6]
    · isplitl [Hfl0]; · iexact Hfl0
      isplitl [H6']; · iexists _; iexact H6'
      isplitl [H8']; · iexists _; iexact H8'
      isplitl [Hy1]; · iexact Hy1
      iexact Hs6
    isplitl [Hc1]; · iexact Hc1
    isplitl [Hc2]; · iexact Hc2
    isplitl [Hc3]; · iexact Hc3
    iexists _
    isplitr
    swap; · iexact HO
    ipureintro
    exact waits_insert (fun p hp => .inl hp)
  iintro %_ HI
  ihave HI' := (Entails.of_eq (congrArg (fun n => outerInv d L qi qy fi fy fo O W n _) trips1)) $$ HI
  unfold outerInv
  rw [slots_done d L qy fi fy (by decide)]
  unfold free0 free1
  icases HI' with ⟨-, Hi, Hyr0, Hyr1, Ho, ⟨%f9, H9⟩, ⟨⟨⟨%l5, H5⟩, ⟨%g7, H7⟩, Hy0, Hs5⟩, ⟨%l6, H6⟩, ⟨%g8, H8⟩, Hy1, Hs6⟩, Hc1, Hc2, Hc3, %W', %hW', HO⟩
  sl_exec
  sl_step
  -- the share of the repacked table whole again
  ihave HyL := (pointsTo_split_subset (q := qy.left) (f := fy) (S := Finset.univ) (Finset.subset_univ (yAllK).view.set)).2 $$ [Hy0 Hyr0]
  · isplitl [Hy0] <;> iassumption
  ihave HyR := (pointsTo_split_subset (q := qy.right) (f := fy) (S := Finset.univ) (Finset.subset_univ (yAllK).view.set)).2 $$ [Hy1 Hyr1]
  · isplitl [Hy1] <;> iassumption
  ihave Hy := (pointsTo_share (PosShare.mem_left_op_right qy)).2 $$ [HyL HyR]
  · isplitl [HyL] <;> iassumption
  ihave Ho' := (Entails.of_eq (pointsTo_congr (q := fullShare) (mixO_last L fi fy fo))) $$ Ho
  isplitl [Hi Hy Ho']
  · isplitl [Hi]; · iexact Hi
    isplitl [Hy]; · iexact Hy
    iexact Ho'
  isplitl [H5 H6 H7 H8 H9 Hbufs]
  · isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hs5 Hs6 Hc0 Hc1 Hc2 Hc3 Hsems]
  · isplitl [Hs5]; · iexact Hs5
    isplitl [Hs6]; · iexact Hs6
    isplitl [Hc0]; · iexact Hc0
    isplitl [Hc1]; · iexact Hc1
    isplitl [Hc2]; · iexact Hc2
    isplitl [Hc3]; · iexact Hc3
    iexact Hsems
  iexists W'
  isplitr
  · ipureintro; exact hW'
  · iexact HO

end Cert.Proof.KI

end
-- ==== Proof.Pay.lean ====
/-
  What the SparseCore call's handshakes carry, the task's obligation in the launch theorem's form, and how one
  SparseCore's operands split among its sixteen tasks. The call takes, for SparseCore c, a read share of the
  repacked table (held at SOME contents that repack the table: its rows from 1000001 on are not determined), a
  read share of the flattened index array, and the rows of the result that the core's sixteen workers own
  (worker 2 i + c for task i); each task takes its sixteenth of the two read shares and its own 25600 rows, and
  brings the rows back holding the gathered rows of the TABLE — the repacked table's rows that the words select
  are the table's, because every word is a row number between 0 and 999999.
-/
import proofs.«206585_g20916490731584_cont_8to1_1403_18_alg».proof.Proof.Common
import proofs.«206585_g20916490731584_cont_8to1_1403_18_alg».proof.Proof.HostVals
import proofs.«206585_g20916490731584_cont_8to1_1403_18_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-- The launch contents of the index array, the table and the gathered array. -/
abbrev x0 (d : Dev nD) : S4096x200.Idx → BitVec 32 := m (xLoc d)
abbrev tb0 (d : Dev nD) : S1000001x64.Idx → Elt F .f32 := m (tabLoc d)
abbrev o0 (d : Dev nD) : Buf (Elt F) (oLoc d) := m (oLoc d)
/-- The flattened index array and the gathered rows, as buffer contents. -/
abbrev fi0 (d : Dev nD) : Buf (Elt F) (iLoc d) := flat (x0 m d)
abbrev go0 (d : Dev nD) : Buf (Elt F) (oLoc d) := gath (x0 m d) (tb0 m d)

/-- Worker 2 i + c: task i of SparseCore c. -/
def wIdx (c : Fin 2) (i : Fin 16) : Fin 32 := ⟨2 * i.val + c.val, by have := c.isLt; have := i.isLt; omega⟩

/-- SparseCore c's read share of an array, and task i's sixteenth of it. -/
abbrev cq (c : Fin 2) : PosShare TreeShare := Transfers.shareTok fullShare 2 c
abbrev tq (c : Fin 2) (i : Fin 16) : PosShare TreeShare := Transfers.shareTok (cq c) 16 i

abbrev cC (c : Fin ((K (F := F)).nCore 0)) : Fin 2 := Fin.cast nCore_zero c
abbrev iC (i : Fin ((K (F := F)).nSub 0)) : Fin 16 := Fin.cast nSub_zero i

/-- A task's operands: its shares of the repacked table (at some contents that repack the table) and of the flat
    index array, and its rows of the result. -/
abbrev goPts (d : Dev nD) (c : Fin 2) (i : Fin 16) : sProp 𝕄 :=
  iprop(∃ fy : Buf (Elt F) (yLoc d), ⌜Repacked (tb0 m d) fy⌝ ∗ (yLoc d ↦{tq c i} fy) ∗ (iLoc d ↦{tq c i} fi0 m d)
    ∗ oLoc d ↦[oSet (wIdx c i)]{fullShare} o0 m d)
/-- A task's result: its rows at the gathered rows. -/
abbrev tdPts (d : Dev nD) (c : Fin 2) (i : Fin 16) : sProp 𝕄 := oLoc d ↦[oSet (wIdx c i)]{fullShare} go0 m d
/-- A SparseCore's operands and results. -/
abbrev stPts (d : Dev nD) (c : Fin 2) : sProp 𝕄 :=
  iprop(∃ fy : Buf (Elt F) (yLoc d), ⌜Repacked (tb0 m d) fy⌝ ∗ (yLoc d ↦{cq c} fy) ∗ (iLoc d ↦{cq c} fi0 m d)
    ∗ bigSep Finset.univ fun i : Fin 16 => oLoc d ↦[oSet (wIdx c i)]{fullShare} o0 m d)
abbrev dnPts (d : Dev nD) (c : Fin 2) : sProp 𝕄 := bigSep Finset.univ fun i : Fin 16 => tdPts m d c i

def P : (K (F := F)).Pay (nD := nD) (Val := Elt F) (Name := ℕ) (U := UU) where
  st := fun q d c => match q with | 0 => stPts m d (cC c)
  dn := fun q d c => match q with | 0 => dnPts m d (cC c)
  go := fun q d c i => match q with | 0 => goPts m d (cC c) (iC i)
  td := fun q d c i => match q with | 0 => tdPts m d (cC c) (iC i)
  x := fun _ _ => iprop(emp)

instance P_storable : (P (F := F) m).IsStorable where
  st q d c := match q with | 0 => (inferInstance : BI.Storable (upEmb : UEmb _ 𝕄) (stPts m d (cC c)))
  dn q d c := match q with | 0 => (inferInstance : BI.Storable (upEmb : UEmb _ 𝕄) (dnPts m d (cC c)))
  go q d c i := match q with | 0 => (inferInstance : BI.Storable (upEmb : UEmb _ 𝕄) (goPts m d (cC c) (iC i)))
  td q d c i := match q with | 0 => (inferInstance : BI.Storable (upEmb : UEmb _ 𝕄) (tdPts m d (cC c) (iC i)))

/-- What the proof asks of the launch memory: every word of the index array is a row number between 0 and 999999. -/
def PreOK : Prop := ∀ d : Dev nD, Cert.Spec.InRange (x0 m d)

/-! ## The task's obligation -/

section Tile

variable (d : Dev nD)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__gather (coordsV c s)
          (Memref.whole main_v1_scv) (Memref.isWhole_whole _) (Memref.whole main_v2_scv) (Memref.isWhole_whole _) (Memref.whole main_v3_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scoped0 cc1_scoped1 cc1_scoped2 cc1_scoped3) ⟨⟩ c s := rfl

omit m ρ in
theorem wOf_coordsV (c : Fin (grid1.bound 0)) (s : Fin (grid1.bound 1)) :
    wOf (coordsV c s) = wIdx (Fin.cast bound_zero c) (Fin.cast bound_one s) := Fin.ext rfl

/-- Rows gathered from a repacked table are the table's gathered rows, once every word is in range. -/
theorem rowsOf_eq_gath {x : S4096x200.Idx → BitVec 32} (hx : Cert.Spec.InRange x) {tb : S1000001x64.Idx → Elt F .f32}
    {fy : S1003520x128.Idx → Elt F .f32} (hy : Repacked tb fy) (j : S819200x64.Idx) :
    rowsOf (flat x) fy j = gath x tb j := by
  have h := flat_range hx (ix1 (j 0))
  have e := Cert.Spec.rowOf_val h.1 h.2
  have hlt : (Cert.Spec.rowOf (flat x (ix1 (j 0)))).val < 1000001 := (Cert.Spec.rowOf (flat x (ix1 (j 0)))).isLt
  have hyr : (yRow (flat x (ix1 (j 0)))).val = (flat x (ix1 (j 0))).toNat := by
    show min (flat x (ix1 (j 0))).toNat 1003519 = _
    omega
  have hj : (j 1).val < 64 := (j 1).isLt
  unfold rowsOf gath
  rw [hy _ _ (by rw [hyr]; omega)]
  congr 1
  funext a
  match a with
  | ⟨0, _⟩ => exact Fin.ext (hyr.trans e.symm)
  | ⟨1, _⟩ => exact Fin.ext (Nat.mod_eq_of_lt hj)

omit ρ in
/-- The body's result read as the handshake's: the task's rows at the table's gathered rows, the read shares let go. -/
theorem obl_post [FloatOps F] (hpre : PreOK m) (c : Fin 2) (i : Fin 16) {fy : Buf (Elt F) (yLoc d)} (hy : Repacked (tb0 m d) fy) {qi qy : PosShare TreeShare}
    {thr : Thread nD τ} {B C : sProp 𝕄} {O : CellTallies nD τ sig (HIx 1)} {W : Waits sig (HIx 1)} :
    iprop(((iLoc d ↦{qi} fi0 m d) ∗ (yLoc d ↦{qy} fy) ∗ oLoc d ↦[oSet (wIdx c i)]{fullShare} rowsOf (fi0 m d) fy)
        ∗ B ∗ C ∗ ∃ W', ⌜∀ p ∈ W', p ∈ W ∨ p.2 = none⌝ ∗ owes thr O W')
      ⊢ iprop(tdPts m d c i ∗ B ∗ C ∗ ∃ W', ⌜∀ p ∈ W', p ∈ W ∨ p.2 = none ∨ p.2 = some (0 : Fin 1)⌝ ∗ owes thr O W') := by
  iintro ⟨⟨-, -, Ho⟩, HB, HC, %W', %hW', HO⟩
  isplitl [Ho]
  · ihave Ho' := (Entails.of_eq (pointsTo_congr (q := fullShare) (I := oSet (wIdx c i)) (f := rowsOf (fi0 m d) fy) (g := go0 m d)
        fun j _ => rowsOf_eq_gath (hpre d) hy j)) $$ Ho
    iexact Ho'
  isplitl [HB]; · iexact HB
  isplitl [HC]; · iexact HC
  iexists W'; isplitr
  · ipureintro; exact fun p hp => (hW' p hp).imp_right Or.inl
  · iexact HO

set_option maxRecDepth 16384 in
theorem tileObl [FloatOps F] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(levAts (K (F := F)).L (K (F := F)).lev ∗ emp ∗ goPts m d (cC c) (iC i) ∗ _ ∗ _ ∗ _) ⊢ _
  iintro ⟨Hlv, He, ⟨%fy, %hy, Hy, Hi, Ho⟩, Hsb, Hss, HO⟩
  iapply ((tile_body (F := F) hF d (coordsV ⟨_, hci.1⟩ ⟨_, hci.2⟩) (tq (cC c) (iC i)) (tq (cC c) (iC i)) (fi0 m d) fy (o0 m d)
      (fun j => flat_lt (hpre d) j) O W hO).trans (wp_mono frame _ _ fun _ => obl_post m d hpre (cC c) (iC i) hy)) $$ [Hlv He Hy Hi Ho Hsb Hss HO]
  isplitl [Hlv]; · iexact Hlv
  isplitl [He]; · iexact He
  isplitl [Hy Hi Ho]
  · isplitl [Hi]; · iexact Hi
    isplitl [Hy]; · iexact Hy
    iexact Ho
  isplitl [Hsb]; · iexact Hsb
  isplitl [Hss]; · iexact Hss
  iexact HO

end Tile

/-! ## One SparseCore's operands among its tasks -/

omit m ρ in
theorem bigSep_tasks (Φ : Fin 16 → sProp 𝕄) :
    (bigSep Finset.univ fun i : Fin ((K (F := F)).nSub 0) => Φ (iC i)) = bigSep Finset.univ Φ :=
  bigSep_congr fun _ _ => congrArg Φ (Fin.ext rfl)

omit ρ in
/-- Each task's operands, from the three families over the tasks, at one contents of the repacked table. -/
theorem go_intro (d : Dev nD) (c : Fin 2) (fy : Buf (Elt F) (yLoc d)) (hy : Repacked (tb0 m d) fy) :
    (bigSep Finset.univ fun i : Fin 16 => iprop((yLoc d ↦{tq c i} fy) ∗ (iLoc d ↦{tq c i} fi0 m d) ∗ oLoc d ↦[oSet (wIdx c i)]{fullShare} o0 m d) : sProp 𝕄)
      ⊢ bigSep Finset.univ fun i : Fin 16 => goPts m d c i :=
  bigSep_mono fun i _ => by
    show (iprop((yLoc d ↦{tq c i} fy) ∗ (iLoc d ↦{tq c i} fi0 m d) ∗ oLoc d ↦[oSet (wIdx c i)]{fullShare} o0 m d) : sProp 𝕄) ⊢ goPts m d c i
    iintro ⟨Hy, Hi, Ho⟩
    iexists fy
    isplitr; · ipureintro; exact hy
    isplitl [Hy]; · iexact Hy
    isplitl [Hi]; · iexact Hi
    iexact Ho

theorem vecSplit [FloatOps F] : (K (F := F)).VecSplit' (P m) 0 := by
  intro d c
  show stPts m d (cC c) ⊢ |={Set.univ}=> iprop((bigSep Finset.univ fun i : Fin ((K (F := F)).nSub 0) => goPts m d (cC c) (iC i))
      ∗ ((bigSep Finset.univ fun i : Fin ((K (F := F)).nSub 0) => tdPts m d (cC c) (iC i)) -∗ dnPts m d (cC c)))
  rw [bigSep_tasks (F := F) (fun i => goPts m d (cC c) i), bigSep_tasks (F := F) (fun i => tdPts m d (cC c) i)]
  iintro ⟨%fy, %hy, Hy, Hi, Ho⟩
  ihave Hy' := (Transfers.pointsTo_toks_split (cq (cC c)) 16) $$ Hy
  icases Hy' with ⟨-, Hys⟩
  ihave Hi' := (Transfers.pointsTo_toks_split (cq (cC c)) 16) $$ Hi
  icases Hi' with ⟨-, His⟩
  imodintro
  isplitl [Hys His Ho]
  · ihave H2 := (Entails.of_eq (bigSep_sep' (Finset.univ : Finset (Fin 16)) (fun i => (iLoc d ↦{tq (cC c) i} fi0 m d : sProp 𝕄))
        (fun i => (oLoc d ↦[oSet (wIdx (cC c) i)]{fullShare} o0 m d : sProp 𝕄))).symm) $$ [His Ho]
    · isplitl [His]; · iexact His
      iexact Ho
    ihave H := (Entails.of_eq (bigSep_sep' (Finset.univ : Finset (Fin 16)) (fun i => (yLoc d ↦{tq (cC c) i} fy : sProp 𝕄))
        (fun i => iprop((iLoc d ↦{tq (cC c) i} fi0 m d) ∗ oLoc d ↦[oSet (wIdx (cC c) i)]{fullShare} o0 m d))).symm) $$ [Hys H2]
    · isplitl [Hys]; · iexact Hys
      iexact H2
    iapply (go_intro m d (cC c) fy hy) $$ H
  · iintro H; iexact H

end Cert.Proof.KI

end
-- ==== Proof.Region.Pay.lean ====
/-
  The value the repacking body stores, read at an index: entry (p, c) of the stored [4096,128] block is entry
  (c mod 64, p) of the loaded [64,4096] block. Eight 512-column slices, each transposed, stacked along the rows
  are the transpose of the whole block; that [4096,64] block twice side by side is the stored block.
-/
import proofs.«206585_g20916490731584_cont_8to1_1403_18_alg».proof.Proof.Gen.KernelIdeal.Skeleton
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- One slice of 512 columns from column o on, transposed, at (q, c): the block at (c, o + q). -/
theorem slice_transpose_apply {α : Type} (o : Nat) (hs : S64x4096.Slices ![0, o] S64x512) (v : S64x4096.Idx → α)
    (q : Fin 512) (c : Fin 64) (ho : o + q.val < 4096) :
    transpose S512x64 [1, 0] (extractStridedSlice S64x512 ![0, o] v hs) transposes_S64x512_p1_0_S512x64 (ix2 q c)
      = v (ix2 c ⟨o + q.val, ho⟩) := by
  refine (transpose_apply [1, 0] _ transposes_S64x512_p1_0_S512x64 (ix2 q c) (ix2 c q) ?_).trans ?_
  · intro b
    match b with
    | ⟨0, _⟩ => rfl
    | ⟨1, _⟩ => rfl
  · refine extractStridedSlice_apply ![0, o] v hs (ix2 c q) (ix2 c ⟨o + q.val, ho⟩) ?_
    intro a
    match a with
    | ⟨0, _⟩ => show c.val = 0 + c.val; omega
    | ⟨1, _⟩ => rfl

/-- The stored block at (p, c) is the loaded block at (c mod 64, p). -/
theorem k0_pay1_apply (v0 : Vec F S64x4096 .f32) (p : Fin 4096) (c : Fin 128) :
    k0_pay1 v0 (ix2 p c) = v0 (ix2 ⟨c.val % 64, Nat.mod_lt _ (by decide)⟩ p) := by
  unfold k0_pay1
  -- the two copies side by side: column c of the pair is column c mod 64 of one copy
  refine (concatenate_replicate_apply (t := S4096x128) (s₁ := S4096x64) 1 2 _ concatenates_S4096x64_S4096x64_S4096x128_d1 rfl
    (ix2 p c) (ix2 p ⟨c.val % 64, Nat.mod_lt _ (by decide)⟩) rfl ?_).trans ?_
  · intro b hb
    match b with
    | ⟨0, _⟩ => rfl
    | ⟨1, _⟩ => exact absurd rfl hb
  -- the eight pieces stacked: row p is row p mod 512 of piece p / 512
  have hp := p.isLt
  obtain ⟨k, hk8, hlo, hhi⟩ : ∃ k, k < 8 ∧ 512 * k ≤ p.val ∧ p.val < 512 * k + 512 := ⟨p.val / 512, by omega, by omega, by omega⟩
  have hq : p.val - 512 * k < 512 := by omega
  interval_cases k
  · refine (concatenate_apply_piece (t := S4096x64) 0 _ _
      (ix2 p ⟨c.val % 64, Nat.mod_lt _ (by decide)⟩) 0 (by simp only [List.length_cons, List.length_nil]; omega) S512x64 _ rfl rfl 0 rfl (ix2 ⟨p.val - 0, hq⟩ ⟨c.val % 64, Nat.mod_lt _ (by decide)⟩) ?_ ?_).trans ?_
    · intro b hb
      match b with
      | ⟨0, _⟩ => exact absurd rfl hb
      | ⟨1, _⟩ => rfl
    · show 0 + (p.val - 0) = p.val; omega
    · refine (slice_transpose_apply 0 _ _ ⟨p.val - 0, hq⟩ ⟨c.val % 64, Nat.mod_lt _ (by decide)⟩ (by show 0 + (p.val - 0) < 4096; omega)).trans ?_
      refine (congrFun (shapeCast_self v0 _) _).trans ?_
      congr 1; funext a
      match a with
      | ⟨0, _⟩ => rfl
      | ⟨1, _⟩ => exact Fin.ext (by show 0 + (p.val - 0) = p.val; omega)
  · refine (concatenate_apply_piece (t := S4096x64) 0 _ _
      (ix2 p ⟨c.val % 64, Nat.mod_lt _ (by decide)⟩) 1 (by simp only [List.length_cons, List.length_nil]; omega) S512x64 _ rfl rfl 512 rfl (ix2 ⟨p.val - 512, hq⟩ ⟨c.val % 64, Nat.mod_lt _ (by decide)⟩) ?_ ?_).trans ?_
    · intro b hb
      match b with
      | ⟨0, _⟩ => exact absurd rfl hb
      | ⟨1, _⟩ => rfl
    · show 512 + (p.val - 512) = p.val; omega
    · refine (slice_transpose_apply 512 _ _ ⟨p.val - 512, hq⟩ ⟨c.val % 64, Nat.mod_lt _ (by decide)⟩ (by show 512 + (p.val - 512) < 4096; omega)).trans ?_
      refine (congrFun (shapeCast_self v0 _) _).trans ?_
      congr 1; funext a
      match a with
      | ⟨0, _⟩ => rfl
      | ⟨1, _⟩ => exact Fin.ext (by show 512 + (p.val - 512) = p.val; omega)
  · refine (concatenate_apply_piece (t := S4096x64) 0 _ _
      (ix2 p ⟨c.val % 64, Nat.mod_lt _ (by decide)⟩) 2 (by simp only [List.length_cons, List.length_nil]; omega) S512x64 _ rfl rfl 1024 rfl (ix2 ⟨p.val - 1024, hq⟩ ⟨c.val % 64, Nat.mod_lt _ (by decide)⟩) ?_ ?_).trans ?_
    · intro b hb
      match b with
      | ⟨0, _⟩ => exact absurd rfl hb
      | ⟨1, _⟩ => rfl
    · show 1024 + (p.val - 1024) = p.val; omega
    · refine (slice_transpose_apply 1024 _ _ ⟨p.val - 1024, hq⟩ ⟨c.val % 64, Nat.mod_lt _ (by decide)⟩ (by show 1024 + (p.val - 1024) < 4096; omega)).trans ?_
      refine (congrFun (shapeCast_self v0 _) _).trans ?_
      congr 1; funext a
      match a with
      | ⟨0, _⟩ => rfl
      | ⟨1, _⟩ => exact Fin.ext (by show 1024 + (p.val - 1024) = p.val; omega)
  · refine (concatenate_apply_piece (t := S4096x64) 0 _ _
      (ix2 p ⟨c.val % 64, Nat.mod_lt _ (by decide)⟩) 3 (by simp only [List.length_cons, List.length_nil]; omega) S512x64 _ rfl rfl 1536 rfl (ix2 ⟨p.val - 1536, hq⟩ ⟨c.val % 64, Nat.mod_lt _ (by decide)⟩) ?_ ?_).trans ?_
    · intro b hb
      match b with
      | ⟨0, _⟩ => exact absurd rfl hb
      | ⟨1, _⟩ => rfl
    · show 1536 + (p.val - 1536) = p.val; omega
    · refine (slice_transpose_apply 1536 _ _ ⟨p.val - 1536, hq⟩ ⟨c.val % 64, Nat.mod_lt _ (by decide)⟩ (by show 1536 + (p.val - 1536) < 4096; omega)).trans ?_
      refine (congrFun (shapeCast_self v0 _) _).trans ?_
      congr 1; funext a
      match a with
      | ⟨0, _⟩ => rfl
      | ⟨1, _⟩ => exact Fin.ext (by show 1536 + (p.val - 1536) = p.val; omega)
  · refine (concatenate_apply_piece (t := S4096x64) 0 _ _
      (ix2 p ⟨c.val % 64, Nat.mod_lt _ (by decide)⟩) 4 (by simp only [List.length_cons, List.length_nil]; omega) S512x64 _ rfl rfl 2048 rfl (ix2 ⟨p.val - 2048, hq⟩ ⟨c.val % 64, Nat.mod_lt _ (by decide)⟩) ?_ ?_).trans ?_
    · intro b hb
      match b with
      | ⟨0, _⟩ => exact absurd rfl hb
      | ⟨1, _⟩ => rfl
    · show 2048 + (p.val - 2048) = p.val; omega
    · refine (slice_transpose_apply 2048 _ _ ⟨p.val - 2048, hq⟩ ⟨c.val % 64, Nat.mod_lt _ (by decide)⟩ (by show 2048 + (p.val - 2048) < 4096; omega)).trans ?_
      refine (congrFun (shapeCast_self v0 _) _).trans ?_
      congr 1; funext a
      match a with
      | ⟨0, _⟩ => rfl
      | ⟨1, _⟩ => exact Fin.ext (by show 2048 + (p.val - 2048) = p.val; omega)
  · refine (concatenate_apply_piece (t := S4096x64) 0 _ _
      (ix2 p ⟨c.val % 64, Nat.mod_lt _ (by decide)⟩) 5 (by simp only [List.length_cons, List.length_nil]; omega) S512x64 _ rfl rfl 2560 rfl (ix2 ⟨p.val - 2560, hq⟩ ⟨c.val % 64, Nat.mod_lt _ (by decide)⟩) ?_ ?_).trans ?_
    · intro b hb
      match b with
      | ⟨0, _⟩ => exact absurd rfl hb
      | ⟨1, _⟩ => rfl
    · show 2560 + (p.val - 2560) = p.val; omega
    · refine (slice_transpose_apply 2560 _ _ ⟨p.val - 2560, hq⟩ ⟨c.val % 64, Nat.mod_lt _ (by decide)⟩ (by show 2560 + (p.val - 2560) < 4096; omega)).trans ?_
      refine (congrFun (shapeCast_self v0 _) _).trans ?_
      congr 1; funext a
      match a with
      | ⟨0, _⟩ => rfl
      | ⟨1, _⟩ => exact Fin.ext (by show 2560 + (p.val - 2560) = p.val; omega)
  · refine (concatenate_apply_piece (t := S4096x64) 0 _ _
      (ix2 p ⟨c.val % 64, Nat.mod_lt _ (by decide)⟩) 6 (by simp only [List.length_cons, List.length_nil]; omega) S512x64 _ rfl rfl 3072 rfl (ix2 ⟨p.val - 3072, hq⟩ ⟨c.val % 64, Nat.mod_lt _ (by decide)⟩) ?_ ?_).trans ?_
    · intro b hb
      match b with
      | ⟨0, _⟩ => exact absurd rfl hb
      | ⟨1, _⟩ => rfl
    · show 3072 + (p.val - 3072) = p.val; omega
    · refine (slice_transpose_apply 3072 _ _ ⟨p.val - 3072, hq⟩ ⟨c.val % 64, Nat.mod_lt _ (by decide)⟩ (by show 3072 + (p.val - 3072) < 4096; omega)).trans ?_
      refine (congrFun (shapeCast_self v0 _) _).trans ?_
      congr 1; funext a
      match a with
      | ⟨0, _⟩ => rfl
      | ⟨1, _⟩ => exact Fin.ext (by show 3072 + (p.val - 3072) = p.val; omega)
  · refine (concatenate_apply_piece (t := S4096x64) 0 _ _
      (ix2 p ⟨c.val % 64, Nat.mod_lt _ (by decide)⟩) 7 (by simp only [List.length_cons, List.length_nil]; omega) S512x64 _ rfl rfl 3584 rfl (ix2 ⟨p.val - 3584, hq⟩ ⟨c.val % 64, Nat.mod_lt _ (by decide)⟩) ?_ ?_).trans ?_
    · intro b hb
      match b with
      | ⟨0, _⟩ => exact absurd rfl hb
      | ⟨1, _⟩ => rfl
    · show 3584 + (p.val - 3584) = p.val; omega
    · refine (slice_transpose_apply 3584 _ _ ⟨p.val - 3584, hq⟩ ⟨c.val % 64, Nat.mod_lt _ (by decide)⟩ (by show 3584 + (p.val - 3584) < 4096; omega)).trans ?_
      refine (congrFun (shapeCast_self v0 _) _).trans ?_
      congr 1; funext a
      match a with
      | ⟨0, _⟩ => rfl
      | ⟨1, _⟩ => exact Fin.ext (by show 3584 + (p.val - 3584) = p.val; omega)

end Cert.Proof.KI

end
-- ==== Proof.Region.Body.lean ====
/-
  The repacking pipeline's proof data, its body obligation and what its write-backs leave in the repacked table.
  The pipeline runs over 245 points; at point t it fetches columns [4096 t, 4096 (t + 1)) of the transposed table
  (64 rows of 1000001 columns; the last block is cut at the table's end and the rest of the staging buffer is then
  not named) and writes rows [4096 t, 4096 (t + 1)) of the repacked table (1003520 rows of 128 columns). The data
  is relational: the output's staging buffer is constrained on the rows that lie inside the table only.
-/
import proofs.«206585_g20916490731584_cont_8to1_1403_18_alg».proof.Proof.Common
import proofs.«206585_g20916490731584_cont_8to1_1403_18_alg».proof.Proof.Region.Pay
import Idealize.ShloMosaic.Lib.Pipeline.Launch
import Idealize.ShloMosaic.Lib.Pipeline.Value
import Idealize.ShloMosaic.Lib.ValueLayout

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx (ix2)

variable {F : FTy → Type} [FloatOps F]

local notation "𝕄" => MT nD τ sig (HIx 1) (Elt F) ℕ UU ℕ

/-! ## The value fact and the proof data -/

/-- The repacked table's rows below 1000001 are the transposed table's columns, twice side by side. -/
def RepackOK (ft : S64x1000001.Idx → Elt F .f32) (fy : S1003520x128.Idx → Elt F .f32) : Prop :=
  ∀ (r : Fin 1003520) (c : Fin 128) (hr : r.val < 1000001),
    fy (ValueIdx.ix2 r c) = ft (ValueIdx.ix2 ⟨c.val % 64, Nat.mod_lt _ (by decide)⟩ ⟨r.val, hr⟩)

/-- The one admissible contents of the (absent) prefetched tables. -/
abbrev aP : (p : Fin 1) → (pcfgs (F := F) p).Adm := fun p => (cfgs p).toPCfg_adm

/-- What block t of the output's staging buffer holds after the body, on the rows inside the table. -/
def OutOK (ft : S64x1000001.Idx → Elt F .f32) (t : Fin cfg0.N) (X : S4096x128.Idx → Elt F .f32) : Prop :=
  ∀ (p : Fin 4096) (c : Fin 128) (h : 4096 * t.val + p.val < 1000001),
    X (ValueIdx.ix2 p c) = ft (ValueIdx.ix2 ⟨c.val % 64, Nat.mod_lt _ (by decide)⟩ ⟨4096 * t.val + p.val, h⟩)

/-- The relational proof data on a core: the two arrays at entry; the input's staging buffer left at anything,
    the output's at a block that is right on the rows inside the table; no invariant; the tallies the core owes
    and the bound on its recorded pairs unchanged throughout. -/
def rdat (c : Dev nD) (O : CellTallies nD τ sig (HIx 1)) (R : Set (SemLoc sig × HIx 1))
    (ft : S64x1000001.Idx → Elt F .f32) (f1 : S1003520x128.Idx → Elt F .f32) :
    RDat τ (Elt F) (HIx 1) ℕ UU ℕ cfg0 c where
  A w := match w with
    | ⟨0, _⟩ => ft
    | ⟨1, _⟩ => f1
  after w t := match w with
    | ⟨0, _⟩ => fun _ _ => True
    | ⟨1, _⟩ => fun _ X => OutOK ft t X
  Φ _ := iprop(emp)
  q _ := fullShare
  owed _ := O
  recorded _ := R

abbrev rdats (O : CellTallies nD τ sig (HIx 1)) (R : Set (SemLoc sig × HIx 1))
    (ft : S64x1000001.Idx → Elt F .f32) (f1 : S1003520x128.Idx → Elt F .f32) :
    (p : Fin 1) → (c : Dev nD) → RDat τ (Elt F) (HIx 1) ℕ UU ℕ (cfgs p) c := fun _ c => rdat c O R ft f1

/-! ## The blocks' places -/

/-- Block t of the transposed table starts at row 0, column 4096 t, -/
theorem index0 : ∀ t : Fin grid0.N, win0_0.index t 0 = 0 ∧ win0_0.index t 1 = t.val := by decide +kernel
/-- and the fetch moves all 64 rows and the columns up to the table's end. -/
theorem xsize0 : ∀ t : Fin grid0.N, win0_0.xsize (grid0.coords t) 0 = 64
    ∧ win0_0.xsize (grid0.coords t) 1 = min 4096 (1000001 - 4096 * t.val) := by decide +kernel
/-- Block t of the repacked table starts at row 4096 t, column 0. -/
theorem index1 : ∀ t : Fin grid0.N, win0_1.index t 0 = t.val ∧ win0_1.index t 1 = 0 := by decide +kernel

/-- What the fetch at point t leaves in the input's staging buffer, at a column that lies inside the table: the
    table's entry there. -/
theorem fetched_apply (cD : Dev nD) (O : CellTallies nD τ sig (HIx 1)) (R : Set (SemLoc sig × HIx 1))
    (ft : S64x1000001.Idx → Elt F .f32) (f1 : S1003520x128.Idx → Elt F .f32) (t : Fin cfg0.N)
    (d : S64x4096.Idx → Elt F .f32) (c : Fin 64) (p : Fin 4096) (h : 4096 * t.val + p.val < 1000001) :
    (rdat cD O R ft f1).fetched (0 : Fin 2) t d (ix2 c p) = ft (ix2 c ⟨4096 * t.val + p.val, h⟩) := by
  have hm : win0_0.moved (grid0.coords t) (ix2 c p) = true := by
    rw [Window.moved_iff]
    intro a
    match a with
    | ⟨0, _⟩ => rw [show (⟨0, _⟩ : Fin 2) = 0 from rfl, (xsize0 t).1]; exact c.isLt
    | ⟨1, _⟩ =>
      rw [show (⟨1, _⟩ : Fin 2) = 1 from rfl, (xsize0 t).2]
      show p.val < _
      have := p.isLt; omega
  unfold RDat.fetched Window.fill
  show (if h : win0_0.moved (grid0.coords t) (ix2 c p) = true then _ else _) = _
  rw [dif_pos hm]
  show ft ((win0_0.rect t).emb _) = ft _
  congr 1
  funext a
  apply Fin.ext
  rw [Rect.emb_apply]
  match a with
  | ⟨0, _⟩ =>
    show win0_0.index t 0 * 64 + 1 * c.val = c.val
    rw [(index0 t).1]; omega
  | ⟨1, _⟩ =>
    show win0_0.index t 1 * 4096 + 1 * p.val = 4096 * t.val + p.val
    rw [(index0 t).2]; omega

/-! ## The kernel body's obligation -/

/-- The kernel body on staging buffers s0 of the input's window and s1 of the output's: the whole load of the
    input block, the dead load of the output block, the whole store of the repacked block. -/
theorem sound_body (c : Dev nD) (E : Set ℕ) (i : grid0.Coords) (s0 s1 : Fin 2)
    (X0 : S64x4096.Idx → Elt F .f32) (X1 : S4096x128.Idx → Elt F .f32) (Kp : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Kp ⟨⟩))
      ⊢ wp frame (wpE (defs₀ (F := F)) 𝒱₀ c none) E
          (cc0__repack_body i (stage0_0 s0) (hstage0_0 s0) (stage0_1 s1) (hstage0_1 s1)) Kp := by
  have hz : (![0, 0] : Fin 2 → Nat) = fun _ => 0 := funext fun a => by fin_cases a <;> rfl
  fin_cases s0 <;> fin_cases s1
  · -- the input's buffer cc0_stg0_0, the output's cc0_stg1_0
    have hr0 : (Memref.whole cc0_stg0_0 : Memref sig .tc _ _ _).view.readAt (Elt F) (Rect.unit (s := S64x4096) ![0, 0] S64x4096.size
        inb_S64x4096_S64x4096_0_0).toLoadRect = id := funext (Memref.readAt_unit_zero (Elt F) cc0_stg0_0 hz _)
    have hw1 : ∀ f w, (((Memref.whole cc0_stg1_0).access (Rect.unit (s := S4096x128) ![0, 0] S4096x128.size inb_S4096x128_S4096x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer cc0_stg0_0, the output's cc0_stg1_1
    have hr0 : (Memref.whole cc0_stg0_0 : Memref sig .tc _ _ _).view.readAt (Elt F) (Rect.unit (s := S64x4096) ![0, 0] S64x4096.size
        inb_S64x4096_S64x4096_0_0).toLoadRect = id := funext (Memref.readAt_unit_zero (Elt F) cc0_stg0_0 hz _)
    have hw1 : ∀ f w, (((Memref.whole cc0_stg1_1).access (Rect.unit (s := S4096x128) ![0, 0] S4096x128.size inb_S4096x128_S4096x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer cc0_stg0_1, the output's cc0_stg1_0
    have hr0 : (Memref.whole cc0_stg0_1 : Memref sig .tc _ _ _).view.readAt (Elt F) (Rect.unit (s := S64x4096) ![0, 0] S64x4096.size
        inb_S64x4096_S64x4096_0_0).toLoadRect = id := funext (Memref.readAt_unit_zero (Elt F) cc0_stg0_1 hz _)
    have hw1 : ∀ f w, (((Memref.whole cc0_stg1_0).access (Rect.unit (s := S4096x128) ![0, 0] S4096x128.size inb_S4096x128_S4096x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer cc0_stg0_1, the output's cc0_stg1_1
    have hr0 : (Memref.whole cc0_stg0_1 : Memref sig .tc _ _ _).view.readAt (Elt F) (Rect.unit (s := S64x4096) ![0, 0] S64x4096.size
        inb_S64x4096_S64x4096_0_0).toLoadRect = id := funext (Memref.readAt_unit_zero (Elt F) cc0_stg0_1 hz _)
    have hw1 : ∀ f w, (((Memref.whole cc0_stg1_1).access (Rect.unit (s := S4096x128) ![0, 0] S4096x128.size inb_S4096x128_S4096x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

/-- The library's body obligation: the input's buffer arrives just fetched, the output's holding anything; the
    body leaves the first as it was and the second at the repacked block, which on the rows inside the table is
    the table's. -/
theorem body_ok (c : Dev nD) (O : CellTallies nD τ sig (HIx 1)) (R : Set (SemLoc sig × HIx 1))
    (ft : S64x1000001.Idx → Elt F .f32) (f1 : S1003520x128.Idx → Elt F .f32) :
    (rdat c O R ft f1).BodyObligation (defs₀ (F := F)) 𝒱₀ none Set.univ := by
  intro t Y hY
  obtain ⟨d, hd⟩ := ((rdat c O R ft f1).finds_of_fetch (fetch0_0 t) (Y 0)).mp (hY 0)
  simp only [bigSep_W0]
  rw [show (rdat c O R ft f1).Φ t.succ = (rdat c O R ft f1).Φ t.castSucc from rfl,
    show (rdat c O R ft f1).owesAt none t.succ = (rdat c O R ft f1).owesAt none t.castSucc from rfl]
  iintro ⟨HΦ, Ho, H0, H1⟩
  iapply (sound_body (F := F) c Set.univ (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists Y 0
    isplitr; · ipureintro; trivial
    iexact H0
  · iexists k0_pay1 (Y 0)
    isplitr
    · ipureintro
      intro p cc h
      rw [k0_pay1_apply, hd]
      exact fetched_apply c O R ft f1 t d _ p h
    iexact H1

/-! ## What the repacked table holds after the write-backs -/

/-- After the write-backs of the points below n, every row below 4096 n (and inside the table) of what the
    repacked table may hold is the table's row, twice side by side: a later write-back writes another block. -/
theorem arrAt_ok (c : Dev nD) (O : CellTallies nD τ sig (HIx 1)) (R : Set (SemLoc sig × HIx 1))
    (ft : S64x1000001.Idx → Elt F .f32) (f1 : S1003520x128.Idx → Elt F .f32) :
    ∀ (n : Nat), n ≤ cfg0.N → ∀ G : S1003520x128.Idx → Elt F .f32, (rdat c O R ft f1).ArrAt (1 : Fin 2) n G →
      ∀ (r : Fin 1003520) (cc : Fin 128) (hr : r.val < 1000001), r.val < 4096 * n →
        G (ix2 r cc) = ft (ix2 ⟨cc.val % 64, Nat.mod_lt _ (by decide)⟩ ⟨r.val, hr⟩)
  | 0, _, _, _, _, _, _, h => absurd h (by omega)
  | n + 1, hn, G, hG, r, cc, hr, hlt => by
    have hu : n < cfg0.N := hn
    have hG' := (congrFun ((rdat c O R ft f1).ArrAt_succ (1 : Fin 2) ⟨n, hu⟩) G).mp hG
    rw [if_pos (flush0_1 ⟨n, hu⟩)] at hG'
    obtain ⟨G₀, X, hG₀, ⟨Y, -, hX⟩, rfl⟩ := hG'
    have hX' : OutOK ft ⟨n, hu⟩ X := hX
    by_cases hb : 4096 * n ≤ r.val
    · -- a row of block n: what the write-back wrote
      have hq : r.val - 4096 * n < 4096 := by omega
      have he : (ix2 r cc : S1003520x128.Idx) = (win0_1.blk ⟨n, hu⟩).view.emb (ix2 ⟨r.val - 4096 * n, hq⟩ cc) := by
        funext a; apply Fin.ext
        match a with
        | ⟨0, _⟩ =>
          show r.val = win0_1.index ⟨n, hu⟩ 0 * 4096 + 1 * (r.val - 4096 * n)
          rw [(index1 ⟨n, hu⟩).1]
          show r.val = n * 4096 + 1 * (r.val - 4096 * n); omega
        | ⟨1, _⟩ =>
          show cc.val = win0_1.index ⟨n, hu⟩ 1 * 128 + 1 * cc.val
          rw [(index1 ⟨n, hu⟩).2]; omega
      rw [he, View.write_emb_of_mem _ _ (Finset.mem_univ _)]
      show X (ix2 ⟨r.val - 4096 * n, hq⟩ cc) = _
      refine (hX' ⟨r.val - 4096 * n, hq⟩ cc (by show 4096 * n + (r.val - 4096 * n) < 1000001; omega)).trans ?_
      congr 1; funext a
      match a with
      | ⟨0, _⟩ => rfl
      | ⟨1, _⟩ => exact Fin.ext (by show 4096 * n + (r.val - 4096 * n) = r.val; omega)
    · -- an earlier row: block n's write-back does not touch it
      rw [View.write_of_not_mem]
      · exact arrAt_ok c O R ft f1 n (by omega) G₀ hG₀ r cc hr (by omega)
      · rw [View.setOn_univ]
        show ix2 r cc ∉ ((View.whole main_v1).slice (win0_1.rect ⟨n, hu⟩)).set
        rw [View.set_slice_whole, Rect.mem_set_unit]
        intro h
        have h0 := (h 0).1
        have h0' : win0_1.index ⟨n, hu⟩ 0 * 4096 ≤ r.val := h0
        rw [(index1 ⟨n, hu⟩).1] at h0'
        have h0'' : n * 4096 ≤ r.val := h0'
        omega

end Cert.Proof.KI

end
-- ==== Proof.Region.Entry.lean ====
/-
  The repacking region's resources: what the launch element deals each device for it, the staging cells'
  invariants allocated from that and the TensorCore's scoped semaphores, the pipeline's entry rule at this
  program's proof data, and what that rule asks and gives back, in the terms of the lookup program.
-/
import proofs.«206585_g20916490731584_cont_8to1_1403_18_alg».proof.Proof.Common
import proofs.«206585_g20916490731584_cont_8to1_1403_18_alg».proof.Proof.Region.Body
import Idealize.ShloMosaic.Lib.Pipeline.Launch
import Idealize.ShloMosaic.Lib.Pipeline.Value
import Idealize.ShloMosaic.Lib.ValueLayout

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx (ix2)

variable {F : FTy → Type} [FloatOps F]

local notation "𝕄" => MT nD τ sig (HIx 1) (Elt F) ℕ UU ℕ

/-! ## Funding the region at launch -/

/-- The levels a recorded (own cell, index) pair of the TensorCore may sit at: at or below b. -/
def recB (d : Dev nD) (b : ℕ) : Set (SemLoc sig × HIx 1) := {p | (K (F := F)).lev (T d, p.1) p.2 ≤ b}

/-- The pipeline's share of the launch element, per device: its staging cells' rounds ghost state and the
    transfers' duty tokens. -/
def RegionFund (d : Dev nD) : sProp 𝕄 :=
  iprop(Pipeline.cellsGhost cfgs ER 0 d ∗ Pipeline.toksInit cfgs ER 0 d)

/-- What the region is entered with besides the arrays, the scoped buffers and what the TensorCore owes: the
    staging cells' invariants under names κ with their records, the duty tokens, and the scoped semaphores that
    are no staging cell, at zero. -/
def RegionPre (d : Dev nD) (O : CellTallies nD τ sig (HIx 1)) (b : ℕ)
    (ft : S64x1000001.Idx → Elt F .f32) (f1 : S1003520x128.Idx → Elt F .f32) (κ : GSem nD τ sig → ℕ) : sProp 𝕄 :=
  iprop(Pipeline.RDat.cellsInit cfgs (rdats O (recB (F := F) d b) ft f1) ER κ 0 d ∗ Pipeline.toksInit cfgs ER 0 d
    ∗ Pipeline.idleSems0 cfgs cellOf_inj 0 (Pipeline.OwnSemFacts.none (cfgs 0).spec) d)

/-- The launch element's pipeline component deals every device its share. -/
theorem regionFund_intro :
    BI.own ((ER (F := F)) (initOf (Pipeline.cells (nD := nD) (τ := τ) cfgs cellOf_inj) (Pipeline.launchToks (nD := nD) (τ := τ) cfgs cellOf_inj)))
      ⊢ iprop(|==> bigSep Finset.univ fun d : Dev nD => RegionFund (F := F) d) := by
  iintro H
  imod (Pipeline.fund_ghost cfgs (ER (F := F)) cellOf_inj) $$ H with ⟨Hg, Ht⟩
  imodintro
  have hpick (Ψ : Fin 1 → Dev nD → sProp 𝕄) :
      (bigSep Finset.univ fun c : Dev nD => bigSep Finset.univ fun p' => Ψ p' c) ⊢ bigSep Finset.univ fun c : Dev nD => Ψ 0 c :=
    bigSep_mono fun c _ => BI.bigSep_elim (Finset.mem_univ (0 : Fin 1))
  simp only [RegionFund, bigSep_sep']
  isplitl [Hg]
  · iapply (hpick fun p' c => Pipeline.cellsGhost cfgs (ER (F := F)) p' c); iexact Hg
  · iapply (hpick fun p' c => Pipeline.toksInit cfgs (ER (F := F)) p' c); iexact Ht

/-- From a device's share and its TensorCore's scoped semaphores at zero: the staging cells' invariants, allocated. -/
theorem regionPre_alloc (d : Dev nD) (O : CellTallies nD τ sig (HIx 1)) (b : ℕ)
    (ft : S64x1000001.Idx → Elt F .f32) (f1 : S1003520x128.Idx → Elt F .f32) {Es : Set ℕ} :
    iprop(RegionFund (F := F) d ∗ scopedSems0 (T d)) ⊢ |={Es}=> iprop(∃ κ, RegionPre d O b ft f1 κ) := by
  have hss := Pipeline.scopedSems0_split (Ix := HIx 1) (Val := Elt F) (Name := ℕ) (U := UU) (Lvl := ℕ) (nD := nD) (τ := τ)
    cfgs cellOf_inj (0 : Fin 1) winFacts0.to₀ (Pipeline.OwnSemFacts.none (cfgs 0).spec) d
  unfold RegionFund RegionPre
  iintro ⟨⟨Hg, Ht⟩, Hss⟩
  ihave Hss' := (Entails.of_eq hss) $$ Hss
  icases Hss' with ⟨⟨Hcells, -⟩, Hidle⟩
  imod (Pipeline.RDat.cellsInit_alloc cfgs (rdats O (recB (F := F) d b) ft f1) (ER (F := F)) cellOf_inj (0 : Fin 1) d) $$ [Hcells Hg] with ⟨%κ, -, Hinit⟩
  · isplitl [Hcells] <;> iassumption
  imodintro
  iexists κ
  isplitl [Hinit]; · iexact Hinit
  isplitl [Ht]; · iexact Ht
  iexact Hidle

/-! ## The region's rule inside the lookup program -/

/-- The relational data the region runs under: what the TensorCore owes, and its recorded pairs at or below level b. -/
abbrev rds (d : Dev nD) (O : CellTallies nD τ sig (HIx 1)) (b : ℕ)
    (ft : S64x1000001.Idx → Elt F .f32) (f1 : S1003520x128.Idx → Elt F .f32) :
    (p : Fin 1) → (c : Dev nD) → RDat τ (Elt F) (HIx 1) ℕ UU ℕ (cfgs p) c := rdats O (recB (F := F) d b) ft f1

/-- The scoped semaphores of the TensorCore that are no staging cell. -/
abbrev idle0 (d : Dev nD) : sProp 𝕄 :=
  Pipeline.idleSems0 cfgs cellOf_inj 0 (Pipeline.OwnSemFacts.none (cfgs 0).spec) d

/-- The TensorCore's scoped buffers are the pipeline's staging buffers, -/
theorem scopedBufs_eq (d : Dev nD) :
    (scopedBufs (d : Thread nD τ) : sProp 𝕄) = iprop(Pipeline.Dat.staging (cfgs 0) d ∗ iprop(emp)) := by
  have hsb := Pipeline.scopedBufs_split (Ix := HIx 1) (Val := Elt F) (Name := ℕ) (U := UU) (Lvl := ℕ) (nD := nD) (τ := τ)
    cfgs (0 : Fin 1) winFacts0.stage_scoped winFacts0.stage_inj stage_whole0 d
  rw [scopedRest0_eq] at hsb
  exact hsb

/-- and its scoped semaphores at zero the staging cells and the rest. -/
theorem scopedSems0_eq (d : Dev nD) :
    (scopedSems0 (d : Thread nD τ) : sProp 𝕄) = iprop((Pipeline.cellsSems0 cfgs 0 d ∗ iprop(emp)) ∗ idle0 (F := F) d) := by
  have hss := Pipeline.scopedSems0_split (Ix := HIx 1) (Val := Elt F) (Name := ℕ) (U := UU) (Lvl := ℕ) (nD := nD) (τ := τ)
    cfgs cellOf_inj (0 : Fin 1) winFacts0.to₀ (Pipeline.OwnSemFacts.none (cfgs 0).spec) d
  rw [Pipeline.ownSems0_none] at hss
  exact hss

/-- No table is prefetched. -/
theorem prefHeld_eq (d : Dev nD) :
    (Pipeline.prefHeld (pcfgs (F := F) 0).pre d (fun k => k.elim0) (aP (F := F) 0).1 : sProp 𝕄) = iprop(emp) := by
  unfold Pipeline.prefHeld; rw [Finset.univ_eq_empty, bigSep_empty]; rfl

/-- Nothing is routed into the pipeline's invariant, -/
theorem region_in (d : Dev nD) (O : CellTallies nD τ sig (HIx 1)) (b : ℕ)
    (ft : S64x1000001.Idx → Elt F .f32) (f1 : S1003520x128.Idx → Elt F .f32) :
    iprop(iprop(emp) ∗ Pipeline.prefHeld (pcfgs (F := F) 0).pre d (fun k => k.elim0) (aP (F := F) 0).1 ∗ iprop(emp))
      ⊢ (rds d O b ft f1 0 d).Φ 0 := by
  iintro -; iempintro

/-- and at the exit the staging cells at zero, the staging buffers and the other scoped semaphores are the
    TensorCore's scoped storage again. -/
theorem region_out (d : Dev nD) (O : CellTallies nD τ sig (HIx 1)) (b : ℕ)
    (ft : S64x1000001.Idx → Elt F .f32) (f1 : S1003520x128.Idx → Elt F .f32) :
    iprop((rds d O b ft f1 0 d).Φ (Fin.last (cfgs 0).N) ∗ Pipeline.cellsSems0 cfgs 0 d ∗ Pipeline.Dat.staging (cfgs 0) d ∗ idle0 (F := F) d)
      ⊢ iprop(iprop(emp) ∗ scopedSems0 (d : Thread nD τ) ∗ scopedBufs (d : Thread nD τ)) := by
  rw [scopedSems0_eq, scopedBufs_eq]
  iintro ⟨-, Hc, Hst, Hidle⟩
  isplitr; · iempintro
  isplitl [Hc Hidle]
  · isplitl [Hc]
    · isplitl [Hc]; · iexact Hc
      iempintro
    iexact Hidle
  isplitl [Hst]; · iexact Hst
  iempintro

set_option maxHeartbeats 400000 in
/-- The pipeline's entry rule at this program's data. -/
theorem entry_rule (d : Dev nD) (O : CellTallies nD τ sig (HIx 1)) (b : ℕ)
    (ft : S64x1000001.Idx → Elt F .f32) (f1 : S1003520x128.Idx → Elt F .f32) (κ : GSem nD τ sig → ℕ) (Q : PUnit → sProp 𝕄) :
    iprop(Pipeline.RDat.EntryPre cfgs (rds d O b ft f1) none (ER (F := F)) κ 0 d
        ∗ Pipeline.prefHeld (pcfgs (F := F) 0).pre d (fun k => k.elim0) (aP (F := F) 0).1 ∗ iprop(emp) ∗ idle0 (F := F) d ∗ scopedBufs (d : Thread nD τ))
      ⊢ iprop(((Pipeline.RDat.EntryPost cfgs (rds d O b ft f1) none 0 d ∗ iprop(emp) ∗ scopedSems0 (d : Thread nD τ) ∗ scopedBufs (d : Thread nD τ))
              -∗ wp frame (wpE (D (F := F)) 𝒱 (d : Thread nD τ) none) Set.univ (.ret ⟨⟩) Q)
          -∗ wp frame (wpE (D (F := F)) 𝒱 (d : Thread nD τ) none) Set.univ (.op (.customCall (Pipeline.entry (0 : Fin 1)) ()) fun _ => .ret ⟨⟩) Q) :=
  Pipeline.RDat.wp_customCall_entry_frame (pcfgs (F := F)) aP (rds d O b ft f1) none (ER (F := F)) κ cellOf_inj (0 : Fin 1)
    defs₀ 𝒱₀ (fun k => k.elim0) d Set.univ (fun _ _ => Set.mem_univ _) (body_ok d O (recB (F := F) d b) ft f1) block_pos0 none (fun u h => nomatch h)
    (X := iprop(emp)) (Y := iprop(emp)) (R := iprop(emp)) (I := idle0 (F := F) d)
    (Entails.of_eq (scopedBufs_eq d)) (region_in d O b ft f1) (region_out d O b ft f1) (k := fun _ => .ret ⟨⟩) (Q := Q)

/-- Both arrays are held at the full share. -/
theorem share_full (d : Dev nD) (O : CellTallies nD τ sig (HIx 1)) (b : ℕ)
    (ft : S64x1000001.Idx → Elt F .f32) (f1 : S1003520x128.Idx → Elt F .f32) (w : Fin 2) :
    (rds d O b ft f1 0 d).share w = fullShare := by
  unfold RDat.share; split <;> rfl

set_option maxHeartbeats 400000 in
/-- What the entry asks besides the scoped storage, from the cells' invariants, the duty tokens, the level facts,
    what the TensorCore owes and the two arrays. -/
theorem entryPre_intro (d : Dev nD) (O : CellTallies nD τ sig (HIx 1)) (hO : ∀ g, O g none = 0) (W : Waits sig (HIx 1)) (b : ℕ)
    (hW : (K (F := F)).WBelow (T d) W b) (lv : GSem nD τ sig → HIx 1 → ℕ) (hlv : (K (F := F)).Refines lv)
    (ft : S64x1000001.Idx → Elt F .f32) (f1 : S1003520x128.Idx → Elt F .f32) (κ : GSem nD τ sig → ℕ) :
    iprop(Pipeline.RDat.cellsInit cfgs (rds d O b ft f1) (ER (F := F)) κ 0 d ∗ Pipeline.toksInit cfgs (ER (F := F)) 0 d
        ∗ levAts (K (F := F)).L lv ∗ owes (T d) O W ∗ (tLoc d ↦{fullShare} ft) ∗ (yLoc d ↦{fullShare} f1))
      ⊢ Pipeline.RDat.EntryPre cfgs (rds d O b ft f1) none (ER (F := F)) κ 0 d := by
  unfold Pipeline.RDat.EntryPre Pipeline.PerCore.RDat.EntryPre
  iintro ⟨Hinit, Htok, #Hlev, HO, Ht, Hy⟩
  isplitl [Ht Hy]
  · unfold RDat.arrays
    rw [bigSep_W0, share_full, share_full, (arr_whole0 0).set_eq_univ, (arr_whole0 1).set_eq_univ]
    isplitl [Ht]; · iexact Ht
    iexact Hy
  isplitl [HO]
  · iexists W
    isplitr
    · ipureintro
      intro p hp
      exact Or.inl (hW p hp)
    iexact HO
  isplitr
  · iapply (Pipeline.RDat.cellsWaits_intro cfgs (rds d O b ft f1) none (0 : Fin 1) d (R := levAts (K (F := F)).L lv)
      fun w s t => (K (F := F)).mayWait_none (.dma (((cfgs 0).win w).sem s)) hO lv hlv)
    iexact Hlev
  isplitl [Hinit]; · iexact Hinit
  iexact Htok

set_option maxHeartbeats 400000 in
/-- What the exit gives back of the arrays and of what the TensorCore owes. -/
theorem entryPost_elim (d : Dev nD) (O : CellTallies nD τ sig (HIx 1)) (b : ℕ)
    (ft : S64x1000001.Idx → Elt F .f32) (f1 : S1003520x128.Idx → Elt F .f32) :
    Pipeline.RDat.EntryPost cfgs (rds d O b ft f1) none 0 d
      ⊢ iprop((tLoc d ↦{fullShare} ft) ∗ (∃ fy, (yLoc d ↦{fullShare} fy) ∗ ⌜RepackOK ft fy⌝)
          ∗ (∃ W', ⌜(K (F := F)).WBelow (T d) W' b⌝ ∗ owes (T d) O W')) := by
  unfold Pipeline.RDat.EntryPost Pipeline.PerCore.RDat.EntryPost RDat.arraysAt
  rw [bigSep_W0]
  iintro ⟨⟨⟨%F0, %hF0, H0⟩, ⟨%F1, %hF1, H1⟩⟩, ⟨%W', %hW', HO⟩⟩
  rw [(rds d O b ft f1 0 d).ArrAt_in (0 : Fin 2) rfl] at hF0
  have e0 : F0 = ft := hF0
  rw [e0]
  rw [share_full, (arr_whole0 0).set_eq_univ]
  rw [share_full, (arr_whole0 1).set_eq_univ]
  isplitl [H0]; · iexact H0
  isplitl [H1]
  · iexists F1
    isplitl [H1]; · iexact H1
    ipureintro
    intro r cc hr
    have hN : cfg0.N = 245 := N_0
    have hlt : r.val < 4096 * cfg0.N := by have := r.isLt; omega
    exact arrAt_ok d O (recB (F := F) d b) ft f1 cfg0.N le_rfl F1 hF1 r cc hr hlt
  iexists W'
  isplitr
  · ipureintro
    intro p hp
    rcases hW' hp with h | ⟨w, s, rfl⟩
    · exact h
    · show (K (F := F)).lev _ none ≤ b
      rw [SparseCore.Cfg.lev_none]; exact Nat.zero_le _
  iexact HO

end Cert.Proof.KI

end
-- ==== Proof.Region.lean ====
/-
  The TensorCore region inside the lookup program: a pipeline over 245 points that repacks the transposed table
  (64 rows of 1000001 columns, fetched in blocks of 4096 columns, the last block cut at the table's end) into an
  array of 1003520 rows of 128 columns whose row r, for r below 1000001, is the table's row r twice side by side.
  This module states the region's rule as the lookup program's @main uses it; the proof data, the body obligation
  and the value of the write-backs are in Region/Body, the resources and the entry rule in Region/Entry.
-/
import proofs.«206585_g20916490731584_cont_8to1_1403_18_alg».proof.Proof.Region.Entry

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

/-- The region's statement in the lookup program is the pipeline's entry, lifted into the program's table: a proof
    about the entry under the pipeline's table is a proof about the statement. -/
theorem lift_rule (d : Dev nD) (Φ : PUnit → sProp 𝕄) :
    wp frame (wpE (D (F := F)) 𝒱 (T d) none) Set.univ
        ((.op (.customCall (Pipeline.entry (0 : Fin 1)) ()) fun _ => .ret ⟨⟩) : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry 0)) ())) Φ :=
  SparseCore.Cfg.wp_liftProg (K (F := F)) (D (F := F)) 𝒱 (T d) Set.univ none
    ((.op (.customCall (Pipeline.entry (0 : Fin 1)) ()) fun _ => .ret ⟨⟩) : Prog (TpuEff nD τ sig (Elt F) (ΛP (F := F)) .tc) PUnit) Φ

set_option maxHeartbeats 400000 in
/-- The region, entered from the staging cells' invariants, what the TensorCore owes (all of it at a call's
    index, so that the pipeline's own waits, recorded at index none, sit below it), the transposed table, the
    repacked table at any contents and the scoped buffers: it runs to the transposed table unchanged, the repacked
    table right on every row inside the table, the scoped storage handed back, and the same tallies owed. -/
theorem region_wp (d : Dev nD) (O : CellTallies nD τ sig (HIx 1)) (hO : ∀ g, O g none = 0) (W : Waits sig (HIx 1)) (b : ℕ)
    (hW : (K (F := F)).WBelow (T d) W b)
    (lv : GSem nD τ sig → HIx 1 → ℕ) (hlv : (K (F := F)).Refines lv)
    (ft : S64x1000001.Idx → Elt F .f32) (f1 : S1003520x128.Idx → Elt F .f32) (κ : GSem nD τ sig → ℕ)
    (Φ : PUnit → sProp 𝕄) :
    iprop(RegionPre d O b ft f1 κ ∗ levAts (K (F := F)).L lv ∗ owes (T d) O W
        ∗ (tLoc d ↦{fullShare} ft) ∗ (yLoc d ↦{fullShare} f1) ∗ scopedBufs (T d)
        ∗ (((tLoc d ↦{fullShare} ft) ∗ (∃ fy, (yLoc d ↦{fullShare} fy) ∗ ⌜RepackOK ft fy⌝) ∗ scopedBufs (T d) ∗ scopedSems0 (T d)
              ∗ (∃ W', ⌜(K (F := F)).WBelow (T d) W' b⌝ ∗ owes (T d) O W')) -∗ Φ ⟨⟩))
      ⊢ wp frame (wpE ((K (F := F)).defs (D (F := F))) 𝒱 (T d) none) Set.univ
          (Prog.lift (.customCall (SparseCore.inner (Pipeline.entry 0)) ())) Φ := by
  refine BIBase.Entails.trans ?_ (lift_rule d Φ)
  unfold RegionPre
  iintro ⟨⟨Hinit, Htok, Hidle⟩, #Hlev, HO, Ht, Hy, Hsc, Hk⟩
  iapply (entry_rule d O b ft f1 κ Φ) $$ [Hinit Htok Hidle HO Ht Hy Hsc]
  · isplitl [Hinit Htok HO Ht Hy]
    · iapply (entryPre_intro d O hO W b hW lv hlv ft f1 κ)
      isplitl [Hinit]; · iexact Hinit
      isplitl [Htok]; · iexact Htok
      isplitr; · iexact Hlev
      isplitl [HO]; · iexact HO
      isplitl [Ht]; · iexact Ht
      iexact Hy
    isplitr; · rw [prefHeld_eq]; iempintro
    isplitr; · iempintro
    isplitl [Hidle]; · iexact Hidle
    iexact Hsc
  iintro ⟨Hpost, -, Hss, Hsc⟩
  rw [wp_ret]
  imodintro
  iapply Hk
  ihave Hp := (entryPost_elim d O b ft f1) $$ Hpost
  icases Hp with ⟨Ht, Hy, HO⟩
  isplitl [Ht]; · iexact Ht
  isplitl [Hy]; · iexact Hy
  isplitl [Hsc]; · iexact Hsc
  isplitl [Hss]; · iexact Hss
  iexact HO

end Cert.Proof.KI

end
-- ==== Proof.Main.lean ====
/-
  @main on the TensorCore, the launch element of the ghost state, how the final memory reads the claim, and the
  program's run: under the range of the index words, every weakly fair execution of the TensorCore's @main beside
  the SparseCores' subcores terminates, nothing faulting, with the result at the lookup and the two arguments
  unchanged. @main: the table transposed on the host; the TensorCore region that repacks it; the index array
  flattened on the host; the SparseCore call, handed per core its read shares and its workers' rows; the gathered
  rows reshaped on the host.
-/
import proofs.«206585_g20916490731584_cont_8to1_1403_18_alg».proof.Proof.Pay
import proofs.«206585_g20916490731584_cont_8to1_1403_18_alg».proof.Proof.Region

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The TensorCore's buffers -/

omit m ρ in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tabLoc d ↦{fullShare} W main_arg1) ∗ (tLoc d ↦{fullShare} W main_v0) ∗ (yLoc d ↦{fullShare} W main_v1)
          ∗ (iLoc d ↦{fullShare} W main_v2) ∗ (oLoc d ↦{fullShare} W main_v3) ∗ resLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## How the final memory reads the claim -/

/-- What @main leaves: the two arguments at their launch contents, the result at the lookup. -/
abbrev FIN (d : Dev nD) : sProp 𝕄 :=
  iprop((xLoc d ↦{fullShare} m (xLoc d)) ∗ (tabLoc d ↦{fullShare} m (tabLoc d)) ∗ resLoc d ↦{fullShare} (Cert.Spec.G (x0 m d) (tb0 m d) : Buf (Elt F) (resLoc d)))

def fq (d : Dev nD) (s' : Phys nD τ sig (Elt F)) : Prop :=
  s'.mem.mem (resLoc d) = Cert.Spec.G (x0 m d) (tb0 m d) ∧ s'.mem.mem (xLoc d) = m (xLoc d) ∧ s'.mem.mem (tabLoc d) = m (tabLoc d)

set_option maxRecDepth 16384 in
omit ρ in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (SI_pointsTo_agree (st := s') (ℓ := resLoc d) (I := Finset.univ) (q := fullShare) (f := (Cert.Spec.G (x0 m d) (tb0 m d) : Buf (Elt F) (resLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The physical post: on every device the result is the lookup and the arguments are unchanged. -/
def QC : PUnit × MemSt nD τ sig (Elt F) → Prop := fun r => ∀ c : Dev nD,
  r.2.mem (resLoc c) = Cert.Spec.G (x0 m c) (tb0 m c) ∧ r.2.mem (xLoc c) = m (xLoc c) ∧ r.2.mem (tabLoc c) = m (tabLoc c)

/-! ## The gathered array among the thirty-two workers -/

omit m ρ in
theorem oSet_eq (w : Fin 32) : oSet w = (orow w).set := by
  show ((View.whole (main_v3_scv : Ref sig .scVector)).slice (orow w)).set = _
  rw [View.set_slice]; exact Finset.map_refl
omit m ρ in
theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit m ρ in
theorem orows_cover : (Finset.univ : Finset (Fin 32)).biUnion oSet = Finset.univ :=
  (Finset.biUnion_congr rfl fun i _ => oSet_eq i).trans (Rect.biUnion_part odiv)

omit m ρ in
/-- The gathered array whole is the thirty-two workers' rows; -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

/-- worker 2 i + c is task i of SparseCore c: the workers, core by core. -/
def wEquiv : Fin 2 × Fin 16 ≃ Fin 32 := (Equiv.prodComm _ _).trans finProdFinEquiv
omit m ρ in
theorem wEquiv_apply (c : Fin 2) (i : Fin 16) : wEquiv (c, i) = wIdx c i := by
  refine Fin.ext ?_
  show c.val + 2 * i.val = 2 * i.val + c.val
  omega
omit m ρ in
theorem rows_deal (Φ : Fin 32 → sProp 𝕄) :
    bigSep Finset.univ Φ = bigSep Finset.univ fun c : Fin 2 => bigSep Finset.univ fun i : Fin 16 => Φ (wIdx c i) := by
  rw [bigSep_univ_equiv wEquiv Φ, bigSep_univ_prod]
  simp only [wEquiv_apply]

omit m ρ in
theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => stPts m d c :=
  bigSep_cores (F := F) (fun c => stPts m d c)
theorem dn0_eq (d : Dev nD) : (bigSep Finset.univ fun c : Fin ((K (F := F)).nCore 0) => (P m).dn 0 d c) = bigSep Finset.univ fun c : Fin 2 => dnPts m d c :=
  bigSep_cores (F := F) (fun c => dnPts m d c)

omit ρ in
/-- Each core's operands, from the three families over the cores, at one contents of the repacked table. -/
theorem st_intro (d : Dev nD) (fy : Buf (Elt F) (yLoc d)) (hy : Repacked (tb0 m d) fy) :
    (bigSep Finset.univ fun c : Fin 2 => iprop((yLoc d ↦{cq c} fy) ∗ (iLoc d ↦{cq c} fi0 m d)
        ∗ bigSep Finset.univ fun i : Fin 16 => oLoc d ↦[oSet (wIdx c i)]{fullShare} o0 m d) : sProp 𝕄)
      ⊢ bigSep Finset.univ fun c : Fin 2 => stPts m d c :=
  bigSep_mono fun c _ => by
    show (iprop((yLoc d ↦{cq c} fy) ∗ (iLoc d ↦{cq c} fi0 m d)
        ∗ bigSep Finset.univ fun i : Fin 16 => oLoc d ↦[oSet (wIdx c i)]{fullShare} o0 m d) : sProp 𝕄) ⊢ stPts m d c
    iintro ⟨Hy, Hi, Ho⟩
    iexists fy
    isplitr; · ipureintro; exact hy
    isplitl [Hy]; · iexact Hy
    isplitl [Hi]; · iexact Hi
    iexact Ho

omit ρ in
/-- The call's operands, dealt: from the repacked table, the flat index array and the gathered array whole. -/
theorem st_deal (d : Dev nD) (fy : Buf (Elt F) (yLoc d)) (hy : Repacked (tb0 m d) fy) :
    iprop((yLoc d ↦{fullShare} fy) ∗ (iLoc d ↦{fullShare} fi0 m d) ∗ oLoc d ↦{fullShare} o0 m d)
      ⊢ (bigSep Finset.univ fun c : Fin 2 => stPts m d c : sProp 𝕄) := by
  rw [oPts_rows, rows_deal (F := F) (fun w => oLoc d ↦[oSet w]{fullShare} o0 m d)]
  iintro ⟨Hy, Hi, Ho⟩
  ihave Hy' := (Transfers.pointsTo_toks_split fullShare 2) $$ Hy
  icases Hy' with ⟨-, Hys⟩
  ihave Hi' := (Transfers.pointsTo_toks_split fullShare 2) $$ Hi
  icases Hi' with ⟨-, His⟩
  ihave H2 := (Entails.of_eq (bigSep_sep' (Finset.univ : Finset (Fin 2)) (fun c => (iLoc d ↦{cq c} fi0 m d : sProp 𝕄))
      (fun c => (bigSep Finset.univ fun i : Fin 16 => oLoc d ↦[oSet (wIdx c i)]{fullShare} o0 m d : sProp 𝕄))).symm) $$ [His Ho]
  · isplitl [His]; · iexact His
    iexact Ho
  ihave H := (Entails.of_eq (bigSep_sep' (Finset.univ : Finset (Fin 2)) (fun c => (yLoc d ↦{cq c} fy : sProp 𝕄))
      (fun c => iprop((iLoc d ↦{cq c} fi0 m d) ∗ bigSep Finset.univ fun i : Fin 16 => oLoc d ↦[oSet (wIdx c i)]{fullShare} o0 m d))).symm) $$ [Hys H2]
  · isplitl [Hys]; · iexact Hys
    iexact H2
  iapply (st_intro m d fy hy) $$ H

omit ρ in
/-- The call's results, gathered: the gathered array whole at the gathered rows. -/
theorem dn_join (d : Dev nD) : (bigSep Finset.univ fun c : Fin 2 => dnPts m d c : sProp 𝕄) = oLoc d ↦{fullShare} go0 m d := by
  rw [oPts_rows, rows_deal (F := F) (fun w => oLoc d ↦[oSet w]{fullShare} go0 m d)]

/-! ## The host operations -/

/-- The launch valuation of device d. -/
abbrev V0 (d : Dev nD) : Valuation τ sig (Elt F) := fun b => m (d, b)

abbrev argX : DevRef τ sig := Proc.devRef .tc main_arg0
abbrev argT : DevRef τ sig := Proc.devRef .tc main_arg1
abbrev refT : DevRef τ sig := Proc.devRef .tc main_v0
abbrev refI : DevRef τ sig := Proc.devRef .tc main_v2
abbrev refO : DevRef τ sig := Proc.devRef .tc main_v3
abbrev refR : DevRef τ sig := Proc.devRef .tc main_v4

/-- The table transposed. -/
abbrev ft0 [FloatOps F] (d : Dev nD) : Buf (Elt F) (tLoc d) := transpose S64x1000001 [1, 0] (tb0 m d) transposes_S1000001x64_S64x1000001_1_0

omit ρ in
/-- A region result that repacks the transposed table repacks the table. -/
theorem repacked_of_transposed [FloatOps F] (d : Dev nD) {fy : S1003520x128.Idx → Elt F .f32}
    (h : ∀ (r : Fin 1003520) (c : Fin 128) (hr : r.val < 1000001), fy (ix2 r c) = ft0 m d (ix2 ⟨c.val % 64, Nat.mod_lt _ (by decide)⟩ ⟨r.val, hr⟩)) :
    Repacked (tb0 m d) fy := fun r c hr => (h r c hr).trans (transpose_ix2_apply _ _ _ _)

/-! ## The launch element of the ghost state -/

/-- The pipeline's launch element: its staging cells' rounds and the transfers' duty tokens. -/
def uP : UP := initOf (Pipeline.cells (nD := nD) (τ := τ) cfgs cellOf_inj) (Pipeline.launchToks (nD := nD) (τ := τ) cfgs cellOf_inj)

def u₀ : UU := (initOf (K (F := F)).hsCells (K (F := F)).hsToks, (uP, 1))

omit m ρ in
theorem bigSep_emp' {I : Type} (s : Finset I) : (bigSep s fun _ => iprop(emp)) = (iprop(emp) : sProp 𝕄) := bigSep_emp_const s

omit m ρ in
/-- The pipeline's launch element, owned through the right of the user algebra's halves, is owned through the pipeline's embedding. -/
theorem ownP_eq : (BI.own (((Emb.inl : Emb UP (UP × Counters)).trans
      (embR (A := UH) (B := UP × Counters) (nD := nD) (τ := τ) (sig := sig) (Ix := HIx 1) (Val := Elt F) (Name := ℕ) (Lvl := ℕ))) uP) : sProp 𝕄)
    = BI.own ((ER (F := F)) (initOf (Pipeline.cells (nD := nD) (τ := τ) cfgs cellOf_inj) (Pipeline.launchToks (nD := nD) (τ := τ) cfgs cellOf_inj))) := rfl

omit ρ in
theorem hu₀ [FloatOps F] : (ownU (u₀ (F := F)) : sProp 𝕄)
    ⊢ |={Set.univ}=> iprop(BI.own (EH (initOf (K (F := F)).hsCells (K (F := F)).hsToks)) ∗ (bigSep Finset.univ fun d : Dev nD => RegionFund (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP, (1 : Counters)) : UP × Counters)) $$ Hu
  icases H with ⟨HH, HR⟩
  ihave HR' := (own_pair_emb (embR (A := UH) (B := UP × Counters) (nD := nD) (τ := τ) (sig := sig) (Ix := HIx 1) (Val := Elt F) (Name := ℕ) (Lvl := ℕ)) uP (1 : Counters)) $$ HR
  icases HR' with ⟨HP, -⟩
  ihave HP' := (Entails.of_eq (ownP_eq (F := F))) $$ HP
  imod (regionFund_intro (F := F)) $$ HP' with Hf
  imodintro
  isplitl [HH]; · iexact HH
  isplitl [Hf]; · iexact Hf
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit m ρ in
/-- Nothing the TensorCore owes sits at the kernels' own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- The three host operations. -/
abbrev opT [FloatOps F] : HloOp τ sig (Elt F) :=
  StableHlo.unary main_arg1 main_v0 ((transpose S64x1000001 [1, 0] · transposes_S1000001x64_S64x1000001_1_0) : (⟨S1000001x64, .f32⟩ : BufTy).Contents (Elt F) → (⟨S64x1000001, .f32⟩ : BufTy).Contents (Elt F))
abbrev opI : HloOp τ sig (Elt F) := StableHlo.reshape main_arg0 main_v2 rfl shapeCasts_S4096x200_S819200
abbrev opR : HloOp τ sig (Elt F) := StableHlo.reshape main_v3 main_v4 rfl shapeCasts_S819200x64_S4096x200x64

omit m ρ in
theorem opT_bufs [FloatOps F] (d : Dev nD) (W : Valuation τ sig (Elt F)) :
    (bigSep (opT (F := F)).bufs (fun b => ((d, b) : Loc nD τ sig) ↦{fullShare} W b) : sProp 𝕄)
      = iprop((tabLoc d ↦{fullShare} W argT) ∗ tLoc d ↦{fullShare} W refT) := by
  show bigSep ({argT, refT} : Finset (DevRef τ sig)) (fun b => ((d, b) : Loc nD τ sig) ↦{fullShare} W b) = _
  rw [SparseCore.bigSep_insert' (by decide), bigSep_singleton]
omit m ρ in
theorem opI_bufs (d : Dev nD) (W : Valuation τ sig (Elt F)) :
    (bigSep (opI (F := F)).bufs (fun b => ((d, b) : Loc nD τ sig) ↦{fullShare} W b) : sProp 𝕄)
      = iprop((xLoc d ↦{fullShare} W argX) ∗ iLoc d ↦{fullShare} W refI) := by
  show bigSep ({argX, refI} : Finset (DevRef τ sig)) (fun b => ((d, b) : Loc nD τ sig) ↦{fullShare} W b) = _
  rw [SparseCore.bigSep_insert' (by decide), bigSep_singleton]
omit m ρ in
theorem opR_bufs (d : Dev nD) (W : Valuation τ sig (Elt F)) :
    (bigSep (opR (F := F)).bufs (fun b => ((d, b) : Loc nD τ sig) ↦{fullShare} W b) : sProp 𝕄)
      = iprop((oLoc d ↦{fullShare} W refO) ∗ resLoc d ↦{fullShare} W refR) := by
  show bigSep ({refO, refR} : Finset (DevRef τ sig)) (fun b => ((d, b) : Loc nD τ sig) ↦{fullShare} W b) = _
  rw [SparseCore.bigSep_insert' (by decide), bigSep_singleton]

/-- The valuation before the last reshape: the launch's, the gathered array at the gathered rows. -/
def Vg (d : Dev nD) : Valuation τ sig (Elt F) := Function.update (V0 m d) refO (go0 m d)
theorem Vg_o (d : Dev nD) : Vg m d refO = go0 m d := Function.update_self _ _ _
theorem Vg_r (d : Dev nD) : Vg m d refR = m (resLoc d) := Function.update_of_ne (show refR ≠ refO by decide) _ _

omit m ρ in
/-- The TensorCore's handshake state opens at what it owes. -/
theorem tcSt_split (d : Dev nD) (n : ℕ) : ∃ R : sProp 𝕄, (K (F := F)).tcSt EH d n
    = iprop((∃ W, ⌜(K (F := F)).WBelow (SparseCore.T d) W (8 * n)⌝ ∗ owes (SparseCore.T d) ((K (F := F)).Otc d n) W) ∗ R) := ⟨_, rfl⟩

set_option maxHeartbeats 2000000 in
theorem hmain [FloatOps F] (hpre : PreOK m) (κ : GSem nD τ sig → ℕ) (d : Dev nD) :
    iprop((K (F := F)).ctx EH (P m) κ ∗ (K (F := F)).tcSt EH d 0 ∗ (K (F := F)).tcRes m ρ d ∗ RegionFund (F := F) d)
      ⊢ wp frame (wpE ((K (F := F)).defs (D (F := F))) 𝒱 (SparseCore.T d) none) Set.univ (main d)
          fun _ => iprop((K (F := F)).tcSt EH d 1 ∗ FIN m d) := by
  obtain ⟨R0, hR0⟩ := tcSt_split (F := F) d 0
  unfold SparseCore.Cfg.tcRes
  rw [unscopedBufs_eq, hR0]
  simp only [main, wp_bind, wp_pure]
  iintro ⟨#Hctx, ⟨⟨%W, %hW, HO⟩, HR0⟩, ⟨Hb, ⟨Hx, Htab, Ht, Hy, Hi, Ho, Hr⟩, -, -⟩, Hfund⟩
  -- the table transposed
  iapply (wp_hlo 𝒱 (SparseCore.T d) none Set.univ (op := opT (F := F)) (q := fun _ => fullShare) (F := V0 m d) (fun _ _ => rfl)) $$ [Hb Htab Ht]
  · isplitl [Hb]; · iexact Hb
    rw [opT_bufs]
    isplitl [Htab]; · iexact Htab
    iexact Ht
  rw [opT_bufs, (opT (F := F)).result_of_not_mem (V0 m d) (b := argT) (show argT ∉ ({refT} : Finset (DevRef τ sig)) by decide),
    show (opT (F := F)).result (V0 m d) refT = ft0 m d from StableHlo.unary_result _ _ _ _ _ _]
  iintro ⟨Hb, Htab, Ht⟩
  rw [wp_ret]; imodintro
  -- the region that repacks it
  ihave Hb' := (Entails.of_eq (show (boundary (SparseCore.T d) : sProp 𝕄)
      = iprop(scopedBufs (SparseCore.T d) ∗ scopedSems0 (SparseCore.T d) ∗ opIdle (SparseCore.T d)) from rfl)) $$ Hb
  icases Hb' with ⟨Hsb, Hss, Hidle⟩
  iapply fupd_wp
  imod (regionPre_alloc (F := F) d ((K (F := F)).Otc d 0) (8 * 0) (ft0 m d) (m (yLoc d))) $$ [Hfund Hss] with ⟨%κp, Hpre⟩
  · isplitl [Hfund]; · iexact Hfund
    iexact Hss
  imodintro
  ihave Hlev := ((K (F := F)).ctx_levAts (EH := EH) (P := P m) κ) $$ Hctx
  iapply (region_wp (F := F) d ((K (F := F)).Otc d 0) (Otc_none d 0) W (8 * 0) hW (K (F := F)).lev (SparseCore.Cfg.refines_self _) (ft0 m d) (m (yLoc d)) κp _)
  isplitl [Hpre]; · iexact Hpre
  isplitl [Hlev]; · iexact Hlev
  isplitl [HO]; · iexact HO
  isplitl [Ht]; · iexact Ht
  isplitl [Hy]; · iexact Hy
  isplitl [Hsb]; · iexact Hsb
  iintro ⟨Ht, ⟨%fy, Hy, %hfy⟩, Hsb, Hss, %W', %hW', HO⟩
  have hy : Repacked (tb0 m d) fy := repacked_of_transposed m d hfy
  -- the TensorCore's handshake state and its boundary, closed again
  ihave Hst := (Entails.of_eq hR0.symm) $$ [HO HR0]
  · isplitl [HO]
    · iexists W'; isplitr
      · ipureintro; exact hW'
      · iexact HO
    iexact HR0
  ihave Hb := (Entails.of_eq (show iprop(scopedBufs (SparseCore.T d) ∗ scopedSems0 (SparseCore.T d) ∗ opIdle (SparseCore.T d))
      = (boundary (SparseCore.T d) : sProp 𝕄) from rfl)) $$ [Hsb Hss Hidle]
  · isplitl [Hsb]; · iexact Hsb
    isplitl [Hss]; · iexact Hss
    iexact Hidle
  -- the index array flattened
  iapply (wp_hlo 𝒱 (SparseCore.T d) none Set.univ (op := opI (F := F)) (q := fun _ => fullShare) (F := V0 m d) (fun _ _ => rfl)) $$ [Hb Hx Hi]
  · isplitl [Hb]; · iexact Hb
    rw [opI_bufs]
    isplitl [Hx]; · iexact Hx
    iexact Hi
  rw [opI_bufs, (opI (F := F)).result_of_not_mem (V0 m d) (b := argX) (show argX ∉ ({refI} : Finset (DevRef τ sig)) by decide),
    show (opI (F := F)).result (V0 m d) refI = fi0 m d from (StableHlo.reshape_result _ _ _ _ _ _ _).trans rfl]
  iintro ⟨Hb, Hx, Hi⟩
  rw [wp_ret]; imodintro
  -- the SparseCore call
  iapply ((K (F := F)).wp_run (D (F := F)) 𝒱 (EH := EH) (P := P m) κ d 0) $$ [Hst Hy Hi Ho Hb Hx Htab Hr Ht]
  isplitr; · iexact Hctx
  isplitl [Hst]; · iexact Hst
  isplitl [Hy Hi Ho]
  · rw [st0_eq]
    iapply (st_deal m d fy hy) $$ [Hy Hi Ho]
    isplitl [Hy]; · iexact Hy
    isplitl [Hi]; · iexact Hi
    iexact Ho
  iintro ⟨Hst, Hdn⟩
  ihave Ho := (Entails.of_eq ((dn0_eq m d).trans (dn_join m d))) $$ Hdn
  -- the gathered rows reshaped
  iapply (wp_hlo 𝒱 (SparseCore.T d) none Set.univ (op := opR (F := F)) (q := fun _ => fullShare) (F := Vg m d) (fun _ _ => rfl)) $$ [Hb Ho Hr]
  · isplitl [Hb]; · iexact Hb
    rw [opR_bufs, Vg_o, Vg_r]
    isplitl [Ho]; · iexact Ho
    iexact Hr
  rw [opR_bufs, show (opR (F := F)).result (Vg m d) refR = (Cert.Spec.G (x0 m d) (tb0 m d) : Buf (Elt F) (resLoc d)) from
    ((StableHlo.reshape_result _ _ _ _ _ _ _).trans (by rw [Vg_o]; exact reshape_gath (x0 m d) (tb0 m d)))]
  iintro ⟨Hb, -, Hr⟩
  rw [wp_ret]; imodintro; imodintro
  isplitl [Hst]; · iexact Hst
  isplitl [Hx]; · iexact Hx
  isplitl [Htab]; · iexact Htab
  iexact Hr

/-! ## The program's run -/

/-- Under the range of the index words: every weakly fair execution of @main on the TensorCore and of the gather on
    the two SparseCores' thirty-two vector subcores terminates, nothing faulting and no handshake unanswered, and
    every final state has the lookup in the result and the two arguments unchanged. -/
theorem run_main [∀ e, Nonempty (Elt F e)] [FloatOps F] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => RegionFund (F := F) d) (FIN m) (u₀ (F := F)) (sep_elim_left.trans (hu₀ m)) (hmain m ρ hpre) (fq m) (hfin m) (QC m) (fun _ h => h)

end Cert.Proof.KI

end
-- ==== Proof.B.Common.lean ====
/-
  The lookup kernel's program as the SparseCore launch theorem sees it, the resource algebra of its proof, and
  the vocabulary the pieces of the proof share: the three arrays the SparseCore call works on (the flattened
  index array, the repacked table, the gathered rows), the thirty-two workers' shares of the gathered rows
  (worker w = 2 · subcore + core owns rows [25600 w, 25600 (w + 1))), and the rows a worker writes as one
  whole-array function of the index array and the repacked table.
-/
import proofs.«206585_g20916490731584_cont_8to1_1403_18_alg».proof.Kernel
import proofs.«206585_g20916490731584_cont_8to1_1403_18_alg».proof.Proof.Gen.Kernel
import proofs.«206585_g20916490731584_cont_8to1_1403_18_alg».proof.Proof.Gen.Kernel.Skeleton
import proofs.«206585_g20916490731584_cont_8to1_1403_18_alg».proof.Proof.Gen.Kernel.Launch
import proofs.«206585_g20916490731584_cont_8to1_1403_18_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.ValueIdx
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the transfers' counters -/

abbrev UH : Type := URounds (GSem nD τ sig) ℕ
abbrev UP : Type := UR sig nD τ
abbrev UU : Type := UH × (UP × Counters)

abbrev EH : Emb UH (MT nD τ sig (HIx 1) (Elt F) ℕ UU ℕ) := embL
def ER : Emb UP (MT nD τ sig (HIx 1) (Elt F) ℕ UU ℕ) := (Emb.inl : Emb UP (UP × Counters)).trans embR
instance ER_landsIn : (ER (F := F)).LandsIn (upEmb : UEmb _ (MT nD τ sig (HIx 1) (Elt F) ℕ UU ℕ)) := by
  unfold ER embR; infer_instance

/-! ## The arrays -/

/-- The index array as the program's arguments hold it, the table, and the result. -/
abbrev xLoc (d : Dev nD) : Loc nD τ sig := (SparseCore.T d).loc main_arg0
abbrev tabLoc (d : Dev nD) : Loc nD τ sig := (SparseCore.T d).loc main_arg1
abbrev resLoc (d : Dev nD) : Loc nD τ sig := (SparseCore.T d).loc main_v4
/-- The transposed table, the repacked table, the flattened index array, the gathered rows. -/
abbrev tLoc (d : Dev nD) : Loc nD τ sig := (SparseCore.T d).loc main_v0
abbrev yLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-! ## The workers' rows -/

theorem odiv : 32 ∣ S819200x64.size 0 := ⟨25600, rfl⟩
/-- Worker w's rows of the gathered array: rows [25600 w, 25600 (w + 1)), every column. -/
abbrev orow (w : Fin 32) : Rect S819200x64 := Rect.part (s := S819200x64) (a₀ := 0) odiv w
abbrev oSet (w : Fin 32) : Finset S819200x64.Idx :=
  ((Memref.whole main_v3_scv : Memref sig .scVector .hbm S819200x64 .f32).view.slice (orow w)).set

theorem bound_zero : grid1.bound 0 = 2 := rfl
theorem bound_one : grid1.bound 1 = 16 := rfl
/-- The worker at a grid point: twice the subcore plus the core. -/
def wOf (L : grid1.Coords) : Fin 32 :=
  ⟨2 * (L 1).val + (L 0).val, by have h0 : (L 0).val < 2 := (L 0).isLt; have h1 : (L 1).val < 16 := (L 1).isLt; omega⟩
abbrev cV (L : grid1.Coords) : Fin τ.nSC := (L 0).castLE hcore1
abbrev jV (L : grid1.Coords) : Fin τ.nSub := (L 1).castLE hsub1

/-- The row of the repacked table a word selects (its unsigned value, clamped so that the selection is total). -/
def yRow (w : BitVec 32) : Fin 1003520 := ⟨min w.toNat 1003519, by omega⟩
/-- The gathered rows as ONE function of the flattened index array and the repacked table: row i is the first 64
    columns of the repacked table's row that word i selects. -/
def rowsOf (fi : S819200.Idx → BitVec 32) (fy : S1003520x128.Idx → Elt F .f32) : S819200x64.Idx → Elt F .f32 :=
  fun j => fy (ValueIdx.ix2 (yRow (fi (ValueIdx.ix1 (j 0)))) ⟨(j 1).val, by have := (j 1).isLt; exact Nat.lt_of_lt_of_le this (by decide)⟩)

end Cert.Proof.KB

end
-- ==== Proof.B.HostVals.lean ====
/-
  The kernel's host-side values, index by index. The index array flattened row by row (word i of the flat array
  is word (i / 200, i % 200) of the argument); the gathered rows as a function of the table (row i, column c is
  the table at the row word i selects, column c); that the gathered rows reshaped to [4096, 200, 64] are the
  lookup; and that rows gathered from a repacked table — whose rows below 1000001 hold the table's rows twice
  side by side — are those, once every word is a row number between 0 and 999999.
-/
import proofs.«206585_g20916490731584_cont_8to1_1403_18_alg».proof.Proof.B.Common
import proofs.«206585_g20916490731584_cont_8to1_1403_18_alg».proof.Proof.Spec
import Idealize.ShloMosaic.Lib.Pipeline.Value
import Idealize.ShloMosaic.Lib.ValueLayout

noncomputable section

namespace Cert.Proof.KB

open Cert.Kernel Cert.Kernel.Gen
open Idealize.ShloMosaic Idealize.ShloMosaic.ValueIdx

variable {α : Type}

/-- The index array flattened row by row. -/
def flat (x : S4096x200.Idx → BitVec 32) : S819200.Idx → BitVec 32 :=
  shapeCast S819200 x shapeCasts_S4096x200_S819200

/-- Word i of the flat array is word (i / 200, i % 200) of the argument. -/
theorem flat_apply (x : S4096x200.Idx → BitVec 32) (i : Fin 819200) :
    flat x (ix1 i) = x (ix2 ⟨i.val / 200, by have := i.isLt; omega⟩ ⟨i.val % 200, Nat.mod_lt _ (by decide)⟩) := by
  unfold flat
  refine shapeCast_apply x _ _ _ ?_
  rw [Shape.rowMajor_val_two, Shape.rowMajor_val_one]
  show i.val / 200 * 200 + i.val % 200 = i.val
  omega

/-- Every word of the flat array is a word of the argument. -/
theorem flat_mem (x : S4096x200.Idx → BitVec 32) (j : S819200.Idx) : ∃ k, flat x j = x k := by
  unfold flat shapeCast
  exact ⟨_, rfl⟩

/-- The gathered rows as a function of the table: row i, column c is the table at the row word i selects. -/
def gath (x : S4096x200.Idx → BitVec 32) (tb : S1000001x64.Idx → α) : S819200x64.Idx → α :=
  fun j => tb (ix2 (Cert.Spec.rowOf (flat x (ix1 (j 0)))) (j 1))

/-- The gathered rows, reshaped to [4096, 200, 64], are the lookup. -/
theorem reshape_gath (x : S4096x200.Idx → BitVec 32) (tb : S1000001x64.Idx → α) :
    shapeCast S4096x200x64 (gath x tb) shapeCasts_S819200x64_S4096x200x64 = Cert.Spec.G x tb := by
  funext j
  obtain ⟨b, h, c, rfl⟩ : ∃ (b : Fin 4096) (h : Fin 200) (c : Fin 64), j = ix3 b h c := ⟨j 0, j 1, j 2, eq_ix3 j⟩
  have hlt : b.val * 200 + h.val < 819200 := by have := b.isLt; have := h.isLt; omega
  rw [shapeCast_apply (gath x tb) _ (ix3 b h c) (ix2 ⟨b.val * 200 + h.val, hlt⟩ c)
    (by rw [Shape.rowMajor_val_two, Shape.rowMajor_val_three]; rfl)]
  show tb (ix2 (Cert.Spec.rowOf (flat x (ix1 ⟨b.val * 200 + h.val, hlt⟩))) c) = tb (ix2 (Cert.Spec.rowOf (x (ix2 b h))) c)
  rw [flat_apply]
  have e1 : (b.val * 200 + h.val) / 200 = b.val := by have := h.isLt; omega
  have e2 : (b.val * 200 + h.val) % 200 = h.val := by have := h.isLt; omega
  refine congrArg (fun k => tb (ix2 (Cert.Spec.rowOf (x k)) c)) ?_
  funext a
  match a with
  | ⟨0, _⟩ => exact Fin.ext e1
  | ⟨1, _⟩ => exact Fin.ext e2

/-- A repacked table: its rows below 1000001 hold the table's rows twice side by side; of its later rows nothing
    is said. -/
def Repacked (tb : S1000001x64.Idx → α) (fy : S1003520x128.Idx → α) : Prop :=
  ∀ (r : Fin 1003520) (c : Fin 128) (hr : r.val < 1000001), fy (ix2 r c) = tb (ix2 ⟨r.val, hr⟩ ⟨c.val % 64, Nat.mod_lt _ (by decide)⟩)

/-- Words that are row numbers between 0 and 999999 stay so when flattened; -/
theorem flat_range {x : S4096x200.Idx → BitVec 32} (hx : Cert.Spec.InRange x) (j : S819200.Idx) :
    0 ≤ (flat x j).toInt ∧ (flat x j).toInt ≤ 999999 := by
  obtain ⟨k, e⟩ := flat_mem x j
  rw [e]; exact hx k

/-- their unsigned values are rows of the repacked table. -/
theorem flat_lt {x : S4096x200.Idx → BitVec 32} (hx : Cert.Spec.InRange x) (j : S819200.Idx) : (flat x j).toNat < 1003520 := by
  have h := flat_range hx j
  have e := Cert.Spec.rowOf_val h.1 h.2
  have : (Cert.Spec.rowOf (flat x j)).val ≤ 1000000 := Nat.le_of_lt_succ (Cert.Spec.rowOf (flat x j)).isLt
  omega

end Cert.Proof.KB

end
-- ==== Proof.B.Tile.Val.lean ====
/-
  The arithmetic of one task's data movement, apart from the program logic.
  (i) A 16-lane piece stored into the [256,64] scratch at row r, columns [16 b, 16 b + 16), whose payload is the
  same piece of the [256,128] scratch, extends "the [256,64] scratch agrees with columns 0..63 of the [256,128]
  scratch on the rows below r and on the first b pieces of row r" by one piece; four pieces complete a row.
  (ii) What the gather of a chunk's 256 rows leaves in the [256,128] scratch, and what the copy-out of the
  [256,64] scratch then leaves in the result's rows, are the task's rows of the whole-array function rowsOf.
-/
import proofs.«206585_g20916490731584_cont_8to1_1403_18_alg».proof.Proof.B.Common
import Idealize.ShloMosaic.Lib.Writes
import Idealize.ShloMosaic.Lib.Pipeline.Value

noncomputable section

namespace Cert.Proof.KB

open Cert.Kernel Cert.Kernel.Gen

open Idealize.ShloMosaic

variable {F : FTy → Type}

/-! ## Columns 0..63 of the wide scratch -/

/-- The element of the [256,128] scratch with the same row and column as an element of the [256,64] scratch. -/
def widen (y : S256x64.Idx) : S256x128.Idx :=
  ValueIdx.ix2 (⟨(y 0).val, ValueIdx.idx2_lt0 y⟩ : Fin 256)
    (⟨(y 1).val, Nat.lt_of_lt_of_le (ValueIdx.idx2_lt1 y) (by decide)⟩ : Fin 128)

/-- Columns 0..63 of a [256,128] array, as a [256,64] array. -/
def cols {α : Type} (g : S256x128.Idx → α) : S256x64.Idx → α := fun y => g (widen y)

/-- The [256,64] array f agrees with columns 0..63 of g on the rows below r and on the first b sixteen-lane
    pieces of row r. -/
def Done {α : Type} (g : S256x128.Idx → α) (r b : ℕ) (f : S256x64.Idx → α) : Prop :=
  ∀ y : S256x64.Idx, ((y 0).val < r ∨ ((y 0).val = r ∧ (y 1).val < 16 * b)) → f y = cols g y

theorem done_row {α : Type} {g : S256x128.Idx → α} {r : ℕ} {f : S256x64.Idx → α} (h : Done g r 4 f) : Done g (r + 1) 0 f := by
  intro y hy
  apply h
  have h1 : (y 1).val < 64 := ValueIdx.idx2_lt1 y
  rcases hy with hlt | ⟨_, hlt⟩
  · by_cases e : (y 0).val = r
    · exact .inr ⟨e, by omega⟩
    · exact .inl (by omega)
  · omega

theorem done_all {α : Type} {g : S256x128.Idx → α} {f : S256x64.Idx → α} (h : Done g 256 0 f) : f = cols g := by
  funext y
  exact h y (.inl (ValueIdx.idx2_lt0 y))

theorem done_mono {α : Type} {g : S256x128.Idx → α} {r r' : ℕ} {f : S256x64.Idx → α} (e : r = r') (h : Done g r 0 f) : Done g r' 0 f := e ▸ h

/-- The same sixteen lanes of the two scratches: the element of the wide one under a piece's lane is the widening
    of the element of the narrow one under the same lane of the piece at the same offsets. -/
theorem emb_widen (off off' : Fin 2 → ℕ) (h : ∀ a, off a + S1x16.size a ≤ S256x64.size a)
    (h' : ∀ a, off' a + S1x16.size a ≤ S256x128.size a) (e : off' = off) (x : S1x16.Idx) :
    (Rect.unit (s := S256x128) off' S1x16.size h').emb x = widen ((Rect.unit (s := S256x64) off S1x16.size h).emb x) := by
  subst e
  funext a
  apply Fin.ext
  match a with
  | ⟨0, _⟩ => rfl
  | ⟨1, _⟩ => rfl

local notation "v9" => (View.whole Cert.Kernel.cc1_scratch4 : View Cert.Kernel.sig Kind.scVector Space.vmem Cert.Kernel.S256x64 EltTy.f32)

/-- One more piece. -/
theorem done_store (g : S256x128.Idx → Elt F .f32) (r b : ℕ) (f : (v9).ty.Contents (Elt F)) (L : List (View.Piece (Elt F) S256x64 .f32))
    (off : Fin 2 → ℕ) (hin : ∀ a, off a + S1x16.size a ≤ S256x64.size a) (w : S1x16.Idx → Elt F .f32)
    (hoff : off = ![r, 16 * b])
    (hw : ∀ x, w x = cols g ((Rect.unit (s := S256x64) off S1x16.size hin).emb x))
    (h : Done g r b ((v9).writes (Elt F) f L)) :
    Done g r (b + 1) ((v9).writes (Elt F) f (⟨Rect.unit (s := S256x64) off S1x16.size hin, w⟩ :: L)) := by
  intro y hy
  by_cases hm : y ∈ (Rect.unit (s := S256x64) off S1x16.size hin).set
  · obtain ⟨x, rfl⟩ := (Rect.unit (s := S256x64) off S1x16.size hin).exists_idx_of_mem hm
    exact (View.read_writes_cons_emb (v9) f (Rect.unit (s := S256x64) off S1x16.size hin) w L x).trans (hw x)
  · have hy' : y ∉ Finset.univ.map (Rect.unit (s := S256x64) off S1x16.size hin).emb := by rwa [Rect.map_emb_univ]
    have e : (v9).writes (Elt F) f (⟨Rect.unit (s := S256x64) off S1x16.size hin, w⟩ :: L) y = (v9).writes (Elt F) f L y :=
      View.read_slice_write_of_not_mem (v := v9) (Rect.unit (s := S256x64) off S1x16.size hin) ((v9).writes (Elt F) f L) w Finset.univ hy'
    rw [e]
    apply h
    rcases hy with hlt | ⟨heq, hlt⟩
    · exact .inl hlt
    · refine .inr ⟨heq, ?_⟩
      by_contra hge
      apply hm
      rw [Rect.mem_set_unit]
      subst hoff
      intro a
      match a with
      | ⟨0, _⟩ => exact ⟨by show r ≤ (y 0).val; omega, by show (y 0).val < r + 1; omega⟩
      | ⟨1, _⟩ => exact ⟨by show 16 * b ≤ (y 1).val; omega, by show (y 1).val < 16 * b + 16; omega⟩

/-- A piece's payload, the same sixteen lanes loaded from the wide scratch (cast to a flat vector and back), is
    columns 0..63 of the wide scratch under the piece's lanes. -/
theorem pay_ok0 (g : (View.whole Cert.Kernel.cc1_scratch2 : View Cert.Kernel.sig Kind.scVector Space.vmem Cert.Kernel.S256x128 EltTy.f32).ty.Contents (Elt F))
    (off off' : Fin 2 → ℕ) (h : ∀ a, off a + S1x16.size a ≤ S256x64.size a) (h' : ∀ a, off' a + S1x16.size a ≤ S256x128.size a)
    (e : off' = off) (w : S1x16.Idx → Elt F .f32) (h1 : S1x16.ShapeCasts S16) (h2 : S16.ShapeCasts S1x16)
    (hw : w = shapeCast S1x16 (shapeCast S16
      (View.readAt (Elt F) (View.whole Cert.Kernel.cc1_scratch2 : View Cert.Kernel.sig Kind.scVector Space.vmem Cert.Kernel.S256x128 EltTy.f32)
        (Rect.unit (s := S256x128) off' S1x16.size h').toLoadRect g) h1) h2) :
    ∀ x, w x = cols g ((Rect.unit (s := S256x64) off S1x16.size h).emb x) := by
  subst hw
  intro x
  rw [shapeCast_shapeCast]
  show g ((Rect.unit (s := S256x128) off' S1x16.size h').emb x) = _
  rw [emb_widen off off' h h' e x]
  rfl

/-- A piece's payload, the same sixteen lanes loaded from the wide scratch (cast to a flat vector and back), is
    columns 0..63 of the wide scratch under the piece's lanes. -/
theorem pay_ok1 (g : (View.whole Cert.Kernel.cc1_scratch3 : View Cert.Kernel.sig Kind.scVector Space.vmem Cert.Kernel.S256x128 EltTy.f32).ty.Contents (Elt F))
    (off off' : Fin 2 → ℕ) (h : ∀ a, off a + S1x16.size a ≤ S256x64.size a) (h' : ∀ a, off' a + S1x16.size a ≤ S256x128.size a)
    (e : off' = off) (w : S1x16.Idx → Elt F .f32) (h1 : S1x16.ShapeCasts S16) (h2 : S16.ShapeCasts S1x16)
    (hw : w = shapeCast S1x16 (shapeCast S16
      (View.readAt (Elt F) (View.whole Cert.Kernel.cc1_scratch3 : View Cert.Kernel.sig Kind.scVector Space.vmem Cert.Kernel.S256x128 EltTy.f32)
        (Rect.unit (s := S256x128) off' S1x16.size h').toLoadRect g) h1) h2) :
    ∀ x, w x = cols g ((Rect.unit (s := S256x64) off S1x16.size h).emb x) := by
  subst hw
  intro x
  rw [shapeCast_shapeCast]
  show g ((Rect.unit (s := S256x128) off' S1x16.size h').emb x) = _
  rw [emb_widen off off' h h' e x]
  rfl

/-! ## The task's rows -/

/-- Word n of the flattened index array (zero past its end, so that the function is total). -/
def idxAt (fi : S819200.Idx → BitVec 32) (n : ℕ) : BitVec 32 := if h : n < 819200 then fi (ValueIdx.ix1 ⟨n, h⟩) else 0

theorem idxAt_lt {fi : S819200.Idx → BitVec 32} (hin : ∀ j, (fi j).toNat < 1003520) (n : ℕ) : (idxAt fi n).toNat < 1003520 := by
  unfold idxAt
  split
  · exact hin _
  · decide

theorem rowsOf_apply [FloatOps F] (fi : S819200.Idx → BitVec 32) (fy : S1003520x128.Idx → Elt F .f32) (j : S819200x64.Idx) :
    rowsOf fi fy j = fy (ValueIdx.ix2 (yRow (idxAt fi (j 0).val)) ⟨(j 1).val, Nat.lt_of_lt_of_le (ValueIdx.idx2_lt1 j) (by decide)⟩) := by
  have h : (j 0).val < 819200 := ValueIdx.idx2_lt0 j
  unfold rowsOf idxAt
  rw [dif_pos h]
  rfl

/-- What the [256,128] scratch holds once chunk t of worker w has been gathered: row r is the repacked table's
    row that word 25600 w + 256 t + r selects. -/
def Gathered (fi : S819200.Idx → BitVec 32) (fy : S1003520x128.Idx → Elt F .f32) (base : ℕ) (g : S256x128.Idx → Elt F .f32) : Prop :=
  ∀ x : S256x128.Idx, g x = fy (ValueIdx.ix2 (yRow (idxAt fi (base + (x 0).val))) ⟨(x 1).val, ValueIdx.idx2_lt1 x⟩)

/-- The result's rows before trip t of worker w: the task's rows below 25600 w + 256 t done, the others as they were. -/
def mixO [FloatOps F] (fi : S819200.Idx → BitVec 32) (fy : S1003520x128.Idx → Elt F .f32) (fo : S819200x64.Idx → Elt F .f32) (n : ℕ) :
    S819200x64.Idx → Elt F .f32 :=
  fun j => if (j 0).val < n then rowsOf fi fy j else fo j

/-- A chunk's rows, copied out of a [256,64] scratch that holds columns 0..63 of the gathered rows, are the
    task's rows there. -/
theorem cols_gathered [FloatOps F] {fi : S819200.Idx → BitVec 32} {fy : S1003520x128.Idx → Elt F .f32} {base : ℕ} {g : S256x128.Idx → Elt F .f32}
    (hg : Gathered fi fy base g) (y : S256x64.Idx) (j : S819200x64.Idx) (h0 : (j 0).val = base + (y 0).val) (h1 : (j 1).val = (y 1).val) :
    cols g y = rowsOf fi fy j := by
  rw [rowsOf_apply, cols, hg (widen y)]
  have e0 : ((widen y) 0).val = (y 0).val := rfl
  have e1 : ((widen y) 1).val = (y 1).val := rfl
  congr 1
  funext a
  match a with
  | ⟨0, _⟩ => show yRow (idxAt fi (base + ((widen y) 0).val)) = yRow (idxAt fi (j 0).val); rw [e0, h0]
  | ⟨1, _⟩ => apply Fin.ext; show ((widen y) 1).val = (j 1).val; rw [e1, h1]

end Cert.Proof.KB

end
-- ==== Proof.B.Tile.Base.lean ====
/-
  One vector subcore's task: the vocabulary of its proof. The conditions of the trip's branches in closed form,
  the memrefs the task addresses as the program spells them, the task's own scratch buffers and DMA semaphores
  found among the subcore's own, and the rows of one chunk among the task's rows of the result.
-/
import proofs.«206585_g20916490731584_cont_8to1_1403_18_alg».proof.Proof.B.Common
import proofs.«206585_g20916490731584_cont_8to1_1403_18_alg».proof.Proof.B.Tile.Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v1_scv : Memref Cert.Kernel.sig Kind.scVector Space.hbm Cert.Kernel.S1003520x128 EltTy.f32)
local notation "iV" => (Memref.whole Cert.Kernel.main_v2_scv : Memref Cert.Kernel.sig Kind.scVector Space.hbm Cert.Kernel.S819200 EltTy.i32)
local notation "oV" => (Memref.whole Cert.Kernel.main_v3_scv : Memref Cert.Kernel.sig Kind.scVector Space.hbm Cert.Kernel.S819200x64 EltTy.f32)
local notation "a5V" => (Memref.whole Cert.Kernel.cc1_scratch0 : Memref Cert.Kernel.sig Kind.scVector Space.vmem Cert.Kernel.S256 EltTy.i32)
local notation "a6V" => (Memref.whole Cert.Kernel.cc1_scratch1 : Memref Cert.Kernel.sig Kind.scVector Space.vmem Cert.Kernel.S256 EltTy.i32)
local notation "a7V" => (Memref.whole Cert.Kernel.cc1_scratch2 : Memref Cert.Kernel.sig Kind.scVector Space.vmem Cert.Kernel.S256x128 EltTy.f32)
local notation "a8V" => (Memref.whole Cert.Kernel.cc1_scratch3 : Memref Cert.Kernel.sig Kind.scVector Space.vmem Cert.Kernel.S256x128 EltTy.f32)
local notation "a9V" => (Memref.whole Cert.Kernel.cc1_scratch4 : Memref Cert.Kernel.sig Kind.scVector Space.vmem Cert.Kernel.S256x64 EltTy.f32)

/-! ## The branches of a trip, in closed form -/

theorem trips1 : k1_t1_loop.trips = 100 := by decide +kernel
theorem trips2 : k1_t2_loop.trips = 64 := by decide +kernel
theorem trips3 : k1_t3_loop.trips = 64 := by decide +kernel

/-- Chunk t + 1 is fetched when there is one; into slot 0 when t is odd, into slot 1 when t is even; chunk t is
    selected out of slot 0 when t is even, out of slot 1 when t is odd. -/
theorem cond1_iff : ∀ k : Fin k1_t1_loop.trips, k1_cond1 k = 1#1 ↔ k.val + 1 < 100 := by decide +kernel
theorem cond2_iff : ∀ k : Fin k1_t1_loop.trips, k1_cond2 k = 1#1 ↔ k.val % 2 = 1 := by decide +kernel
theorem cond3_iff : ∀ k : Fin k1_t1_loop.trips, k1_cond3 k = 1#1 ↔ k.val % 2 = 0 := by decide +kernel
theorem cond4_iff : ∀ k : Fin k1_t1_loop.trips, k1_cond4 k = 1#1 ↔ k.val % 2 = 0 := by decide +kernel
theorem cond5_iff : ∀ k : Fin k1_t1_loop.trips, k1_cond5 k = 1#1 ↔ k.val % 2 = 1 := by decide +kernel

/-! ## The memrefs, as the program spells them -/

/-- All of the repacked table, as the gathers address it. -/
abbrev yAllK : Memref sig .scVector .hbm S1003520x128 .f32 :=
  (yV).slice (Rect.unit (s := S1003520x128) ![0, 0] S1003520x128.size inb_S1003520x128_S1003520x128_0_0) (fun _ => rfl)

/-- The rows of chunk t among the result's, as the copy-out addresses them. -/
abbrev oRectK (L : grid1.Coords) (k : Fin k1_t1_loop.trips) : Rect S819200x64 :=
  Rect.unit (s := S819200x64) (k1_off20 L k) S256x64.size (k1_off20_inb L k)
abbrev oChK (L : grid1.Coords) (k : Fin k1_t1_loop.trips) : Memref sig .scVector .hbm S256x64 .f32 :=
  (oV).slice (oRectK L k) (fun _ => rfl)

/-- The base row of worker w's chunk t. -/
def baseOf (L : grid1.Coords) (t : ℕ) : ℕ := 25600 * (wOf L).val + 256 * t

theorem wOf_val (L : grid1.Coords) : (wOf L).val = 2 * (L 1).val + (L 0).val := rfl

/-- An element of the result lies in chunk t's rows iff its row does. -/
theorem mem_oChK (L : grid1.Coords) (k : Fin k1_t1_loop.trips) (j : S819200x64.Idx) :
    j ∈ (oChK L k).view.set ↔ baseOf L k.val ≤ (j 0).val ∧ (j 0).val < baseOf L k.val + 256 := by
  have e : (oChK L k).view.set = (oRectK L k).set := View.set_slice_whole main_v3_scv (oRectK L k)
  rw [e, Rect.mem_set_unit, k1_off20_eq, Fin.forall_fin_two]
  have h1 : (j 1).val < 64 := ValueIdx.idx2_lt1 j
  unfold baseOf
  rw [wOf_val]
  constructor
  · rintro ⟨⟨a, b⟩, -⟩
    constructor
    · have : 51200 * (L 1).val + 25600 * (L 0).val + 256 * k.val ≤ (j 0).val := a
      omega
    · have : (j 0).val < 51200 * (L 1).val + 25600 * (L 0).val + 256 * k.val + 256 := b
      omega
  · rintro ⟨a, b⟩
    refine ⟨⟨?_, ?_⟩, ⟨Nat.zero_le _, ?_⟩⟩
    · show 51200 * (L 1).val + 25600 * (L 0).val + 256 * k.val ≤ (j 0).val
      omega
    · show (j 0).val < 51200 * (L 1).val + 25600 * (L 0).val + 256 * k.val + 256
      omega
    · show (j 1).val < 0 + 64
      omega

/-- An element of the result is one of worker w's iff its row is. -/
theorem mem_oSet (L : grid1.Coords) (j : S819200x64.Idx) :
    j ∈ oSet (wOf L) ↔ 25600 * (wOf L).val ≤ (j 0).val ∧ (j 0).val < 25600 * (wOf L).val + 25600 := by
  have e : oSet (wOf L) = (orow (wOf L)).set := View.set_slice_whole main_v3_scv (orow (wOf L))
  rw [e]
  unfold orow Rect.part Rect.block
  rw [Rect.mem_set_unit, Fin.forall_fin_two]
  have h1 : (j 1).val < 64 := ValueIdx.idx2_lt1 j
  simp only [Shape.partIx, Shape.partSize]
  constructor
  · rintro ⟨⟨a, b⟩, -⟩
    simp at a b
    omega
  · rintro ⟨a, b⟩
    simp
    omega

theorem oChK_subset (L : grid1.Coords) (k : Fin k1_t1_loop.trips) : (oChK L k).view.set ⊆ oSet (wOf L) := by
  intro j hj
  rw [mem_oChK] at hj
  rw [mem_oSet]
  have hk : k.val < 100 := trips1 ▸ k.isLt
  unfold baseOf at hj
  omega

variable [FloatOps F]

/-! ## The subcore's own semaphores and scratch buffers -/

abbrev cellOf (d : Dev nD) (L : grid1.Coords) (s : DmaSems sig S_) : GSem nD τ sig := (V d (cV L) (jV L), .dma s.sem)

theorem cell_ne (thr : Thread nD τ) {a b : SemLoc sig} (h : a ≠ b) : ((thr, a) : GSem nD τ sig) ≠ (thr, b) :=
  fun e => h (congrArg Prod.snd e)

omit [FloatOps F] in
theorem bigSep_erase_eq {I : Type} [DecidableEq I] {s : Finset I} {i : I} (hi : i ∈ s) {Φ : I → sProp 𝕄} {A R : sProp 𝕄}
    (hA : Φ i = A) (hR : bigSep (s.erase i) Φ = R) : bigSep s Φ = iprop(A ∗ R) := by
  rw [SparseCore.bigSep_erase' hi, hA, hR]

omit [FloatOps F] in
theorem mem_cells (d : Dev nD) (L : grid1.Coords) (s : DmaSems sig S_) (h : (SemLoc.dma s.sem : SemLoc sig).isScoped .scVector = true) :
    cellOf d L s ∈ ownCells (V d (cV L) (jV L)) := mem_ownCells.mpr ⟨rfl, h⟩

/-- The rest of the subcore's own cells, beside the six the task uses. -/
abbrev restCells (d : Dev nD) (L : grid1.Coords) : Finset (GSem nD τ sig) :=
  ((((((ownCells (V d (cV L) (jV L))).erase (cellOf d L cc1_scratch5)).erase (cellOf d L cc1_scratch6)).erase (cellOf d L cc1_scoped0)).erase
    (cellOf d L cc1_scoped1)).erase (cellOf d L cc1_scoped2)).erase (cellOf d L cc1_scoped3)

omit [FloatOps F] in
theorem ownSems0_V (d : Dev nD) (L : grid1.Coords) :
    (ownSems0 (V d (cV L) (jV L)) : sProp 𝕄)
      = iprop(semVal (cellOf d L cc1_scratch5) 0 ∗ semVal (cellOf d L cc1_scratch6) 0 ∗ semVal (cellOf d L cc1_scoped0) 0
          ∗ semVal (cellOf d L cc1_scoped1) 0 ∗ semVal (cellOf d L cc1_scoped2) 0 ∗ semVal (cellOf d L cc1_scoped3) 0
          ∗ bigSep (restCells d L) fun g => semVal g 0) := by
  unfold SparseCore.Cfg.ownSems0
  have m5 := mem_cells d L cc1_scratch5 (by decide)
  have m6 := mem_cells d L cc1_scratch6 (by decide)
  have m0 := mem_cells d L cc1_scoped0 (by decide)
  have m1 := mem_cells d L cc1_scoped1 (by decide)
  have m2 := mem_cells d L cc1_scoped2 (by decide)
  have m3 := mem_cells d L cc1_scoped3 (by decide)
  refine bigSep_erase_eq m5 rfl (bigSep_erase_eq (Finset.mem_erase.mpr ⟨cell_ne _ (by decide), m6⟩) rfl
    (bigSep_erase_eq (Finset.mem_erase.mpr ⟨cell_ne _ (by decide), Finset.mem_erase.mpr ⟨cell_ne _ (by decide), m0⟩⟩) rfl
    (bigSep_erase_eq (Finset.mem_erase.mpr ⟨cell_ne _ (by decide), Finset.mem_erase.mpr ⟨cell_ne _ (by decide),
        Finset.mem_erase.mpr ⟨cell_ne _ (by decide), m1⟩⟩⟩) rfl
    (bigSep_erase_eq (Finset.mem_erase.mpr ⟨cell_ne _ (by decide), Finset.mem_erase.mpr ⟨cell_ne _ (by decide),
        Finset.mem_erase.mpr ⟨cell_ne _ (by decide), Finset.mem_erase.mpr ⟨cell_ne _ (by decide), m2⟩⟩⟩⟩) rfl
    (bigSep_erase_eq (Finset.mem_erase.mpr ⟨cell_ne _ (by decide), Finset.mem_erase.mpr ⟨cell_ne _ (by decide),
        Finset.mem_erase.mpr ⟨cell_ne _ (by decide), Finset.mem_erase.mpr ⟨cell_ne _ (by decide),
        Finset.mem_erase.mpr ⟨cell_ne _ (by decide), m3⟩⟩⟩⟩⟩) rfl rfl)))))

abbrev refOf (L : grid1.Coords) (b : Ref sig .scVector) : DevRef τ sig := (Proc.scVector (cV L) (jV L)).devRef b

omit [FloatOps F] in
theorem mem_refs (L : grid1.Coords) (b : Ref sig .scVector) (h : (refOf L b).owner = .proc (Proc.scVector (cV L) (jV L))) :
    refOf L b ∈ ownRefs (τ := τ) (sig := sig) (.scVector (cV L) (jV L)) := SparseCore.Cfg.mem_ownRefs_of_owner h

omit [FloatOps F] in
theorem ref_ne (L : grid1.Coords) {a b : Ref sig .scVector} (h : a ≠ b) : refOf L a ≠ refOf L b :=
  fun e => h (Proc.devRef_injective _ e)

/-- The rest of the subcore's own buffers, beside the five scratch buffers of the task. -/
abbrev restRefs (L : grid1.Coords) : Finset (DevRef τ sig) :=
  (((((ownRefs (τ := τ) (sig := sig) (.scVector (cV L) (jV L))).erase (refOf L cc1_scratch0)).erase (refOf L cc1_scratch1)).erase (refOf L cc1_scratch2)).erase
    (refOf L cc1_scratch3)).erase (refOf L cc1_scratch4)

omit [FloatOps F] in
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep (restRefs L) fun b => iprop(∃ f, ((d, b) : Loc nD τ sig) ↦{fullShare} f)) := by
  unfold SparseCore.Cfg.ownBufs
  have m0 := mem_refs L cc1_scratch0 rfl
  have m1 := mem_refs L cc1_scratch1 rfl
  have m2 := mem_refs L cc1_scratch2 rfl
  have m3 := mem_refs L cc1_scratch3 rfl
  have m4 := mem_refs L cc1_scratch4 rfl
  refine bigSep_erase_eq m0 rfl (bigSep_erase_eq (Finset.mem_erase.mpr ⟨ref_ne L (by decide), m1⟩) rfl
    (bigSep_erase_eq (Finset.mem_erase.mpr ⟨ref_ne L (by decide), Finset.mem_erase.mpr ⟨ref_ne L (by decide), m2⟩⟩) rfl
    (bigSep_erase_eq (Finset.mem_erase.mpr ⟨ref_ne L (by decide), Finset.mem_erase.mpr ⟨ref_ne L (by decide),
        Finset.mem_erase.mpr ⟨ref_ne L (by decide), m3⟩⟩⟩) rfl
    (bigSep_erase_eq (Finset.mem_erase.mpr ⟨ref_ne L (by decide), Finset.mem_erase.mpr ⟨ref_ne L (by decide),
        Finset.mem_erase.mpr ⟨ref_ne L (by decide), Finset.mem_erase.mpr ⟨ref_ne L (by decide), m4⟩⟩⟩⟩) rfl rfl))))

end Cert.Proof.KB

end
-- ==== Proof.B.Tile.Inner.lean ====
/-
  The select loop of a trip: 64 trips, each copying columns 0..63 of four rows of the slot's row scratch into the
  [256,64] scratch, sixteen lanes at a time. Once per slot (the two loops differ in the scratch they read).
-/
import proofs.«206585_g20916490731584_cont_8to1_1403_18_alg».proof.Proof.B.Common
import proofs.«206585_g20916490731584_cont_8to1_1403_18_alg».proof.Proof.B.Tile.Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v1_scv : Memref Cert.Kernel.sig Kind.scVector Space.hbm Cert.Kernel.S1003520x128 EltTy.f32)
local notation "iV" => (Memref.whole Cert.Kernel.main_v2_scv : Memref Cert.Kernel.sig Kind.scVector Space.hbm Cert.Kernel.S819200 EltTy.i32)
local notation "oV" => (Memref.whole Cert.Kernel.main_v3_scv : Memref Cert.Kernel.sig Kind.scVector Space.hbm Cert.Kernel.S819200x64 EltTy.f32)
local notation "a5V" => (Memref.whole Cert.Kernel.cc1_scratch0 : Memref Cert.Kernel.sig Kind.scVector Space.vmem Cert.Kernel.S256 EltTy.i32)
local notation "a6V" => (Memref.whole Cert.Kernel.cc1_scratch1 : Memref Cert.Kernel.sig Kind.scVector Space.vmem Cert.Kernel.S256 EltTy.i32)
local notation "a7V" => (Memref.whole Cert.Kernel.cc1_scratch2 : Memref Cert.Kernel.sig Kind.scVector Space.vmem Cert.Kernel.S256x128 EltTy.f32)
local notation "a8V" => (Memref.whole Cert.Kernel.cc1_scratch3 : Memref Cert.Kernel.sig Kind.scVector Space.vmem Cert.Kernel.S256x128 EltTy.f32)
local notation "a9V" => (Memref.whole Cert.Kernel.cc1_scratch4 : Memref Cert.Kernel.sig Kind.scVector Space.vmem Cert.Kernel.S256x64 EltTy.f32)

variable [FloatOps F]

/-- Before trip k of the select loop over slot 0: the row scratch as gathered, the [256,64] scratch agreeing with its
    columns 0..63 on the rows below 4 k. -/
def innerInv0 (d : Dev nD) (L : grid1.Coords) (g : Buf (Elt F) ((V d (cV L) (jV L)).loc cc1_scratch2)) (k : ℕ) (_ : Unit) : sProp 𝕄 :=
  iprop(((a7V).view.loc (V d (cV L) (jV L)) ↦{fullShare} g)
    ∗ ∃ f9 : Buf (Elt F) ((V d (cV L) (jV L)).loc cc1_scratch4), ((a9V).view.loc (V d (cV L) (jV L)) ↦{fullShare} f9) ∗ ⌜Done g (4 * k) 0 f9⌝)

set_option maxHeartbeats 4000000 in
/-- One trip of the select loop over slot 0: four rows, four sixteen-lane pieces each, from the row scratch into
    the [256,64] scratch. -/
theorem inner0_step (d : Dev nD) (L : grid1.Coords) (k1_t1 : Fin k1_t1_loop.trips) (hc : k1_cond4 k1_t1 = 1#1)
    (g : Buf (Elt F) ((V d (cV L) (jV L)).loc cc1_scratch2)) (k : Fin k1_t2_loop.trips) (u : Unit) :
    innerInv0 (F := F) d L g k.val u
      ⊢ wp frame (wpE (defs₀ (F := F)) 𝒱₀ (V d (cV L) (jV L)) none) Set.univ
          (k1_t2_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k1_t1 hc k u)
          (innerInv0 (F := F) d L g (k.val + 1)) := by
  unfold innerInv0 k1_t2_body
  iintro ⟨H7, %f9, H9, %h0⟩
  sl_exec
  sl_step
  isplitl [H7]; · iexact H7
  iexists _
  isplitl [H9]; · iexact H9
  ipureintro
  refine done_mono (show 4 * k.val + 3 + 1 = 4 * (k.val + 1) by omega) ?_
  apply done_row
  refine done_store g (4 * k.val + 3) 3 f9 _ _ _ _ (k1_off11_eq k ⟨3, by decide⟩)
    (pay_ok0 g _ _ _ _ ((k1_off10_eq k ⟨3, by decide⟩).trans (k1_off11_eq k ⟨3, by decide⟩).symm) _ _ _ rfl) ?_
  refine done_store g (4 * k.val + 3) 2 f9 _ _ _ _ (k1_off9_eq k ⟨3, by decide⟩)
    (pay_ok0 g _ _ _ _ ((k1_off8_eq k ⟨3, by decide⟩).trans (k1_off9_eq k ⟨3, by decide⟩).symm) _ _ _ rfl) ?_
  refine done_store g (4 * k.val + 3) 1 f9 _ _ _ _ (k1_off7_eq k ⟨3, by decide⟩)
    (pay_ok0 g _ _ _ _ ((k1_off6_eq k ⟨3, by decide⟩).trans (k1_off7_eq k ⟨3, by decide⟩).symm) _ _ _ rfl) ?_
  refine done_store g (4 * k.val + 3) 0 f9 _ _ _ _ (k1_off5_eq k ⟨3, by decide⟩)
    (pay_ok0 g _ _ _ _ ((k1_off4_eq k ⟨3, by decide⟩).trans (k1_off5_eq k ⟨3, by decide⟩).symm) _ _ _ rfl) ?_
  refine done_mono (show 4 * k.val + 2 + 1 = 4 * k.val + 3 by omega) ?_
  apply done_row
  refine done_store g (4 * k.val + 2) 3 f9 _ _ _ _ (k1_off11_eq k ⟨2, by decide⟩)
    (pay_ok0 g _ _ _ _ ((k1_off10_eq k ⟨2, by decide⟩).trans (k1_off11_eq k ⟨2, by decide⟩).symm) _ _ _ rfl) ?_
  refine done_store g (4 * k.val + 2) 2 f9 _ _ _ _ (k1_off9_eq k ⟨2, by decide⟩)
    (pay_ok0 g _ _ _ _ ((k1_off8_eq k ⟨2, by decide⟩).trans (k1_off9_eq k ⟨2, by decide⟩).symm) _ _ _ rfl) ?_
  refine done_store g (4 * k.val + 2) 1 f9 _ _ _ _ (k1_off7_eq k ⟨2, by decide⟩)
    (pay_ok0 g _ _ _ _ ((k1_off6_eq k ⟨2, by decide⟩).trans (k1_off7_eq k ⟨2, by decide⟩).symm) _ _ _ rfl) ?_
  refine done_store g (4 * k.val + 2) 0 f9 _ _ _ _ (k1_off5_eq k ⟨2, by decide⟩)
    (pay_ok0 g _ _ _ _ ((k1_off4_eq k ⟨2, by decide⟩).trans (k1_off5_eq k ⟨2, by decide⟩).symm) _ _ _ rfl) ?_
  refine done_mono (show 4 * k.val + 1 + 1 = 4 * k.val + 2 by omega) ?_
  apply done_row
  refine done_store g (4 * k.val + 1) 3 f9 _ _ _ _ (k1_off11_eq k ⟨1, by decide⟩)
    (pay_ok0 g _ _ _ _ ((k1_off10_eq k ⟨1, by decide⟩).trans (k1_off11_eq k ⟨1, by decide⟩).symm) _ _ _ rfl) ?_
  refine done_store g (4 * k.val + 1) 2 f9 _ _ _ _ (k1_off9_eq k ⟨1, by decide⟩)
    (pay_ok0 g _ _ _ _ ((k1_off8_eq k ⟨1, by decide⟩).trans (k1_off9_eq k ⟨1, by decide⟩).symm) _ _ _ rfl) ?_
  refine done_store g (4 * k.val + 1) 1 f9 _ _ _ _ (k1_off7_eq k ⟨1, by decide⟩)
    (pay_ok0 g _ _ _ _ ((k1_off6_eq k ⟨1, by decide⟩).trans (k1_off7_eq k ⟨1, by decide⟩).symm) _ _ _ rfl) ?_
  refine done_store g (4 * k.val + 1) 0 f9 _ _ _ _ (k1_off5_eq k ⟨1, by decide⟩)
    (pay_ok0 g _ _ _ _ ((k1_off4_eq k ⟨1, by decide⟩).trans (k1_off5_eq k ⟨1, by decide⟩).symm) _ _ _ rfl) ?_
  refine done_mono (show 4 * k.val + 0 + 1 = 4 * k.val + 1 by omega) ?_
  apply done_row
  refine done_store g (4 * k.val + 0) 3 f9 _ _ _ _ (k1_off11_eq k ⟨0, by decide⟩)
    (pay_ok0 g _ _ _ _ ((k1_off10_eq k ⟨0, by decide⟩).trans (k1_off11_eq k ⟨0, by decide⟩).symm) _ _ _ rfl) ?_
  refine done_store g (4 * k.val + 0) 2 f9 _ _ _ _ (k1_off9_eq k ⟨0, by decide⟩)
    (pay_ok0 g _ _ _ _ ((k1_off8_eq k ⟨0, by decide⟩).trans (k1_off9_eq k ⟨0, by decide⟩).symm) _ _ _ rfl) ?_
  refine done_store g (4 * k.val + 0) 1 f9 _ _ _ _ (k1_off7_eq k ⟨0, by decide⟩)
    (pay_ok0 g _ _ _ _ ((k1_off6_eq k ⟨0, by decide⟩).trans (k1_off7_eq k ⟨0, by decide⟩).symm) _ _ _ rfl) ?_
  refine done_store g (4 * k.val + 0) 0 f9 _ _ _ _ (k1_off5_eq k ⟨0, by decide⟩)
    (pay_ok0 g _ _ _ _ ((k1_off4_eq k ⟨0, by decide⟩).trans (k1_off5_eq k ⟨0, by decide⟩).symm) _ _ _ rfl) ?_
  exact h0

/-- Before trip k of the select loop over slot 1: the row scratch as gathered, the [256,64] scratch agreeing with its
    columns 0..63 on the rows below 4 k. -/
def innerInv1 (d : Dev nD) (L : grid1.Coords) (g : Buf (Elt F) ((V d (cV L) (jV L)).loc cc1_scratch3)) (k : ℕ) (_ : Unit) : sProp 𝕄 :=
  iprop(((a8V).view.loc (V d (cV L) (jV L)) ↦{fullShare} g)
    ∗ ∃ f9 : Buf (Elt F) ((V d (cV L) (jV L)).loc cc1_scratch4), ((a9V).view.loc (V d (cV L) (jV L)) ↦{fullShare} f9) ∗ ⌜Done g (4 * k) 0 f9⌝)

set_option maxHeartbeats 4000000 in
/-- One trip of the select loop over slot 1: four rows, four sixteen-lane pieces each, from the row scratch into
    the [256,64] scratch. -/
theorem inner1_step (d : Dev nD) (L : grid1.Coords) (k1_t1 : Fin k1_t1_loop.trips) (hc : k1_cond5 k1_t1 = 1#1)
    (g : Buf (Elt F) ((V d (cV L) (jV L)).loc cc1_scratch3)) (k : Fin k1_t3_loop.trips) (u : Unit) :
    innerInv1 (F := F) d L g k.val u
      ⊢ wp frame (wpE (defs₀ (F := F)) 𝒱₀ (V d (cV L) (jV L)) none) Set.univ
          (k1_t3_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k1_t1 hc k u)
          (innerInv1 (F := F) d L g (k.val + 1)) := by
  unfold innerInv1 k1_t3_body
  iintro ⟨H7, %f9, H9, %h0⟩
  sl_exec
  sl_step
  isplitl [H7]; · iexact H7
  iexists _
  isplitl [H9]; · iexact H9
  ipureintro
  refine done_mono (show 4 * k.val + 3 + 1 = 4 * (k.val + 1) by omega) ?_
  apply done_row
  refine done_store g (4 * k.val + 3) 3 f9 _ _ _ _ (k1_off19_eq k ⟨3, by decide⟩)
    (pay_ok1 g _ _ _ _ ((k1_off18_eq k ⟨3, by decide⟩).trans (k1_off19_eq k ⟨3, by decide⟩).symm) _ _ _ rfl) ?_
  refine done_store g (4 * k.val + 3) 2 f9 _ _ _ _ (k1_off17_eq k ⟨3, by decide⟩)
    (pay_ok1 g _ _ _ _ ((k1_off16_eq k ⟨3, by decide⟩).trans (k1_off17_eq k ⟨3, by decide⟩).symm) _ _ _ rfl) ?_
  refine done_store g (4 * k.val + 3) 1 f9 _ _ _ _ (k1_off15_eq k ⟨3, by decide⟩)
    (pay_ok1 g _ _ _ _ ((k1_off14_eq k ⟨3, by decide⟩).trans (k1_off15_eq k ⟨3, by decide⟩).symm) _ _ _ rfl) ?_
  refine done_store g (4 * k.val + 3) 0 f9 _ _ _ _ (k1_off13_eq k ⟨3, by decide⟩)
    (pay_ok1 g _ _ _ _ ((k1_off12_eq k ⟨3, by decide⟩).trans (k1_off13_eq k ⟨3, by decide⟩).symm) _ _ _ rfl) ?_
  refine done_mono (show 4 * k.val + 2 + 1 = 4 * k.val + 3 by omega) ?_
  apply done_row
  refine done_store g (4 * k.val + 2) 3 f9 _ _ _ _ (k1_off19_eq k ⟨2, by decide⟩)
    (pay_ok1 g _ _ _ _ ((k1_off18_eq k ⟨2, by decide⟩).trans (k1_off19_eq k ⟨2, by decide⟩).symm) _ _ _ rfl) ?_
  refine done_store g (4 * k.val + 2) 2 f9 _ _ _ _ (k1_off17_eq k ⟨2, by decide⟩)
    (pay_ok1 g _ _ _ _ ((k1_off16_eq k ⟨2, by decide⟩).trans (k1_off17_eq k ⟨2, by decide⟩).symm) _ _ _ rfl) ?_
  refine done_store g (4 * k.val + 2) 1 f9 _ _ _ _ (k1_off15_eq k ⟨2, by decide⟩)
    (pay_ok1 g _ _ _ _ ((k1_off14_eq k ⟨2, by decide⟩).trans (k1_off15_eq k ⟨2, by decide⟩).symm) _ _ _ rfl) ?_
  refine done_store g (4 * k.val + 2) 0 f9 _ _ _ _ (k1_off13_eq k ⟨2, by decide⟩)
    (pay_ok1 g _ _ _ _ ((k1_off12_eq k ⟨2, by decide⟩).trans (k1_off13_eq k ⟨2, by decide⟩).symm) _ _ _ rfl) ?_
  refine done_mono (show 4 * k.val + 1 + 1 = 4 * k.val + 2 by omega) ?_
  apply done_row
  refine done_store g (4 * k.val + 1) 3 f9 _ _ _ _ (k1_off19_eq k ⟨1, by decide⟩)
    (pay_ok1 g _ _ _ _ ((k1_off18_eq k ⟨1, by decide⟩).trans (k1_off19_eq k ⟨1, by decide⟩).symm) _ _ _ rfl) ?_
  refine done_store g (4 * k.val + 1) 2 f9 _ _ _ _ (k1_off17_eq k ⟨1, by decide⟩)
    (pay_ok1 g _ _ _ _ ((k1_off16_eq k ⟨1, by decide⟩).trans (k1_off17_eq k ⟨1, by decide⟩).symm) _ _ _ rfl) ?_
  refine done_store g (4 * k.val + 1) 1 f9 _ _ _ _ (k1_off15_eq k ⟨1, by decide⟩)
    (pay_ok1 g _ _ _ _ ((k1_off14_eq k ⟨1, by decide⟩).trans (k1_off15_eq k ⟨1, by decide⟩).symm) _ _ _ rfl) ?_
  refine done_store g (4 * k.val + 1) 0 f9 _ _ _ _ (k1_off13_eq k ⟨1, by decide⟩)
    (pay_ok1 g _ _ _ _ ((k1_off12_eq k ⟨1, by decide⟩).trans (k1_off13_eq k ⟨1, by decide⟩).symm) _ _ _ rfl) ?_
  refine done_mono (show 4 * k.val + 0 + 1 = 4 * k.val + 1 by omega) ?_
  apply done_row
  refine done_store g (4 * k.val + 0) 3 f9 _ _ _ _ (k1_off19_eq k ⟨0, by decide⟩)
    (pay_ok1 g _ _ _ _ ((k1_off18_eq k ⟨0, by decide⟩).trans (k1_off19_eq k ⟨0, by decide⟩).symm) _ _ _ rfl) ?_
  refine done_store g (4 * k.val + 0) 2 f9 _ _ _ _ (k1_off17_eq k ⟨0, by decide⟩)
    (pay_ok1 g _ _ _ _ ((k1_off16_eq k ⟨0, by decide⟩).trans (k1_off17_eq k ⟨0, by decide⟩).symm) _ _ _ rfl) ?_
  refine done_store g (4 * k.val + 0) 1 f9 _ _ _ _ (k1_off15_eq k ⟨0, by decide⟩)
    (pay_ok1 g _ _ _ _ ((k1_off14_eq k ⟨0, by decide⟩).trans (k1_off15_eq k ⟨0, by decide⟩).symm) _ _ _ rfl) ?_
  refine done_store g (4 * k.val + 0) 0 f9 _ _ _ _ (k1_off13_eq k ⟨0, by decide⟩)
    (pay_ok1 g _ _ _ _ ((k1_off12_eq k ⟨0, by decide⟩).trans (k1_off13_eq k ⟨0, by decide⟩).symm) _ _ _ rfl) ?_
  exact h0

end Cert.Proof.KB

end
-- ==== Proof.B.Tile.Gather.lean ====
/-
  One slot's indirect gather: what it delivers at its wait, stated once so that the loop's invariant can name a
  gather in flight across trips, and the issue's rule in that form. Once per slot.
-/
import proofs.«206585_g20916490731584_cont_8to1_1403_18_alg».proof.Proof.B.Common
import proofs.«206585_g20916490731584_cont_8to1_1403_18_alg».proof.Proof.B.Tile.Val
import proofs.«206585_g20916490731584_cont_8to1_1403_18_alg».proof.Proof.B.Tile.Base

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v1_scv : Memref Cert.Kernel.sig Kind.scVector Space.hbm Cert.Kernel.S1003520x128 EltTy.f32)
local notation "iV" => (Memref.whole Cert.Kernel.main_v2_scv : Memref Cert.Kernel.sig Kind.scVector Space.hbm Cert.Kernel.S819200 EltTy.i32)
local notation "oV" => (Memref.whole Cert.Kernel.main_v3_scv : Memref Cert.Kernel.sig Kind.scVector Space.hbm Cert.Kernel.S819200x64 EltTy.f32)
local notation "a5V" => (Memref.whole Cert.Kernel.cc1_scratch0 : Memref Cert.Kernel.sig Kind.scVector Space.vmem Cert.Kernel.S256 EltTy.i32)
local notation "a6V" => (Memref.whole Cert.Kernel.cc1_scratch1 : Memref Cert.Kernel.sig Kind.scVector Space.vmem Cert.Kernel.S256 EltTy.i32)
local notation "a7V" => (Memref.whole Cert.Kernel.cc1_scratch2 : Memref Cert.Kernel.sig Kind.scVector Space.vmem Cert.Kernel.S256x128 EltTy.f32)
local notation "a8V" => (Memref.whole Cert.Kernel.cc1_scratch3 : Memref Cert.Kernel.sig Kind.scVector Space.vmem Cert.Kernel.S256x128 EltTy.f32)
local notation "a9V" => (Memref.whole Cert.Kernel.cc1_scratch4 : Memref Cert.Kernel.sig Kind.scVector Space.vmem Cert.Kernel.S256x64 EltTy.f32)

variable [FloatOps F]

omit [FloatOps F] in
/-- Entry m of a rank-one shape in row-major order is coordinate m. -/
theorem rowMajor_symm_one (m : Fin S256.numel) : ((S256.rowMajor.symm m) 0).val = m.val :=
  (Shape.rowMajor_val_one (S256.rowMajor.symm m)).symm.trans (congrArg Fin.val (S256.rowMajor.apply_symm_apply m))

set_option maxHeartbeats 1000000 in
/-- What slot 0's gather writes into its row scratch, its index scratch holding a chunk's words: the chunk's rows
    of the repacked table, whatever the row scratch held. -/
theorem gathered_of_write0 (d : Dev nD) (L : grid1.Coords) (fi : Buf (Elt F) (iLoc d)) (fy : Buf (Elt F) (yLoc d)) (hlt : ∀ j, (fi j).toNat < 1003520) (base : ℕ)
    (l : Buf (Elt F) ((V d (cV L) (jV L)).loc cc1_scratch0)) (hl : ∀ x : S256.Idx, l x = idxAt fi (base + (x 0).val))
    (hn : S256.numel = S256x128.size gathers_S1003520x128_S256x128.axis')
    (hinr : ∀ x, ((a5V).view.read (Elt F) l x).toNat < S1003520x128.size gathers_S1003520x128_S256x128.axis)
    (g : Buf (Elt F) ((V d (cV L) (jV L)).loc cc1_scratch2)) :
    Gathered fi fy base ((a7V).view.write (Elt F) g
      (SparseCore.gatherPayload gathers_S1003520x128_S256x128 ((yAllK).view.read (Elt F) fy) (SparseCore.rows ((a5V).view.read (Elt F) l) hn hinr)) Finset.univ) := by
  intro x
  have e1 : ∀ P, (a7V).view.write (Elt F) g P Finset.univ = P := fun P => View.write_whole_univ cc1_scratch2 g P
  rw [e1]
  have e2 : (yAllK).view.read (Elt F) fy = fy :=
    Memref.read_access_unit_zero (Elt F) main_v1_scv (by funext a; match a with | ⟨0, _⟩ => rfl | ⟨1, _⟩ => rfl) _ fy
  rw [e2]
  show fy (gathers_S1003520x128_S256x128.idx _ x) = _
  congr 1
  funext a
  match a with
  | ⟨0, h0⟩ =>
    apply Fin.ext
    have ha := Shape.Gathers.idx_axis gathers_S1003520x128_S256x128 (SparseCore.rows ((a5V).view.read (Elt F) l) hn hinr) x
    have hv : ((gathers_S1003520x128_S256x128.idx (SparseCore.rows ((a5V).view.read (Elt F) l) hn hinr) x) ⟨0, h0⟩).val
        = (l (S256.rowMajor.symm ((x gathers_S1003520x128_S256x128.axis').cast hn.symm))).toNat := congrArg Fin.val ha
    rw [hv, hl, rowMajor_symm_one]
    show (idxAt fi (base + (x 0).val)).toNat = min (idxAt fi (base + (x 0).val)).toNat 1003519
    have := idxAt_lt hlt (base + (x 0).val)
    omega
  | ⟨1, h1⟩ =>
    apply Fin.ext
    exact Shape.Gathers.idx_of_ne gathers_S1003520x128_S256x128 _ x ⟨1, h1⟩ (show (1 : ℕ) ≠ 0 by decide)

set_option maxHeartbeats 1000000 in
/-- What slot 1's gather writes into its row scratch, its index scratch holding a chunk's words: the chunk's rows
    of the repacked table, whatever the row scratch held. -/
theorem gathered_of_write1 (d : Dev nD) (L : grid1.Coords) (fi : Buf (Elt F) (iLoc d)) (fy : Buf (Elt F) (yLoc d)) (hlt : ∀ j, (fi j).toNat < 1003520) (base : ℕ)
    (l : Buf (Elt F) ((V d (cV L) (jV L)).loc cc1_scratch1)) (hl : ∀ x : S256.Idx, l x = idxAt fi (base + (x 0).val))
    (hn : S256.numel = S256x128.size gathers_S1003520x128_S256x128.axis')
    (hinr : ∀ x, ((a6V).view.read (Elt F) l x).toNat < S1003520x128.size gathers_S1003520x128_S256x128.axis)
    (g : Buf (Elt F) ((V d (cV L) (jV L)).loc cc1_scratch3)) :
    Gathered fi fy base ((a8V).view.write (Elt F) g
      (SparseCore.gatherPayload gathers_S1003520x128_S256x128 ((yAllK).view.read (Elt F) fy) (SparseCore.rows ((a6V).view.read (Elt F) l) hn hinr)) Finset.univ) := by
  intro x
  have e1 : ∀ P, (a8V).view.write (Elt F) g P Finset.univ = P := fun P => View.write_whole_univ cc1_scratch3 g P
  rw [e1]
  have e2 : (yAllK).view.read (Elt F) fy = fy :=
    Memref.read_access_unit_zero (Elt F) main_v1_scv (by funext a; match a with | ⟨0, _⟩ => rfl | ⟨1, _⟩ => rfl) _ fy
  rw [e2]
  show fy (gathers_S1003520x128_S256x128.idx _ x) = _
  congr 1
  funext a
  match a with
  | ⟨0, h0⟩ =>
    apply Fin.ext
    have ha := Shape.Gathers.idx_axis gathers_S1003520x128_S256x128 (SparseCore.rows ((a6V).view.read (Elt F) l) hn hinr) x
    have hv : ((gathers_S1003520x128_S256x128.idx (SparseCore.rows ((a6V).view.read (Elt F) l) hn hinr) x) ⟨0, h0⟩).val
        = (l (S256.rowMajor.symm ((x gathers_S1003520x128_S256x128.axis').cast hn.symm))).toNat := congrArg Fin.val ha
    rw [hv, hl, rowMajor_symm_one]
    show (idxAt fi (base + (x 0).val)).toNat = min (idxAt fi (base + (x 0).val)).toNat 1003519
    have := idxAt_lt hlt (base + (x 0).val)
    omega
  | ⟨1, h1⟩ =>
    apply Fin.ext
    exact Shape.Gathers.idx_of_ne gathers_S1003520x128_S256x128 _ x ⟨1, h1⟩ (show (1 : ℕ) ≠ 0 by decide)

/-- What the gather of a chunk into slot 0 delivers at its wait: the row scratch holding the chunk's rows of the
    repacked table, the index scratch back, and the share of the repacked table the gather held. -/
def dlv0 (d : Dev nD) (L : grid1.Coords) (q : PosShare TreeShare) (fi : Buf (Elt F) (iLoc d)) (fy : Buf (Elt F) (yLoc d)) (base : ℕ) : sProp 𝕄 :=
  iprop(∃ g : Buf (Elt F) ((V d (cV L) (jV L)).loc cc1_scratch2), ∃ l : Buf (Elt F) ((V d (cV L) (jV L)).loc cc1_scratch0),
    ⌜Gathered fi fy base g⌝ ∗ ((a7V).view.loc (V d (cV L) (jV L)) ↦{fullShare} g) ∗ ((a5V).view.loc (V d (cV L) (jV L)) ↦{fullShare} l)
      ∗ ((yAllK).view.loc (V d (cV L) (jV L)) ↦[(yAllK).view.set]{q} fy))

/-- Slot 0 with no gather in flight. -/
def free0 (d : Dev nD) (L : grid1.Coords) (q : PosShare TreeShare) (fy : Buf (Elt F) (yLoc d)) : sProp 𝕄 :=
  iprop((∃ l : Buf (Elt F) ((V d (cV L) (jV L)).loc cc1_scratch0), (a5V).view.loc (V d (cV L) (jV L)) ↦{fullShare} l)
    ∗ (∃ g : Buf (Elt F) ((V d (cV L) (jV L)).loc cc1_scratch2), (a7V).view.loc (V d (cV L) (jV L)) ↦{fullShare} g)
    ∗ ((yAllK).view.loc (V d (cV L) (jV L)) ↦[(yAllK).view.set]{q} fy) ∗ semVal (cellOf d L cc1_scratch5) 0)

/-- Slot 0 with the gather of the chunk at base row `base` in flight. -/
def fl0 (d : Dev nD) (L : grid1.Coords) (q : PosShare TreeShare) (fi : Buf (Elt F) (iLoc d)) (fy : Buf (Elt F) (yLoc d)) (base : ℕ) : sProp 𝕄 :=
  Transfers.Flight (countersEmb : UEmb Counters 𝕄) (V d (cV L) (jV L)) (.dma cc1_scratch5.sem) (default : HIx 1) (a7V).view.dmaCredit (dlv0 d L q fi fy base)

omit [FloatOps F] in
theorem fl0_eq (d : Dev nD) (L : grid1.Coords) (q : PosShare TreeShare) (fi : Buf (Elt F) (iLoc d)) (fy : Buf (Elt F) (yLoc d)) (base : ℕ) :
    fl0 d L q fi fy base
      = Transfers.Flight (countersEmb : UEmb Counters 𝕄) (V d (cV L) (jV L)) (.dma cc1_scratch5.sem) (default : HIx 1) (a7V).view.dmaCredit (dlv0 d L q fi fy base) := rfl

set_option maxHeartbeats 1000000 in
/-- What the gather's rule delivers is what the invariant names. -/
theorem dlv0_of_write (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch0)) (g : Buf (Elt F) ((V d (cV L) (jV L)).loc cc1_scratch2))
    (hl : ∀ x : S256.Idx, l x = idxAt fi (base + (x 0).val))
    (hn : S256.numel = S256x128.size gathers_S1003520x128_S256x128.axis')
    (hinr : ∀ x, ((a5V).view.read (Elt F) l x).toNat < S1003520x128.size gathers_S1003520x128_S256x128.axis) :
    (iprop(((a7V).view.loc (V d (cV L) (jV L)) ↦[(a7V).view.set]{fullShare}
          ((a7V).view.write (Elt F) g (SparseCore.gatherPayload gathers_S1003520x128_S256x128 ((yAllK).view.read (Elt F) fy)
            (SparseCore.rows ((a5V).view.read (Elt F) l) hn hinr)) Finset.univ))
        ∗ ((yAllK).view.loc (V d (cV L) (jV L)) ↦[(yAllK).view.set]{q} fy) ∗ ((a5V).view.loc (V d (cV L) (jV L)) ↦[(a5V).view.set]{fullShare} l)) : sProp 𝕄)
      ⊢ dlv0 d L q fi fy base := by
  have hrs : (a7V).view.set = Finset.univ := View.set_whole _
  have hss : (a5V).view.set = Finset.univ := View.set_whole _
  unfold dlv0
  iintro ⟨Hr, Hy, Hl⟩
  iexists _, _
  isplitr
  swap
  · isplitl [Hr]; · iapply (Entails.of_eq (show ((a7V).view.loc (V d (cV L) (jV L)) ↦[(a7V).view.set]{fullShare} _ : sProp 𝕄)
        = (a7V).view.loc (V d (cV L) (jV L)) ↦{fullShare} _ by rw [hrs])); iexact Hr
    isplitl [Hl]; · iapply (Entails.of_eq (show ((a5V).view.loc (V d (cV L) (jV L)) ↦[(a5V).view.set]{fullShare} _ : sProp 𝕄)
        = (a5V).view.loc (V d (cV L) (jV L)) ↦{fullShare} _ by rw [hss])); iexact Hl
    iexact Hy
  · ipureintro
    exact gathered_of_write0 d L fi fy hlt base l hl hn hinr g

set_option maxHeartbeats 1000000 in
/-- The issue of slot 0's gather, its index scratch holding the chunk's 256 words. -/
theorem gather0 (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch0)) (g : Buf (Elt F) ((V d (cV L) (jV L)).loc cc1_scratch2))
    (hl : ∀ x : S256.Idx, l x = idxAt fi (base + (x 0).val))
    {α : Type} {kk : PUnit → Prog (TpuEff nD τ sig (Elt F) Λ₀ (V d (cV L) (jV L)).2) α} {Q : α → sProp 𝕄} :
    iprop(((yAllK).view.loc (V d (cV L) (jV L)) ↦[(yAllK).view.set]{q} fy) ∗ ((a7V).view.loc (V d (cV L) (jV L)) ↦{fullShare} g)
        ∗ ((a5V).view.loc (V d (cV L) (jV L)) ↦{fullShare} l) ∗ semVal (cellOf d L cc1_scratch5) 0)
      ⊢ iprop((fl0 d L q fi fy base -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather rfl yAllK a7V gathers_S1003520x128_S256x128 a5V rfl cc1_scratch5.sem (View.wordExact_bits rfl) rfl (Or.inl rfl) >>= kk) Q) := by
  iintro ⟨Hy, Hr, Hl, Hsem⟩ Hk
  have hinr : ∀ x, ((a5V).view.read (Elt F) l x).toNat < S1003520x128.size gathers_S1003520x128_S256x128.axis := fun x => by
    show (l x).toNat < 1003520
    rw [hl]; exact idxAt_lt hlt _
  have hrs : (a7V).view.set = Finset.univ := View.set_whole _
  have hss : (a5V).view.set = Finset.univ := View.set_whole _
  ihave Hr' := (Entails.of_eq (show ((a7V).view.loc (V d (cV L) (jV L)) ↦{fullShare} g : sProp 𝕄)
      = (a7V).view.loc (V d (cV L) (jV L)) ↦[(a7V).view.set]{fullShare} g by rw [hrs])) $$ Hr
  ihave Hl' := (Entails.of_eq (show ((a5V).view.loc (V d (cV L) (jV L)) ↦{fullShare} l : sProp 𝕄)
      = (a5V).view.loc (V d (cV L) (jV L)) ↦[(a5V).view.set]{fullShare} l by rw [hss])) $$ Hl
  have hN : ∀ h : S1003520x128.Gathers 0 S256x128, ∑ j, ((a7V).slice (S256x128.rowRect h.axis' j) (S256x128.stride_rowRect h.axis' j)).view.dmaCredit
      = (a7V).view.dmaCredit := fun h => SparseCore.sum_rowCredit_eq_dmaCredit (a7V) h.axis' (fun _ => rfl)
  iapply (SparseCore.wp_indirectGatherLocal countersEmb 𝒱₀ (V d (cV L) (jV L)) none (hg := gathers_S1003520x128_S256x128) (default : HIx 1)
      (a7V).view.dmaCredit (hN _) (by decide) hinr) $$ [Hy Hr' Hl' Hsem]
  · isplitl [Hy]; · iexact Hy
    isplitl [Hr']; · iexact Hr'
    isplitl [Hl']; · iexact Hl'
    iexact Hsem
  iintro Hfl
  ihave Hfl' := (Transfers.Flight_mono countersEmb (V d (cV L) (jV L)) (sm := SemLoc.dma cc1_scratch5.sem) (ι := (default : HIx 1)) (N := (a7V).view.dmaCredit)
    (dlv0_of_write d L q fi fy hlt base l g hl rfl hinr)) $$ Hfl
  iapply Hk
  iapply (Entails.of_eq (fl0_eq d L q fi fy base).symm)
  iexact Hfl'

/-- What the gather of a chunk into slot 1 delivers at its wait: the row scratch holding the chunk's rows of the
    repacked table, the index scratch back, and the share of the repacked table the gather held. -/
def dlv1 (d : Dev nD) (L : grid1.Coords) (q : PosShare TreeShare) (fi : Buf (Elt F) (iLoc d)) (fy : Buf (Elt F) (yLoc d)) (base : ℕ) : sProp 𝕄 :=
  iprop(∃ g : Buf (Elt F) ((V d (cV L) (jV L)).loc cc1_scratch3), ∃ l : Buf (Elt F) ((V d (cV L) (jV L)).loc cc1_scratch1),
    ⌜Gathered fi fy base g⌝ ∗ ((a8V).view.loc (V d (cV L) (jV L)) ↦{fullShare} g) ∗ ((a6V).view.loc (V d (cV L) (jV L)) ↦{fullShare} l)
      ∗ ((yAllK).view.loc (V d (cV L) (jV L)) ↦[(yAllK).view.set]{q} fy))

/-- Slot 1 with no gather in flight. -/
def free1 (d : Dev nD) (L : grid1.Coords) (q : PosShare TreeShare) (fy : Buf (Elt F) (yLoc d)) : sProp 𝕄 :=
  iprop((∃ l : Buf (Elt F) ((V d (cV L) (jV L)).loc cc1_scratch1), (a6V).view.loc (V d (cV L) (jV L)) ↦{fullShare} l)
    ∗ (∃ g : Buf (Elt F) ((V d (cV L) (jV L)).loc cc1_scratch3), (a8V).view.loc (V d (cV L) (jV L)) ↦{fullShare} g)
    ∗ ((yAllK).view.loc (V d (cV L) (jV L)) ↦[(yAllK).view.set]{q} fy) ∗ semVal (cellOf d L cc1_scratch6) 0)

/-- Slot 1 with the gather of the chunk at base row `base` in flight. -/
def fl1 (d : Dev nD) (L : grid1.Coords) (q : PosShare TreeShare) (fi : Buf (Elt F) (iLoc d)) (fy : Buf (Elt F) (yLoc d)) (base : ℕ) : sProp 𝕄 :=
  Transfers.Flight (countersEmb : UEmb Counters 𝕄) (V d (cV L) (jV L)) (.dma cc1_scratch6.sem) (default : HIx 1) (a8V).view.dmaCredit (dlv1 d L q fi fy base)

omit [FloatOps F] in
theorem fl1_eq (d : Dev nD) (L : grid1.Coords) (q : PosShare TreeShare) (fi : Buf (Elt F) (iLoc d)) (fy : Buf (Elt F) (yLoc d)) (base : ℕ) :
    fl1 d L q fi fy base
      = Transfers.Flight (countersEmb : UEmb Counters 𝕄) (V d (cV L) (jV L)) (.dma cc1_scratch6.sem) (default : HIx 1) (a8V).view.dmaCredit (dlv1 d L q fi fy base) := rfl

set_option maxHeartbeats 1000000 in
/-- What the gather's rule delivers is what the invariant names. -/
theorem dlv1_of_write (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch1)) (g : Buf (Elt F) ((V d (cV L) (jV L)).loc cc1_scratch3))
    (hl : ∀ x : S256.Idx, l x = idxAt fi (base + (x 0).val))
    (hn : S256.numel = S256x128.size gathers_S1003520x128_S256x128.axis')
    (hinr : ∀ x, ((a6V).view.read (Elt F) l x).toNat < S1003520x128.size gathers_S1003520x128_S256x128.axis) :
    (iprop(((a8V).view.loc (V d (cV L) (jV L)) ↦[(a8V).view.set]{fullShare}
          ((a8V).view.write (Elt F) g (SparseCore.gatherPayload gathers_S1003520x128_S256x128 ((yAllK).view.read (Elt F) fy)
            (SparseCore.rows ((a6V).view.read (Elt F) l) hn hinr)) Finset.univ))
        ∗ ((yAllK).view.loc (V d (cV L) (jV L)) ↦[(yAllK).view.set]{q} fy) ∗ ((a6V).view.loc (V d (cV L) (jV L)) ↦[(a6V).view.set]{fullShare} l)) : sProp 𝕄)
      ⊢ dlv1 d L q fi fy base := by
  have hrs : (a8V).view.set = Finset.univ := View.set_whole _
  have hss : (a6V).view.set = Finset.univ := View.set_whole _
  unfold dlv1
  iintro ⟨Hr, Hy, Hl⟩
  iexists _, _
  isplitr
  swap
  · isplitl [Hr]; · iapply (Entails.of_eq (show ((a8V).view.loc (V d (cV L) (jV L)) ↦[(a8V).view.set]{fullShare} _ : sProp 𝕄)
        = (a8V).view.loc (V d (cV L) (jV L)) ↦{fullShare} _ by rw [hrs])); iexact Hr
    isplitl [Hl]; · iapply (Entails.of_eq (show ((a6V).view.loc (V d (cV L) (jV L)) ↦[(a6V).view.set]{fullShare} _ : sProp 𝕄)
        = (a6V).view.loc (V d (cV L) (jV L)) ↦{fullShare} _ by rw [hss])); iexact Hl
    iexact Hy
  · ipureintro
    exact gathered_of_write1 d L fi fy hlt base l hl hn hinr g

set_option maxHeartbeats 1000000 in
/-- The issue of slot 1's gather, its index scratch holding the chunk's 256 words. -/
theorem gather1 (d : Dev nD) (L : grid1.Coords) (q : PosShare TreeShare) (fi : Buf (Elt F) (iLoc d)) (fy : Buf (Elt F) (yLoc d))
    (hlt : ∀ j, (fi j).toNat < 1003520) (base : ℕ)
    (l : Buf (Elt F) ((V d (cV L) (jV L)).loc cc1_scratch1)) (g : Buf (Elt F) ((V d (cV L) (jV L)).loc cc1_scratch3))
    (hl : ∀ x : S256.Idx, l x = idxAt fi (base + (x 0).val))
    {α : Type} {kk : PUnit → Prog (TpuEff nD τ sig (Elt F) Λ₀ (V d (cV L) (jV L)).2) α} {Q : α → sProp 𝕄} :
    iprop(((yAllK).view.loc (V d (cV L) (jV L)) ↦[(yAllK).view.set]{q} fy) ∗ ((a8V).view.loc (V d (cV L) (jV L)) ↦{fullShare} g)
        ∗ ((a6V).view.loc (V d (cV L) (jV L)) ↦{fullShare} l) ∗ semVal (cellOf d L cc1_scratch6) 0)
      ⊢ iprop((fl1 d L q fi fy base -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather rfl yAllK a8V gathers_S1003520x128_S256x128 a6V rfl cc1_scratch6.sem (View.wordExact_bits rfl) rfl (Or.inl rfl) >>= kk) Q) := by
  iintro ⟨Hy, Hr, Hl, Hsem⟩ Hk
  have hinr : ∀ x, ((a6V).view.read (Elt F) l x).toNat < S1003520x128.size gathers_S1003520x128_S256x128.axis := fun x => by
    show (l x).toNat < 1003520
    rw [hl]; exact idxAt_lt hlt _
  have hrs : (a8V).view.set = Finset.univ := View.set_whole _
  have hss : (a6V).view.set = Finset.univ := View.set_whole _
  ihave Hr' := (Entails.of_eq (show ((a8V).view.loc (V d (cV L) (jV L)) ↦{fullShare} g : sProp 𝕄)
      = (a8V).view.loc (V d (cV L) (jV L)) ↦[(a8V).view.set]{fullShare} g by rw [hrs])) $$ Hr
  ihave Hl' := (Entails.of_eq (show ((a6V).view.loc (V d (cV L) (jV L)) ↦{fullShare} l : sProp 𝕄)
      = (a6V).view.loc (V d (cV L) (jV L)) ↦[(a6V).view.set]{fullShare} l by rw [hss])) $$ Hl
  have hN : ∀ h : S1003520x128.Gathers 0 S256x128, ∑ j, ((a8V).slice (S256x128.rowRect h.axis' j) (S256x128.stride_rowRect h.axis' j)).view.dmaCredit
      = (a8V).view.dmaCredit := fun h => SparseCore.sum_rowCredit_eq_dmaCredit (a8V) h.axis' (fun _ => rfl)
  iapply (SparseCore.wp_indirectGatherLocal countersEmb 𝒱₀ (V d (cV L) (jV L)) none (hg := gathers_S1003520x128_S256x128) (default : HIx 1)
      (a8V).view.dmaCredit (hN _) (by decide) hinr) $$ [Hy Hr' Hl' Hsem]
  · isplitl [Hy]; · iexact Hy
    isplitl [Hr']; · iexact Hr'
    isplitl [Hl']; · iexact Hl'
    iexact Hsem
  iintro Hfl
  ihave Hfl' := (Transfers.Flight_mono countersEmb (V d (cV L) (jV L)) (sm := SemLoc.dma cc1_scratch6.sem) (ι := (default : HIx 1)) (N := (a8V).view.dmaCredit)
    (dlv1_of_write d L q fi fy hlt base l g hl rfl hinr)) $$ Hfl
  iapply Hk
  iapply (Entails.of_eq (fl1_eq d L q fi fy base).symm)
  iexact Hfl'

end Cert.Proof.KB

end
-- ==== Proof.B.Tile.Out.lean ====
/-
  The data a trip moves between the arrays in HBM and the scratches: a chunk's 256 words of the flattened index
  array as its copy into an index scratch leaves them, and a chunk's rows of the result as the copy-out of the
  [256,64] scratch leaves them.
-/
import proofs.«206585_g20916490731584_cont_8to1_1403_18_alg».proof.Proof.B.Common
import proofs.«206585_g20916490731584_cont_8to1_1403_18_alg».proof.Proof.B.Tile.Val
import proofs.«206585_g20916490731584_cont_8to1_1403_18_alg».proof.Proof.B.Tile.Base

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v1_scv : Memref Cert.Kernel.sig Kind.scVector Space.hbm Cert.Kernel.S1003520x128 EltTy.f32)
local notation "iV" => (Memref.whole Cert.Kernel.main_v2_scv : Memref Cert.Kernel.sig Kind.scVector Space.hbm Cert.Kernel.S819200 EltTy.i32)
local notation "oV" => (Memref.whole Cert.Kernel.main_v3_scv : Memref Cert.Kernel.sig Kind.scVector Space.hbm Cert.Kernel.S819200x64 EltTy.f32)
local notation "a5V" => (Memref.whole Cert.Kernel.cc1_scratch0 : Memref Cert.Kernel.sig Kind.scVector Space.vmem Cert.Kernel.S256 EltTy.i32)
local notation "a6V" => (Memref.whole Cert.Kernel.cc1_scratch1 : Memref Cert.Kernel.sig Kind.scVector Space.vmem Cert.Kernel.S256 EltTy.i32)
local notation "a7V" => (Memref.whole Cert.Kernel.cc1_scratch2 : Memref Cert.Kernel.sig Kind.scVector Space.vmem Cert.Kernel.S256x128 EltTy.f32)
local notation "a8V" => (Memref.whole Cert.Kernel.cc1_scratch3 : Memref Cert.Kernel.sig Kind.scVector Space.vmem Cert.Kernel.S256x128 EltTy.f32)
local notation "a9V" => (Memref.whole Cert.Kernel.cc1_scratch4 : Memref Cert.Kernel.sig Kind.scVector Space.vmem Cert.Kernel.S256x64 EltTy.f32)

variable [FloatOps F]

omit [FloatOps F] in
/-- The 256 words at offset n of the flattened index array, read through the slice the copy addresses. -/
theorem idx_chunk (d : Dev nD) (fi : Buf (Elt F) (iLoc d)) (off : Fin 1 → ℕ) (hinb : ∀ a, off a + S256.size a ≤ S819200.size a) (m base : ℕ)
    (hoff : off = ![m]) (hm : m = base)
    (pay : S256.Idx → BitVec 32)
    (hpay : pay = ((iV).slice (Rect.unit (s := S819200) off S256.size hinb) (fun _ => rfl)).view.read (Elt F) fi) (x : S256.Idx) :
    pay x = idxAt fi (base + (x 0).val) := by
  subst hpay hoff hm
  have hx : (x 0).val < 256 := (x 0).isLt
  have hb : m + 256 ≤ 819200 := hinb 0
  unfold idxAt
  rw [dif_pos (by omega)]
  show fi (((iV).slice (Rect.unit (s := S819200) ![m] S256.size hinb) (fun _ => rfl)).view.emb x) = _
  congr 1
  funext a
  match a with
  | ⟨0, _⟩ =>
    apply Fin.ext
    show m + 1 * (x 0).val = m + (x 0).val
    omega

omit [FloatOps F] in
/-- Slot 0's index scratch after the copy of a chunk's words into it. -/
theorem lst_chunk0 (d : Dev nD) (L : grid1.Coords) (fi : Buf (Elt F) (iLoc d)) (l0 : Buf (Elt F) ((V d (cV L) (jV L)).loc cc1_scratch0))
    (off : Fin 1 → ℕ) (hinb : ∀ a, off a + S256.size a ≤ S819200.size a) (m base : ℕ) (hoff : off = ![m]) (hm : m = base)
    (pay : S256.Idx → BitVec 32)
    (hpay : pay = ((iV).slice (Rect.unit (s := S819200) off S256.size hinb) (fun _ => rfl)).view.read (Elt F) fi) :
    ∀ x : S256.Idx, (View.write (Elt F) (a5V).view l0 pay Finset.univ) x = idxAt fi (base + (x 0).val) := fun x =>
  (congrFun (View.write_whole_univ cc1_scratch0 l0 pay) x).trans (idx_chunk d fi off hinb m base hoff hm pay hpay x)

omit [FloatOps F] in
/-- Slot 1's index scratch after the copy of a chunk's words into it. -/
theorem lst_chunk1 (d : Dev nD) (L : grid1.Coords) (fi : Buf (Elt F) (iLoc d)) (l0 : Buf (Elt F) ((V d (cV L) (jV L)).loc cc1_scratch1))
    (off : Fin 1 → ℕ) (hinb : ∀ a, off a + S256.size a ≤ S819200.size a) (m base : ℕ) (hoff : off = ![m]) (hm : m = base)
    (pay : S256.Idx → BitVec 32)
    (hpay : pay = ((iV).slice (Rect.unit (s := S819200) off S256.size hinb) (fun _ => rfl)).view.read (Elt F) fi) :
    ∀ x : S256.Idx, (View.write (Elt F) (a6V).view l0 pay Finset.univ) x = idxAt fi (base + (x 0).val) := fun x =>
  (congrFun (View.write_whole_univ cc1_scratch1 l0 pay) x).trans (idx_chunk d fi off hinb m base hoff hm pay hpay x)

/-- Off chunk t's rows, the result's rows before trip t and before trip t + 1 are the same. -/
theorem out_rest (L : grid1.Coords) (k : Fin k1_t1_loop.trips) (fi : S819200.Idx → BitVec 32) (fy : S1003520x128.Idx → Elt F .f32)
    (fo : S819200x64.Idx → Elt F .f32) :
    ∀ i ∈ oSet (wOf L) \ (oChK L k).view.set, mixO fi fy fo (baseOf L k.val) i = mixO fi fy fo (baseOf L (k.val + 1)) i := by
  intro i hi
  rw [Finset.mem_sdiff, mem_oSet, mem_oChK] at hi
  have e : baseOf L (k.val + 1) = baseOf L k.val + 256 := by unfold baseOf; omega
  unfold mixO
  rw [e]
  by_cases h : (i 0).val < baseOf L k.val
  · rw [if_pos h, if_pos (by omega)]
  · rw [if_neg h, if_neg (by omega)]

/-- On chunk t's rows, the copy-out of a [256,64] scratch holding columns 0..63 of the gathered chunk leaves the
    result's rows as they are before trip t + 1. -/
theorem out_chunk (L : grid1.Coords) (k : Fin k1_t1_loop.trips) (fi : S819200.Idx → BitVec 32) (fy : S1003520x128.Idx → Elt F .f32)
    (fo : S819200x64.Idx → Elt F .f32) (g : S256x128.Idx → Elt F .f32) (hg : Gathered fi fy (baseOf L k.val) g)
    (f : (oChK L k).view.ty.Contents (Elt F)) (pay : (Rect.whole S256x64).shape.Idx → Elt F .f32) (hpay : pay = cols g) :
    ∀ i ∈ (oChK L k).view.set, (oChK L k).view.writes (Elt F) f [⟨Rect.whole S256x64, pay⟩] i = mixO fi fy fo (baseOf L (k.val + 1)) i := by
  intro i hi
  obtain ⟨x, -, rfl⟩ := Finset.mem_map.mp hi
  have e : (oChK L k).view.emb x = ((oChK L k).view.slice (Rect.whole S256x64)).emb x := by
    show _ = (oChK L k).view.emb ((Rect.whole S256x64).emb x)
    rw [Rect.emb_whole_apply]
  rw [View.writes_singleton, e, View.write_emb_of_mem _ _ (Finset.mem_univ x), ← e]
  subst hpay
  show cols g x = _
  have hx0 : (x 0).val < 256 := ValueIdx.idx2_lt0 x
  have e0 : (((oChK L k).view.emb x) 0).val = baseOf L k.val + (x 0).val := by
    show (k1_off20 L k) 0 + 1 * (x 0).val = _
    rw [k1_off20_eq]
    unfold baseOf
    rw [wOf_val]
    show 51200 * (L 1).val + 25600 * (L 0).val + 256 * k.val + 1 * (x 0).val = _
    omega
  have e1 : (((oChK L k).view.emb x) 1).val = (x 1).val := by
    show (k1_off20 L k) 1 + 1 * (x 1).val = _
    rw [k1_off20_eq]
    show 0 + 1 * (x 1).val = _
    omega
  have e : baseOf L (k.val + 1) = baseOf L k.val + 256 := by unfold baseOf; omega
  unfold mixO
  rw [if_pos (by rw [e0, e]; omega)]
  exact cols_gathered hg x _ e0 e1

/-- Before the first trip the result's rows are as the task found them; after the last they are the task's rows. -/
theorem mixO_zero (L : grid1.Coords) (fi : S819200.Idx → BitVec 32) (fy : S1003520x128.Idx → Elt F .f32) (fo : S819200x64.Idx → Elt F .f32) :
    ∀ i ∈ oSet (wOf L), fo i = mixO fi fy fo (baseOf L 0) i := by
  intro i hi
  rw [mem_oSet] at hi
  unfold mixO baseOf
  rw [if_neg (by omega)]

theorem mixO_last (L : grid1.Coords) (fi : S819200.Idx → BitVec 32) (fy : S1003520x128.Idx → Elt F .f32) (fo : S819200x64.Idx → Elt F .f32) :
    ∀ i ∈ oSet (wOf L), mixO fi fy fo (baseOf L 100) i = rowsOf fi fy i := by
  intro i hi
  rw [mem_oSet] at hi
  unfold mixO baseOf
  rw [if_pos (by omega)]

end Cert.Proof.KB

end
-- ==== Proof.B.Tile.Trip.lean ====
/-
  One trip of the task's loop over its hundred chunks, from the invariant before the trip to the invariant after it:
  for an even trip, for an odd trip that is not the last, and for the last.
-/
import proofs.«206585_g20916490731584_cont_8to1_1403_18_alg».proof.Proof.B.Common
import proofs.«206585_g20916490731584_cont_8to1_1403_18_alg».proof.Proof.B.Tile.Val
import proofs.«206585_g20916490731584_cont_8to1_1403_18_alg».proof.Proof.B.Tile.Base
import proofs.«206585_g20916490731584_cont_8to1_1403_18_alg».proof.Proof.B.Tile.Inner
import proofs.«206585_g20916490731584_cont_8to1_1403_18_alg».proof.Proof.B.Tile.Gather
import proofs.«206585_g20916490731584_cont_8to1_1403_18_alg».proof.Proof.B.Tile.Out

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v1_scv : Memref Cert.Kernel.sig Kind.scVector Space.hbm Cert.Kernel.S1003520x128 EltTy.f32)
local notation "iV" => (Memref.whole Cert.Kernel.main_v2_scv : Memref Cert.Kernel.sig Kind.scVector Space.hbm Cert.Kernel.S819200 EltTy.i32)
local notation "oV" => (Memref.whole Cert.Kernel.main_v3_scv : Memref Cert.Kernel.sig Kind.scVector Space.hbm Cert.Kernel.S819200x64 EltTy.f32)
local notation "a5V" => (Memref.whole Cert.Kernel.cc1_scratch0 : Memref Cert.Kernel.sig Kind.scVector Space.vmem Cert.Kernel.S256 EltTy.i32)
local notation "a6V" => (Memref.whole Cert.Kernel.cc1_scratch1 : Memref Cert.Kernel.sig Kind.scVector Space.vmem Cert.Kernel.S256 EltTy.i32)
local notation "a7V" => (Memref.whole Cert.Kernel.cc1_scratch2 : Memref Cert.Kernel.sig Kind.scVector Space.vmem Cert.Kernel.S256x128 EltTy.f32)
local notation "a8V" => (Memref.whole Cert.Kernel.cc1_scratch3 : Memref Cert.Kernel.sig Kind.scVector Space.vmem Cert.Kernel.S256x128 EltTy.f32)
local notation "a9V" => (Memref.whole Cert.Kernel.cc1_scratch4 : Memref Cert.Kernel.sig Kind.scVector Space.vmem Cert.Kernel.S256x64 EltTy.f32)

variable [FloatOps F]

/-! ## The two slots before trip t, and the outer loop's invariant -/

/-- Before trip t < 100 the gather of chunk t is in flight in slot t mod 2 and the other slot is free; after the last
    trip both are free. Slot 0's gathers hold the left half of the task's share of the repacked table, slot 1's the
    right half. -/
def slots (d : Dev nD) (L : grid1.Coords) (qy : PosShare TreeShare) (fi : Buf (Elt F) (iLoc d)) (fy : Buf (Elt F) (yLoc d)) (t : ℕ) : sProp 𝕄 :=
  if t < 100 then
    (if t % 2 = 0 then iprop(fl0 d L qy.left fi fy (baseOf L t) ∗ free1 d L qy.right fy)
      else iprop(fl1 d L qy.right fi fy (baseOf L t) ∗ free0 d L qy.left fy))
  else iprop(free0 d L qy.left fy ∗ free1 d L qy.right fy)

omit [FloatOps F] in
theorem slots_even (d : Dev nD) (L : grid1.Coords) (qy : PosShare TreeShare) (fi : Buf (Elt F) (iLoc d)) (fy : Buf (Elt F) (yLoc d)) {t : ℕ}
    (h : t < 100) (he : t % 2 = 0) : slots d L qy fi fy t = iprop(fl0 d L qy.left fi fy (baseOf L t) ∗ free1 d L qy.right fy) := by
  unfold slots; rw [if_pos h, if_pos he]
omit [FloatOps F] in
theorem slots_odd (d : Dev nD) (L : grid1.Coords) (qy : PosShare TreeShare) (fi : Buf (Elt F) (iLoc d)) (fy : Buf (Elt F) (yLoc d)) {t : ℕ}
    (h : t < 100) (ho : t % 2 = 1) : slots d L qy fi fy t = iprop(fl1 d L qy.right fi fy (baseOf L t) ∗ free0 d L qy.left fy) := by
  unfold slots; rw [if_pos h, if_neg (by omega)]
omit [FloatOps F] in
theorem slots_done (d : Dev nD) (L : grid1.Coords) (qy : PosShare TreeShare) (fi : Buf (Elt F) (iLoc d)) (fy : Buf (Elt F) (yLoc d)) {t : ℕ}
    (h : ¬ t < 100) : slots d L qy fi fy t = iprop(free0 d L qy.left fy ∗ free1 d L qy.right fy) := by
  unfold slots; rw [if_neg h]

/-- Before trip t of the task: the index array and what is left of the repacked table's share beside the two
    slots' halves, the task's rows of the result done below chunk t, the [256,64] scratch, the slots, the three
    scoped semaphores of a trip at zero, and what the subcore owes with the waits made so far. -/
def outerInv (d : Dev nD) (L : grid1.Coords) (qi qy : PosShare TreeShare) (fi : Buf (Elt F) (iLoc d)) (fy : Buf (Elt F) (yLoc d))
    (fo : Buf (Elt F) (oLoc d)) (O : CellTallies nD τ sig (HIx 1)) (W : Waits sig (HIx 1)) (t : ℕ) (_ : Unit) : sProp 𝕄 :=
  iprop(Transfers.MayWaits (V d (cV L) (jV L)) (default : HIx 1) O
    ∗ ((iV).view.loc (V d (cV L) (jV L)) ↦{qi} fi)
    ∗ ((yV).view.loc (V d (cV L) (jV L)) ↦[Finset.univ \ (yAllK).view.set]{qy.left} fy)
    ∗ ((yV).view.loc (V d (cV L) (jV L)) ↦[Finset.univ \ (yAllK).view.set]{qy.right} fy)
    ∗ (oLoc d ↦[oSet (wOf L)]{fullShare} mixO fi fy fo (baseOf L t))
    ∗ (∃ f9 : Buf (Elt F) ((V d (cV L) (jV L)).loc cc1_scratch4), (a9V).view.loc (V d (cV L) (jV L)) ↦{fullShare} f9)
    ∗ slots d L qy fi fy t
    ∗ semVal (cellOf d L cc1_scoped1) 0 ∗ semVal (cellOf d L cc1_scoped2) 0 ∗ semVal (cellOf d L cc1_scoped3) 0
    ∗ ∃ W', ⌜∀ p ∈ W', p ∈ W ∨ p.2 = none⌝ ∗ owes (V d (cV L) (jV L)) O W')

omit [FloatOps F] in
theorem dlv0_eq (d : Dev nD) (L : grid1.Coords) (q : PosShare TreeShare) (fi : Buf (Elt F) (iLoc d)) (fy : Buf (Elt F) (yLoc d)) (base : ℕ) :
    dlv0 d L q fi fy base
      = iprop(∃ g : Buf (Elt F) ((V d (cV L) (jV L)).loc cc1_scratch2), ∃ l : Buf (Elt F) ((V d (cV L) (jV L)).loc cc1_scratch0),
          ⌜Gathered fi fy base g⌝ ∗ ((a7V).view.loc (V d (cV L) (jV L)) ↦{fullShare} g) ∗ ((a5V).view.loc (V d (cV L) (jV L)) ↦{fullShare} l)
            ∗ ((yAllK).view.loc (V d (cV L) (jV L)) ↦[(yAllK).view.set]{q} fy)) := rfl

omit [FloatOps F] in
theorem dlv1_eq (d : Dev nD) (L : grid1.Coords) (q : PosShare TreeShare) (fi : Buf (Elt F) (iLoc d)) (fy : Buf (Elt F) (yLoc d)) (base : ℕ) :
    dlv1 d L q fi fy base
      = iprop(∃ g : Buf (Elt F) ((V d (cV L) (jV L)).loc cc1_scratch3), ∃ l : Buf (Elt F) ((V d (cV L) (jV L)).loc cc1_scratch1),
          ⌜Gathered fi fy base g⌝ ∗ ((a8V).view.loc (V d (cV L) (jV L)) ↦{fullShare} g) ∗ ((a6V).view.loc (V d (cV L) (jV L)) ↦{fullShare} l)
            ∗ ((yAllK).view.loc (V d (cV L) (jV L)) ↦[(yAllK).view.set]{q} fy)) := rfl

omit [FloatOps F] in
/-- One more wait of the task's own is recorded. -/
theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 4000000 in
/-- Trip t of the task, t even and not the last: chunk t + 1's words are fetched into slot 1's index scratch and its gather issued; slot 0's
    gather of chunk t is waited for, its columns 0..63 selected into the [256,64] scratch and copied out to the chunk's rows. -/
theorem trip_even (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1))
    (k : Fin k1_t1_loop.trips) (u : Unit) (hpar : k.val % 2 = 0) (hlast : k.val + 1 < 100) :
    outerInv d L qi qy fi fy fo O W k.val u
      ⊢ wp frame (wpE (defs₀ (F := F)) 𝒱₀ (V d (cV L) (jV L)) none) Set.univ
          (k1_t1_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k u)
          (outerInv d L qi qy fi fy fo O W (k.val + 1)) := by
  have hk : k.val < 100 := trips1 ▸ k.isLt
  have hk1 : k.val + 1 < 100 := hlast
  have k1_h1 : k1_cond1 k = 1#1 := (cond1_iff k).mpr hk1
  have k1_h2 : ¬ k1_cond2 k = 1#1 := fun h => by have := (cond2_iff k).mp h; omega
  have k1_h3 : k1_cond3 k = 1#1 := (cond3_iff k).mpr hpar
  have k1_h4 : k1_cond4 k = 1#1 := (cond4_iff k).mpr hpar
  have k1_h5 : ¬ k1_cond5 k = 1#1 := fun h => by have := (cond5_iff k).mp h; omega
  unfold outerInv k1_t1_body
  rw [slots_even d L qy fi fy hk hpar]
  rw [slots_odd d L qy fi fy hk1 (by omega)]
  unfold free1
  iintro ⟨#Hmw, Hi, Hyr0, Hyr1, Ho, ⟨%f9, H9⟩, ⟨Hfl, ⟨%lo, Hlo⟩, ⟨%go, Hgo⟩, Hyo, Hso⟩, Hc1, Hc2, Hc3, %W', %hW', HO⟩
  ihave Ho' := (pointsTo_split_subset (q := fullShare) (f := mixO fi fy fo (baseOf L k.val)) (oChK_subset L k)).1 $$ Ho
  icases Ho' with ⟨HoC0, HoR⟩
  ihave HoC := (Entails.of_eq (show (oLoc d ↦[(oChK L k).view.set]{fullShare} mixO fi fy fo (baseOf L k.val) : sProp 𝕄)
      = ((oChK L k).view.loc (V d (cV L) (jV L)) ↦[(oChK L k).view.set]{fullShare} mixO fi fy fo (baseOf L k.val)) from rfl)) $$ HoC0
  sl_exec
  -- the next chunk's words are in the other slot's index scratch: its gather is issued
  iapply (gather1 d L qy.right fi fy hin (baseOf L (k.val + 1)) _ _
      (lst_chunk1 d L fi lo _ _ _ (baseOf L (k.val + 1)) (k1_off3_eq L k) (by unfold baseOf; rw [wOf_val]; omega) _ rfl)) $$ [Hyo Hgo Hlo Hso]
  · isplitl [Hyo]; · iexact Hyo
    isplitl [Hgo]; · iexact Hgo
    isplitl [Hlo]; · iexact Hlo
    iexact Hso
  iintro Hflo
  sl_exec
  -- the wait for this trip's gather
  ihave Hfl' := (Entails.of_eq (fl0_eq d L qy.left fi fy (baseOf L k.val))) $$ Hfl
  iapply (Transfers.wp_waitLocalO countersEmb 𝒱₀ (V d (cV L) (jV L)) none (default : HIx 1) (rfl : (a7V).view.dmaCredit = _)) $$ [Hfl' HO]
  · isplitl [Hfl']; · iexact Hfl'
    isplitl [HO]; · iexact HO
    iapply (Transfers.MayWaits.elim (SemLoc.dma cc1_scratch5.sem)) $$ Hmw
  iintro ⟨HD, Hss, HO⟩
  ihave HD' := (Entails.of_eq (dlv0_eq d L qy.left fi fy (baseOf L k.val))) $$ HD
  icases HD' with ⟨%gs, %ls, %hgs, Hgs, Hls, Hys⟩
  sl_exec
  -- the select loop
  sl_for (innerInv0 (F := F) d L gs) $$ [Hgs H9]
  case region => intro kk uu; exact inner0_step d L k k1_h4 gs kk uu
  · unfold innerInv0
    isplitl [Hgs]; · iexact Hgs
    iexists f9
    isplitl [H9]; · iexact H9
    ipureintro; intro y hy; exfalso; omega
  iintro %_ HI
  unfold innerInv0
  icases HI with ⟨Hgs, %f9', H9, %hdone⟩
  have hf9 : f9' = cols gs := done_all (done_mono (by show 4 * k1_t2_loop.trips = 256; rw [trips2]) hdone)
  -- the copy-out
  sl_exec
  sl_step
  ihave HoC' := (Entails.of_eq (pointsTo_congr (out_chunk L k fi fy fo gs hgs _ _ hf9))) $$ HoC
  ihave HoR' := (Entails.of_eq (pointsTo_congr (q := fullShare) (out_rest L k fi fy fo))) $$ HoR
  ihave Ho2 := (pointsTo_split_subset (ℓ := oLoc d) (q := fullShare) (f := mixO fi fy fo (baseOf L (k.val + 1))) (oChK_subset L k)).2 $$ [HoC' HoR']
  · isplitl [HoC'] <;> iassumption
  isplitl []; · iexact Hmw
  isplitl [Hi]; · iexact Hi
  isplitl [Hyr0]; · iexact Hyr0
  isplitl [Hyr1]; · iexact Hyr1
  isplitl [Ho2]; · iexact Ho2
  isplitl [H9]; · iexists _; iexact H9
  isplitl [Hflo Hls Hgs Hys Hss]
  · isplitl [Hflo]; · iexact Hflo
    unfold free0
    isplitl [Hls]; · iexists _; iexact Hls
    isplitl [Hgs]; · iexists _; iexact Hgs
    isplitl [Hys]; · iexact Hys
    iexact Hss
  isplitl [Hc1]; · iexact Hc1
  isplitl [Hc2]; · iexact Hc2
  isplitl [Hc3]; · iexact Hc3
  iexists _
  isplitr
  swap; · iexact HO
  ipureintro
  exact (waits_insert (waits_insert (waits_insert hW')))

set_option maxHeartbeats 4000000 in
/-- Trip t of the task, t odd and not the last: chunk t + 1's words are fetched into slot 0's index scratch and its gather issued; slot 1's
    gather of chunk t is waited for, its columns 0..63 selected into the [256,64] scratch and copied out to the chunk's rows. -/
theorem trip_odd (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1))
    (k : Fin k1_t1_loop.trips) (u : Unit) (hpar : k.val % 2 = 1) (hlast : k.val + 1 < 100) :
    outerInv d L qi qy fi fy fo O W k.val u
      ⊢ wp frame (wpE (defs₀ (F := F)) 𝒱₀ (V d (cV L) (jV L)) none) Set.univ
          (k1_t1_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k u)
          (outerInv d L qi qy fi fy fo O W (k.val + 1)) := by
  have hk : k.val < 100 := trips1 ▸ k.isLt
  have hk1 : k.val + 1 < 100 := hlast
  have k1_h1 : k1_cond1 k = 1#1 := (cond1_iff k).mpr hk1
  have k1_h2 : k1_cond2 k = 1#1 := (cond2_iff k).mpr hpar
  have k1_h3 : ¬ k1_cond3 k = 1#1 := fun h => by have := (cond3_iff k).mp h; omega
  have k1_h4 : ¬ k1_cond4 k = 1#1 := fun h => by have := (cond4_iff k).mp h; omega
  have k1_h5 : k1_cond5 k = 1#1 := (cond5_iff k).mpr hpar
  unfold outerInv k1_t1_body
  rw [slots_odd d L qy fi fy hk hpar]
  rw [slots_even d L qy fi fy hk1 (by omega)]
  unfold free0
  iintro ⟨#Hmw, Hi, Hyr0, Hyr1, Ho, ⟨%f9, H9⟩, ⟨Hfl, ⟨%lo, Hlo⟩, ⟨%go, Hgo⟩, Hyo, Hso⟩, Hc1, Hc2, Hc3, %W', %hW', HO⟩
  ihave Ho' := (pointsTo_split_subset (q := fullShare) (f := mixO fi fy fo (baseOf L k.val)) (oChK_subset L k)).1 $$ Ho
  icases Ho' with ⟨HoC0, HoR⟩
  ihave HoC := (Entails.of_eq (show (oLoc d ↦[(oChK L k).view.set]{fullShare} mixO fi fy fo (baseOf L k.val) : sProp 𝕄)
      = ((oChK L k).view.loc (V d (cV L) (jV L)) ↦[(oChK L k).view.set]{fullShare} mixO fi fy fo (baseOf L k.val)) from rfl)) $$ HoC0
  sl_exec
  -- the next chunk's words are in the other slot's index scratch: its gather is issued
  iapply (gather0 d L qy.left fi fy hin (baseOf L (k.val + 1)) _ _
      (lst_chunk0 d L fi lo _ _ _ (baseOf L (k.val + 1)) (k1_off2_eq L k) (by unfold baseOf; rw [wOf_val]; omega) _ rfl)) $$ [Hyo Hgo Hlo Hso]
  · isplitl [Hyo]; · iexact Hyo
    isplitl [Hgo]; · iexact Hgo
    isplitl [Hlo]; · iexact Hlo
    iexact Hso
  iintro Hflo
  sl_exec
  -- the wait for this trip's gather
  ihave Hfl' := (Entails.of_eq (fl1_eq d L qy.right fi fy (baseOf L k.val))) $$ Hfl
  iapply (Transfers.wp_waitLocalO countersEmb 𝒱₀ (V d (cV L) (jV L)) none (default : HIx 1) (rfl : (a8V).view.dmaCredit = _)) $$ [Hfl' HO]
  · isplitl [Hfl']; · iexact Hfl'
    isplitl [HO]; · iexact HO
    iapply (Transfers.MayWaits.elim (SemLoc.dma cc1_scratch6.sem)) $$ Hmw
  iintro ⟨HD, Hss, HO⟩
  ihave HD' := (Entails.of_eq (dlv1_eq d L qy.right fi fy (baseOf L k.val))) $$ HD
  icases HD' with ⟨%gs, %ls, %hgs, Hgs, Hls, Hys⟩
  sl_exec
  -- the select loop
  sl_for (innerInv1 (F := F) d L gs) $$ [Hgs H9]
  case region => intro kk uu; exact inner1_step d L k k1_h5 gs kk uu
  · unfold innerInv1
    isplitl [Hgs]; · iexact Hgs
    iexists f9
    isplitl [H9]; · iexact H9
    ipureintro; intro y hy; exfalso; omega
  iintro %_ HI
  unfold innerInv1
  icases HI with ⟨Hgs, %f9', H9, %hdone⟩
  have hf9 : f9' = cols gs := done_all (done_mono (by show 4 * k1_t3_loop.trips = 256; rw [trips3]) hdone)
  -- the copy-out
  sl_exec
  sl_step
  ihave HoC' := (Entails.of_eq (pointsTo_congr (out_chunk L k fi fy fo gs hgs _ _ hf9))) $$ HoC
  ihave HoR' := (Entails.of_eq (pointsTo_congr (q := fullShare) (out_rest L k fi fy fo))) $$ HoR
  ihave Ho2 := (pointsTo_split_subset (ℓ := oLoc d) (q := fullShare) (f := mixO fi fy fo (baseOf L (k.val + 1))) (oChK_subset L k)).2 $$ [HoC' HoR']
  · isplitl [HoC'] <;> iassumption
  isplitl []; · iexact Hmw
  isplitl [Hi]; · iexact Hi
  isplitl [Hyr0]; · iexact Hyr0
  isplitl [Hyr1]; · iexact Hyr1
  isplitl [Ho2]; · iexact Ho2
  isplitl [H9]; · iexists _; iexact H9
  isplitl [Hflo Hls Hgs Hys Hss]
  · isplitl [Hflo]; · iexact Hflo
    unfold free1
    isplitl [Hls]; · iexists _; iexact Hls
    isplitl [Hgs]; · iexists _; iexact Hgs
    isplitl [Hys]; · iexact Hys
    iexact Hss
  isplitl [Hc1]; · iexact Hc1
  isplitl [Hc2]; · iexact Hc2
  isplitl [Hc3]; · iexact Hc3
  iexists _
  isplitr
  swap; · iexact HO
  ipureintro
  exact (waits_insert (waits_insert (waits_insert hW')))

set_option maxHeartbeats 4000000 in
/-- Trip t of the task, t odd and the last: slot 1's
    gather of chunk t is waited for, its columns 0..63 selected into the [256,64] scratch and copied out to the chunk's rows. -/
theorem trip_last (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1))
    (k : Fin k1_t1_loop.trips) (u : Unit) (hpar : k.val % 2 = 1) (hlast : ¬ k.val + 1 < 100) :
    outerInv d L qi qy fi fy fo O W k.val u
      ⊢ wp frame (wpE (defs₀ (F := F)) 𝒱₀ (V d (cV L) (jV L)) none) Set.univ
          (k1_t1_body L yV (Memref.isWhole_whole _) iV (Memref.isWhole_whole _) oV (Memref.isWhole_whole _) a5V (Memref.isWhole_whole _) a6V (Memref.isWhole_whole _) a7V (Memref.isWhole_whole _) a8V (Memref.isWhole_whole _) a9V (Memref.isWhole_whole _) cc1_scratch5 cc1_scratch6 cc1_scoped0 cc1_scoped1 cc1_scoped2 cc1_scoped3 k u)
          (outerInv d L qi qy fi fy fo O W (k.val + 1)) := by
  have hk : k.val < 100 := trips1 ▸ k.isLt
  have hk1 : ¬ k.val + 1 < 100 := hlast
  have k1_h1 : ¬ k1_cond1 k = 1#1 := fun h => hk1 ((cond1_iff k).mp h)
  have k1_h2 : k1_cond2 k = 1#1 := (cond2_iff k).mpr hpar
  have k1_h3 : ¬ k1_cond3 k = 1#1 := fun h => by have := (cond3_iff k).mp h; omega
  have k1_h4 : ¬ k1_cond4 k = 1#1 := fun h => by have := (cond4_iff k).mp h; omega
  have k1_h5 : k1_cond5 k = 1#1 := (cond5_iff k).mpr hpar
  unfold outerInv k1_t1_body
  rw [slots_odd d L qy fi fy hk hpar]
  rw [slots_done d L qy fi fy hk1]
  iintro ⟨#Hmw, Hi, Hyr0, Hyr1, Ho, ⟨%f9, H9⟩, ⟨Hfl, Hfreeo⟩, Hc1, Hc2, Hc3, %W', %hW', HO⟩
  ihave Ho' := (pointsTo_split_subset (q := fullShare) (f := mixO fi fy fo (baseOf L k.val)) (oChK_subset L k)).1 $$ Ho
  icases Ho' with ⟨HoC0, HoR⟩
  ihave HoC := (Entails.of_eq (show (oLoc d ↦[(oChK L k).view.set]{fullShare} mixO fi fy fo (baseOf L k.val) : sProp 𝕄)
      = ((oChK L k).view.loc (V d (cV L) (jV L)) ↦[(oChK L k).view.set]{fullShare} mixO fi fy fo (baseOf L k.val)) from rfl)) $$ HoC0
  sl_exec
  -- the wait for this trip's gather
  ihave Hfl' := (Entails.of_eq (fl1_eq d L qy.right fi fy (baseOf L k.val))) $$ Hfl
  iapply (Transfers.wp_waitLocalO countersEmb 𝒱₀ (V d (cV L) (jV L)) none (default : HIx 1) (rfl : (a8V).view.dmaCredit = _)) $$ [Hfl' HO]
  · isplitl [Hfl']; · iexact Hfl'
    isplitl [HO]; · iexact HO
    iapply (Transfers.MayWaits.elim (SemLoc.dma cc1_scratch6.sem)) $$ Hmw
  iintro ⟨HD, Hss, HO⟩
  ihave HD' := (Entails.of_eq (dlv1_eq d L qy.right fi fy (baseOf L k.val))) $$ HD
  icases HD' with ⟨%gs, %ls, %hgs, Hgs, Hls, Hys⟩
  sl_exec
  -- the select loop
  sl_for (innerInv1 (F := F) d L gs) $$ [Hgs H9]
  case region => intro kk uu; exact inner1_step d L k k1_h5 gs kk uu
  · unfold innerInv1
    isplitl [Hgs]; · iexact Hgs
    iexists f9
    isplitl [H9]; · iexact H9
    ipureintro; intro y hy; exfalso; omega
  iintro %_ HI
  unfold innerInv1
  icases HI with ⟨Hgs, %f9', H9, %hdone⟩
  have hf9 : f9' = cols gs := done_all (done_mono (by show 4 * k1_t3_loop.trips = 256; rw [trips3]) hdone)
  -- the copy-out
  sl_exec
  sl_step
  ihave HoC' := (Entails.of_eq (pointsTo_congr (out_chunk L k fi fy fo gs hgs _ _ hf9))) $$ HoC
  ihave HoR' := (Entails.of_eq (pointsTo_congr (q := fullShare) (out_rest L k fi fy fo))) $$ HoR
  ihave Ho2 := (pointsTo_split_subset (ℓ := oLoc d) (q := fullShare) (f := mixO fi fy fo (baseOf L (k.val + 1))) (oChK_subset L k)).2 $$ [HoC' HoR']
  · isplitl [HoC'] <;> iassumption
  isplitl []; · iexact Hmw
  isplitl [Hi]; · iexact Hi
  isplitl [Hyr0]; · iexact Hyr0
  isplitl [Hyr1]; · iexact Hyr1
  isplitl [Ho2]; · iexact Ho2
  isplitl [H9]; · iexists _; iexact H9
  isplitl [Hfreeo Hls Hgs Hys Hss]
  · isplitl [Hfreeo]; · iexact Hfreeo
    unfold free1
    isplitl [Hls]; · iexists _; iexact Hls
    isplitl [Hgs]; · iexists _; iexact Hgs
    isplitl [Hys]; · iexact Hys
    iexact Hss
  isplitl [Hc1]; · iexact Hc1
  isplitl [Hc2]; · iexact Hc2
  isplitl [Hc3]; · iexact Hc3
  iexists _
  isplitr
  swap; · iexact HO
  ipureintro
  exact (waits_insert (waits_insert hW'))

end Cert.Proof.KB

end
-- ==== Proof.B.Tile.lean ====
/-
  The body of one vector subcore's task of the lookup's SparseCore kernel: worker w = 2 · subcore + core gathers the
  rows of the repacked table that words [25600 w, 25600 (w + 1)) of the flattened index array select, 256 at a time
  through two slots of scratch, and writes columns 0..63 of them to its rows of the result. From read shares of the
  index array and the repacked table and its own rows of the result, it leaves those rows at the whole-array
  function rowsOf of the two arrays.
-/
import proofs.«206585_g20916490731584_cont_8to1_1403_18_alg».proof.Proof.B.Common
import proofs.«206585_g20916490731584_cont_8to1_1403_18_alg».proof.Proof.B.Tile.Val
import proofs.«206585_g20916490731584_cont_8to1_1403_18_alg».proof.Proof.B.Tile.Base
import proofs.«206585_g20916490731584_cont_8to1_1403_18_alg».proof.Proof.B.Tile.Inner
import proofs.«206585_g20916490731584_cont_8to1_1403_18_alg».proof.Proof.B.Tile.Gather
import proofs.«206585_g20916490731584_cont_8to1_1403_18_alg».proof.Proof.B.Tile.Out
import proofs.«206585_g20916490731584_cont_8to1_1403_18_alg».proof.Proof.B.Tile.Trip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v1_scv : Memref Cert.Kernel.sig Kind.scVector Space.hbm Cert.Kernel.S1003520x128 EltTy.f32)
local notation "iV" => (Memref.whole Cert.Kernel.main_v2_scv : Memref Cert.Kernel.sig Kind.scVector Space.hbm Cert.Kernel.S819200 EltTy.i32)
local notation "oV" => (Memref.whole Cert.Kernel.main_v3_scv : Memref Cert.Kernel.sig Kind.scVector Space.hbm Cert.Kernel.S819200x64 EltTy.f32)
local notation "a5V" => (Memref.whole Cert.Kernel.cc1_scratch0 : Memref Cert.Kernel.sig Kind.scVector Space.vmem Cert.Kernel.S256 EltTy.i32)
local notation "a6V" => (Memref.whole Cert.Kernel.cc1_scratch1 : Memref Cert.Kernel.sig Kind.scVector Space.vmem Cert.Kernel.S256 EltTy.i32)
local notation "a7V" => (Memref.whole Cert.Kernel.cc1_scratch2 : Memref Cert.Kernel.sig Kind.scVector Space.vmem Cert.Kernel.S256x128 EltTy.f32)
local notation "a8V" => (Memref.whole Cert.Kernel.cc1_scratch3 : Memref Cert.Kernel.sig Kind.scVector Space.vmem Cert.Kernel.S256x128 EltTy.f32)
local notation "a9V" => (Memref.whole Cert.Kernel.cc1_scratch4 : Memref Cert.Kernel.sig Kind.scVector Space.vmem Cert.Kernel.S256x64 EltTy.f32)

variable [FloatOps F]

set_option maxHeartbeats 4000000 in
/-- The task of the vector subcore at grid point L: the first chunk's words fetched and its gather issued, the hundred
    trips by the invariant, and the subcore's buffers and semaphores handed back. -/
theorem tile_body (hF : (K (F := F)).Facts) (d : Dev nD) (L : grid1.Coords) (qi qy : PosShare TreeShare)
    (fi : Buf (Elt F) (iLoc d)) (fy : Buf (Elt F) (yLoc d)) (fo : Buf (Elt F) (oLoc d))
    (hin : ∀ j, (fi j).toNat < 1003520)
    (O : CellTallies nD τ sig (HIx 1)) (W : Waits sig (HIx 1)) (hO : ∀ g, O g none = 0) :
    iprop(levAts (K (F := F)).L (K (F := F)).lev ∗ emp
        ∗ ((iLoc d ↦{qi} fi) ∗ (yLoc d ↦{qy} fy) ∗ oLoc d ↦[oSet (wOf L)]{fullShare} fo)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__gather L (Memref.whole main_v1_scv) (Memref.isWhole_whole _) (Memref.whole main_v2_scv) (Memref.isWhole_whole _) (Memref.whole main_v3_scv) (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _)
            cc1_scratch5 cc1_scratch6 cc1_scoped0 cc1_scoped1 cc1_scoped2 cc1_scoped3)
          fun _ => iprop(((iLoc d ↦{qi} fi) ∗ (yLoc d ↦{qy} fy) ∗ oLoc d ↦[oSet (wOf L)]{fullShare} rowsOf fi fy)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__gather_eq_skeleton]; unfold cc1__gather_skel
  rw [(K (F := F)).scopedBufs_V hF d (cV L) (jV L), SparseCore.Cfg.scopedSems0_V (Val := Elt F) d (cV L) (jV L), ownSems0_V, ownBufs_V]
  iintro ⟨#Hlv, -, ⟨Hi, Hy, Ho⟩, ⟨⟨%f5, H5⟩, ⟨%f6, H6⟩, ⟨%f7, H7⟩, ⟨%f8, H8⟩, ⟨%f9, H9⟩, Hbufs⟩, ⟨Hs5, Hs6, Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hi' := (Entails.of_eq (show (iLoc d ↦{qi} fi : sProp 𝕄) = ((iV).view.loc (V d (cV L) (jV L)) ↦{qi} fi) from rfl)) $$ Hi
  ihave Hy' := (Entails.of_eq (show (yLoc d ↦{qy} fy : sProp 𝕄) = ((yV).view.loc (V d (cV L) (jV L)) ↦{qy} fy) from rfl)) $$ Hy
  ihave H5' := (Entails.of_eq (show ((V d (cV L) (jV L)).loc cc1_scratch0 ↦{fullShare} f5 : sProp 𝕄) = ((a5V).view.loc (V d (cV L) (jV L)) ↦{fullShare} f5) from rfl)) $$ H5
  ihave H6' := (Entails.of_eq (show ((V d (cV L) (jV L)).loc cc1_scratch1 ↦{fullShare} f6 : sProp 𝕄) = ((a6V).view.loc (V d (cV L) (jV L)) ↦{fullShare} f6) from rfl)) $$ H6
  ihave H7' := (Entails.of_eq (show ((V d (cV L) (jV L)).loc cc1_scratch2 ↦{fullShare} f7 : sProp 𝕄) = ((a7V).view.loc (V d (cV L) (jV L)) ↦{fullShare} f7) from rfl)) $$ H7
  ihave H8' := (Entails.of_eq (show ((V d (cV L) (jV L)).loc cc1_scratch3 ↦{fullShare} f8 : sProp 𝕄) = ((a8V).view.loc (V d (cV L) (jV L)) ↦{fullShare} f8) from rfl)) $$ H8
  ihave H9' := (Entails.of_eq (show ((V d (cV L) (jV L)).loc cc1_scratch4 ↦{fullShare} f9 : sProp 𝕄) = ((a9V).view.loc (V d (cV L) (jV L)) ↦{fullShare} f9) from rfl)) $$ H9
  -- the task's share of the repacked table: a half for each slot's gathers, each split at the gathers' view of it
  ihave Hyh := (pointsTo_share (PosShare.mem_left_op_right qy)).1 $$ Hy'
  icases Hyh with ⟨HyL, HyR⟩
  ihave HyL' := (pointsTo_split_subset (q := qy.left) (f := fy) (S := Finset.univ) (Finset.subset_univ (yAllK).view.set)).1 $$ HyL
  icases HyL' with ⟨Hy0, Hyr0⟩
  ihave HyR' := (pointsTo_split_subset (q := qy.right) (f := fy) (S := Finset.univ) (Finset.subset_univ (yAllK).view.set)).1 $$ HyR
  icases HyR' with ⟨Hy1, Hyr1⟩
  -- chunk 0's words into slot 0's index scratch
  sl_exec
  -- slot 0's gather of chunk 0
  iapply (gather0 d L qy.left fi fy hin (baseOf L 0) _ _
      (lst_chunk0 d L fi f5 _ _ _ (baseOf L 0) (k1_off1_eq L) (by unfold baseOf; rw [wOf_val]; omega) _ rfl)) $$ [Hy0 H7' H5' Hs5]
  · isplitl [Hy0]; · iexact Hy0
    isplitl [H7']; · iexact H7'
    isplitl [H5']; · iexact H5'
    iexact Hs5
  iintro Hfl0
  ihave Ho0 := (Entails.of_eq (pointsTo_congr (q := fullShare) (mixO_zero L fi fy fo))) $$ Ho
  -- the hundred trips
  sl_for (outerInv d L qi qy fi fy fo O W) $$ [Hi' Hyr0 Hyr1 Ho0 H9' Hfl0 H6' H8' Hy1 Hs6 Hc1 Hc2 Hc3 HO]
  case region =>
    intro k u
    by_cases hpar : k.val % 2 = 0
    · exact trip_even d L qi qy fi fy fo hin O W k u hpar (by have : k.val < 100 := trips1 ▸ k.isLt; omega)
    · by_cases hlast : k.val + 1 < 100
      · exact trip_odd d L qi qy fi fy fo hin O W k u (by omega) hlast
      · exact trip_last d L qi qy fi fy fo hin O W k u (by omega) hlast
  · unfold outerInv
    rw [slots_even d L qy fi fy (by decide) rfl]
    unfold free1
    isplitl []; · iexact Hmw
    isplitl [Hi']; · iexact Hi'
    isplitl [Hyr0]; · iexact Hyr0
    isplitl [Hyr1]; · iexact Hyr1
    isplitl [Ho0]; · iexact Ho0
    isplitl [H9']; · iexists _; iexact H9'
    isplitl [Hfl0 H6' H8' Hy1 Hs6]
    · isplitl [Hfl0]; · iexact Hfl0
      isplitl [H6']; · iexists _; iexact H6'
      isplitl [H8']; · iexists _; iexact H8'
      isplitl [Hy1]; · iexact Hy1
      iexact Hs6
    isplitl [Hc1]; · iexact Hc1
    isplitl [Hc2]; · iexact Hc2
    isplitl [Hc3]; · iexact Hc3
    iexists _
    isplitr
    swap; · iexact HO
    ipureintro
    exact waits_insert (fun p hp => .inl hp)
  iintro %_ HI
  ihave HI' := (Entails.of_eq (congrArg (fun n => outerInv d L qi qy fi fy fo O W n _) trips1)) $$ HI
  unfold outerInv
  rw [slots_done d L qy fi fy (by decide)]
  unfold free0 free1
  icases HI' with ⟨-, Hi, Hyr0, Hyr1, Ho, ⟨%f9, H9⟩, ⟨⟨⟨%l5, H5⟩, ⟨%g7, H7⟩, Hy0, Hs5⟩, ⟨%l6, H6⟩, ⟨%g8, H8⟩, Hy1, Hs6⟩, Hc1, Hc2, Hc3, %W', %hW', HO⟩
  sl_exec
  sl_step
  -- the share of the repacked table whole again
  ihave HyL := (pointsTo_split_subset (q := qy.left) (f := fy) (S := Finset.univ) (Finset.subset_univ (yAllK).view.set)).2 $$ [Hy0 Hyr0]
  · isplitl [Hy0] <;> iassumption
  ihave HyR := (pointsTo_split_subset (q := qy.right) (f := fy) (S := Finset.univ) (Finset.subset_univ (yAllK).view.set)).2 $$ [Hy1 Hyr1]
  · isplitl [Hy1] <;> iassumption
  ihave Hy := (pointsTo_share (PosShare.mem_left_op_right qy)).2 $$ [HyL HyR]
  · isplitl [HyL] <;> iassumption
  ihave Ho' := (Entails.of_eq (pointsTo_congr (q := fullShare) (mixO_last L fi fy fo))) $$ Ho
  isplitl [Hi Hy Ho']
  · isplitl [Hi]; · iexact Hi
    isplitl [Hy]; · iexact Hy
    iexact Ho'
  isplitl [H5 H6 H7 H8 H9 Hbufs]
  · isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hs5 Hs6 Hc0 Hc1 Hc2 Hc3 Hsems]
  · isplitl [Hs5]; · iexact Hs5
    isplitl [Hs6]; · iexact Hs6
    isplitl [Hc0]; · iexact Hc0
    isplitl [Hc1]; · iexact Hc1
    isplitl [Hc2]; · iexact Hc2
    isplitl [Hc3]; · iexact Hc3
    iexact Hsems
  iexists W'
  isplitr
  · ipureintro; exact hW'
  · iexact HO

end Cert.Proof.KB

end
-- ==== Proof.B.Pay.lean ====
/-
  What the SparseCore call's handshakes carry, the task's obligation in the launch theorem's form, and how one
  SparseCore's operands split among its sixteen tasks. The call takes, for SparseCore c, a read share of the
  repacked table (held at SOME contents that repack the table: its rows from 1000001 on are not determined), a
  read share of the flattened index array, and the rows of the result that the core's sixteen workers own
  (worker 2 i + c for task i); each task takes its sixteenth of the two read shares and its own 25600 rows, and
  brings the rows back holding the gathered rows of the TABLE — the repacked table's rows that the words select
  are the table's, because every word is a row number between 0 and 999999.
-/
import proofs.«206585_g20916490731584_cont_8to1_1403_18_alg».proof.Proof.B.Common
import proofs.«206585_g20916490731584_cont_8to1_1403_18_alg».proof.Proof.B.HostVals
import proofs.«206585_g20916490731584_cont_8to1_1403_18_alg».proof.Proof.B.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-- The launch contents of the index array, the table and the gathered array. -/
abbrev x0 (d : Dev nD) : S4096x200.Idx → BitVec 32 := m (xLoc d)
abbrev tb0 (d : Dev nD) : S1000001x64.Idx → Elt F .f32 := m (tabLoc d)
abbrev o0 (d : Dev nD) : Buf (Elt F) (oLoc d) := m (oLoc d)
/-- The flattened index array and the gathered rows, as buffer contents. -/
abbrev fi0 (d : Dev nD) : Buf (Elt F) (iLoc d) := flat (x0 m d)
abbrev go0 (d : Dev nD) : Buf (Elt F) (oLoc d) := gath (x0 m d) (tb0 m d)

/-- Worker 2 i + c: task i of SparseCore c. -/
def wIdx (c : Fin 2) (i : Fin 16) : Fin 32 := ⟨2 * i.val + c.val, by have := c.isLt; have := i.isLt; omega⟩

/-- SparseCore c's read share of an array, and task i's sixteenth of it. -/
abbrev cq (c : Fin 2) : PosShare TreeShare := Transfers.shareTok fullShare 2 c
abbrev tq (c : Fin 2) (i : Fin 16) : PosShare TreeShare := Transfers.shareTok (cq c) 16 i

abbrev cC (c : Fin ((K (F := F)).nCore 0)) : Fin 2 := Fin.cast nCore_zero c
abbrev iC (i : Fin ((K (F := F)).nSub 0)) : Fin 16 := Fin.cast nSub_zero i

/-- A task's operands: its shares of the repacked table (at some contents that repack the table) and of the flat
    index array, and its rows of the result. -/
abbrev goPts (d : Dev nD) (c : Fin 2) (i : Fin 16) : sProp 𝕄 :=
  iprop(∃ fy : Buf (Elt F) (yLoc d), ⌜Repacked (tb0 m d) fy⌝ ∗ (yLoc d ↦{tq c i} fy) ∗ (iLoc d ↦{tq c i} fi0 m d)
    ∗ oLoc d ↦[oSet (wIdx c i)]{fullShare} o0 m d)
/-- A task's result: its rows at the gathered rows. -/
abbrev tdPts (d : Dev nD) (c : Fin 2) (i : Fin 16) : sProp 𝕄 := oLoc d ↦[oSet (wIdx c i)]{fullShare} go0 m d
/-- A SparseCore's operands and results. -/
abbrev stPts (d : Dev nD) (c : Fin 2) : sProp 𝕄 :=
  iprop(∃ fy : Buf (Elt F) (yLoc d), ⌜Repacked (tb0 m d) fy⌝ ∗ (yLoc d ↦{cq c} fy) ∗ (iLoc d ↦{cq c} fi0 m d)
    ∗ bigSep Finset.univ fun i : Fin 16 => oLoc d ↦[oSet (wIdx c i)]{fullShare} o0 m d)
abbrev dnPts (d : Dev nD) (c : Fin 2) : sProp 𝕄 := bigSep Finset.univ fun i : Fin 16 => tdPts m d c i

def P : (K (F := F)).Pay (nD := nD) (Val := Elt F) (Name := ℕ) (U := UU) where
  st := fun q d c => match q with | 0 => stPts m d (cC c)
  dn := fun q d c => match q with | 0 => dnPts m d (cC c)
  go := fun q d c i => match q with | 0 => goPts m d (cC c) (iC i)
  td := fun q d c i => match q with | 0 => tdPts m d (cC c) (iC i)
  x := fun _ _ => iprop(emp)

instance P_storable : (P (F := F) m).IsStorable where
  st q d c := match q with | 0 => (inferInstance : BI.Storable (upEmb : UEmb _ 𝕄) (stPts m d (cC c)))
  dn q d c := match q with | 0 => (inferInstance : BI.Storable (upEmb : UEmb _ 𝕄) (dnPts m d (cC c)))
  go q d c i := match q with | 0 => (inferInstance : BI.Storable (upEmb : UEmb _ 𝕄) (goPts m d (cC c) (iC i)))
  td q d c i := match q with | 0 => (inferInstance : BI.Storable (upEmb : UEmb _ 𝕄) (tdPts m d (cC c) (iC i)))

/-- What the proof asks of the launch memory: every word of the index array is a row number between 0 and 999999. -/
def PreOK : Prop := ∀ d : Dev nD, Cert.Spec.InRange (x0 m d)

/-! ## The task's obligation -/

section Tile

variable (d : Dev nD)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__gather (coordsV c s)
          (Memref.whole main_v1_scv) (Memref.isWhole_whole _) (Memref.whole main_v2_scv) (Memref.isWhole_whole _) (Memref.whole main_v3_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scoped0 cc1_scoped1 cc1_scoped2 cc1_scoped3) ⟨⟩ c s := rfl

omit m ρ in
theorem wOf_coordsV (c : Fin (grid1.bound 0)) (s : Fin (grid1.bound 1)) :
    wOf (coordsV c s) = wIdx (Fin.cast bound_zero c) (Fin.cast bound_one s) := Fin.ext rfl

/-- Rows gathered from a repacked table are the table's gathered rows, once every word is in range. -/
theorem rowsOf_eq_gath {x : S4096x200.Idx → BitVec 32} (hx : Cert.Spec.InRange x) {tb : S1000001x64.Idx → Elt F .f32}
    {fy : S1003520x128.Idx → Elt F .f32} (hy : Repacked tb fy) (j : S819200x64.Idx) :
    rowsOf (flat x) fy j = gath x tb j := by
  have h := flat_range hx (ix1 (j 0))
  have e := Cert.Spec.rowOf_val h.1 h.2
  have hlt : (Cert.Spec.rowOf (flat x (ix1 (j 0)))).val < 1000001 := (Cert.Spec.rowOf (flat x (ix1 (j 0)))).isLt
  have hyr : (yRow (flat x (ix1 (j 0)))).val = (flat x (ix1 (j 0))).toNat := by
    show min (flat x (ix1 (j 0))).toNat 1003519 = _
    omega
  have hj : (j 1).val < 64 := (j 1).isLt
  unfold rowsOf gath
  rw [hy _ _ (by rw [hyr]; omega)]
  congr 1
  funext a
  match a with
  | ⟨0, _⟩ => exact Fin.ext (hyr.trans e.symm)
  | ⟨1, _⟩ => exact Fin.ext (Nat.mod_eq_of_lt hj)

omit ρ in
/-- The body's result read as the handshake's: the task's rows at the table's gathered rows, the read shares let go. -/
theorem obl_post [FloatOps F] (hpre : PreOK m) (c : Fin 2) (i : Fin 16) {fy : Buf (Elt F) (yLoc d)} (hy : Repacked (tb0 m d) fy) {qi qy : PosShare TreeShare}
    {thr : Thread nD τ} {B C : sProp 𝕄} {O : CellTallies nD τ sig (HIx 1)} {W : Waits sig (HIx 1)} :
    iprop(((iLoc d ↦{qi} fi0 m d) ∗ (yLoc d ↦{qy} fy) ∗ oLoc d ↦[oSet (wIdx c i)]{fullShare} rowsOf (fi0 m d) fy)
        ∗ B ∗ C ∗ ∃ W', ⌜∀ p ∈ W', p ∈ W ∨ p.2 = none⌝ ∗ owes thr O W')
      ⊢ iprop(tdPts m d c i ∗ B ∗ C ∗ ∃ W', ⌜∀ p ∈ W', p ∈ W ∨ p.2 = none ∨ p.2 = some (0 : Fin 1)⌝ ∗ owes thr O W') := by
  iintro ⟨⟨-, -, Ho⟩, HB, HC, %W', %hW', HO⟩
  isplitl [Ho]
  · ihave Ho' := (Entails.of_eq (pointsTo_congr (q := fullShare) (I := oSet (wIdx c i)) (f := rowsOf (fi0 m d) fy) (g := go0 m d)
        fun j _ => rowsOf_eq_gath (hpre d) hy j)) $$ Ho
    iexact Ho'
  isplitl [HB]; · iexact HB
  isplitl [HC]; · iexact HC
  iexists W'; isplitr
  · ipureintro; exact fun p hp => (hW' p hp).imp_right Or.inl
  · iexact HO

set_option maxRecDepth 16384 in
theorem tileObl [FloatOps F] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(levAts (K (F := F)).L (K (F := F)).lev ∗ emp ∗ goPts m d (cC c) (iC i) ∗ _ ∗ _ ∗ _) ⊢ _
  iintro ⟨Hlv, He, ⟨%fy, %hy, Hy, Hi, Ho⟩, Hsb, Hss, HO⟩
  iapply ((tile_body (F := F) hF d (coordsV ⟨_, hci.1⟩ ⟨_, hci.2⟩) (tq (cC c) (iC i)) (tq (cC c) (iC i)) (fi0 m d) fy (o0 m d)
      (fun j => flat_lt (hpre d) j) O W hO).trans (wp_mono frame _ _ fun _ => obl_post m d hpre (cC c) (iC i) hy)) $$ [Hlv He Hy Hi Ho Hsb Hss HO]
  isplitl [Hlv]; · iexact Hlv
  isplitl [He]; · iexact He
  isplitl [Hy Hi Ho]
  · isplitl [Hi]; · iexact Hi
    isplitl [Hy]; · iexact Hy
    iexact Ho
  isplitl [Hsb]; · iexact Hsb
  isplitl [Hss]; · iexact Hss
  iexact HO

end Tile

/-! ## One SparseCore's operands among its tasks -/

omit m ρ in
theorem bigSep_tasks (Φ : Fin 16 → sProp 𝕄) :
    (bigSep Finset.univ fun i : Fin ((K (F := F)).nSub 0) => Φ (iC i)) = bigSep Finset.univ Φ :=
  bigSep_congr fun _ _ => congrArg Φ (Fin.ext rfl)

omit ρ in
/-- Each task's operands, from the three families over the tasks, at one contents of the repacked table. -/
theorem go_intro (d : Dev nD) (c : Fin 2) (fy : Buf (Elt F) (yLoc d)) (hy : Repacked (tb0 m d) fy) :
    (bigSep Finset.univ fun i : Fin 16 => iprop((yLoc d ↦{tq c i} fy) ∗ (iLoc d ↦{tq c i} fi0 m d) ∗ oLoc d ↦[oSet (wIdx c i)]{fullShare} o0 m d) : sProp 𝕄)
      ⊢ bigSep Finset.univ fun i : Fin 16 => goPts m d c i :=
  bigSep_mono fun i _ => by
    show (iprop((yLoc d ↦{tq c i} fy) ∗ (iLoc d ↦{tq c i} fi0 m d) ∗ oLoc d ↦[oSet (wIdx c i)]{fullShare} o0 m d) : sProp 𝕄) ⊢ goPts m d c i
    iintro ⟨Hy, Hi, Ho⟩
    iexists fy
    isplitr; · ipureintro; exact hy
    isplitl [Hy]; · iexact Hy
    isplitl [Hi]; · iexact Hi
    iexact Ho

theorem vecSplit [FloatOps F] : (K (F := F)).VecSplit' (P m) 0 := by
  intro d c
  show stPts m d (cC c) ⊢ |={Set.univ}=> iprop((bigSep Finset.univ fun i : Fin ((K (F := F)).nSub 0) => goPts m d (cC c) (iC i))
      ∗ ((bigSep Finset.univ fun i : Fin ((K (F := F)).nSub 0) => tdPts m d (cC c) (iC i)) -∗ dnPts m d (cC c)))
  rw [bigSep_tasks (F := F) (fun i => goPts m d (cC c) i), bigSep_tasks (F := F) (fun i => tdPts m d (cC c) i)]
  iintro ⟨%fy, %hy, Hy, Hi, Ho⟩
  ihave Hy' := (Transfers.pointsTo_toks_split (cq (cC c)) 16) $$ Hy
  icases Hy' with ⟨-, Hys⟩
  ihave Hi' := (Transfers.pointsTo_toks_split (cq (cC c)) 16) $$ Hi
  icases Hi' with ⟨-, His⟩
  imodintro
  isplitl [Hys His Ho]
  · ihave H2 := (Entails.of_eq (bigSep_sep' (Finset.univ : Finset (Fin 16)) (fun i => (iLoc d ↦{tq (cC c) i} fi0 m d : sProp 𝕄))
        (fun i => (oLoc d ↦[oSet (wIdx (cC c) i)]{fullShare} o0 m d : sProp 𝕄))).symm) $$ [His Ho]
    · isplitl [His]; · iexact His
      iexact Ho
    ihave H := (Entails.of_eq (bigSep_sep' (Finset.univ : Finset (Fin 16)) (fun i => (yLoc d ↦{tq (cC c) i} fy : sProp 𝕄))
        (fun i => iprop((iLoc d ↦{tq (cC c) i} fi0 m d) ∗ oLoc d ↦[oSet (wIdx (cC c) i)]{fullShare} o0 m d))).symm) $$ [Hys H2]
    · isplitl [Hys]; · iexact Hys
      iexact H2
    iapply (go_intro m d (cC c) fy hy) $$ H
  · iintro H; iexact H

end Cert.Proof.KB

end
-- ==== Proof.B.Region.Pay.lean ====
/-
  The value the repacking body stores, read at an index: entry (p, c) of the stored [4096,128] block is entry
  (c mod 64, p) of the loaded [64,4096] block. Eight 512-column slices, each transposed, stacked along the rows
  are the transpose of the whole block; that [4096,64] block twice side by side is the stored block.
-/
import proofs.«206585_g20916490731584_cont_8to1_1403_18_alg».proof.Proof.Gen.Kernel.Skeleton
import Idealize.ShloMosaic.Lib.Pipeline.Value
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- One slice of 512 columns from column o on, transposed, at (q, c): the block at (c, o + q). -/
theorem slice_transpose_apply {α : Type} (o : Nat) (hs : S64x4096.Slices ![0, o] S64x512) (v : S64x4096.Idx → α)
    (q : Fin 512) (c : Fin 64) (ho : o + q.val < 4096) :
    transpose S512x64 [1, 0] (extractStridedSlice S64x512 ![0, o] v hs) transposes_S64x512_p1_0_S512x64 (ix2 q c)
      = v (ix2 c ⟨o + q.val, ho⟩) := by
  refine (transpose_apply [1, 0] _ transposes_S64x512_p1_0_S512x64 (ix2 q c) (ix2 c q) ?_).trans ?_
  · intro b
    match b with
    | ⟨0, _⟩ => rfl
    | ⟨1, _⟩ => rfl
  · refine extractStridedSlice_apply ![0, o] v hs (ix2 c q) (ix2 c ⟨o + q.val, ho⟩) ?_
    intro a
    match a with
    | ⟨0, _⟩ => show c.val = 0 + c.val; omega
    | ⟨1, _⟩ => rfl

/-- The stored block at (p, c) is the loaded block at (c mod 64, p). -/
theorem k0_pay1_apply (v0 : Vec F S64x4096 .f32) (p : Fin 4096) (c : Fin 128) :
    k0_pay1 v0 (ix2 p c) = v0 (ix2 ⟨c.val % 64, Nat.mod_lt _ (by decide)⟩ p) := by
  unfold k0_pay1
  -- the two copies side by side: column c of the pair is column c mod 64 of one copy
  refine (concatenate_replicate_apply (t := S4096x128) (s₁ := S4096x64) 1 2 _ concatenates_S4096x64_S4096x64_S4096x128_d1 rfl
    (ix2 p c) (ix2 p ⟨c.val % 64, Nat.mod_lt _ (by decide)⟩) rfl ?_).trans ?_
  · intro b hb
    match b with
    | ⟨0, _⟩ => rfl
    | ⟨1, _⟩ => exact absurd rfl hb
  -- the eight pieces stacked: row p is row p mod 512 of piece p / 512
  have hp := p.isLt
  obtain ⟨k, hk8, hlo, hhi⟩ : ∃ k, k < 8 ∧ 512 * k ≤ p.val ∧ p.val < 512 * k + 512 := ⟨p.val / 512, by omega, by omega, by omega⟩
  have hq : p.val - 512 * k < 512 := by omega
  interval_cases k
  · refine (concatenate_apply_piece (t := S4096x64) 0 _ _
      (ix2 p ⟨c.val % 64, Nat.mod_lt _ (by decide)⟩) 0 (by simp only [List.length_cons, List.length_nil]; omega) S512x64 _ rfl rfl 0 rfl (ix2 ⟨p.val - 0, hq⟩ ⟨c.val % 64, Nat.mod_lt _ (by decide)⟩) ?_ ?_).trans ?_
    · intro b hb
      match b with
      | ⟨0, _⟩ => exact absurd rfl hb
      | ⟨1, _⟩ => rfl
    · show 0 + (p.val - 0) = p.val; omega
    · refine (slice_transpose_apply 0 _ _ ⟨p.val - 0, hq⟩ ⟨c.val % 64, Nat.mod_lt _ (by decide)⟩ (by show 0 + (p.val - 0) < 4096; omega)).trans ?_
      refine (congrFun (shapeCast_self v0 _) _).trans ?_
      congr 1; funext a
      match a with
      | ⟨0, _⟩ => rfl
      | ⟨1, _⟩ => exact Fin.ext (by show 0 + (p.val - 0) = p.val; omega)
  · refine (concatenate_apply_piece (t := S4096x64) 0 _ _
      (ix2 p ⟨c.val % 64, Nat.mod_lt _ (by decide)⟩) 1 (by simp only [List.length_cons, List.length_nil]; omega) S512x64 _ rfl rfl 512 rfl (ix2 ⟨p.val - 512, hq⟩ ⟨c.val % 64, Nat.mod_lt _ (by decide)⟩) ?_ ?_).trans ?_
    · intro b hb
      match b with
      | ⟨0, _⟩ => exact absurd rfl hb
      | ⟨1, _⟩ => rfl
    · show 512 + (p.val - 512) = p.val; omega
    · refine (slice_transpose_apply 512 _ _ ⟨p.val - 512, hq⟩ ⟨c.val % 64, Nat.mod_lt _ (by decide)⟩ (by show 512 + (p.val - 512) < 4096; omega)).trans ?_
      refine (congrFun (shapeCast_self v0 _) _).trans ?_
      congr 1; funext a
      match a with
      | ⟨0, _⟩ => rfl
      | ⟨1, _⟩ => exact Fin.ext (by show 512 + (p.val - 512) = p.val; omega)
  · refine (concatenate_apply_piece (t := S4096x64) 0 _ _
      (ix2 p ⟨c.val % 64, Nat.mod_lt _ (by decide)⟩) 2 (by simp only [List.length_cons, List.length_nil]; omega) S512x64 _ rfl rfl 1024 rfl (ix2 ⟨p.val - 1024, hq⟩ ⟨c.val % 64, Nat.mod_lt _ (by decide)⟩) ?_ ?_).trans ?_
    · intro b hb
      match b with
      | ⟨0, _⟩ => exact absurd rfl hb
      | ⟨1, _⟩ => rfl
    · show 1024 + (p.val - 1024) = p.val; omega
    · refine (slice_transpose_apply 1024 _ _ ⟨p.val - 1024, hq⟩ ⟨c.val % 64, Nat.mod_lt _ (by decide)⟩ (by show 1024 + (p.val - 1024) < 4096; omega)).trans ?_
      refine (congrFun (shapeCast_self v0 _) _).trans ?_
      congr 1; funext a
      match a with
      | ⟨0, _⟩ => rfl
      | ⟨1, _⟩ => exact Fin.ext (by show 1024 + (p.val - 1024) = p.val; omega)
  · refine (concatenate_apply_piece (t := S4096x64) 0 _ _
      (ix2 p ⟨c.val % 64, Nat.mod_lt _ (by decide)⟩) 3 (by simp only [List.length_cons, List.length_nil]; omega) S512x64 _ rfl rfl 1536 rfl (ix2 ⟨p.val - 1536, hq⟩ ⟨c.val % 64, Nat.mod_lt _ (by decide)⟩) ?_ ?_).trans ?_
    · intro b hb
      match b with
      | ⟨0, _⟩ => exact absurd rfl hb
      | ⟨1, _⟩ => rfl
    · show 1536 + (p.val - 1536) = p.val; omega
    · refine (slice_transpose_apply 1536 _ _ ⟨p.val - 1536, hq⟩ ⟨c.val % 64, Nat.mod_lt _ (by decide)⟩ (by show 1536 + (p.val - 1536) < 4096; omega)).trans ?_
      refine (congrFun (shapeCast_self v0 _) _).trans ?_
      congr 1; funext a
      match a with
      | ⟨0, _⟩ => rfl
      | ⟨1, _⟩ => exact Fin.ext (by show 1536 + (p.val - 1536) = p.val; omega)
  · refine (concatenate_apply_piece (t := S4096x64) 0 _ _
      (ix2 p ⟨c.val % 64, Nat.mod_lt _ (by decide)⟩) 4 (by simp only [List.length_cons, List.length_nil]; omega) S512x64 _ rfl rfl 2048 rfl (ix2 ⟨p.val - 2048, hq⟩ ⟨c.val % 64, Nat.mod_lt _ (by decide)⟩) ?_ ?_).trans ?_
    · intro b hb
      match b with
      | ⟨0, _⟩ => exact absurd rfl hb
      | ⟨1, _⟩ => rfl
    · show 2048 + (p.val - 2048) = p.val; omega
    · refine (slice_transpose_apply 2048 _ _ ⟨p.val - 2048, hq⟩ ⟨c.val % 64, Nat.mod_lt _ (by decide)⟩ (by show 2048 + (p.val - 2048) < 4096; omega)).trans ?_
      refine (congrFun (shapeCast_self v0 _) _).trans ?_
      congr 1; funext a
      match a with
      | ⟨0, _⟩ => rfl
      | ⟨1, _⟩ => exact Fin.ext (by show 2048 + (p.val - 2048) = p.val; omega)
  · refine (concatenate_apply_piece (t := S4096x64) 0 _ _
      (ix2 p ⟨c.val % 64, Nat.mod_lt _ (by decide)⟩) 5 (by simp only [List.length_cons, List.length_nil]; omega) S512x64 _ rfl rfl 2560 rfl (ix2 ⟨p.val - 2560, hq⟩ ⟨c.val % 64, Nat.mod_lt _ (by decide)⟩) ?_ ?_).trans ?_
    · intro b hb
      match b with
      | ⟨0, _⟩ => exact absurd rfl hb
      | ⟨1, _⟩ => rfl
    · show 2560 + (p.val - 2560) = p.val; omega
    · refine (slice_transpose_apply 2560 _ _ ⟨p.val - 2560, hq⟩ ⟨c.val % 64, Nat.mod_lt _ (by decide)⟩ (by show 2560 + (p.val - 2560) < 4096; omega)).trans ?_
      refine (congrFun (shapeCast_self v0 _) _).trans ?_
      congr 1; funext a
      match a with
      | ⟨0, _⟩ => rfl
      | ⟨1, _⟩ => exact Fin.ext (by show 2560 + (p.val - 2560) = p.val; omega)
  · refine (concatenate_apply_piece (t := S4096x64) 0 _ _
      (ix2 p ⟨c.val % 64, Nat.mod_lt _ (by decide)⟩) 6 (by simp only [List.length_cons, List.length_nil]; omega) S512x64 _ rfl rfl 3072 rfl (ix2 ⟨p.val - 3072, hq⟩ ⟨c.val % 64, Nat.mod_lt _ (by decide)⟩) ?_ ?_).trans ?_
    · intro b hb
      match b with
      | ⟨0, _⟩ => exact absurd rfl hb
      | ⟨1, _⟩ => rfl
    · show 3072 + (p.val - 3072) = p.val; omega
    · refine (slice_transpose_apply 3072 _ _ ⟨p.val - 3072, hq⟩ ⟨c.val % 64, Nat.mod_lt _ (by decide)⟩ (by show 3072 + (p.val - 3072) < 4096; omega)).trans ?_
      refine (congrFun (shapeCast_self v0 _) _).trans ?_
      congr 1; funext a
      match a with
      | ⟨0, _⟩ => rfl
      | ⟨1, _⟩ => exact Fin.ext (by show 3072 + (p.val - 3072) = p.val; omega)
  · refine (concatenate_apply_piece (t := S4096x64) 0 _ _
      (ix2 p ⟨c.val % 64, Nat.mod_lt _ (by decide)⟩) 7 (by simp only [List.length_cons, List.length_nil]; omega) S512x64 _ rfl rfl 3584 rfl (ix2 ⟨p.val - 3584, hq⟩ ⟨c.val % 64, Nat.mod_lt _ (by decide)⟩) ?_ ?_).trans ?_
    · intro b hb
      match b with
      | ⟨0, _⟩ => exact absurd rfl hb
      | ⟨1, _⟩ => rfl
    · show 3584 + (p.val - 3584) = p.val; omega
    · refine (slice_transpose_apply 3584 _ _ ⟨p.val - 3584, hq⟩ ⟨c.val % 64, Nat.mod_lt _ (by decide)⟩ (by show 3584 + (p.val - 3584) < 4096; omega)).trans ?_
      refine (congrFun (shapeCast_self v0 _) _).trans ?_
      congr 1; funext a
      match a with
      | ⟨0, _⟩ => rfl
      | ⟨1, _⟩ => exact Fin.ext (by show 3584 + (p.val - 3584) = p.val; omega)

end Cert.Proof.KB

end
-- ==== Proof.B.Region.Body.lean ====
/-
  The repacking pipeline's proof data, its body obligation and what its write-backs leave in the repacked table.
  The pipeline runs over 245 points; at point t it fetches columns [4096 t, 4096 (t + 1)) of the transposed table
  (64 rows of 1000001 columns; the last block is cut at the table's end and the rest of the staging buffer is then
  not named) and writes rows [4096 t, 4096 (t + 1)) of the repacked table (1003520 rows of 128 columns). The data
  is relational: the output's staging buffer is constrained on the rows that lie inside the table only.
-/
import proofs.«206585_g20916490731584_cont_8to1_1403_18_alg».proof.Proof.B.Common
import proofs.«206585_g20916490731584_cont_8to1_1403_18_alg».proof.Proof.B.Region.Pay
import Idealize.ShloMosaic.Lib.Pipeline.Launch
import Idealize.ShloMosaic.Lib.Pipeline.Value
import Idealize.ShloMosaic.Lib.ValueLayout

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx (ix2)

variable {F : FTy → Type} [FloatOps F]

local notation "𝕄" => MT nD τ sig (HIx 1) (Elt F) ℕ UU ℕ

/-! ## The value fact and the proof data -/

/-- The repacked table's rows below 1000001 are the transposed table's columns, twice side by side. -/
def RepackOK (ft : S64x1000001.Idx → Elt F .f32) (fy : S1003520x128.Idx → Elt F .f32) : Prop :=
  ∀ (r : Fin 1003520) (c : Fin 128) (hr : r.val < 1000001),
    fy (ValueIdx.ix2 r c) = ft (ValueIdx.ix2 ⟨c.val % 64, Nat.mod_lt _ (by decide)⟩ ⟨r.val, hr⟩)

/-- The one admissible contents of the (absent) prefetched tables. -/
abbrev aP : (p : Fin 1) → (pcfgs (F := F) p).Adm := fun p => (cfgs p).toPCfg_adm

/-- What block t of the output's staging buffer holds after the body, on the rows inside the table. -/
def OutOK (ft : S64x1000001.Idx → Elt F .f32) (t : Fin cfg0.N) (X : S4096x128.Idx → Elt F .f32) : Prop :=
  ∀ (p : Fin 4096) (c : Fin 128) (h : 4096 * t.val + p.val < 1000001),
    X (ValueIdx.ix2 p c) = ft (ValueIdx.ix2 ⟨c.val % 64, Nat.mod_lt _ (by decide)⟩ ⟨4096 * t.val + p.val, h⟩)

/-- The relational proof data on a core: the two arrays at entry; the input's staging buffer left at anything,
    the output's at a block that is right on the rows inside the table; no invariant; the tallies the core owes
    and the bound on its recorded pairs unchanged throughout. -/
def rdat (c : Dev nD) (O : CellTallies nD τ sig (HIx 1)) (R : Set (SemLoc sig × HIx 1))
    (ft : S64x1000001.Idx → Elt F .f32) (f1 : S1003520x128.Idx → Elt F .f32) :
    RDat τ (Elt F) (HIx 1) ℕ UU ℕ cfg0 c where
  A w := match w with
    | ⟨0, _⟩ => ft
    | ⟨1, _⟩ => f1
  after w t := match w with
    | ⟨0, _⟩ => fun _ _ => True
    | ⟨1, _⟩ => fun _ X => OutOK ft t X
  Φ _ := iprop(emp)
  q _ := fullShare
  owed _ := O
  recorded _ := R

abbrev rdats (O : CellTallies nD τ sig (HIx 1)) (R : Set (SemLoc sig × HIx 1))
    (ft : S64x1000001.Idx → Elt F .f32) (f1 : S1003520x128.Idx → Elt F .f32) :
    (p : Fin 1) → (c : Dev nD) → RDat τ (Elt F) (HIx 1) ℕ UU ℕ (cfgs p) c := fun _ c => rdat c O R ft f1

/-! ## The blocks' places -/

/-- Block t of the transposed table starts at row 0, column 4096 t, -/
theorem index0 : ∀ t : Fin grid0.N, win0_0.index t 0 = 0 ∧ win0_0.index t 1 = t.val := by decide +kernel
/-- and the fetch moves all 64 rows and the columns up to the table's end. -/
theorem xsize0 : ∀ t : Fin grid0.N, win0_0.xsize (grid0.coords t) 0 = 64
    ∧ win0_0.xsize (grid0.coords t) 1 = min 4096 (1000001 - 4096 * t.val) := by decide +kernel
/-- Block t of the repacked table starts at row 4096 t, column 0. -/
theorem index1 : ∀ t : Fin grid0.N, win0_1.index t 0 = t.val ∧ win0_1.index t 1 = 0 := by decide +kernel

/-- What the fetch at point t leaves in the input's staging buffer, at a column that lies inside the table: the
    table's entry there. -/
theorem fetched_apply (cD : Dev nD) (O : CellTallies nD τ sig (HIx 1)) (R : Set (SemLoc sig × HIx 1))
    (ft : S64x1000001.Idx → Elt F .f32) (f1 : S1003520x128.Idx → Elt F .f32) (t : Fin cfg0.N)
    (d : S64x4096.Idx → Elt F .f32) (c : Fin 64) (p : Fin 4096) (h : 4096 * t.val + p.val < 1000001) :
    (rdat cD O R ft f1).fetched (0 : Fin 2) t d (ix2 c p) = ft (ix2 c ⟨4096 * t.val + p.val, h⟩) := by
  have hm : win0_0.moved (grid0.coords t) (ix2 c p) = true := by
    rw [Window.moved_iff]
    intro a
    match a with
    | ⟨0, _⟩ => rw [show (⟨0, _⟩ : Fin 2) = 0 from rfl, (xsize0 t).1]; exact c.isLt
    | ⟨1, _⟩ =>
      rw [show (⟨1, _⟩ : Fin 2) = 1 from rfl, (xsize0 t).2]
      show p.val < _
      have := p.isLt; omega
  unfold RDat.fetched Window.fill
  show (if h : win0_0.moved (grid0.coords t) (ix2 c p) = true then _ else _) = _
  rw [dif_pos hm]
  show ft ((win0_0.rect t).emb _) = ft _
  congr 1
  funext a
  apply Fin.ext
  rw [Rect.emb_apply]
  match a with
  | ⟨0, _⟩ =>
    show win0_0.index t 0 * 64 + 1 * c.val = c.val
    rw [(index0 t).1]; omega
  | ⟨1, _⟩ =>
    show win0_0.index t 1 * 4096 + 1 * p.val = 4096 * t.val + p.val
    rw [(index0 t).2]; omega

/-! ## The kernel body's obligation -/

/-- The kernel body on staging buffers s0 of the input's window and s1 of the output's: the whole load of the
    input block, the dead load of the output block, the whole store of the repacked block. -/
theorem sound_body (c : Dev nD) (E : Set ℕ) (i : grid0.Coords) (s0 s1 : Fin 2)
    (X0 : S64x4096.Idx → Elt F .f32) (X1 : S4096x128.Idx → Elt F .f32) (Kp : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Kp ⟨⟩))
      ⊢ wp frame (wpE (defs₀ (F := F)) 𝒱₀ c none) E
          (cc0__repack_body i (stage0_0 s0) (hstage0_0 s0) (stage0_1 s1) (hstage0_1 s1)) Kp := by
  have hz : (![0, 0] : Fin 2 → Nat) = fun _ => 0 := funext fun a => by fin_cases a <;> rfl
  fin_cases s0 <;> fin_cases s1
  · -- the input's buffer cc0_stg0_0, the output's cc0_stg1_0
    have hr0 : (Memref.whole cc0_stg0_0 : Memref sig .tc _ _ _).view.readAt (Elt F) (Rect.unit (s := S64x4096) ![0, 0] S64x4096.size
        inb_S64x4096_S64x4096_0_0).toLoadRect = id := funext (Memref.readAt_unit_zero (Elt F) cc0_stg0_0 hz _)
    have hw1 : ∀ f w, (((Memref.whole cc0_stg1_0).access (Rect.unit (s := S4096x128) ![0, 0] S4096x128.size inb_S4096x128_S4096x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer cc0_stg0_0, the output's cc0_stg1_1
    have hr0 : (Memref.whole cc0_stg0_0 : Memref sig .tc _ _ _).view.readAt (Elt F) (Rect.unit (s := S64x4096) ![0, 0] S64x4096.size
        inb_S64x4096_S64x4096_0_0).toLoadRect = id := funext (Memref.readAt_unit_zero (Elt F) cc0_stg0_0 hz _)
    have hw1 : ∀ f w, (((Memref.whole cc0_stg1_1).access (Rect.unit (s := S4096x128) ![0, 0] S4096x128.size inb_S4096x128_S4096x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer cc0_stg0_1, the output's cc0_stg1_0
    have hr0 : (Memref.whole cc0_stg0_1 : Memref sig .tc _ _ _).view.readAt (Elt F) (Rect.unit (s := S64x4096) ![0, 0] S64x4096.size
        inb_S64x4096_S64x4096_0_0).toLoadRect = id := funext (Memref.readAt_unit_zero (Elt F) cc0_stg0_1 hz _)
    have hw1 : ∀ f w, (((Memref.whole cc0_stg1_0).access (Rect.unit (s := S4096x128) ![0, 0] S4096x128.size inb_S4096x128_S4096x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer cc0_stg0_1, the output's cc0_stg1_1
    have hr0 : (Memref.whole cc0_stg0_1 : Memref sig .tc _ _ _).view.readAt (Elt F) (Rect.unit (s := S64x4096) ![0, 0] S64x4096.size
        inb_S64x4096_S64x4096_0_0).toLoadRect = id := funext (Memref.readAt_unit_zero (Elt F) cc0_stg0_1 hz _)
    have hw1 : ∀ f w, (((Memref.whole cc0_stg1_1).access (Rect.unit (s := S4096x128) ![0, 0] S4096x128.size inb_S4096x128_S4096x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

/-- The library's body obligation: the input's buffer arrives just fetched, the output's holding anything; the
    body leaves the first as it was and the second at the repacked block, which on the rows inside the table is
    the table's. -/
theorem body_ok (c : Dev nD) (O : CellTallies nD τ sig (HIx 1)) (R : Set (SemLoc sig × HIx 1))
    (ft : S64x1000001.Idx → Elt F .f32) (f1 : S1003520x128.Idx → Elt F .f32) :
    (rdat c O R ft f1).BodyObligation (defs₀ (F := F)) 𝒱₀ none Set.univ := by
  intro t Y hY
  obtain ⟨d, hd⟩ := ((rdat c O R ft f1).finds_of_fetch (fetch0_0 t) (Y 0)).mp (hY 0)
  simp only [bigSep_W0]
  rw [show (rdat c O R ft f1).Φ t.succ = (rdat c O R ft f1).Φ t.castSucc from rfl,
    show (rdat c O R ft f1).owesAt none t.succ = (rdat c O R ft f1).owesAt none t.castSucc from rfl]
  iintro ⟨HΦ, Ho, H0, H1⟩
  iapply (sound_body (F := F) c Set.univ (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists Y 0
    isplitr; · ipureintro; trivial
    iexact H0
  · iexists k0_pay1 (Y 0)
    isplitr
    · ipureintro
      intro p cc h
      rw [k0_pay1_apply, hd]
      exact fetched_apply c O R ft f1 t d _ p h
    iexact H1

/-! ## What the repacked table holds after the write-backs -/

/-- After the write-backs of the points below n, every row below 4096 n (and inside the table) of what the
    repacked table may hold is the table's row, twice side by side: a later write-back writes another block. -/
theorem arrAt_ok (c : Dev nD) (O : CellTallies nD τ sig (HIx 1)) (R : Set (SemLoc sig × HIx 1))
    (ft : S64x1000001.Idx → Elt F .f32) (f1 : S1003520x128.Idx → Elt F .f32) :
    ∀ (n : Nat), n ≤ cfg0.N → ∀ G : S1003520x128.Idx → Elt F .f32, (rdat c O R ft f1).ArrAt (1 : Fin 2) n G →
      ∀ (r : Fin 1003520) (cc : Fin 128) (hr : r.val < 1000001), r.val < 4096 * n →
        G (ix2 r cc) = ft (ix2 ⟨cc.val % 64, Nat.mod_lt _ (by decide)⟩ ⟨r.val, hr⟩)
  | 0, _, _, _, _, _, _, h => absurd h (by omega)
  | n + 1, hn, G, hG, r, cc, hr, hlt => by
    have hu : n < cfg0.N := hn
    have hG' := (congrFun ((rdat c O R ft f1).ArrAt_succ (1 : Fin 2) ⟨n, hu⟩) G).mp hG
    rw [if_pos (flush0_1 ⟨n, hu⟩)] at hG'
    obtain ⟨G₀, X, hG₀, ⟨Y, -, hX⟩, rfl⟩ := hG'
    have hX' : OutOK ft ⟨n, hu⟩ X := hX
    by_cases hb : 4096 * n ≤ r.val
    · -- a row of block n: what the write-back wrote
      have hq : r.val - 4096 * n < 4096 := by omega
      have he : (ix2 r cc : S1003520x128.Idx) = (win0_1.blk ⟨n, hu⟩).view.emb (ix2 ⟨r.val - 4096 * n, hq⟩ cc) := by
        funext a; apply Fin.ext
        match a with
        | ⟨0, _⟩ =>
          show r.val = win0_1.index ⟨n, hu⟩ 0 * 4096 + 1 * (r.val - 4096 * n)
          rw [(index1 ⟨n, hu⟩).1]
          show r.val = n * 4096 + 1 * (r.val - 4096 * n); omega
        | ⟨1, _⟩ =>
          show cc.val = win0_1.index ⟨n, hu⟩ 1 * 128 + 1 * cc.val
          rw [(index1 ⟨n, hu⟩).2]; omega
      rw [he, View.write_emb_of_mem _ _ (Finset.mem_univ _)]
      show X (ix2 ⟨r.val - 4096 * n, hq⟩ cc) = _
      refine (hX' ⟨r.val - 4096 * n, hq⟩ cc (by show 4096 * n + (r.val - 4096 * n) < 1000001; omega)).trans ?_
      congr 1; funext a
      match a with
      | ⟨0, _⟩ => rfl
      | ⟨1, _⟩ => exact Fin.ext (by show 4096 * n + (r.val - 4096 * n) = r.val; omega)
    · -- an earlier row: block n's write-back does not touch it
      rw [View.write_of_not_mem]
      · exact arrAt_ok c O R ft f1 n (by omega) G₀ hG₀ r cc hr (by omega)
      · rw [View.setOn_univ]
        show ix2 r cc ∉ ((View.whole main_v1).slice (win0_1.rect ⟨n, hu⟩)).set
        rw [View.set_slice_whole, Rect.mem_set_unit]
        intro h
        have h0 := (h 0).1
        have h0' : win0_1.index ⟨n, hu⟩ 0 * 4096 ≤ r.val := h0
        rw [(index1 ⟨n, hu⟩).1] at h0'
        have h0'' : n * 4096 ≤ r.val := h0'
        omega

end Cert.Proof.KB

end
-- ==== Proof.B.Region.Entry.lean ====
/-
  The repacking region's resources: what the launch element deals each device for it, the staging cells'
  invariants allocated from that and the TensorCore's scoped semaphores, the pipeline's entry rule at this
  program's proof data, and what that rule asks and gives back, in the terms of the lookup program.
-/
import proofs.«206585_g20916490731584_cont_8to1_1403_18_alg».proof.Proof.B.Common
import proofs.«206585_g20916490731584_cont_8to1_1403_18_alg».proof.Proof.B.Region.Body
import Idealize.ShloMosaic.Lib.Pipeline.Launch
import Idealize.ShloMosaic.Lib.Pipeline.Value
import Idealize.ShloMosaic.Lib.ValueLayout

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)
open Idealize.ShloMosaic.ValueIdx (ix2)

variable {F : FTy → Type} [FloatOps F]

local notation "𝕄" => MT nD τ sig (HIx 1) (Elt F) ℕ UU ℕ

/-! ## Funding the region at launch -/

/-- The levels a recorded (own cell, index) pair of the TensorCore may sit at: at or below b. -/
def recB (d : Dev nD) (b : ℕ) : Set (SemLoc sig × HIx 1) := {p | (K (F := F)).lev (T d, p.1) p.2 ≤ b}

/-- The pipeline's share of the launch element, per device: its staging cells' rounds ghost state and the
    transfers' duty tokens. -/
def RegionFund (d : Dev nD) : sProp 𝕄 :=
  iprop(Pipeline.cellsGhost cfgs ER 0 d ∗ Pipeline.toksInit cfgs ER 0 d)

/-- What the region is entered with besides the arrays, the scoped buffers and what the TensorCore owes: the
    staging cells' invariants under names κ with their records, the duty tokens, and the scoped semaphores that
    are no staging cell, at zero. -/
def RegionPre (d : Dev nD) (O : CellTallies nD τ sig (HIx 1)) (b : ℕ)
    (ft : S64x1000001.Idx → Elt F .f32) (f1 : S1003520x128.Idx → Elt F .f32) (κ : GSem nD τ sig → ℕ) : sProp 𝕄 :=
  iprop(Pipeline.RDat.cellsInit cfgs (rdats O (recB (F := F) d b) ft f1) ER κ 0 d ∗ Pipeline.toksInit cfgs ER 0 d
    ∗ Pipeline.idleSems0 cfgs cellOf_inj 0 (Pipeline.OwnSemFacts.none (cfgs 0).spec) d)

/-- The launch element's pipeline component deals every device its share. -/
theorem regionFund_intro :
    BI.own ((ER (F := F)) (initOf (Pipeline.cells (nD := nD) (τ := τ) cfgs cellOf_inj) (Pipeline.launchToks (nD := nD) (τ := τ) cfgs cellOf_inj)))
      ⊢ iprop(|==> bigSep Finset.univ fun d : Dev nD => RegionFund (F := F) d) := by
  iintro H
  imod (Pipeline.fund_ghost cfgs (ER (F := F)) cellOf_inj) $$ H with ⟨Hg, Ht⟩
  imodintro
  have hpick (Ψ : Fin 1 → Dev nD → sProp 𝕄) :
      (bigSep Finset.univ fun c : Dev nD => bigSep Finset.univ fun p' => Ψ p' c) ⊢ bigSep Finset.univ fun c : Dev nD => Ψ 0 c :=
    bigSep_mono fun c _ => BI.bigSep_elim (Finset.mem_univ (0 : Fin 1))
  simp only [RegionFund, bigSep_sep']
  isplitl [Hg]
  · iapply (hpick fun p' c => Pipeline.cellsGhost cfgs (ER (F := F)) p' c); iexact Hg
  · iapply (hpick fun p' c => Pipeline.toksInit cfgs (ER (F := F)) p' c); iexact Ht

/-- From a device's share and its TensorCore's scoped semaphores at zero: the staging cells' invariants, allocated. -/
theorem regionPre_alloc (d : Dev nD) (O : CellTallies nD τ sig (HIx 1)) (b : ℕ)
    (ft : S64x1000001.Idx → Elt F .f32) (f1 : S1003520x128.Idx → Elt F .f32) {Es : Set ℕ} :
    iprop(RegionFund (F := F) d ∗ scopedSems0 (T d)) ⊢ |={Es}=> iprop(∃ κ, RegionPre d O b ft f1 κ) := by
  have hss := Pipeline.scopedSems0_split (Ix := HIx 1) (Val := Elt F) (Name := ℕ) (U := UU) (Lvl := ℕ) (nD := nD) (τ := τ)
    cfgs cellOf_inj (0 : Fin 1) winFacts0.to₀ (Pipeline.OwnSemFacts.none (cfgs 0).spec) d
  unfold RegionFund RegionPre
  iintro ⟨⟨Hg, Ht⟩, Hss⟩
  ihave Hss' := (Entails.of_eq hss) $$ Hss
  icases Hss' with ⟨⟨Hcells, -⟩, Hidle⟩
  imod (Pipeline.RDat.cellsInit_alloc cfgs (rdats O (recB (F := F) d b) ft f1) (ER (F := F)) cellOf_inj (0 : Fin 1) d) $$ [Hcells Hg] with ⟨%κ, -, Hinit⟩
  · isplitl [Hcells] <;> iassumption
  imodintro
  iexists κ
  isplitl [Hinit]; · iexact Hinit
  isplitl [Ht]; · iexact Ht
  iexact Hidle

/-! ## The region's rule inside the lookup program -/

/-- The relational data the region runs under: what the TensorCore owes, and its recorded pairs at or below level b. -/
abbrev rds (d : Dev nD) (O : CellTallies nD τ sig (HIx 1)) (b : ℕ)
    (ft : S64x1000001.Idx → Elt F .f32) (f1 : S1003520x128.Idx → Elt F .f32) :
    (p : Fin 1) → (c : Dev nD) → RDat τ (Elt F) (HIx 1) ℕ UU ℕ (cfgs p) c := rdats O (recB (F := F) d b) ft f1

/-- The scoped semaphores of the TensorCore that are no staging cell. -/
abbrev idle0 (d : Dev nD) : sProp 𝕄 :=
  Pipeline.idleSems0 cfgs cellOf_inj 0 (Pipeline.OwnSemFacts.none (cfgs 0).spec) d

/-- The TensorCore's scoped buffers are the pipeline's staging buffers, -/
theorem scopedBufs_eq (d : Dev nD) :
    (scopedBufs (d : Thread nD τ) : sProp 𝕄) = iprop(Pipeline.Dat.staging (cfgs 0) d ∗ iprop(emp)) := by
  have hsb := Pipeline.scopedBufs_split (Ix := HIx 1) (Val := Elt F) (Name := ℕ) (U := UU) (Lvl := ℕ) (nD := nD) (τ := τ)
    cfgs (0 : Fin 1) winFacts0.stage_scoped winFacts0.stage_inj stage_whole0 d
  rw [scopedRest0_eq] at hsb
  exact hsb

/-- and its scoped semaphores at zero the staging cells and the rest. -/
theorem scopedSems0_eq (d : Dev nD) :
    (scopedSems0 (d : Thread nD τ) : sProp 𝕄) = iprop((Pipeline.cellsSems0 cfgs 0 d ∗ iprop(emp)) ∗ idle0 (F := F) d) := by
  have hss := Pipeline.scopedSems0_split (Ix := HIx 1) (Val := Elt F) (Name := ℕ) (U := UU) (Lvl := ℕ) (nD := nD) (τ := τ)
    cfgs cellOf_inj (0 : Fin 1) winFacts0.to₀ (Pipeline.OwnSemFacts.none (cfgs 0).spec) d
  rw [Pipeline.ownSems0_none] at hss
  exact hss

/-- No table is prefetched. -/
theorem prefHeld_eq (d : Dev nD) :
    (Pipeline.prefHeld (pcfgs (F := F) 0).pre d (fun k => k.elim0) (aP (F := F) 0).1 : sProp 𝕄) = iprop(emp) := by
  unfold Pipeline.prefHeld; rw [Finset.univ_eq_empty, bigSep_empty]; rfl

/-- Nothing is routed into the pipeline's invariant, -/
theorem region_in (d : Dev nD) (O : CellTallies nD τ sig (HIx 1)) (b : ℕ)
    (ft : S64x1000001.Idx → Elt F .f32) (f1 : S1003520x128.Idx → Elt F .f32) :
    iprop(iprop(emp) ∗ Pipeline.prefHeld (pcfgs (F := F) 0).pre d (fun k => k.elim0) (aP (F := F) 0).1 ∗ iprop(emp))
      ⊢ (rds d O b ft f1 0 d).Φ 0 := by
  iintro -; iempintro

/-- and at the exit the staging cells at zero, the staging buffers and the other scoped semaphores are the
    TensorCore's scoped storage again. -/
theorem region_out (d : Dev nD) (O : CellTallies nD τ sig (HIx 1)) (b : ℕ)
    (ft : S64x1000001.Idx → Elt F .f32) (f1 : S1003520x128.Idx → Elt F .f32) :
    iprop((rds d O b ft f1 0 d).Φ (Fin.last (cfgs 0).N) ∗ Pipeline.cellsSems0 cfgs 0 d ∗ Pipeline.Dat.staging (cfgs 0) d ∗ idle0 (F := F) d)
      ⊢ iprop(iprop(emp) ∗ scopedSems0 (d : Thread nD τ) ∗ scopedBufs (d : Thread nD τ)) := by
  rw [scopedSems0_eq, scopedBufs_eq]
  iintro ⟨-, Hc, Hst, Hidle⟩
  isplitr; · iempintro
  isplitl [Hc Hidle]
  · isplitl [Hc]
    · isplitl [Hc]; · iexact Hc
      iempintro
    iexact Hidle
  isplitl [Hst]; · iexact Hst
  iempintro

set_option maxHeartbeats 400000 in
/-- The pipeline's entry rule at this program's data. -/
theorem entry_rule (d : Dev nD) (O : CellTallies nD τ sig (HIx 1)) (b : ℕ)
    (ft : S64x1000001.Idx → Elt F .f32) (f1 : S1003520x128.Idx → Elt F .f32) (κ : GSem nD τ sig → ℕ) (Q : PUnit → sProp 𝕄) :
    iprop(Pipeline.RDat.EntryPre cfgs (rds d O b ft f1) none (ER (F := F)) κ 0 d
        ∗ Pipeline.prefHeld (pcfgs (F := F) 0).pre d (fun k => k.elim0) (aP (F := F) 0).1 ∗ iprop(emp) ∗ idle0 (F := F) d ∗ scopedBufs (d : Thread nD τ))
      ⊢ iprop(((Pipeline.RDat.EntryPost cfgs (rds d O b ft f1) none 0 d ∗ iprop(emp) ∗ scopedSems0 (d : Thread nD τ) ∗ scopedBufs (d : Thread nD τ))
              -∗ wp frame (wpE (D (F := F)) 𝒱 (d : Thread nD τ) none) Set.univ (.ret ⟨⟩) Q)
          -∗ wp frame (wpE (D (F := F)) 𝒱 (d : Thread nD τ) none) Set.univ (.op (.customCall (Pipeline.entry (0 : Fin 1)) ()) fun _ => .ret ⟨⟩) Q) :=
  Pipeline.RDat.wp_customCall_entry_frame (pcfgs (F := F)) aP (rds d O b ft f1) none (ER (F := F)) κ cellOf_inj (0 : Fin 1)
    defs₀ 𝒱₀ (fun k => k.elim0) d Set.univ (fun _ _ => Set.mem_univ _) (body_ok d O (recB (F := F) d b) ft f1) block_pos0 none (fun u h => nomatch h)
    (X := iprop(emp)) (Y := iprop(emp)) (R := iprop(emp)) (I := idle0 (F := F) d)
    (Entails.of_eq (scopedBufs_eq d)) (region_in d O b ft f1) (region_out d O b ft f1) (k := fun _ => .ret ⟨⟩) (Q := Q)

/-- Both arrays are held at the full share. -/
theorem share_full (d : Dev nD) (O : CellTallies nD τ sig (HIx 1)) (b : ℕ)
    (ft : S64x1000001.Idx → Elt F .f32) (f1 : S1003520x128.Idx → Elt F .f32) (w : Fin 2) :
    (rds d O b ft f1 0 d).share w = fullShare := by
  unfold RDat.share; split <;> rfl

set_option maxHeartbeats 400000 in
/-- What the entry asks besides the scoped storage, from the cells' invariants, the duty tokens, the level facts,
    what the TensorCore owes and the two arrays. -/
theorem entryPre_intro (d : Dev nD) (O : CellTallies nD τ sig (HIx 1)) (hO : ∀ g, O g none = 0) (W : Waits sig (HIx 1)) (b : ℕ)
    (hW : (K (F := F)).WBelow (T d) W b) (lv : GSem nD τ sig → HIx 1 → ℕ) (hlv : (K (F := F)).Refines lv)
    (ft : S64x1000001.Idx → Elt F .f32) (f1 : S1003520x128.Idx → Elt F .f32) (κ : GSem nD τ sig → ℕ) :
    iprop(Pipeline.RDat.cellsInit cfgs (rds d O b ft f1) (ER (F := F)) κ 0 d ∗ Pipeline.toksInit cfgs (ER (F := F)) 0 d
        ∗ levAts (K (F := F)).L lv ∗ owes (T d) O W ∗ (tLoc d ↦{fullShare} ft) ∗ (yLoc d ↦{fullShare} f1))
      ⊢ Pipeline.RDat.EntryPre cfgs (rds d O b ft f1) none (ER (F := F)) κ 0 d := by
  unfold Pipeline.RDat.EntryPre Pipeline.PerCore.RDat.EntryPre
  iintro ⟨Hinit, Htok, #Hlev, HO, Ht, Hy⟩
  isplitl [Ht Hy]
  · unfold RDat.arrays
    rw [bigSep_W0, share_full, share_full, (arr_whole0 0).set_eq_univ, (arr_whole0 1).set_eq_univ]
    isplitl [Ht]; · iexact Ht
    iexact Hy
  isplitl [HO]
  · iexists W
    isplitr
    · ipureintro
      intro p hp
      exact Or.inl (hW p hp)
    iexact HO
  isplitr
  · iapply (Pipeline.RDat.cellsWaits_intro cfgs (rds d O b ft f1) none (0 : Fin 1) d (R := levAts (K (F := F)).L lv)
      fun w s t => (K (F := F)).mayWait_none (.dma (((cfgs 0).win w).sem s)) hO lv hlv)
    iexact Hlev
  isplitl [Hinit]; · iexact Hinit
  iexact Htok

set_option maxHeartbeats 400000 in
/-- What the exit gives back of the arrays and of what the TensorCore owes. -/
theorem entryPost_elim (d : Dev nD) (O : CellTallies nD τ sig (HIx 1)) (b : ℕ)
    (ft : S64x1000001.Idx → Elt F .f32) (f1 : S1003520x128.Idx → Elt F .f32) :
    Pipeline.RDat.EntryPost cfgs (rds d O b ft f1) none 0 d
      ⊢ iprop((tLoc d ↦{fullShare} ft) ∗ (∃ fy, (yLoc d ↦{fullShare} fy) ∗ ⌜RepackOK ft fy⌝)
          ∗ (∃ W', ⌜(K (F := F)).WBelow (T d) W' b⌝ ∗ owes (T d) O W')) := by
  unfold Pipeline.RDat.EntryPost Pipeline.PerCore.RDat.EntryPost RDat.arraysAt
  rw [bigSep_W0]
  iintro ⟨⟨⟨%F0, %hF0, H0⟩, ⟨%F1, %hF1, H1⟩⟩, ⟨%W', %hW', HO⟩⟩
  rw [(rds d O b ft f1 0 d).ArrAt_in (0 : Fin 2) rfl] at hF0
  have e0 : F0 = ft := hF0
  rw [e0]
  rw [share_full, (arr_whole0 0).set_eq_univ]
  rw [share_full, (arr_whole0 1).set_eq_univ]
  isplitl [H0]; · iexact H0
  isplitl [H1]
  · iexists F1
    isplitl [H1]; · iexact H1
    ipureintro
    intro r cc hr
    have hN : cfg0.N = 245 := N_0
    have hlt : r.val < 4096 * cfg0.N := by have := r.isLt; omega
    exact arrAt_ok d O (recB (F := F) d b) ft f1 cfg0.N le_rfl F1 hF1 r cc hr hlt
  iexists W'
  isplitr
  · ipureintro
    intro p hp
    rcases hW' hp with h | ⟨w, s, rfl⟩
    · exact h
    · show (K (F := F)).lev _ none ≤ b
      rw [SparseCore.Cfg.lev_none]; exact Nat.zero_le _
  iexact HO

end Cert.Proof.KB

end
-- ==== Proof.B.Region.lean ====
/-
  The TensorCore region inside the lookup program: a pipeline over 245 points that repacks the transposed table
  (64 rows of 1000001 columns, fetched in blocks of 4096 columns, the last block cut at the table's end) into an
  array of 1003520 rows of 128 columns whose row r, for r below 1000001, is the table's row r twice side by side.
  This module states the region's rule as the lookup program's @main uses it; the proof data, the body obligation
  and the value of the write-backs are in Region/Body, the resources and the entry rule in Region/Entry.
-/
import proofs.«206585_g20916490731584_cont_8to1_1403_18_alg».proof.Proof.B.Region.Entry

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

/-- The region's statement in the lookup program is the pipeline's entry, lifted into the program's table: a proof
    about the entry under the pipeline's table is a proof about the statement. -/
theorem lift_rule (d : Dev nD) (Φ : PUnit → sProp 𝕄) :
    wp frame (wpE (D (F := F)) 𝒱 (T d) none) Set.univ
        ((.op (.customCall (Pipeline.entry (0 : Fin 1)) ()) fun _ => .ret ⟨⟩) : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry 0)) ())) Φ :=
  SparseCore.Cfg.wp_liftProg (K (F := F)) (D (F := F)) 𝒱 (T d) Set.univ none
    ((.op (.customCall (Pipeline.entry (0 : Fin 1)) ()) fun _ => .ret ⟨⟩) : Prog (TpuEff nD τ sig (Elt F) (ΛP (F := F)) .tc) PUnit) Φ

set_option maxHeartbeats 400000 in
/-- The region, entered from the staging cells' invariants, what the TensorCore owes (all of it at a call's
    index, so that the pipeline's own waits, recorded at index none, sit below it), the transposed table, the
    repacked table at any contents and the scoped buffers: it runs to the transposed table unchanged, the repacked
    table right on every row inside the table, the scoped storage handed back, and the same tallies owed. -/
theorem region_wp (d : Dev nD) (O : CellTallies nD τ sig (HIx 1)) (hO : ∀ g, O g none = 0) (W : Waits sig (HIx 1)) (b : ℕ)
    (hW : (K (F := F)).WBelow (T d) W b)
    (lv : GSem nD τ sig → HIx 1 → ℕ) (hlv : (K (F := F)).Refines lv)
    (ft : S64x1000001.Idx → Elt F .f32) (f1 : S1003520x128.Idx → Elt F .f32) (κ : GSem nD τ sig → ℕ)
    (Φ : PUnit → sProp 𝕄) :
    iprop(RegionPre d O b ft f1 κ ∗ levAts (K (F := F)).L lv ∗ owes (T d) O W
        ∗ (tLoc d ↦{fullShare} ft) ∗ (yLoc d ↦{fullShare} f1) ∗ scopedBufs (T d)
        ∗ (((tLoc d ↦{fullShare} ft) ∗ (∃ fy, (yLoc d ↦{fullShare} fy) ∗ ⌜RepackOK ft fy⌝) ∗ scopedBufs (T d) ∗ scopedSems0 (T d)
              ∗ (∃ W', ⌜(K (F := F)).WBelow (T d) W' b⌝ ∗ owes (T d) O W')) -∗ Φ ⟨⟩))
      ⊢ wp frame (wpE ((K (F := F)).defs (D (F := F))) 𝒱 (T d) none) Set.univ
          (Prog.lift (.customCall (SparseCore.inner (Pipeline.entry 0)) ())) Φ := by
  refine BIBase.Entails.trans ?_ (lift_rule d Φ)
  unfold RegionPre
  iintro ⟨⟨Hinit, Htok, Hidle⟩, #Hlev, HO, Ht, Hy, Hsc, Hk⟩
  iapply (entry_rule d O b ft f1 κ Φ) $$ [Hinit Htok Hidle HO Ht Hy Hsc]
  · isplitl [Hinit Htok HO Ht Hy]
    · iapply (entryPre_intro d O hO W b hW lv hlv ft f1 κ)
      isplitl [Hinit]; · iexact Hinit
      isplitl [Htok]; · iexact Htok
      isplitr; · iexact Hlev
      isplitl [HO]; · iexact HO
      isplitl [Ht]; · iexact Ht
      iexact Hy
    isplitr; · rw [prefHeld_eq]; iempintro
    isplitr; · iempintro
    isplitl [Hidle]; · iexact Hidle
    iexact Hsc
  iintro ⟨Hpost, -, Hss, Hsc⟩
  rw [wp_ret]
  imodintro
  iapply Hk
  ihave Hp := (entryPost_elim d O b ft f1) $$ Hpost
  icases Hp with ⟨Ht, Hy, HO⟩
  isplitl [Ht]; · iexact Ht
  isplitl [Hy]; · iexact Hy
  isplitl [Hsc]; · iexact Hsc
  isplitl [Hss]; · iexact Hss
  iexact HO

end Cert.Proof.KB

end
-- ==== Proof.B.Main.lean ====
/-
  @main on the TensorCore, the launch element of the ghost state, how the final memory reads the claim, and the
  program's run: under the range of the index words, every weakly fair execution of the TensorCore's @main beside
  the SparseCores' subcores terminates, nothing faulting, with the result at the lookup and the two arguments
  unchanged. @main: the table transposed on the host; the TensorCore region that repacks it; the index array
  flattened on the host; the SparseCore call, handed per core its read shares and its workers' rows; the gathered
  rows reshaped on the host.
-/
import proofs.«206585_g20916490731584_cont_8to1_1403_18_alg».proof.Proof.B.Pay
import proofs.«206585_g20916490731584_cont_8to1_1403_18_alg».proof.Proof.B.Region

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The TensorCore's buffers -/

omit m ρ in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tabLoc d ↦{fullShare} W main_arg1) ∗ (tLoc d ↦{fullShare} W main_v0) ∗ (yLoc d ↦{fullShare} W main_v1)
          ∗ (iLoc d ↦{fullShare} W main_v2) ∗ (oLoc d ↦{fullShare} W main_v3) ∗ resLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## How the final memory reads the claim -/

/-- What @main leaves: the two arguments at their launch contents, the result at the lookup. -/
abbrev FIN (d : Dev nD) : sProp 𝕄 :=
  iprop((xLoc d ↦{fullShare} m (xLoc d)) ∗ (tabLoc d ↦{fullShare} m (tabLoc d)) ∗ resLoc d ↦{fullShare} (Cert.Spec.G (x0 m d) (tb0 m d) : Buf (Elt F) (resLoc d)))

def fq (d : Dev nD) (s' : Phys nD τ sig (Elt F)) : Prop :=
  s'.mem.mem (resLoc d) = Cert.Spec.G (x0 m d) (tb0 m d) ∧ s'.mem.mem (xLoc d) = m (xLoc d) ∧ s'.mem.mem (tabLoc d) = m (tabLoc d)

set_option maxRecDepth 16384 in
omit ρ in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (SI_pointsTo_agree (st := s') (ℓ := resLoc d) (I := Finset.univ) (q := fullShare) (f := (Cert.Spec.G (x0 m d) (tb0 m d) : Buf (Elt F) (resLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The physical post: on every device the result is the lookup and the arguments are unchanged. -/
def QC : PUnit × MemSt nD τ sig (Elt F) → Prop := fun r => ∀ c : Dev nD,
  r.2.mem (resLoc c) = Cert.Spec.G (x0 m c) (tb0 m c) ∧ r.2.mem (xLoc c) = m (xLoc c) ∧ r.2.mem (tabLoc c) = m (tabLoc c)

/-! ## The gathered array among the thirty-two workers -/

omit m ρ in
theorem oSet_eq (w : Fin 32) : oSet w = (orow w).set := by
  show ((View.whole (main_v3_scv : Ref sig .scVector)).slice (orow w)).set = _
  rw [View.set_slice]; exact Finset.map_refl
omit m ρ in
theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit m ρ in
theorem orows_cover : (Finset.univ : Finset (Fin 32)).biUnion oSet = Finset.univ :=
  (Finset.biUnion_congr rfl fun i _ => oSet_eq i).trans (Rect.biUnion_part odiv)

omit m ρ in
/-- The gathered array whole is the thirty-two workers' rows; -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

/-- worker 2 i + c is task i of SparseCore c: the workers, core by core. -/
def wEquiv : Fin 2 × Fin 16 ≃ Fin 32 := (Equiv.prodComm _ _).trans finProdFinEquiv
omit m ρ in
theorem wEquiv_apply (c : Fin 2) (i : Fin 16) : wEquiv (c, i) = wIdx c i := by
  refine Fin.ext ?_
  show c.val + 2 * i.val = 2 * i.val + c.val
  omega
omit m ρ in
theorem rows_deal (Φ : Fin 32 → sProp 𝕄) :
    bigSep Finset.univ Φ = bigSep Finset.univ fun c : Fin 2 => bigSep Finset.univ fun i : Fin 16 => Φ (wIdx c i) := by
  rw [bigSep_univ_equiv wEquiv Φ, bigSep_univ_prod]
  simp only [wEquiv_apply]

omit m ρ in
theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => stPts m d c :=
  bigSep_cores (F := F) (fun c => stPts m d c)
theorem dn0_eq (d : Dev nD) : (bigSep Finset.univ fun c : Fin ((K (F := F)).nCore 0) => (P m).dn 0 d c) = bigSep Finset.univ fun c : Fin 2 => dnPts m d c :=
  bigSep_cores (F := F) (fun c => dnPts m d c)

omit ρ in
/-- Each core's operands, from the three families over the cores, at one contents of the repacked table. -/
theorem st_intro (d : Dev nD) (fy : Buf (Elt F) (yLoc d)) (hy : Repacked (tb0 m d) fy) :
    (bigSep Finset.univ fun c : Fin 2 => iprop((yLoc d ↦{cq c} fy) ∗ (iLoc d ↦{cq c} fi0 m d)
        ∗ bigSep Finset.univ fun i : Fin 16 => oLoc d ↦[oSet (wIdx c i)]{fullShare} o0 m d) : sProp 𝕄)
      ⊢ bigSep Finset.univ fun c : Fin 2 => stPts m d c :=
  bigSep_mono fun c _ => by
    show (iprop((yLoc d ↦{cq c} fy) ∗ (iLoc d ↦{cq c} fi0 m d)
        ∗ bigSep Finset.univ fun i : Fin 16 => oLoc d ↦[oSet (wIdx c i)]{fullShare} o0 m d) : sProp 𝕄) ⊢ stPts m d c
    iintro ⟨Hy, Hi, Ho⟩
    iexists fy
    isplitr; · ipureintro; exact hy
    isplitl [Hy]; · iexact Hy
    isplitl [Hi]; · iexact Hi
    iexact Ho

omit ρ in
/-- The call's operands, dealt: from the repacked table, the flat index array and the gathered array whole. -/
theorem st_deal (d : Dev nD) (fy : Buf (Elt F) (yLoc d)) (hy : Repacked (tb0 m d) fy) :
    iprop((yLoc d ↦{fullShare} fy) ∗ (iLoc d ↦{fullShare} fi0 m d) ∗ oLoc d ↦{fullShare} o0 m d)
      ⊢ (bigSep Finset.univ fun c : Fin 2 => stPts m d c : sProp 𝕄) := by
  rw [oPts_rows, rows_deal (F := F) (fun w => oLoc d ↦[oSet w]{fullShare} o0 m d)]
  iintro ⟨Hy, Hi, Ho⟩
  ihave Hy' := (Transfers.pointsTo_toks_split fullShare 2) $$ Hy
  icases Hy' with ⟨-, Hys⟩
  ihave Hi' := (Transfers.pointsTo_toks_split fullShare 2) $$ Hi
  icases Hi' with ⟨-, His⟩
  ihave H2 := (Entails.of_eq (bigSep_sep' (Finset.univ : Finset (Fin 2)) (fun c => (iLoc d ↦{cq c} fi0 m d : sProp 𝕄))
      (fun c => (bigSep Finset.univ fun i : Fin 16 => oLoc d ↦[oSet (wIdx c i)]{fullShare} o0 m d : sProp 𝕄))).symm) $$ [His Ho]
  · isplitl [His]; · iexact His
    iexact Ho
  ihave H := (Entails.of_eq (bigSep_sep' (Finset.univ : Finset (Fin 2)) (fun c => (yLoc d ↦{cq c} fy : sProp 𝕄))
      (fun c => iprop((iLoc d ↦{cq c} fi0 m d) ∗ bigSep Finset.univ fun i : Fin 16 => oLoc d ↦[oSet (wIdx c i)]{fullShare} o0 m d))).symm) $$ [Hys H2]
  · isplitl [Hys]; · iexact Hys
    iexact H2
  iapply (st_intro m d fy hy) $$ H

omit ρ in
/-- The call's results, gathered: the gathered array whole at the gathered rows. -/
theorem dn_join (d : Dev nD) : (bigSep Finset.univ fun c : Fin 2 => dnPts m d c : sProp 𝕄) = oLoc d ↦{fullShare} go0 m d := by
  rw [oPts_rows, rows_deal (F := F) (fun w => oLoc d ↦[oSet w]{fullShare} go0 m d)]

/-! ## The host operations -/

/-- The launch valuation of device d. -/
abbrev V0 (d : Dev nD) : Valuation τ sig (Elt F) := fun b => m (d, b)

abbrev argX : DevRef τ sig := Proc.devRef .tc main_arg0
abbrev argT : DevRef τ sig := Proc.devRef .tc main_arg1
abbrev refT : DevRef τ sig := Proc.devRef .tc main_v0
abbrev refI : DevRef τ sig := Proc.devRef .tc main_v2
abbrev refO : DevRef τ sig := Proc.devRef .tc main_v3
abbrev refR : DevRef τ sig := Proc.devRef .tc main_v4

/-- The table transposed. -/
abbrev ft0 [FloatOps F] (d : Dev nD) : Buf (Elt F) (tLoc d) := transpose S64x1000001 [1, 0] (tb0 m d) transposes_S1000001x64_S64x1000001_1_0

omit ρ in
/-- A region result that repacks the transposed table repacks the table. -/
theorem repacked_of_transposed [FloatOps F] (d : Dev nD) {fy : S1003520x128.Idx → Elt F .f32}
    (h : ∀ (r : Fin 1003520) (c : Fin 128) (hr : r.val < 1000001), fy (ix2 r c) = ft0 m d (ix2 ⟨c.val % 64, Nat.mod_lt _ (by decide)⟩ ⟨r.val, hr⟩)) :
    Repacked (tb0 m d) fy := fun r c hr => (h r c hr).trans (transpose_ix2_apply _ _ _ _)

/-! ## The launch element of the ghost state -/

/-- The pipeline's launch element: its staging cells' rounds and the transfers' duty tokens. -/
def uP : UP := initOf (Pipeline.cells (nD := nD) (τ := τ) cfgs cellOf_inj) (Pipeline.launchToks (nD := nD) (τ := τ) cfgs cellOf_inj)

def u₀ : UU := (initOf (K (F := F)).hsCells (K (F := F)).hsToks, (uP, 1))

omit m ρ in
theorem bigSep_emp' {I : Type} (s : Finset I) : (bigSep s fun _ => iprop(emp)) = (iprop(emp) : sProp 𝕄) := bigSep_emp_const s

omit m ρ in
/-- The pipeline's launch element, owned through the right of the user algebra's halves, is owned through the pipeline's embedding. -/
theorem ownP_eq : (BI.own (((Emb.inl : Emb UP (UP × Counters)).trans
      (embR (A := UH) (B := UP × Counters) (nD := nD) (τ := τ) (sig := sig) (Ix := HIx 1) (Val := Elt F) (Name := ℕ) (Lvl := ℕ))) uP) : sProp 𝕄)
    = BI.own ((ER (F := F)) (initOf (Pipeline.cells (nD := nD) (τ := τ) cfgs cellOf_inj) (Pipeline.launchToks (nD := nD) (τ := τ) cfgs cellOf_inj))) := rfl

omit ρ in
theorem hu₀ [FloatOps F] : (ownU (u₀ (F := F)) : sProp 𝕄)
    ⊢ |={Set.univ}=> iprop(BI.own (EH (initOf (K (F := F)).hsCells (K (F := F)).hsToks)) ∗ (bigSep Finset.univ fun d : Dev nD => RegionFund (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP, (1 : Counters)) : UP × Counters)) $$ Hu
  icases H with ⟨HH, HR⟩
  ihave HR' := (own_pair_emb (embR (A := UH) (B := UP × Counters) (nD := nD) (τ := τ) (sig := sig) (Ix := HIx 1) (Val := Elt F) (Name := ℕ) (Lvl := ℕ)) uP (1 : Counters)) $$ HR
  icases HR' with ⟨HP, -⟩
  ihave HP' := (Entails.of_eq (ownP_eq (F := F))) $$ HP
  imod (regionFund_intro (F := F)) $$ HP' with Hf
  imodintro
  isplitl [HH]; · iexact HH
  isplitl [Hf]; · iexact Hf
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit m ρ in
/-- Nothing the TensorCore owes sits at the kernels' own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- The three host operations. -/
abbrev opT [FloatOps F] : HloOp τ sig (Elt F) :=
  StableHlo.unary main_arg1 main_v0 ((transpose S64x1000001 [1, 0] · transposes_S1000001x64_S64x1000001_1_0) : (⟨S1000001x64, .f32⟩ : BufTy).Contents (Elt F) → (⟨S64x1000001, .f32⟩ : BufTy).Contents (Elt F))
abbrev opI : HloOp τ sig (Elt F) := StableHlo.reshape main_arg0 main_v2 rfl shapeCasts_S4096x200_S819200
abbrev opR : HloOp τ sig (Elt F) := StableHlo.reshape main_v3 main_v4 rfl shapeCasts_S819200x64_S4096x200x64

omit m ρ in
theorem opT_bufs [FloatOps F] (d : Dev nD) (W : Valuation τ sig (Elt F)) :
    (bigSep (opT (F := F)).bufs (fun b => ((d, b) : Loc nD τ sig) ↦{fullShare} W b) : sProp 𝕄)
      = iprop((tabLoc d ↦{fullShare} W argT) ∗ tLoc d ↦{fullShare} W refT) := by
  show bigSep ({argT, refT} : Finset (DevRef τ sig)) (fun b => ((d, b) : Loc nD τ sig) ↦{fullShare} W b) = _
  rw [SparseCore.bigSep_insert' (by decide), bigSep_singleton]
omit m ρ in
theorem opI_bufs (d : Dev nD) (W : Valuation τ sig (Elt F)) :
    (bigSep (opI (F := F)).bufs (fun b => ((d, b) : Loc nD τ sig) ↦{fullShare} W b) : sProp 𝕄)
      = iprop((xLoc d ↦{fullShare} W argX) ∗ iLoc d ↦{fullShare} W refI) := by
  show bigSep ({argX, refI} : Finset (DevRef τ sig)) (fun b => ((d, b) : Loc nD τ sig) ↦{fullShare} W b) = _
  rw [SparseCore.bigSep_insert' (by decide), bigSep_singleton]
omit m ρ in
theorem opR_bufs (d : Dev nD) (W : Valuation τ sig (Elt F)) :
    (bigSep (opR (F := F)).bufs (fun b => ((d, b) : Loc nD τ sig) ↦{fullShare} W b) : sProp 𝕄)
      = iprop((oLoc d ↦{fullShare} W refO) ∗ resLoc d ↦{fullShare} W refR) := by
  show bigSep ({refO, refR} : Finset (DevRef τ sig)) (fun b => ((d, b) : Loc nD τ sig) ↦{fullShare} W b) = _
  rw [SparseCore.bigSep_insert' (by decide), bigSep_singleton]

/-- The valuation before the last reshape: the launch's, the gathered array at the gathered rows. -/
def Vg (d : Dev nD) : Valuation τ sig (Elt F) := Function.update (V0 m d) refO (go0 m d)
theorem Vg_o (d : Dev nD) : Vg m d refO = go0 m d := Function.update_self _ _ _
theorem Vg_r (d : Dev nD) : Vg m d refR = m (resLoc d) := Function.update_of_ne (show refR ≠ refO by decide) _ _

omit m ρ in
/-- The TensorCore's handshake state opens at what it owes. -/
theorem tcSt_split (d : Dev nD) (n : ℕ) : ∃ R : sProp 𝕄, (K (F := F)).tcSt EH d n
    = iprop((∃ W, ⌜(K (F := F)).WBelow (SparseCore.T d) W (8 * n)⌝ ∗ owes (SparseCore.T d) ((K (F := F)).Otc d n) W) ∗ R) := ⟨_, rfl⟩

set_option maxHeartbeats 2000000 in
theorem hmain [FloatOps F] (hpre : PreOK m) (κ : GSem nD τ sig → ℕ) (d : Dev nD) :
    iprop((K (F := F)).ctx EH (P m) κ ∗ (K (F := F)).tcSt EH d 0 ∗ (K (F := F)).tcRes m ρ d ∗ RegionFund (F := F) d)
      ⊢ wp frame (wpE ((K (F := F)).defs (D (F := F))) 𝒱 (SparseCore.T d) none) Set.univ (main d)
          fun _ => iprop((K (F := F)).tcSt EH d 1 ∗ FIN m d) := by
  obtain ⟨R0, hR0⟩ := tcSt_split (F := F) d 0
  unfold SparseCore.Cfg.tcRes
  rw [unscopedBufs_eq, hR0]
  simp only [main, wp_bind, wp_pure]
  iintro ⟨#Hctx, ⟨⟨%W, %hW, HO⟩, HR0⟩, ⟨Hb, ⟨Hx, Htab, Ht, Hy, Hi, Ho, Hr⟩, -, -⟩, Hfund⟩
  -- the table transposed
  iapply (wp_hlo 𝒱 (SparseCore.T d) none Set.univ (op := opT (F := F)) (q := fun _ => fullShare) (F := V0 m d) (fun _ _ => rfl)) $$ [Hb Htab Ht]
  · isplitl [Hb]; · iexact Hb
    rw [opT_bufs]
    isplitl [Htab]; · iexact Htab
    iexact Ht
  rw [opT_bufs, (opT (F := F)).result_of_not_mem (V0 m d) (b := argT) (show argT ∉ ({refT} : Finset (DevRef τ sig)) by decide),
    show (opT (F := F)).result (V0 m d) refT = ft0 m d from StableHlo.unary_result _ _ _ _ _ _]
  iintro ⟨Hb, Htab, Ht⟩
  rw [wp_ret]; imodintro
  -- the region that repacks it
  ihave Hb' := (Entails.of_eq (show (boundary (SparseCore.T d) : sProp 𝕄)
      = iprop(scopedBufs (SparseCore.T d) ∗ scopedSems0 (SparseCore.T d) ∗ opIdle (SparseCore.T d)) from rfl)) $$ Hb
  icases Hb' with ⟨Hsb, Hss, Hidle⟩
  iapply fupd_wp
  imod (regionPre_alloc (F := F) d ((K (F := F)).Otc d 0) (8 * 0) (ft0 m d) (m (yLoc d))) $$ [Hfund Hss] with ⟨%κp, Hpre⟩
  · isplitl [Hfund]; · iexact Hfund
    iexact Hss
  imodintro
  ihave Hlev := ((K (F := F)).ctx_levAts (EH := EH) (P := P m) κ) $$ Hctx
  iapply (region_wp (F := F) d ((K (F := F)).Otc d 0) (Otc_none d 0) W (8 * 0) hW (K (F := F)).lev (SparseCore.Cfg.refines_self _) (ft0 m d) (m (yLoc d)) κp _)
  isplitl [Hpre]; · iexact Hpre
  isplitl [Hlev]; · iexact Hlev
  isplitl [HO]; · iexact HO
  isplitl [Ht]; · iexact Ht
  isplitl [Hy]; · iexact Hy
  isplitl [Hsb]; · iexact Hsb
  iintro ⟨Ht, ⟨%fy, Hy, %hfy⟩, Hsb, Hss, %W', %hW', HO⟩
  have hy : Repacked (tb0 m d) fy := repacked_of_transposed m d hfy
  -- the TensorCore's handshake state and its boundary, closed again
  ihave Hst := (Entails.of_eq hR0.symm) $$ [HO HR0]
  · isplitl [HO]
    · iexists W'; isplitr
      · ipureintro; exact hW'
      · iexact HO
    iexact HR0
  ihave Hb := (Entails.of_eq (show iprop(scopedBufs (SparseCore.T d) ∗ scopedSems0 (SparseCore.T d) ∗ opIdle (SparseCore.T d))
      = (boundary (SparseCore.T d) : sProp 𝕄) from rfl)) $$ [Hsb Hss Hidle]
  · isplitl [Hsb]; · iexact Hsb
    isplitl [Hss]; · iexact Hss
    iexact Hidle
  -- the index array flattened
  iapply (wp_hlo 𝒱 (SparseCore.T d) none Set.univ (op := opI (F := F)) (q := fun _ => fullShare) (F := V0 m d) (fun _ _ => rfl)) $$ [Hb Hx Hi]
  · isplitl [Hb]; · iexact Hb
    rw [opI_bufs]
    isplitl [Hx]; · iexact Hx
    iexact Hi
  rw [opI_bufs, (opI (F := F)).result_of_not_mem (V0 m d) (b := argX) (show argX ∉ ({refI} : Finset (DevRef τ sig)) by decide),
    show (opI (F := F)).result (V0 m d) refI = fi0 m d from (StableHlo.reshape_result _ _ _ _ _ _ _).trans rfl]
  iintro ⟨Hb, Hx, Hi⟩
  rw [wp_ret]; imodintro
  -- the SparseCore call
  iapply ((K (F := F)).wp_run (D (F := F)) 𝒱 (EH := EH) (P := P m) κ d 0) $$ [Hst Hy Hi Ho Hb Hx Htab Hr Ht]
  isplitr; · iexact Hctx
  isplitl [Hst]; · iexact Hst
  isplitl [Hy Hi Ho]
  · rw [st0_eq]
    iapply (st_deal m d fy hy) $$ [Hy Hi Ho]
    isplitl [Hy]; · iexact Hy
    isplitl [Hi]; · iexact Hi
    iexact Ho
  iintro ⟨Hst, Hdn⟩
  ihave Ho := (Entails.of_eq ((dn0_eq m d).trans (dn_join m d))) $$ Hdn
  -- the gathered rows reshaped
  iapply (wp_hlo 𝒱 (SparseCore.T d) none Set.univ (op := opR (F := F)) (q := fun _ => fullShare) (F := Vg m d) (fun _ _ => rfl)) $$ [Hb Ho Hr]
  · isplitl [Hb]; · iexact Hb
    rw [opR_bufs, Vg_o, Vg_r]
    isplitl [Ho]; · iexact Ho
    iexact Hr
  rw [opR_bufs, show (opR (F := F)).result (Vg m d) refR = (Cert.Spec.G (x0 m d) (tb0 m d) : Buf (Elt F) (resLoc d)) from
    ((StableHlo.reshape_result _ _ _ _ _ _ _).trans (by rw [Vg_o]; exact reshape_gath (x0 m d) (tb0 m d)))]
  iintro ⟨Hb, -, Hr⟩
  rw [wp_ret]; imodintro; imodintro
  isplitl [Hst]; · iexact Hst
  isplitl [Hx]; · iexact Hx
  isplitl [Htab]; · iexact Htab
  iexact Hr

/-! ## The program's run -/

/-- Under the range of the index words: every weakly fair execution of @main on the TensorCore and of the gather on
    the two SparseCores' thirty-two vector subcores terminates, nothing faulting and no handshake unanswered, and
    every final state has the lookup in the result and the two arguments unchanged. -/
theorem run_main [∀ e, Nonempty (Elt F e)] [FloatOps F] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => RegionFund (F := F) d) (FIN m) (u₀ (F := F)) (sep_elim_left.trans (hu₀ m)) (hmain m ρ hpre) (fq m) (hfin m) (QC m) (fun _ h => h)

end Cert.Proof.KB

end
-- ==== Proof.lean ====
/-
  The certificate of the embedding lookup: a TensorCore region repacks the transposed table into rows of 128
  lanes, thirty-two SparseCore vector subcores gather the rows the index words select and keep their first 64
  columns; the reference is the host's take. Entry (b, h, c) of either result is the table at row x[b, h], column
  c, for words x[b, h] between 0 and 999999 — the range the precondition states —, so the two results agree
  index by index with no arithmetic at all. The three frames are the runs with the result forgotten; the ideal
  pass rewrote nothing, so the idealization claim is trivial.
-/
import proofs.«206585_g20916490731584_cont_8to1_1403_18_alg».proof.Defs
import proofs.«206585_g20916490731584_cont_8to1_1403_18_alg».proof.Proof.Gen.Kernel
import proofs.«206585_g20916490731584_cont_8to1_1403_18_alg».proof.Proof.Gen.KernelIdeal
import proofs.«206585_g20916490731584_cont_8to1_1403_18_alg».proof.Proof.Gen.ReferenceIdeal
import proofs.«206585_g20916490731584_cont_8to1_1403_18_alg».proof.Proof.Gen.Pre_input_domain
import proofs.«206585_g20916490731584_cont_8to1_1403_18_alg».proof.Proof.Spec
import proofs.«206585_g20916490731584_cont_8to1_1403_18_alg».proof.Proof.PreRange
import proofs.«206585_g20916490731584_cont_8to1_1403_18_alg».proof.Proof.RefRun
import proofs.«206585_g20916490731584_cont_8to1_1403_18_alg».proof.Proof.Main
import proofs.«206585_g20916490731584_cont_8to1_1403_18_alg».proof.Proof.B.Main
import Idealize.ShloMosaic.Adequacy
import Idealize.ShloMosaic.Init

noncomputable section

namespace Cert.Proof

open Idealize.ShloMosaic Idealize.SL.Sem

/-- The precondition gives the range of the index words, on every device, for the kernel as printed; -/
theorem preOK_kernel (m : (ℓ : Loc Cert.Kernel.nD Cert.Kernel.τ Cert.Kernel.sig) → Buf (Elt Bits) ℓ) (h : Cert.Pre_Kernel m) :
    Cert.Proof.KB.PreOK (F := Bits) m := fun d => Cert.Proof.PreRange.inRange (F := Bits) _ _ (h d)
/-- for the idealized kernel; -/
theorem preOK_kernelIdeal (m : (ℓ : Loc Cert.KernelIdeal.nD Cert.KernelIdeal.τ Cert.KernelIdeal.sig) → Buf (Elt Ideal) ℓ) (h : Cert.Pre_KernelIdeal m) :
    Cert.Proof.KI.PreOK (F := Ideal) m := fun d => Cert.Proof.PreRange.inRange (F := Ideal) _ _ (h d)

theorem frame_k : Cert.frame_Kernel := fun m g hpre =>
  (θ_run Cert.Kernel.defs _ _).mono (fun _ h c => (h c).2) (Cert.Proof.KB.run_main (F := Bits) m g (preOK_kernel m hpre))

theorem frame_ki : Cert.frame_KernelIdeal := fun m g hpre =>
  (θ_run Cert.KernelIdeal.defs _ _).mono (fun _ h c => (h c).2) (Cert.Proof.KI.run_main (F := Ideal) m g (preOK_kernelIdeal m hpre))

theorem frame_ri : Cert.frame_ReferenceIdeal := fun m g hpre =>
  (θ_run Cert.ReferenceIdeal.defs _ _).mono (fun _ h c => (h c).2)
    (Cert.Proof.RefRun.run m g fun c => Cert.Proof.PreRange.inRange (F := Ideal) _ _ (hpre c))

/-- Both idealized programs end with the lookup of their arguments, which agree. -/
theorem algebraic : Cert.algebraic_KernelIdeal_ReferenceIdeal := by
  intro m g m' g' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run_main (F := Ideal) m g (preOK_kernelIdeal m hpre), ?_⟩
  refine (θ_run Cert.ReferenceIdeal.defs _ _).mono (fun _ h c => ⟨(h c).1.trans ?_, (h c).2⟩)
    (Cert.Proof.RefRun.run m' g' fun c => by rw [(hagree c).1]; exact Cert.Proof.PreRange.inRange (F := Ideal) _ _ (hpre c))
  rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
